-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S3x128x128 .f32) (main_arg3 : FVec F S2x128 .f32) (main_arg4 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2x128 .f32 := Host.absf main_arg4
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S2x128 : Shape := ⟨2, ![2, 128]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S128 : Shape := ⟨1, ![128]⟩
abbrev S5000 : Shape := ⟨1, ![5000]⟩
abbrev S5000x1 : Shape := ⟨2, ![5000, 1]⟩

abbrev nBuf : Space → Nat
  | .hbm => 92
  | .vmem => 47
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S2x128, .f32⟩
  | .hbm, ⟨4, _⟩ => ⟨S2x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S1x128x128, .f32⟩
  | .hbm, ⟨10, _⟩ => ⟨S128x128, .f32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S100000x128, .f32⟩
  | .hbm, ⟨42, _⟩ => ⟨S1x128x128, .f32⟩
  | .hbm, ⟨43, _⟩ => ⟨S128x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S1x128, .f32⟩
  | .hbm, ⟨60, _⟩ => ⟨S_, .f32⟩
  | .hbm, ⟨61, _⟩ => ⟨S1x128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S128, .f32⟩
  | .hbm, ⟨70, _⟩ => ⟨S1x128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S1x128x128, .f32⟩
  | .hbm, ⟨76, _⟩ => ⟨S128x128, .f32⟩
  | .hbm, ⟨77, _⟩ => ⟨S100000x128, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_8 : Ref sig .tc := ⟨.hbm, 78, rfl⟩
abbrev main_v61 : Ref sig .tc := ⟨.hbm, 79, rfl⟩
abbrev main_v62 : Ref sig .tc := ⟨.hbm, 80, rfl⟩
abbrev main_c_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_scratch0 : Ref sig .tc := ⟨.vmem, 28, rfl⟩
abbrev cc4_scratch1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg5_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem1_1 : DmaSem sig := 42

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  reduces_S5000x128_S128 : S5000x128.Reduces [0] S128
  shapeCasts_S128_S1x128 : S128.ShapeCasts S1x128
  bcast_S_S1x128 : S_.BroadcastsInDim S1x128 (![] : Fin 0 → Fin S1x128.rank)
  slices_S2x128_S1x128_0_0 : S2x128.Slices ![0, 0] S1x128
  shapeCasts_S1x128_S128 : S1x128.ShapeCasts S128
  broadcasts_S1x128_S5000x128 : S1x128.Broadcasts S5000x128
  slices_S3x128x128_S1x128x128_1_0_0 : S3x128x128.Slices ![1, 0, 0] S1x128x128
  slices_S2x128_S1x128_1_0 : S2x128.Slices ![1, 0] S1x128
  slices_S3x128x128_S1x128x128_2_0_0 : S3x128x128.Slices ![2, 0, 0] S1x128x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v16) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v30) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v43) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v43) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v50) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v57) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v57) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v59) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v70) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v71) S5000x128.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S2x128 : Shape := ⟨2, ![2, 128]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S128 : Shape := ⟨1, ![128]⟩
abbrev S100000 : Shape := ⟨1, ![100000]⟩
abbrev S100000x1 : Shape := ⟨2, ![100000, 1]⟩

abbrev nBuf : Space → Nat
  | .hbm => 174
  | .vmem => 0
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S2x128, .f32⟩
  | 4 => ⟨S2x128, .f32⟩
  | 5 => ⟨S1x1600000, .i32⟩
  | 6 => ⟨S1600000, .i32⟩
  | 7 => ⟨S1x1600000, .i32⟩
  | 8 => ⟨S1600000, .i32⟩
  | 9 => ⟨S1x128x128, .f32⟩
  | 10 => ⟨S128x128, .f32⟩
  | 11 => ⟨S100000x128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S1x128, .f32⟩
  | 26 => ⟨S128, .f32⟩
  | 27 => ⟨S1x128, .f32⟩
  | 28 => ⟨S128, .f32⟩
  | 29 => ⟨S_, .f32⟩
  | 30 => ⟨S128, .f32⟩
  | 31 => ⟨S_, .f32⟩
  | 32 => ⟨S128, .f32⟩
  | 33 => ⟨S128, .f32⟩
  | 34 => ⟨S_, .i32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S100000x128, .f32⟩
  | 42 => ⟨S100000x128, .f32⟩
  | 43 => ⟨S100000x128, .f32⟩
  | 44 => ⟨S_, .f32⟩
  | 45 => ⟨S_, .f32⟩
  | 46 => ⟨S_, .f32⟩
  | 47 => ⟨S_, .f32⟩
  | 48 => ⟨S128, .f32⟩
  | 49 => ⟨S128, .f32⟩
  | 50 => ⟨S128, .f32⟩
  | 51 => ⟨S_, .f32⟩
  | 52 => ⟨S_, .i1⟩
  | 53 => ⟨S_, .f32⟩
  | 54 => ⟨S_, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S1x128x128, .f32⟩
  | 77 => ⟨S128x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S1x128, .f32⟩
  | 93 => ⟨S128, .f32⟩
  | 94 => ⟨S1x128, .f32⟩
  | 95 => ⟨S128, .f32⟩
  | 96 => ⟨S_, .f32⟩
  | 97 => ⟨S128, .f32⟩
  | 98 => ⟨S_, .f32⟩
  | 99 => ⟨S128, .f32⟩
  | 100 => ⟨S128, .f32⟩
  | 101 => ⟨S_, .i32⟩
  | 102 => ⟨S_, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S100000x128, .f32⟩
  | 109 => ⟨S100000x128, .f32⟩
  | 110 => ⟨S100000x128, .f32⟩
  | 111 => ⟨S_, .f32⟩
  | 112 => ⟨S_, .f32⟩
  | 113 => ⟨S_, .f32⟩
  | 114 => ⟨S_, .f32⟩
  | 115 => ⟨S128, .f32⟩
  | 116 => ⟨S128, .f32⟩
  | 117 => ⟨S128, .f32⟩
  | 118 => ⟨S_, .f32⟩
  | 119 => ⟨S_, .i1⟩
  | 120 => ⟨S_, .f32⟩
  | 121 => ⟨S_, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S1x128x128, .f32⟩
  | 16 => ⟨S128x128, .f32⟩
  | 17 => ⟨S100000x128, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S_, .f32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S100000x128, .f32⟩
  | 40 => ⟨S_, .f32⟩
  | 41 => ⟨S100000, .f32⟩
  | 42 => ⟨S100000x1, .f32⟩
  | 43 => ⟨S100000x1, .f32⟩
  | 44 => ⟨S100000x128, .f32⟩
  | 45 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_cst_3 : Ref sig .tc := ⟨.hbm, 51, rfl⟩
abbrev main_call0_v12 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_call1_cst : Ref sig .tc := ⟨.hbm, 73, rfl⟩
abbrev main_call1_v0 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_5 : Ref sig .tc := ⟨.hbm, 79, rfl⟩
abbrev main_v44 : Ref sig .tc := ⟨.hbm, 80, rfl⟩
abbrev main_v45 : Ref sig .tc := ⟨.hbm, 81, rfl⟩
abbrev main_c_6 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_7 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_8 : Ref sig .tc := ⟨.hbm, 96, rfl⟩
abbrev main_v58 : Ref sig .tc := ⟨.hbm, 97, rfl⟩
abbrev main_cst_9 : Ref sig .tc := ⟨.hbm, 98, rfl⟩
abbrev main_v59 : Ref sig .tc := ⟨.hbm, 99, rfl⟩
abbrev main_v60 : Ref sig .tc := ⟨.hbm, 100, rfl⟩
abbrev main_c_10 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_cst_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_cst_1 : Ref sig .tc := ⟨.hbm, 112, rfl⟩
abbrev main_call2_v8 : Ref sig .tc := ⟨.hbm, 113, rfl⟩
abbrev main_call2_cst_2 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_cst_3 : Ref sig .tc := ⟨.hbm, 118, rfl⟩
abbrev main_call2_v12 : Ref sig .tc := ⟨.hbm, 119, rfl⟩
abbrev main_call2_cst_4 : Ref sig .tc := ⟨.hbm, 120, rfl⟩
abbrev main_call2_call0_v0 : Ref sig .tc := ⟨.hbm, 121, rfl⟩
abbrev main_call2_call0_v1 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_cst_11 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_call3_cst : Ref sig .tc := ⟨.hbm, 140, rfl⟩
abbrev main_call3_v0 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_c_12 : Ref sig .tc := ⟨.hbm, 146, rfl⟩
abbrev main_v81 : Ref sig .tc := ⟨.hbm, 147, rfl⟩
abbrev main_v82 : Ref sig .tc := ⟨.hbm, 148, rfl⟩
abbrev main_c_13 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_cst_14 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_call4_cst : Ref sig .tc := ⟨.hbm, 159, rfl⟩
abbrev main_call4_v0 : Ref sig .tc := ⟨.hbm, 160, rfl⟩
abbrev main_call4_cst_0 : Ref sig .tc := ⟨.hbm, 161, rfl⟩
abbrev main_call4_v1 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_call4_v5 : Ref sig .tc := ⟨.hbm, 166, rfl⟩
abbrev main_call4_v6 : Ref sig .tc := ⟨.hbm, 167, rfl⟩
abbrev main_call4_cst_1 : Ref sig .tc := ⟨.hbm, 168, rfl⟩
abbrev main_call4_v7 : Ref sig .tc := ⟨.hbm, 169, rfl⟩
abbrev main_call4_v8 : Ref sig .tc := ⟨.hbm, 170, rfl⟩
abbrev main_call4_v9 : Ref sig .tc := ⟨.hbm, 171, rfl⟩
abbrev main_call4_v10 : Ref sig .tc := ⟨.hbm, 172, rfl⟩
abbrev main_v91 : Ref sig .tc := ⟨.hbm, 173, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S2x128_S1x128_0_0 : S2x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S2x128_S1x128_1_0 : S2x128.Slices ![1, 0] S1x128
  slices_S3x128x128_S1x128x128_2_0_0 : S3x128x128.Slices ![2, 0, 0] S1x128x128
  reducesTo_S100000x128_S100000_d1 : S100000x128.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.K.RegMatmul0.lean ====
import proofs.«131019_j5282809775007_1_alg».proof.Proof.Gen.Kernel.Launch
import proofs.«131019_j5282809775007_1_alg».proof.Proof.Gen.Kernel.Skeleton
import proofs.«131019_j5282809775007_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 0: one row tile times the weight matrix

At every grid point the body reads a 5000x128 row tile of the left operand and the whole 128x128 right
operand, narrows both to bf16, multiplies them into a zero accumulator, and stores the 5000x128 product
over the whole output tile. This file states what each window's staging buffer holds before and after the
body as a pure function of the arrays found when the region is entered, and proves the body's triple at
every grid point. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile window's current staging buffer holds its block at every point: it is fetched at every
    point, the window is uncut and never idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds its block at every point, fetched there (the first point) or
    not (every later point, where its block index has not moved and the body has left the block in place). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole row tile (and the whole output tile). -/
abbrev r0_tile : Rect S5000x128 := Rect.unit (s := S5000x128) ![0, 0] S5000x128.size inb_S5000x128_S5000x128_0_0
/-- The whole weight matrix. -/
abbrev r0_wt : Rect S128x128 := Rect.unit (s := S128x128) ![0, 0] S128x128.size inb_S128x128_S128x128_0_0

/-! ## What the body leaves in the output window's buffer -/

/-- The output tile after the body, from the two input blocks: its one store, the product of the narrowed
    row tile and the narrowed weight accumulated from zero, over the whole tile. -/
def out0_2 (x0 : Vec F S5000x128 .f32) (x1 : Vec F S128x128 .f32) : Vec F S5000x128 .f32 :=
  View.canon [⟨r0_tile, k0_pay1 (View.ld x0 r0_tile) (View.ld x1 r0_wt)⟩]

/-- The one store is the whole tile, so it covers it. -/
theorem cover0_2 (p0 : Vec F S5000x128 .f32) (y : S5000x128.Idx) :
    ∃ pc ∈ ([⟨r0_tile, p0⟩] : List (View.Piece (Elt F) S5000x128 .f32)), y ∈ pc.1.set :=
  View.cover_of_tiled [⟨r0_tile, p0⟩] S5000x128.size (by rfl) y

/-! ## The body's triple -/

set_option maxHeartbeats 1000000 in
/-- The kernel body on whole staging memrefs, the inputs' at read contents `x0`, `x1` and the output's at
    anything, runs to the continuation holding the inputs' as they were and the output's at `out0_2` of
    the inputs. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at
    point `t` each input's buffer at its block and the output's at `out0_2` of the input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.RegStats1.lean ====
import proofs.«131019_j5282809775007_1_alg».proof.Proof.Gen.Kernel.Launch
import proofs.«131019_j5282809775007_1_alg».proof.Proof.Gen.Kernel.Skeleton
import proofs.«131019_j5282809775007_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of region 1: column sums and column sums of squares of twenty row tiles,
    accumulated in two scratch rows carried from grid point to grid point -/

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point: the window is uncut, never idle, and
    the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The twenty row tiles of the input, as the region finds them. -/
abbrev tiles1 (c : Dev nD) : Fin cfg1.N → Vec F S5000x128 .f32 := fun t => iblk1 V c 0 t

/-! ## The running sums -/

/-- The row of column sums after the first `n` tiles: the zero row, then tile after tile its column sums added. -/
def out1_1 (x : Fin cfg1.N → Vec F S5000x128 .f32) : ℕ → Vec F S1x128 .f32
  | 0 => k1_pay1
  | n + 1 => if h : n < cfg1.N then k1_pay4 (x ⟨n, h⟩) (out1_1 x n) else out1_1 x n

/-- The row of column sums of squares after the first `n` tiles. -/
def out1_2 (x : Fin cfg1.N → Vec F S5000x128 .f32) : ℕ → Vec F S1x128 .f32
  | 0 => k1_pay2
  | n + 1 => if h : n < cfg1.N then k1_pay5 (x ⟨n, h⟩) (out1_2 x n) else out1_2 x n

theorem out1_1_succ (x : Fin cfg1.N → Vec F S5000x128 .f32) (t : Fin cfg1.N) :
    out1_1 x (t.val + 1) = k1_pay4 (x t) (out1_1 x t.val) := by
  rw [out1_1, dif_pos t.isLt]
theorem out1_2_succ (x : Fin cfg1.N → Vec F S5000x128 .f32) (t : Fin cfg1.N) :
    out1_2 x (t.val + 1) = k1_pay5 (x t) (out1_2 x t.val) := by
  rw [out1_2, dif_pos t.isLt]

/-! ## The invariant and the proof data -/

/-- The invariant before position `n`: the generator register at some state, every scoped buffer other than the two
    scratch rows at some contents, and the two scratch rows — before the first point at anything, before a later
    point `n` at the sums over the first `n` tiles. -/
def Φ1 (c : Dev nD) (n : ℕ) : sProp 𝕄 :=
  iprop((∃ r, prngReg c r)
    ∗ Pipeline.scopedRestBut (Ix := Unit) (Name := ℕ) (U := UR sig nD τ) (Lvl := ℕ) (Val := Elt F) spec1 c [cc1_scratch0, cc1_scratch1]
    ∗ ∃ s q : Vec F S1x128 .f32, ⌜n ≠ 0 → s = out1_1 (tiles1 V c) n ∧ q = out1_2 (tiles1 V c) n⌝
        ∗ owns (c : Thread nD τ) (Memref.whole cc1_scratch0) fullShare s
        ∗ owns (c : Thread nD τ) (Memref.whole cc1_scratch1) fullShare q)

/-- The proof data of the pipeline on core `c`: the arrays as the region finds them (`V`); after the body at point
    `t` the input's buffer at its block and the two output rows at the sums over the tiles up to `t` (read only at
    the last point, the one that writes them back); the invariant `Φ1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (tiles1 V c) (t.val + 1)
    | ⟨2, _⟩ => out1_2 (tiles1 V c) (t.val + 1)
  Φ t := Φ1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (tiles1 V c) (t.val + 1) := by dsimp only [dat1]
theorem after1_2 (c : Dev nD) (t : Fin cfg1.N) : (dat1 V c).after 2 t = out1_2 (tiles1 V c) (t.val + 1) := by dsimp only [dat1]

theorem Φ_eq1 (c : Dev nD) (t : Fin (cfg1.N + 1)) : (dat1 V c).Φ t = Φ1 V c t.val := by dsimp only [dat1]

theorem before1_0 (c : Dev nD) (t : Fin cfg1.N) (d) : (dat1 V c).before 0 t d = iblk1 V c 0 t :=
  before1_0_of V (dat1 V c) (A_eq1 V c 0) (after1_0 V c) t d

/-! ## The invariant at the two ends of the region -/

/-- Into the invariant: the two scratch rows are taken out of the scoped buffers, at whatever they hold. -/
theorem hin1 (c : Dev nD) :
    iprop((∃ r, prngReg c r) ∗ Pipeline.prefHeld (cfg1.toPCfg (Val := Elt F)).pre c (fun _ => fullShare) (cfg1.toPCfg_adm).1
        ∗ Pipeline.scopedRest (Ix := Unit) (Name := ℕ) (U := UR sig nD τ) (Lvl := ℕ) (Val := Elt F) cfg1.spec c)
      ⊢ (dat1 V c).Φ 0 := by
  rw [Φ_eq1, scopedRest1_split]; unfold Φ1
  iintro ⟨Hp, -, ⟨⟨%f0, H0⟩, ⟨%f1, H1⟩⟩, Hr⟩
  isplitl [Hp]; · iexact Hp
  isplitl [Hr]; · iexact Hr
  iexists f0; iexists f1
  isplitr; · ipureintro; intro h; exact absurd rfl h
  rw [owns_whole, owns_whole]
  isplitl [H0]; · iexact H0
  iexact H1

/-- Out of the invariant: the two scratch rows go back among the scoped buffers. -/
theorem hout1 (c : Dev nD) :
    (dat1 V c).Φ (Fin.last cfg1.N)
      ⊢ iprop((∃ r, prngReg c r) ∗ Pipeline.ownSems0 (Ix := Unit) (Name := ℕ) (U := UR sig nD τ) (Lvl := ℕ) (Val := Elt F) (fun k : PEmpty => k.elim) c
        ∗ Pipeline.scopedRest (Ix := Unit) (Name := ℕ) (U := UR sig nD τ) (Lvl := ℕ) (Val := Elt F) cfg1.spec c) := by
  rw [Φ_eq1, Pipeline.ownSems0_none, scopedRest1_split]; unfold Φ1
  simp only [owns_whole]
  iintro ⟨Hp, Hr, ⟨%s, %q, -, H0, H1⟩⟩
  isplitl [Hp]; · iexact Hp
  isplitr; · iempintro
  isplitr [Hr]
  swap; · iexact Hr
  isplitl [H0]
  · iexists s; iexact H0
  · iexists q; iexact H1

/-! ## The body's two branch conditions, over the grid -/

/-- The condition of the body's first conditional (zero the scratch rows): the grid coordinate is 0. -/
abbrev cond1_1 (i : grid1.Coords) : Prop :=
  (Scalar.cmpi .ne (Scalar.extui (Scalar.cmpi .eq (BitVec.ofNat 32 (i 0).val) 0#32)) 0#32) = 1#1

/-- It holds at the first point only; the second conditional's (copy the scratch rows out) at the last point only;
    the output windows are idle everywhere else — decided over the twenty points. -/
theorem hcond1_1 : ∀ t : Fin cfg1.N, cond1_1 (grid1.coords t) ↔ t.val % 20 = 0 :=
  (by decide +kernel : ∀ t : Fin grid1.N, cond1_1 (grid1.coords t) ↔ t.val % 20 = 0)
theorem hcond1_2 : ∀ t : Fin cfg1.N, k1_cond2 (grid1.coords t) = 1#1 ↔ t.val % 20 = 19 :=
  (by decide +kernel : ∀ t : Fin grid1.N, k1_cond2 (grid1.coords t) = 1#1 ↔ t.val % 20 = 19)
theorem hidle1_1 : ∀ t : Fin cfg1.N, cfg1.idle 1 (cfg1.grid.coords t) = !decide (t.val % 20 = 19) :=
  (by decide +kernel : ∀ t : Fin grid1.N, cfg1.idle 1 (cfg1.grid.coords t) = !decide (t.val % 20 = 19))
theorem hidle1_2 : ∀ t : Fin cfg1.N, cfg1.idle 2 (cfg1.grid.coords t) = !decide (t.val % 20 = 19) :=
  (by decide +kernel : ∀ t : Fin grid1.N, cfg1.idle 2 (cfg1.grid.coords t) = !decide (t.val % 20 = 19))

/-! ## Whole-row loads and stores -/

theorem zeros1 : (![0, 0] : Fin 2 → ℕ) = fun _ => 0 := by funext a; fin_cases a <;> rfl

set_option maxRecDepth 4096 in
/-- One store through the whole-row rectangle, LAST, leaves its payload, whatever the view, the prior contents and
    the earlier stores: its rectangle covers the row. -/
theorem read_store_row_cons1 {sp : Space} (v : View sig .tc sp S1x128 .f32) (f : v.ty.Contents (Elt F))
    (w : (Rect.unit (s := S1x128) ![0, 0] S1x128.size inb_S1x128_S1x128_0_0).shape.Idx → Elt F .f32)
    (L : List (View.Piece (Elt F) S1x128 .f32)) :
    v.read (Elt F) (v.writes (Elt F) f ((⟨Rect.unit (s := S1x128) ![0, 0] S1x128.size inb_S1x128_S1x128_0_0, w⟩ : View.Piece (Elt F) S1x128 .f32) :: L)) = w := by
  have hcov : ∀ y : S1x128.Idx, ∃ p ∈ ((⟨Rect.unit (s := S1x128) ![0, 0] S1x128.size inb_S1x128_S1x128_0_0, w⟩ : View.Piece (Elt F) S1x128 .f32) :: L), y ∈ p.1.set :=
    fun y => ⟨_, List.Mem.head _, View.mem_set_unit_zero (S := S1x128) zeros1 inb_S1x128_S1x128_0_0 y⟩
  rw [View.read_writes_eq_canon v f _ hcov, View.canon_cons_unit_zero (S := S1x128) zeros1 inb_S1x128_S1x128_0_0 w L]

/-- A load through the whole-row rectangle reads the row; through the whole-tile rectangle, the tile; a load of the
    row after one store of the whole row reads the stored row. -/
theorem ld_row1 (X : Vec F S1x128 .f32) : View.ld X (Rect.unit (s := S1x128) ![0, 0] S1x128.size inb_S1x128_S1x128_0_0) = X :=
  View.ld_unit_zero (S := S1x128) zeros1 inb_S1x128_S1x128_0_0 X
theorem ld_tile1 (X : Vec F S5000x128 .f32) : View.ld X (Rect.unit (s := S5000x128) ![0, 0] S5000x128.size inb_S5000x128_S5000x128_0_0) = X :=
  View.ld_unit_zero (S := S5000x128) zeros1 inb_S5000x128_S5000x128_0_0 X
theorem readCov_row1 {sp : Space} (v : View sig .tc sp S1x128 .f32)
    (w : (Rect.unit (s := S1x128) ![0, 0] S1x128.size inb_S1x128_S1x128_0_0).shape.Idx → Elt F .f32) :
    v.readCov [(⟨Rect.unit (s := S1x128) ![0, 0] S1x128.size inb_S1x128_S1x128_0_0, w⟩ : View.Piece (Elt F) S1x128 .f32)]
      (Rect.unit (s := S1x128) ![0, 0] S1x128.size inb_S1x128_S1x128_0_0).toLoadRect = w :=
  View.readCov_unit_zero v zeros1 inb_S1x128_S1x128_0_0 w

/-! ## The body's triple, case by case -/

set_option maxHeartbeats 1000000 in
/-- A MIDDLE point (neither conditional taken): each scratch row gains the tile's column sums (of squares); the
    tile and the two output rows are left as found. -/
theorem kernel1_mid (c : Dev nD) (E : Set ℕ) (i : grid1.Coords) (h1 : ¬ cond1_1 i) (h2 : ¬ k1_cond2 i = 1#1)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S5000x128 .f32) (y2 y3 s q : Vec F S1x128 .f32) (K : PUnit → sProp 𝕄) :
    iprop(owns (c : Thread nD τ) arg1 fullShare x ∗ owns (c : Thread nD τ) arg2 fullShare y2
        ∗ owns (c : Thread nD τ) arg3 fullShare y3 ∗ owns (c : Thread nD τ) arg4 fullShare s
        ∗ owns (c : Thread nD τ) arg5 fullShare q
        ∗ (iprop(owns (c : Thread nD τ) arg1 fullShare x ∗ owns (c : Thread nD τ) arg2 fullShare y2
            ∗ owns (c : Thread nD τ) arg3 fullShare y3 ∗ owns (c : Thread nD τ) arg4 fullShare (k1_pay4 x s)
            ∗ owns (c : Thread nD τ) arg5 fullShare (k1_pay5 x q)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_row_cons1, View.readAt_eq_ld, View.readAt_eq_ld, ld_row1, ld_tile1]
  · iexists _; isplitr
    swap; · iexact H5
    ipureintro
    rw [read_store_row_cons1, View.readAt_eq_ld, View.readAt_eq_ld, ld_row1, ld_tile1]

set_option maxHeartbeats 1000000 in
/-- The FIRST point (first conditional taken, second not): the scratch rows are zeroed, whatever they held, then gain
    the first tile's column sums (of squares). -/
theorem kernel1_first (c : Dev nD) (E : Set ℕ) (i : grid1.Coords) (h1 : cond1_1 i) (h2 : ¬ k1_cond2 i = 1#1)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S5000x128 .f32) (y2 y3 : Vec F S1x128 .f32) (K : PUnit → sProp 𝕄) :
    iprop(owns (c : Thread nD τ) arg1 fullShare x ∗ owns (c : Thread nD τ) arg2 fullShare y2
        ∗ owns (c : Thread nD τ) arg3 fullShare y3 ∗ (∃ s, owns (c : Thread nD τ) arg4 fullShare s)
        ∗ (∃ q, owns (c : Thread nD τ) arg5 fullShare q)
        ∗ (iprop(owns (c : Thread nD τ) arg1 fullShare x ∗ owns (c : Thread nD τ) arg2 fullShare y2
            ∗ owns (c : Thread nD τ) arg3 fullShare y3 ∗ owns (c : Thread nD τ) arg4 fullShare (k1_pay4 x k1_pay1)
            ∗ owns (c : Thread nD τ) arg5 fullShare (k1_pay5 x k1_pay2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%f2, %hf2, H2⟩, ⟨%f3, %hf3, H3⟩, ⟨%s, %f4, -, H4⟩, ⟨%q, %f5, -, H5⟩, Hk⟩
  subst hf1 hf2 hf3
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_row_cons1]; sl_unfold_run_names
    rw [readCov_row1, View.readAt_eq_ld, ld_tile1]
  · iexists _; isplitr
    swap; · iexact H5
    ipureintro
    rw [read_store_row_cons1]; sl_unfold_run_names
    rw [readCov_row1, View.readAt_eq_ld, ld_tile1]

set_option maxHeartbeats 1000000 in
/-- The LAST point (first conditional not taken, second taken): the scratch rows gain the last tile's sums and are
    then copied to the two output rows, whatever those held. -/
theorem kernel1_last (c : Dev nD) (E : Set ℕ) (i : grid1.Coords) (h1 : ¬ cond1_1 i) (h2 : k1_cond2 i = 1#1)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S5000x128 .f32) (s q : Vec F S1x128 .f32) (K : PUnit → sProp 𝕄) :
    iprop(owns (c : Thread nD τ) arg1 fullShare x ∗ (∃ y2, owns (c : Thread nD τ) arg2 fullShare y2)
        ∗ (∃ y3, owns (c : Thread nD τ) arg3 fullShare y3) ∗ owns (c : Thread nD τ) arg4 fullShare s
        ∗ owns (c : Thread nD τ) arg5 fullShare q
        ∗ (iprop(owns (c : Thread nD τ) arg1 fullShare x ∗ owns (c : Thread nD τ) arg2 fullShare (k1_pay4 x s)
            ∗ owns (c : Thread nD τ) arg3 fullShare (k1_pay5 x q) ∗ owns (c : Thread nD τ) arg4 fullShare (k1_pay4 x s)
            ∗ owns (c : Thread nD τ) arg5 fullShare (k1_pay5 x q)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%y2, %f2, -, H2⟩, ⟨%y3, %f3, -, H3⟩, ⟨%f4, %hf4, H4⟩, ⟨%f5, %hf5, H5⟩, Hk⟩
  subst hf1 hf4 hf5
  sl_exec (disch := first | exact h1 | exact h2)
  sl_step
  iapply Hk
  isplitl [H1]
  · iexists f1; isplitr; · ipureintro; rfl
    iexact H1
  isplitl [H2]
  · iexists _; isplitr
    swap; · iexact H2
    ipureintro
    rw [read_store_row_cons1]; sl_unfold_run_names
    rw [readCov_row1, View.readAt_eq_ld, View.readAt_eq_ld, ld_row1, ld_tile1]
  isplitl [H3]
  · iexists _; isplitr
    swap; · iexact H3
    ipureintro
    rw [read_store_row_cons1]; sl_unfold_run_names
    rw [readCov_row1, View.readAt_eq_ld, View.readAt_eq_ld, ld_row1, ld_tile1]
  isplitl [H4]
  · iexists _; isplitr
    swap; · iexact H4
    ipureintro
    sl_unfold_run_names
    rw [read_store_row_cons1, View.readAt_eq_ld, View.readAt_eq_ld, ld_row1, ld_tile1]
  · iexists _; isplitr
    swap; · iexact H5
    ipureintro
    sl_unfold_run_names
    rw [read_store_row_cons1, View.readAt_eq_ld, View.readAt_eq_ld, ld_row1, ld_tile1]

/-! ## The body obligation -/

theorem out1_1_zero (x : Fin cfg1.N → Vec F S5000x128 .f32) : out1_1 x 0 = k1_pay1 := rfl
theorem out1_2_zero (x : Fin cfg1.N → Vec F S5000x128 .f32) : out1_2 x 0 = k1_pay2 := rfl

/-- At a point where an output window is live (not idle), the obligation's post for it is the buffer at what the body leaves. -/
theorem leavesExact_live1 {c : Dev nD} (dat : Dat τ (Elt F) Unit ℕ (UR sig nD τ) ℕ cfg1 c) (w : Fin cfg1.W) (t : Fin cfg1.N)
    (hi : cfg1.idle w (cfg1.grid.coords t) = false) :
    dat.leavesExact w t = owns c ((cfg1.win w).stage (cfg1.slots t w)) fullShare (dat.after w t) := by
  unfold Dat.leavesExact; rw [hi]

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the input's buffer as found; each output row's buffer as found at a point idle for it, at the
    sums at the point that writes it back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (dat1 V c).leavesExact 1 t
    ∗ (dat1 V c).leavesExact 2 t)

set_option maxHeartbeats 1000000 in
/-- The body at any point, by the point's case: first (the scratch rows at anything), middle, last (the rows copied out).
    The scratch rows hold the sums over the tiles before the point and are left at the sums through it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl, after1_0, Φ_eq1, Φ_eq1,
    show (t.castSucc : Fin (cfg1.N + 1)).val = t.val from rfl, show (t.succ : Fin (cfg1.N + 1)).val = t.val + 1 from rfl]
  have hN : t.val < 20 := lt_of_lt_of_eq t.isLt (show cfg1.N = 20 from N_1)
  unfold Φ1
  by_cases h0 : t.val = 0
  · have hc1 : cond1_1 (grid1.coords t) := (hcond1_1 t).mpr (by omega)
    have hc2 : ¬ k1_cond2 (grid1.coords t) = 1#1 := fun h => by have := (hcond1_2 t).mp h; omega
    rw [Dat.leavesExact_idle (dat1 V c) 1 t (by rw [hidle1_1, decide_eq_false (by omega)]; rfl)
        (Bool.eq_false_iff.mpr fun h => by have := (flush1_1 _).mp h; omega),
      Dat.leavesExact_idle (dat1 V c) 2 t (by rw [hidle1_2, decide_eq_false (by omega)]; rfl)
        (Bool.eq_false_iff.mpr fun h => by have := (flush1_2 _).mp h; omega)]
    iintro ⟨⟨Hp, Hr, ⟨%s, %q, -, Hs, Hq⟩⟩, Ho, ⟨%d0, H0⟩, ⟨%d1, H1⟩, ⟨%d2, H2⟩⟩
    iapply (kernel1_first c Set.univ _ hc1 hc2 _ _ _ _ _ _ _ _ _ _ (iblk1 V c 0 t) _ _ _)
    isplitl [H0]; · iexact H0
    isplitl [H1]; · iexact H1
    isplitl [H2]; · iexact H2
    isplitl [Hs]; · iexists s; iexact Hs
    isplitl [Hq]; · iexists q; iexact Hq
    iintro ⟨H0, H1, H2, Hs, Hq⟩
    isplitl [Hp Hr Hs Hq]
    · isplitl [Hp]; · iexact Hp
      isplitl [Hr]; · iexact Hr
      iexists (k1_pay4 (iblk1 V c 0 t) k1_pay1); iexists (k1_pay5 (iblk1 V c 0 t) k1_pay2)
      isplitr
      · ipureintro; intro _
        exact ⟨by rw [out1_1_succ, h0, out1_1_zero], by rw [out1_2_succ, h0, out1_2_zero]⟩
      isplitl [Hs]; · iexact Hs
      iexact Hq
    isplitl [Ho]; · iexact Ho
    isplitl [H0]; · iexact H0
    isplitl [H1]; · iexists d1; iexact H1
    iexists d2; iexact H2
  by_cases h19 : t.val = 19
  · have hc1 : ¬ cond1_1 (grid1.coords t) := fun h => by have := (hcond1_1 t).mp h; omega
    have hc2 : k1_cond2 (grid1.coords t) = 1#1 := (hcond1_2 t).mpr (by omega)
    rw [leavesExact_live1 (dat1 V c) 1 t (by rw [hidle1_1, decide_eq_true (by omega)]; rfl),
      leavesExact_live1 (dat1 V c) 2 t (by rw [hidle1_2, decide_eq_true (by omega)]; rfl),
      after1_1, after1_2, out1_1_succ, out1_2_succ]
    iintro ⟨⟨Hp, Hr, ⟨%s, %q, %hsq, Hs, Hq⟩⟩, Ho, ⟨%d0, H0⟩, ⟨%d1, H1⟩, ⟨%d2, H2⟩⟩
    obtain ⟨rfl, rfl⟩ := hsq h0
    iapply (kernel1_last c Set.univ _ hc1 hc2 _ _ _ _ _ _ _ _ _ _ (iblk1 V c 0 t) _ _ _)
    isplitl [H0]; · iexact H0
    isplitl [H1]; · iexists _; iexact H1
    isplitl [H2]; · iexists _; iexact H2
    isplitl [Hs]; · iexact Hs
    isplitl [Hq]; · iexact Hq
    iintro ⟨H0, H1, H2, Hs, Hq⟩
    isplitl [Hp Hr Hs Hq]
    · isplitl [Hp]; · iexact Hp
      isplitl [Hr]; · iexact Hr
      iexists _; iexists _
      isplitr
      · ipureintro; intro _; exact ⟨rfl, rfl⟩
      isplitl [Hs]; · iexact Hs
      iexact Hq
    isplitl [Ho]; · iexact Ho
    isplitl [H0]; · iexact H0
    isplitl [H1]; · iexact H1
    iexact H2
  · have hc1 : ¬ cond1_1 (grid1.coords t) := fun h => by have := (hcond1_1 t).mp h; omega
    have hc2 : ¬ k1_cond2 (grid1.coords t) = 1#1 := fun h => by have := (hcond1_2 t).mp h; omega
    rw [Dat.leavesExact_idle (dat1 V c) 1 t (by rw [hidle1_1, decide_eq_false (by omega)]; rfl)
        (Bool.eq_false_iff.mpr fun h => by have := (flush1_1 _).mp h; omega),
      Dat.leavesExact_idle (dat1 V c) 2 t (by rw [hidle1_2, decide_eq_false (by omega)]; rfl)
        (Bool.eq_false_iff.mpr fun h => by have := (flush1_2 _).mp h; omega),
      out1_1_succ, out1_2_succ]
    iintro ⟨⟨Hp, Hr, ⟨%s, %q, %hsq, Hs, Hq⟩⟩, Ho, ⟨%d0, H0⟩, ⟨%d1, H1⟩, ⟨%d2, H2⟩⟩
    obtain ⟨rfl, rfl⟩ := hsq h0
    iapply (kernel1_mid c Set.univ _ hc1 hc2 _ _ _ _ _ _ _ _ _ _ (iblk1 V c 0 t) _ _ _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hp Hr Hs Hq]
    · isplitl [Hp]; · iexact Hp
      isplitl [Hr]; · iexact Hr
      iexists _; iexists _
      isplitr
      · ipureintro; intro _; exact ⟨rfl, rfl⟩
      isplitl [Hs]; · iexact Hs
      iexact Hq
    isplitl [Ho]; · iexact Ho
    isplitl [H0]; · iexact H0
    isplitl [H1]; · iexists d1; iexact H1
    iexists d2; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.RegBnRelu2.lean ====
/-
  The batch-norm + relu region 2 of the program, as one pipeline of six windows on a grid of twenty points:
  window 0 the 5000x128 row tile of the activations, windows 1-4 four whole 1x128 rows (mean, variance, scale,
  shift), window 5 the 5000x128 output tile.  The body reads each input buffer whole, computes
  max (((x - mean) * rsqrt (var + eps)) * gamma + beta, 0) elementwise with the rows broadcast down the tile,
  and stores the result over the whole output buffer.  Stated at any float instance and at any entry contents
  `V` of the core's buffers: each window's block at a point, what the body leaves in the output buffer as a
  function of the five input blocks, the proof data of the pipeline, and the body obligation at every point.
-/
import proofs.«131019_j5282809775007_1_alg».proof.Proof.Gen.Kernel.Launch
import proofs.«131019_j5282809775007_1_alg».proof.Proof.Gen.Kernel.Skeleton
import proofs.«131019_j5282809775007_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not: where the
    pipeline does not fetch, the block index has not moved since the last fetch (the four rows have a constant
    index map and are fetched once), and the body leaves every input buffer as it found it. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- The output buffer after the body, from the five input blocks (window order: tile, mean, variance, scale,
    shift): its one store, of the payload of the five whole loads, over the whole buffer. -/
def out2_5 (x0 : Vec F S5000x128 .f32) (x1 x2 x3 x4 : Vec F S1x128 .f32) : Vec F S5000x128 .f32 :=
  View.canon [⟨r2_0, k2_pay1 (View.ld x0 r2_0) (View.ld x2 r2_1) (View.ld x1 r2_1) (View.ld x3 r2_1) (View.ld x4 r2_1)⟩]

/-- The one store is of the whole buffer, so it covers it. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents `xW` and the output's at anything, runs
    to the continuation holding the inputs' as they were and the output's at `out2_5` of the inputs'. -/
theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the pipeline on core `c`: the arrays as the region finds them; after the body at point `t`
    each input's buffer at its block and the output's at `out2_5` of the input blocks; the invariant the plain
    class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

/-! Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.RegMatmul3.lean ====
import proofs.«131019_j5282809775007_1_alg».proof.Proof.Gen.Kernel.Launch
import proofs.«131019_j5282809775007_1_alg».proof.Proof.Gen.Kernel.Skeleton
import proofs.«131019_j5282809775007_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 3: one row tile times the weight matrix

At every grid point the body reads a 5000x128 row tile of the left operand and the whole 128x128 right
operand, narrows both to bf16, multiplies them into a zero accumulator, and stores the 5000x128 product
over the whole output tile. This file states what each window's staging buffer holds before and after the
body as a pure function of the arrays found when the region is entered, and proves the body's triple at
every grid point. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-tile window's current staging buffer holds its block at every point: it is fetched at every
    point, the window is uncut and never idle, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window's staging buffer holds its block at every point, fetched there (the first point) or
    not (every later point, where its block index has not moved and the body has left the block in place). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole row tile (and the whole output tile). -/
abbrev r3_tile : Rect S5000x128 := Rect.unit (s := S5000x128) ![0, 0] S5000x128.size inb_S5000x128_S5000x128_0_0
/-- The whole weight matrix. -/
abbrev r3_wt : Rect S128x128 := Rect.unit (s := S128x128) ![0, 0] S128x128.size inb_S128x128_S128x128_0_0

/-! ## What the body leaves in the output window's buffer -/

/-- The output tile after the body, from the two input blocks: its one store, the product of the narrowed
    row tile and the narrowed weight accumulated from zero, over the whole tile. -/
def out3_2 (x0 : Vec F S5000x128 .f32) (x1 : Vec F S128x128 .f32) : Vec F S5000x128 .f32 :=
  View.canon [⟨r3_tile, k3_pay1 (View.ld x0 r3_tile) (View.ld x1 r3_wt)⟩]

/-- The one store is the whole tile, so it covers it. -/
theorem cover3_2 (p0 : Vec F S5000x128 .f32) (y : S5000x128.Idx) :
    ∃ pc ∈ ([⟨r3_tile, p0⟩] : List (View.Piece (Elt F) S5000x128 .f32)), y ∈ pc.1.set :=
  View.cover_of_tiled [⟨r3_tile, p0⟩] S5000x128.size (by rfl) y

/-! ## The body's triple -/

set_option maxHeartbeats 1000000 in
/-- The kernel body on whole staging memrefs, the inputs' at read contents `x0`, `x1` and the output's at
    anything, runs to the continuation holding the inputs' as they were and the output's at `out3_2` of
    the inputs. -/
theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at
    point `t` each input's buffer at its block and the output's at `out3_2` of the input blocks; the
    invariant is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.RegStats4.lean ====
import proofs.«131019_j5282809775007_1_alg».proof.Proof.Gen.Kernel.Launch
import proofs.«131019_j5282809775007_1_alg».proof.Proof.Gen.Kernel.Skeleton
import proofs.«131019_j5282809775007_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of region 4: column sums and column sums of squares of twenty row tiles,
    accumulated in two scratch rows carried from grid point to grid point -/

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's staging buffer holds its block at every point: the window is uncut, never idle, and
    the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The twenty row tiles of the input, as the region finds them. -/
abbrev tiles4 (c : Dev nD) : Fin cfg4.N → Vec F S5000x128 .f32 := fun t => iblk4 V c 0 t

/-! ## The running sums -/

/-- The row of column sums after the first `n` tiles: the zero row, then tile after tile its column sums added. -/
def out4_1 (x : Fin cfg4.N → Vec F S5000x128 .f32) : ℕ → Vec F S1x128 .f32
  | 0 => k4_pay1
  | n + 1 => if h : n < cfg4.N then k4_pay4 (x ⟨n, h⟩) (out4_1 x n) else out4_1 x n

/-- The row of column sums of squares after the first `n` tiles. -/
def out4_2 (x : Fin cfg4.N → Vec F S5000x128 .f32) : ℕ → Vec F S1x128 .f32
  | 0 => k4_pay2
  | n + 1 => if h : n < cfg4.N then k4_pay5 (x ⟨n, h⟩) (out4_2 x n) else out4_2 x n

theorem out4_1_succ (x : Fin cfg4.N → Vec F S5000x128 .f32) (t : Fin cfg4.N) :
    out4_1 x (t.val + 1) = k4_pay4 (x t) (out4_1 x t.val) := by
  rw [out4_1, dif_pos t.isLt]
theorem out4_2_succ (x : Fin cfg4.N → Vec F S5000x128 .f32) (t : Fin cfg4.N) :
    out4_2 x (t.val + 1) = k4_pay5 (x t) (out4_2 x t.val) := by
  rw [out4_2, dif_pos t.isLt]

/-! ## The invariant and the proof data -/

/-- The invariant before position `n`: the generator register at some state, every scoped buffer other than the two
    scratch rows at some contents, and the two scratch rows — before the first point at anything, before a later
    point `n` at the sums over the first `n` tiles. -/
def Φ4 (c : Dev nD) (n : ℕ) : sProp 𝕄 :=
  iprop((∃ r, prngReg c r)
    ∗ Pipeline.scopedRestBut (Ix := Unit) (Name := ℕ) (U := UR sig nD τ) (Lvl := ℕ) (Val := Elt F) spec4 c [cc4_scratch0, cc4_scratch1]
    ∗ ∃ s q : Vec F S1x128 .f32, ⌜n ≠ 0 → s = out4_1 (tiles4 V c) n ∧ q = out4_2 (tiles4 V c) n⌝
        ∗ owns (c : Thread nD τ) (Memref.whole cc4_scratch0) fullShare s
        ∗ owns (c : Thread nD τ) (Memref.whole cc4_scratch1) fullShare q)

/-- The proof data of the pipeline on core `c`: the arrays as the region finds them (`V`); after the body at point
    `t` the input's buffer at its block and the two output rows at the sums over the tiles up to `t` (read only at
    the last point, the one that writes them back); the invariant `Φ4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (tiles4 V c) (t.val + 1)
    | ⟨2, _⟩ => out4_2 (tiles4 V c) (t.val + 1)
  Φ t := Φ4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = out4_1 (tiles4 V c) (t.val + 1) := by dsimp only [dat4]
theorem after4_2 (c : Dev nD) (t : Fin cfg4.N) : (dat4 V c).after 2 t = out4_2 (tiles4 V c) (t.val + 1) := by dsimp only [dat4]

theorem Φ_eq4 (c : Dev nD) (t : Fin (cfg4.N + 1)) : (dat4 V c).Φ t = Φ4 V c t.val := by dsimp only [dat4]

theorem before4_0 (c : Dev nD) (t : Fin cfg4.N) (d) : (dat4 V c).before 0 t d = iblk4 V c 0 t :=
  before4_0_of V (dat4 V c) (A_eq4 V c 0) (after4_0 V c) t d

/-! ## The invariant at the two ends of the region -/

/-- Into the invariant: the two scratch rows are taken out of the scoped buffers, at whatever they hold. -/
theorem hin4 (c : Dev nD) :
    iprop((∃ r, prngReg c r) ∗ Pipeline.prefHeld (cfg4.toPCfg (Val := Elt F)).pre c (fun _ => fullShare) (cfg4.toPCfg_adm).1
        ∗ Pipeline.scopedRest (Ix := Unit) (Name := ℕ) (U := UR sig nD τ) (Lvl := ℕ) (Val := Elt F) cfg4.spec c)
      ⊢ (dat4 V c).Φ 0 := by
  rw [Φ_eq4, scopedRest4_split]; unfold Φ4
  iintro ⟨Hp, -, ⟨⟨%f0, H0⟩, ⟨%f1, H1⟩⟩, Hr⟩
  isplitl [Hp]; · iexact Hp
  isplitl [Hr]; · iexact Hr
  iexists f0; iexists f1
  isplitr; · ipureintro; intro h; exact absurd rfl h
  rw [owns_whole, owns_whole]
  isplitl [H0]; · iexact H0
  iexact H1

/-- Out of the invariant: the two scratch rows go back among the scoped buffers. -/
theorem hout4 (c : Dev nD) :
    (dat4 V c).Φ (Fin.last cfg4.N)
      ⊢ iprop((∃ r, prngReg c r) ∗ Pipeline.ownSems0 (Ix := Unit) (Name := ℕ) (U := UR sig nD τ) (Lvl := ℕ) (Val := Elt F) (fun k : PEmpty => k.elim) c
        ∗ Pipeline.scopedRest (Ix := Unit) (Name := ℕ) (U := UR sig nD τ) (Lvl := ℕ) (Val := Elt F) cfg4.spec c) := by
  rw [Φ_eq4, Pipeline.ownSems0_none, scopedRest4_split]; unfold Φ4
  simp only [owns_whole]
  iintro ⟨Hp, Hr, ⟨%s, %q, -, H0, H1⟩⟩
  isplitl [Hp]; · iexact Hp
  isplitr; · iempintro
  isplitr [Hr]
  swap; · iexact Hr
  isplitl [H0]
  · iexists s; iexact H0
  · iexists q; iexact H1

/-! ## The body's two branch conditions, over the grid -/

/-- The condition of the body's first conditional (zero the scratch rows): the grid coordinate is 0. -/
abbrev cond4_1 (i : grid4.Coords) : Prop :=
  (Scalar.cmpi .ne (Scalar.extui (Scalar.cmpi .eq (BitVec.ofNat 32 (i 0).val) 0#32)) 0#32) = 1#1

/-- It holds at the first point only; the second conditional's (copy the scratch rows out) at the last point only;
    the output windows are idle everywhere else — decided over the twenty points. -/
theorem hcond4_1 : ∀ t : Fin cfg4.N, cond4_1 (grid4.coords t) ↔ t.val % 20 = 0 :=
  (by decide +kernel : ∀ t : Fin grid4.N, cond4_1 (grid4.coords t) ↔ t.val % 20 = 0)
theorem hcond4_2 : ∀ t : Fin cfg4.N, k4_cond2 (grid4.coords t) = 1#1 ↔ t.val % 20 = 19 :=
  (by decide +kernel : ∀ t : Fin grid4.N, k4_cond2 (grid4.coords t) = 1#1 ↔ t.val % 20 = 19)
theorem hidle4_1 : ∀ t : Fin cfg4.N, cfg4.idle 1 (cfg4.grid.coords t) = !decide (t.val % 20 = 19) :=
  (by decide +kernel : ∀ t : Fin grid4.N, cfg4.idle 1 (cfg4.grid.coords t) = !decide (t.val % 20 = 19))
theorem hidle4_2 : ∀ t : Fin cfg4.N, cfg4.idle 2 (cfg4.grid.coords t) = !decide (t.val % 20 = 19) :=
  (by decide +kernel : ∀ t : Fin grid4.N, cfg4.idle 2 (cfg4.grid.coords t) = !decide (t.val % 20 = 19))

/-! ## Whole-row loads and stores -/

theorem zeros4 : (![0, 0] : Fin 2 → ℕ) = fun _ => 0 := by funext a; fin_cases a <;> rfl

set_option maxRecDepth 4096 in
/-- One store through the whole-row rectangle, LAST, leaves its payload, whatever the view, the prior contents and
    the earlier stores: its rectangle covers the row. -/
theorem read_store_row_cons4 {sp : Space} (v : View sig .tc sp S1x128 .f32) (f : v.ty.Contents (Elt F))
    (w : (Rect.unit (s := S1x128) ![0, 0] S1x128.size inb_S1x128_S1x128_0_0).shape.Idx → Elt F .f32)
    (L : List (View.Piece (Elt F) S1x128 .f32)) :
    v.read (Elt F) (v.writes (Elt F) f ((⟨Rect.unit (s := S1x128) ![0, 0] S1x128.size inb_S1x128_S1x128_0_0, w⟩ : View.Piece (Elt F) S1x128 .f32) :: L)) = w := by
  have hcov : ∀ y : S1x128.Idx, ∃ p ∈ ((⟨Rect.unit (s := S1x128) ![0, 0] S1x128.size inb_S1x128_S1x128_0_0, w⟩ : View.Piece (Elt F) S1x128 .f32) :: L), y ∈ p.1.set :=
    fun y => ⟨_, List.Mem.head _, View.mem_set_unit_zero (S := S1x128) zeros4 inb_S1x128_S1x128_0_0 y⟩
  rw [View.read_writes_eq_canon v f _ hcov, View.canon_cons_unit_zero (S := S1x128) zeros4 inb_S1x128_S1x128_0_0 w L]

/-- A load through the whole-row rectangle reads the row; through the whole-tile rectangle, the tile; a load of the
    row after one store of the whole row reads the stored row. -/
theorem ld_row4 (X : Vec F S1x128 .f32) : View.ld X (Rect.unit (s := S1x128) ![0, 0] S1x128.size inb_S1x128_S1x128_0_0) = X :=
  View.ld_unit_zero (S := S1x128) zeros4 inb_S1x128_S1x128_0_0 X
theorem ld_tile4 (X : Vec F S5000x128 .f32) : View.ld X (Rect.unit (s := S5000x128) ![0, 0] S5000x128.size inb_S5000x128_S5000x128_0_0) = X :=
  View.ld_unit_zero (S := S5000x128) zeros4 inb_S5000x128_S5000x128_0_0 X
theorem readCov_row4 {sp : Space} (v : View sig .tc sp S1x128 .f32)
    (w : (Rect.unit (s := S1x128) ![0, 0] S1x128.size inb_S1x128_S1x128_0_0).shape.Idx → Elt F .f32) :
    v.readCov [(⟨Rect.unit (s := S1x128) ![0, 0] S1x128.size inb_S1x128_S1x128_0_0, w⟩ : View.Piece (Elt F) S1x128 .f32)]
      (Rect.unit (s := S1x128) ![0, 0] S1x128.size inb_S1x128_S1x128_0_0).toLoadRect = w :=
  View.readCov_unit_zero v zeros4 inb_S1x128_S1x128_0_0 w

/-! ## The body's triple, case by case -/

set_option maxHeartbeats 1000000 in
/-- A MIDDLE point (neither conditional taken): each scratch row gains the tile's column sums (of squares); the
    tile and the two output rows are left as found. -/
theorem kernel4_mid (c : Dev nD) (E : Set ℕ) (i : grid4.Coords) (h1 : ¬ cond4_1 i) (h2 : ¬ k4_cond2 i = 1#1)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S5000x128 .f32) (y2 y3 s q : Vec F S1x128 .f32) (K : PUnit → sProp 𝕄) :
    iprop(owns (c : Thread nD τ) arg1 fullShare x ∗ owns (c : Thread nD τ) arg2 fullShare y2
        ∗ owns (c : Thread nD τ) arg3 fullShare y3 ∗ owns (c : Thread nD τ) arg4 fullShare s
        ∗ owns (c : Thread nD τ) arg5 fullShare q
        ∗ (iprop(owns (c : Thread nD τ) arg1 fullShare x ∗ owns (c : Thread nD τ) arg2 fullShare y2
            ∗ owns (c : Thread nD τ) arg3 fullShare y3 ∗ owns (c : Thread nD τ) arg4 fullShare (k4_pay4 x s)
            ∗ owns (c : Thread nD τ) arg5 fullShare (k4_pay5 x q)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_row_cons4, View.readAt_eq_ld, View.readAt_eq_ld, ld_row4, ld_tile4]
  · iexists _; isplitr
    swap; · iexact H5
    ipureintro
    rw [read_store_row_cons4, View.readAt_eq_ld, View.readAt_eq_ld, ld_row4, ld_tile4]

set_option maxHeartbeats 1000000 in
/-- The FIRST point (first conditional taken, second not): the scratch rows are zeroed, whatever they held, then gain
    the first tile's column sums (of squares). -/
theorem kernel4_first (c : Dev nD) (E : Set ℕ) (i : grid4.Coords) (h1 : cond4_1 i) (h2 : ¬ k4_cond2 i = 1#1)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S5000x128 .f32) (y2 y3 : Vec F S1x128 .f32) (K : PUnit → sProp 𝕄) :
    iprop(owns (c : Thread nD τ) arg1 fullShare x ∗ owns (c : Thread nD τ) arg2 fullShare y2
        ∗ owns (c : Thread nD τ) arg3 fullShare y3 ∗ (∃ s, owns (c : Thread nD τ) arg4 fullShare s)
        ∗ (∃ q, owns (c : Thread nD τ) arg5 fullShare q)
        ∗ (iprop(owns (c : Thread nD τ) arg1 fullShare x ∗ owns (c : Thread nD τ) arg2 fullShare y2
            ∗ owns (c : Thread nD τ) arg3 fullShare y3 ∗ owns (c : Thread nD τ) arg4 fullShare (k4_pay4 x k4_pay1)
            ∗ owns (c : Thread nD τ) arg5 fullShare (k4_pay5 x k4_pay2)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f1, %hf1, H1⟩, ⟨%f2, %hf2, H2⟩, ⟨%f3, %hf3, H3⟩, ⟨%s, %f4, -, H4⟩, ⟨%q, %f5, -, H5⟩, Hk⟩
  subst hf1 hf2 hf3
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_row_cons4]; sl_unfold_run_names
    rw [readCov_row4, View.readAt_eq_ld, ld_tile4]
  · iexists _; isplitr
    swap; · iexact H5
    ipureintro
    rw [read_store_row_cons4]; sl_unfold_run_names
    rw [readCov_row4, View.readAt_eq_ld, ld_tile4]

set_option maxHeartbeats 1000000 in
/-- The LAST point (first conditional not taken, second taken): the scratch rows gain the last tile's sums and are
    then copied to the two output rows, whatever those held. -/
theorem kernel4_last (c : Dev nD) (E : Set ℕ) (i : grid4.Coords) (h1 : ¬ cond4_1 i) (h2 : k4_cond2 i = 1#1)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S5000x128 .f32) (s q : Vec F S1x128 .f32) (K : PUnit → sProp 𝕄) :
    iprop(owns (c : Thread nD τ) arg1 fullShare x ∗ (∃ y2, owns (c : Thread nD τ) arg2 fullShare y2)
        ∗ (∃ y3, owns (c : Thread nD τ) arg3 fullShare y3) ∗ owns (c : Thread nD τ) arg4 fullShare s
        ∗ owns (c : Thread nD τ) arg5 fullShare q
        ∗ (iprop(owns (c : Thread nD τ) arg1 fullShare x ∗ owns (c : Thread nD τ) arg2 fullShare (k4_pay4 x s)
            ∗ owns (c : Thread nD τ) arg3 fullShare (k4_pay5 x q) ∗ owns (c : Thread nD τ) arg4 fullShare (k4_pay4 x s)
            ∗ owns (c : Thread nD τ) arg5 fullShare (k4_pay5 x q)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f1, %hf1, H1⟩, ⟨%y2, %f2, -, H2⟩, ⟨%y3, %f3, -, H3⟩, ⟨%f4, %hf4, H4⟩, ⟨%f5, %hf5, H5⟩, Hk⟩
  subst hf1 hf4 hf5
  sl_exec (disch := first | exact h1 | exact h2)
  sl_step
  iapply Hk
  isplitl [H1]
  · iexists f1; isplitr; · ipureintro; rfl
    iexact H1
  isplitl [H2]
  · iexists _; isplitr
    swap; · iexact H2
    ipureintro
    rw [read_store_row_cons4]; sl_unfold_run_names
    rw [readCov_row4, View.readAt_eq_ld, View.readAt_eq_ld, ld_row4, ld_tile4]
  isplitl [H3]
  · iexists _; isplitr
    swap; · iexact H3
    ipureintro
    rw [read_store_row_cons4]; sl_unfold_run_names
    rw [readCov_row4, View.readAt_eq_ld, View.readAt_eq_ld, ld_row4, ld_tile4]
  isplitl [H4]
  · iexists _; isplitr
    swap; · iexact H4
    ipureintro
    sl_unfold_run_names
    rw [read_store_row_cons4, View.readAt_eq_ld, View.readAt_eq_ld, ld_row4, ld_tile4]
  · iexists _; isplitr
    swap; · iexact H5
    ipureintro
    sl_unfold_run_names
    rw [read_store_row_cons4, View.readAt_eq_ld, View.readAt_eq_ld, ld_row4, ld_tile4]

/-! ## The body obligation -/

theorem out4_1_zero (x : Fin cfg4.N → Vec F S5000x128 .f32) : out4_1 x 0 = k4_pay1 := rfl
theorem out4_2_zero (x : Fin cfg4.N → Vec F S5000x128 .f32) : out4_2 x 0 = k4_pay2 := rfl

/-- At a point where an output window is live (not idle), the obligation's post for it is the buffer at what the body leaves. -/
theorem leavesExact_live4 {c : Dev nD} (dat : Dat τ (Elt F) Unit ℕ (UR sig nD τ) ℕ cfg4 c) (w : Fin cfg4.W) (t : Fin cfg4.N)
    (hi : cfg4.idle w (cfg4.grid.coords t) = false) :
    dat.leavesExact w t = owns c ((cfg4.win w).stage (cfg4.slots t w)) fullShare (dat.after w t) := by
  unfold Dat.leavesExact; rw [hi]

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: the input's buffer as found; each output row's buffer as found at a point idle for it, at the
    sums at the point that writes it back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ (dat4 V c).leavesExact 1 t
    ∗ (dat4 V c).leavesExact 2 t)

set_option maxHeartbeats 1000000 in
/-- The body at any point, by the point's case: first (the scratch rows at anything), middle, last (the rows copied out).
    The scratch rows hold the sums over the tiles before the point and are left at the sums through it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl, after4_0, Φ_eq4, Φ_eq4,
    show (t.castSucc : Fin (cfg4.N + 1)).val = t.val from rfl, show (t.succ : Fin (cfg4.N + 1)).val = t.val + 1 from rfl]
  have hN : t.val < 20 := lt_of_lt_of_eq t.isLt (show cfg4.N = 20 from N_4)
  unfold Φ4
  by_cases h0 : t.val = 0
  · have hc1 : cond4_1 (grid4.coords t) := (hcond4_1 t).mpr (by omega)
    have hc2 : ¬ k4_cond2 (grid4.coords t) = 1#1 := fun h => by have := (hcond4_2 t).mp h; omega
    rw [Dat.leavesExact_idle (dat4 V c) 1 t (by rw [hidle4_1, decide_eq_false (by omega)]; rfl)
        (Bool.eq_false_iff.mpr fun h => by have := (flush4_1 _).mp h; omega),
      Dat.leavesExact_idle (dat4 V c) 2 t (by rw [hidle4_2, decide_eq_false (by omega)]; rfl)
        (Bool.eq_false_iff.mpr fun h => by have := (flush4_2 _).mp h; omega)]
    iintro ⟨⟨Hp, Hr, ⟨%s, %q, -, Hs, Hq⟩⟩, Ho, ⟨%d0, H0⟩, ⟨%d1, H1⟩, ⟨%d2, H2⟩⟩
    iapply (kernel4_first c Set.univ _ hc1 hc2 _ _ _ _ _ _ _ _ _ _ (iblk4 V c 0 t) _ _ _)
    isplitl [H0]; · iexact H0
    isplitl [H1]; · iexact H1
    isplitl [H2]; · iexact H2
    isplitl [Hs]; · iexists s; iexact Hs
    isplitl [Hq]; · iexists q; iexact Hq
    iintro ⟨H0, H1, H2, Hs, Hq⟩
    isplitl [Hp Hr Hs Hq]
    · isplitl [Hp]; · iexact Hp
      isplitl [Hr]; · iexact Hr
      iexists (k4_pay4 (iblk4 V c 0 t) k4_pay1); iexists (k4_pay5 (iblk4 V c 0 t) k4_pay2)
      isplitr
      · ipureintro; intro _
        exact ⟨by rw [out4_1_succ, h0, out4_1_zero], by rw [out4_2_succ, h0, out4_2_zero]⟩
      isplitl [Hs]; · iexact Hs
      iexact Hq
    isplitl [Ho]; · iexact Ho
    isplitl [H0]; · iexact H0
    isplitl [H1]; · iexists d1; iexact H1
    iexists d2; iexact H2
  by_cases h19 : t.val = 19
  · have hc1 : ¬ cond4_1 (grid4.coords t) := fun h => by have := (hcond4_1 t).mp h; omega
    have hc2 : k4_cond2 (grid4.coords t) = 1#1 := (hcond4_2 t).mpr (by omega)
    rw [leavesExact_live4 (dat4 V c) 1 t (by rw [hidle4_1, decide_eq_true (by omega)]; rfl),
      leavesExact_live4 (dat4 V c) 2 t (by rw [hidle4_2, decide_eq_true (by omega)]; rfl),
      after4_1, after4_2, out4_1_succ, out4_2_succ]
    iintro ⟨⟨Hp, Hr, ⟨%s, %q, %hsq, Hs, Hq⟩⟩, Ho, ⟨%d0, H0⟩, ⟨%d1, H1⟩, ⟨%d2, H2⟩⟩
    obtain ⟨rfl, rfl⟩ := hsq h0
    iapply (kernel4_last c Set.univ _ hc1 hc2 _ _ _ _ _ _ _ _ _ _ (iblk4 V c 0 t) _ _ _)
    isplitl [H0]; · iexact H0
    isplitl [H1]; · iexists _; iexact H1
    isplitl [H2]; · iexists _; iexact H2
    isplitl [Hs]; · iexact Hs
    isplitl [Hq]; · iexact Hq
    iintro ⟨H0, H1, H2, Hs, Hq⟩
    isplitl [Hp Hr Hs Hq]
    · isplitl [Hp]; · iexact Hp
      isplitl [Hr]; · iexact Hr
      iexists _; iexists _
      isplitr
      · ipureintro; intro _; exact ⟨rfl, rfl⟩
      isplitl [Hs]; · iexact Hs
      iexact Hq
    isplitl [Ho]; · iexact Ho
    isplitl [H0]; · iexact H0
    isplitl [H1]; · iexact H1
    iexact H2
  · have hc1 : ¬ cond4_1 (grid4.coords t) := fun h => by have := (hcond4_1 t).mp h; omega
    have hc2 : ¬ k4_cond2 (grid4.coords t) = 1#1 := fun h => by have := (hcond4_2 t).mp h; omega
    rw [Dat.leavesExact_idle (dat4 V c) 1 t (by rw [hidle4_1, decide_eq_false (by omega)]; rfl)
        (Bool.eq_false_iff.mpr fun h => by have := (flush4_1 _).mp h; omega),
      Dat.leavesExact_idle (dat4 V c) 2 t (by rw [hidle4_2, decide_eq_false (by omega)]; rfl)
        (Bool.eq_false_iff.mpr fun h => by have := (flush4_2 _).mp h; omega),
      out4_1_succ, out4_2_succ]
    iintro ⟨⟨Hp, Hr, ⟨%s, %q, %hsq, Hs, Hq⟩⟩, Ho, ⟨%d0, H0⟩, ⟨%d1, H1⟩, ⟨%d2, H2⟩⟩
    obtain ⟨rfl, rfl⟩ := hsq h0
    iapply (kernel4_mid c Set.univ _ hc1 hc2 _ _ _ _ _ _ _ _ _ _ (iblk4 V c 0 t) _ _ _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hp Hr Hs Hq]
    · isplitl [Hp]; · iexact Hp
      isplitl [Hr]; · iexact Hr
      iexists _; iexists _
      isplitr
      · ipureintro; intro _; exact ⟨rfl, rfl⟩
      isplitl [Hs]; · iexact Hs
      iexact Hq
    isplitl [Ho]; · iexact Ho
    isplitl [H0]; · iexact H0
    isplitl [H1]; · iexists d1; iexact H1
    iexists d2; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.RegBnRelu5.lean ====
/-
  The batch-norm + relu region 5 of the program, as one pipeline of six windows on a grid of twenty points:
  window 0 the 5000x128 row tile of the activations, windows 1-4 four whole 1x128 rows (mean, variance, scale,
  shift), window 5 the 5000x128 output tile.  The body reads each input buffer whole, computes
  max (((x - mean) * rsqrt (var + eps)) * gamma + beta, 0) elementwise with the rows broadcast down the tile,
  and stores the result over the whole output buffer.  Stated at any float instance and at any entry contents
  `V` of the core's buffers: each window's block at a point, what the body leaves in the output buffer as a
  function of the five input blocks, the proof data of the pipeline, and the body obligation at every point.
-/
import proofs.«131019_j5282809775007_1_alg».proof.Proof.Gen.Kernel.Launch
import proofs.«131019_j5282809775007_1_alg».proof.Proof.Gen.Kernel.Skeleton
import proofs.«131019_j5282809775007_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current staging buffer holds its block at every point, fetched there or not: where the
    pipeline does not fetch, the block index has not moved since the last fetch (the four rows have a constant
    index map and are fetched once), and the body leaves every input buffer as it found it. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- The output buffer after the body, from the five input blocks (window order: tile, mean, variance, scale,
    shift): its one store, of the payload of the five whole loads, over the whole buffer. -/
def out5_5 (x0 : Vec F S5000x128 .f32) (x1 x2 x3 x4 : Vec F S1x128 .f32) : Vec F S5000x128 .f32 :=
  View.canon [⟨r5_0, k5_pay1 (View.ld x0 r5_0) (View.ld x2 r5_1) (View.ld x1 r5_1) (View.ld x3 r5_1) (View.ld x4 r5_1)⟩]

/-- The one store is of the whole buffer, so it covers it. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `xW` and the output's at anything, runs
    to the continuation holding the inputs' as they were and the output's at `out5_5` of the inputs'. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the pipeline on core `c`: the arrays as the region finds them; after the body at point `t`
    each input's buffer at its block and the output's at `out5_5` of the input blocks; the invariant the plain
    class's (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-! What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

/-! Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.RegMatmul6.lean ====
import proofs.«131019_j5282809775007_1_alg».proof.Proof.Gen.Kernel.Launch
import proofs.«131019_j5282809775007_1_alg».proof.Proof.Gen.Kernel.Skeleton
import proofs.«131019_j5282809775007_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 6: one row tile times the weight matrix

At every grid point the body reads a 5000x128 row tile of the left operand and the whole 128x128 right
operand, narrows both to bf16, multiplies them into a zero accumulator, and stores the 5000x128 product
over the whole output tile. This file states what each window's staging buffer holds before and after the
body as a pure function of the arrays found when the region is entered, and proves the body's triple at
every grid point. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row-tile window's current staging buffer holds its block at every point: it is fetched at every
    point, the window is uncut and never idle, and the body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight window's staging buffer holds its block at every point, fetched there (the first point) or
    not (every later point, where its block index has not moved and the body has left the block in place). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole row tile (and the whole output tile). -/
abbrev r6_tile : Rect S5000x128 := Rect.unit (s := S5000x128) ![0, 0] S5000x128.size inb_S5000x128_S5000x128_0_0
/-- The whole weight matrix. -/
abbrev r6_wt : Rect S128x128 := Rect.unit (s := S128x128) ![0, 0] S128x128.size inb_S128x128_S128x128_0_0

/-! ## What the body leaves in the output window's buffer -/

/-- The output tile after the body, from the two input blocks: its one store, the product of the narrowed
    row tile and the narrowed weight accumulated from zero, over the whole tile. -/
def out6_2 (x0 : Vec F S5000x128 .f32) (x1 : Vec F S128x128 .f32) : Vec F S5000x128 .f32 :=
  View.canon [⟨r6_tile, k6_pay1 (View.ld x0 r6_tile) (View.ld x1 r6_wt)⟩]

/-- The one store is the whole tile, so it covers it. -/
theorem cover6_2 (p0 : Vec F S5000x128 .f32) (y : S5000x128.Idx) :
    ∃ pc ∈ ([⟨r6_tile, p0⟩] : List (View.Piece (Elt F) S5000x128 .f32)), y ∈ pc.1.set :=
  View.cover_of_tiled [⟨r6_tile, p0⟩] S5000x128.size (by rfl) y

/-! ## The body's triple -/

set_option maxHeartbeats 1000000 in
/-- The kernel body on whole staging memrefs, the inputs' at read contents `x0`, `x1` and the output's at
    anything, runs to the continuation holding the inputs' as they were and the output's at `out6_2` of
    the inputs. -/
theorem sound_kernel6 (c : Dev nD) (E : Set ℕ) (i : grid6.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of this pipeline on core `c`: the arrays as the region finds them; after the body at
    point `t` each input's buffer at its block and the output's at `out6_2` of the input blocks; the
    invariant is the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the
    invariant and the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K.RegLogSoftmax7.lean ====
import proofs.«131019_j5282809775007_1_alg».proof.Proof.Gen.Kernel.Launch
import proofs.«131019_j5282809775007_1_alg».proof.Proof.Gen.Kernel.Skeleton
import proofs.«131019_j5282809775007_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 7: the row-wise log-softmax of one row tile

At every grid point the body reads a 5000x128 row tile, takes each row's maximum over the 128 lanes,
subtracts it, exponentiates, sums each row over the lanes, takes the logarithm of the sums, subtracts that
too, and stores the result over the whole 5000x128 output tile. This file states what each window's
staging buffer holds before and after the body as a pure function of the arrays found when the region is
entered, and proves the body's triple at every grid point. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current staging buffer holds its block at every point: it is fetched at every
    point, the window is uncut and never idle, and the body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole row tile (and the whole output tile). -/
abbrev r7_tile : Rect S5000x128 := Rect.unit (s := S5000x128) ![0, 0] S5000x128.size inb_S5000x128_S5000x128_0_0

/-! ## What the body leaves in the output window's buffer -/

/-- The output tile after the body, from the input block: its one store, the log-softmax of the rows of
    the tile, over the whole tile. -/
def out7_1 (x0 : Vec F S5000x128 .f32) : Vec F S5000x128 .f32 :=
  View.canon [⟨r7_tile, k7_pay1 (View.ld x0 r7_tile)⟩]

/-- The one store is the whole tile, so it covers it. -/
theorem cover7_1 (p0 : Vec F S5000x128 .f32) (y : S5000x128.Idx) :
    ∃ pc ∈ ([⟨r7_tile, p0⟩] : List (View.Piece (Elt F) S5000x128 .f32)), y ∈ pc.1.set :=
  View.cover_of_tiled [⟨r7_tile, p0⟩] S5000x128.size (by rfl) y

/-! ## The body's triple -/

set_option maxHeartbeats 1000000 in
/-- The kernel body on whole staging memrefs, the input's at read contents `x0` and the output's at
    anything, runs to the continuation holding the input's as it was and the output's at `out7_1` of
    the input. -/
theorem sound_kernel7 (c : Dev nD) (E : Set ℕ) (i : grid7.Coords)
    (arg1 : Memref sig .tc .vmem S5000x128 .f32) (harg1 : arg1.IsWhole) (arg2 : Memref sig .tc .vmem S5000x128 .f32) (harg2 : arg2.IsWhole)
    (x0 : Vec F S5000x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out7_1 x0)) -∗ K ⟨⟩))
      ⊢ wp frame (wpE (defs₀ (F := F)) Variants.none c none) E (cc7__log_softmax_kernel i arg1 harg1 arg2 harg2) K := by
  simp only [cc7__log_softmax_kernel_eq_skeleton]; unfold cc7__log_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover7_1 _)

/-! ## The pipeline's proof data -/

/-- The proof data of this pipeline on core `c`: the arrays as the region finds them; after the body at
    point `t` the input's buffer at its block and the output's at `out7_1` of the input block; the
    invariant is the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => out7_1 (iblk7 V c 0 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = out7_1 (iblk7 V c 0 t) := by dsimp only [dat7]

/-- The input's current staging buffer holds its block at every point. -/
theorem before7_0 (c : Dev nD) (t : Fin cfg7.N) (d) : (dat7 V c).before 0 t d = iblk7 V c 0 t :=
  before7_0_of V (dat7 V c) (A_eq7 V c 0) (after7_0 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t))

/-- The body at any point: the input's memref holds its block, so `sound_kernel7` applies; the
    invariant and the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1]
  iintro ⟨HΦ, Ho, ⟨%d0, H0⟩, ⟨%d1, H1⟩⟩
  iapply (sound_kernel7 c Set.univ _ _ _ _ _ (iblk7 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.K.Run.lean ====
/-
  The whole program's run, composed from its parts.  @main is eight stretches of host operations, each followed by
  one kernel region: three matrix products, two column-statistics passes that carry two accumulator rows across their
  grid points, two normalisation passes and one row-wise log-softmax.  Each region's pipeline runs from the buffer
  contents the items before it left, and leaves its output arrays at the fold of the blocks its grid points wrote
  back; the host stretches in between are folds of host operations.  The run says: every weakly fair execution
  terminates, nothing faults, and the final memory holds, buffer by buffer, the last boundary's contents.
-/
import proofs.«131019_j5282809775007_1_alg».proof.Proof.K.RegMatmul0
import proofs.«131019_j5282809775007_1_alg».proof.Proof.K.RegStats1
import proofs.«131019_j5282809775007_1_alg».proof.Proof.K.RegBnRelu2
import proofs.«131019_j5282809775007_1_alg».proof.Proof.K.RegMatmul3
import proofs.«131019_j5282809775007_1_alg».proof.Proof.K.RegStats4
import proofs.«131019_j5282809775007_1_alg».proof.Proof.K.RegBnRelu5
import proofs.«131019_j5282809775007_1_alg».proof.Proof.K.RegMatmul6
import proofs.«131019_j5282809775007_1_alg».proof.Proof.K.RegLogSoftmax7
import proofs.«131019_j5282809775007_1_alg».proof.Proof.Gen.Kernel.Regions

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The contents of a core's buffers at each boundary of @main

  @main is eight stretches of host operations, each followed by one kernel region.  The contents at a boundary are a
  fold through @main: the launch memory; after a host stretch, the stretch's operations applied in order; after a
  region, the region's arrays at what its pipeline leaves (an input array as entered, an output array with every
  grid point's block written back) and every other buffer as entered. -/

/-- Core `c`'s buffers at launch. -/
abbrev Wl : Dev nD → Valuation τ sig (Elt F) := fun c b => m (c, b)

/-- At region 0's entry: host stretch 0 applied to the contents before it. -/
abbrev We0 : Dev nD → Valuation τ sig (Elt F) := fun c => StableHlo.after hostOps0 (Wl m c)
/-- The same, read at the TensorCore's references. -/
abbrev Ve0 : (c : Dev nD) → (b : Ref sig .tc) → Buf (Elt F) ((c : Thread nD τ).loc b) := fun c b => We0 m c b
/-- At region 0's exit: its arrays at what the pipeline leaves, every other buffer as entered. -/
def Wx0 (c : Dev nD) : Valuation τ sig (Elt F) :=
  Pipeline.withArrays spec0 c (We0 m c) fun w => (dat0 (Ve0 m) c).arrAt w cfg0.N
theorem Wx0_arr (c : Dev nD) (w : Fin cfg0.W) :
    Wx0 m c (Proc.devRef .tc (Pipeline.arrRef spec0 w)) = (dat0 (Ve0 m) c).arrAt w cfg0.N := by
  unfold Wx0; exact Pipeline.withArrays_arr spec0 launch0.win.arr_inj c _ _ w
theorem Wx0_of_ne (c : Dev nD) (b : Ref sig .tc) (hb : ∀ w, Pipeline.arrRef spec0 w ≠ b) :
    Wx0 m c (Proc.devRef .tc b) = We0 m c (Proc.devRef .tc b) := by
  unfold Wx0; exact Pipeline.withArrays_of_ne spec0 c _ _ b hb
abbrev Vx0 : (c : Dev nD) → (b : Ref sig .tc) → Buf (Elt F) ((c : Thread nD τ).loc b) := fun c b => Wx0 m c b
theorem hF0 (c : Dev nD) (w : Fin cfg0.W) : (dat0 (Ve0 m) c).arrAt w cfg0.N = Vx0 m c (Pipeline.arrRef spec0 w) :=
  (Wx0_arr m c w).symm
theorem hrest0 (c : Dev nD) : ∀ b, b ∉ Finset.univ.image (Pipeline.arrRef spec0) → Vx0 m c b = Ve0 m c b :=
  fun b hb => Wx0_of_ne m c b fun w e => hb (Finset.mem_image.mpr ⟨w, Finset.mem_univ _, e⟩)

/-- At region 1's entry: host stretch 1 applied to the contents before it. -/
abbrev We1 : Dev nD → Valuation τ sig (Elt F) := fun c => StableHlo.after hostOps1 (Wx0 m c)
/-- The same, read at the TensorCore's references. -/
abbrev Ve1 : (c : Dev nD) → (b : Ref sig .tc) → Buf (Elt F) ((c : Thread nD τ).loc b) := fun c b => We1 m c b
/-- At region 1's exit: its arrays at what the pipeline leaves, every other buffer as entered. -/
def Wx1 (c : Dev nD) : Valuation τ sig (Elt F) :=
  Pipeline.withArrays spec1 c (We1 m c) fun w => (dat1 (Ve1 m) c).arrAt w cfg1.N
theorem Wx1_arr (c : Dev nD) (w : Fin cfg1.W) :
    Wx1 m c (Proc.devRef .tc (Pipeline.arrRef spec1 w)) = (dat1 (Ve1 m) c).arrAt w cfg1.N := by
  unfold Wx1; exact Pipeline.withArrays_arr spec1 launch1.win.arr_inj c _ _ w
theorem Wx1_of_ne (c : Dev nD) (b : Ref sig .tc) (hb : ∀ w, Pipeline.arrRef spec1 w ≠ b) :
    Wx1 m c (Proc.devRef .tc b) = We1 m c (Proc.devRef .tc b) := by
  unfold Wx1; exact Pipeline.withArrays_of_ne spec1 c _ _ b hb
abbrev Vx1 : (c : Dev nD) → (b : Ref sig .tc) → Buf (Elt F) ((c : Thread nD τ).loc b) := fun c b => Wx1 m c b
theorem hF1 (c : Dev nD) (w : Fin cfg1.W) : (dat1 (Ve1 m) c).arrAt w cfg1.N = Vx1 m c (Pipeline.arrRef spec1 w) :=
  (Wx1_arr m c w).symm
theorem hrest1 (c : Dev nD) : ∀ b, b ∉ Finset.univ.image (Pipeline.arrRef spec1) → Vx1 m c b = Ve1 m c b :=
  fun b hb => Wx1_of_ne m c b fun w e => hb (Finset.mem_image.mpr ⟨w, Finset.mem_univ _, e⟩)

/-- At region 2's entry: host stretch 2 applied to the contents before it. -/
abbrev We2 : Dev nD → Valuation τ sig (Elt F) := fun c => StableHlo.after hostOps2 (Wx1 m c)
/-- The same, read at the TensorCore's references. -/
abbrev Ve2 : (c : Dev nD) → (b : Ref sig .tc) → Buf (Elt F) ((c : Thread nD τ).loc b) := fun c b => We2 m c b
/-- At region 2's exit: its arrays at what the pipeline leaves, every other buffer as entered. -/
def Wx2 (c : Dev nD) : Valuation τ sig (Elt F) :=
  Pipeline.withArrays spec2 c (We2 m c) fun w => (dat2 (Ve2 m) c).arrAt w cfg2.N
theorem Wx2_arr (c : Dev nD) (w : Fin cfg2.W) :
    Wx2 m c (Proc.devRef .tc (Pipeline.arrRef spec2 w)) = (dat2 (Ve2 m) c).arrAt w cfg2.N := by
  unfold Wx2; exact Pipeline.withArrays_arr spec2 launch2.win.arr_inj c _ _ w
theorem Wx2_of_ne (c : Dev nD) (b : Ref sig .tc) (hb : ∀ w, Pipeline.arrRef spec2 w ≠ b) :
    Wx2 m c (Proc.devRef .tc b) = We2 m c (Proc.devRef .tc b) := by
  unfold Wx2; exact Pipeline.withArrays_of_ne spec2 c _ _ b hb
abbrev Vx2 : (c : Dev nD) → (b : Ref sig .tc) → Buf (Elt F) ((c : Thread nD τ).loc b) := fun c b => Wx2 m c b
theorem hF2 (c : Dev nD) (w : Fin cfg2.W) : (dat2 (Ve2 m) c).arrAt w cfg2.N = Vx2 m c (Pipeline.arrRef spec2 w) :=
  (Wx2_arr m c w).symm
theorem hrest2 (c : Dev nD) : ∀ b, b ∉ Finset.univ.image (Pipeline.arrRef spec2) → Vx2 m c b = Ve2 m c b :=
  fun b hb => Wx2_of_ne m c b fun w e => hb (Finset.mem_image.mpr ⟨w, Finset.mem_univ _, e⟩)

/-- At region 3's entry: host stretch 3 applied to the contents before it. -/
abbrev We3 : Dev nD → Valuation τ sig (Elt F) := fun c => StableHlo.after hostOps3 (Wx2 m c)
/-- The same, read at the TensorCore's references. -/
abbrev Ve3 : (c : Dev nD) → (b : Ref sig .tc) → Buf (Elt F) ((c : Thread nD τ).loc b) := fun c b => We3 m c b
/-- At region 3's exit: its arrays at what the pipeline leaves, every other buffer as entered. -/
def Wx3 (c : Dev nD) : Valuation τ sig (Elt F) :=
  Pipeline.withArrays spec3 c (We3 m c) fun w => (dat3 (Ve3 m) c).arrAt w cfg3.N
theorem Wx3_arr (c : Dev nD) (w : Fin cfg3.W) :
    Wx3 m c (Proc.devRef .tc (Pipeline.arrRef spec3 w)) = (dat3 (Ve3 m) c).arrAt w cfg3.N := by
  unfold Wx3; exact Pipeline.withArrays_arr spec3 launch3.win.arr_inj c _ _ w
theorem Wx3_of_ne (c : Dev nD) (b : Ref sig .tc) (hb : ∀ w, Pipeline.arrRef spec3 w ≠ b) :
    Wx3 m c (Proc.devRef .tc b) = We3 m c (Proc.devRef .tc b) := by
  unfold Wx3; exact Pipeline.withArrays_of_ne spec3 c _ _ b hb
abbrev Vx3 : (c : Dev nD) → (b : Ref sig .tc) → Buf (Elt F) ((c : Thread nD τ).loc b) := fun c b => Wx3 m c b
theorem hF3 (c : Dev nD) (w : Fin cfg3.W) : (dat3 (Ve3 m) c).arrAt w cfg3.N = Vx3 m c (Pipeline.arrRef spec3 w) :=
  (Wx3_arr m c w).symm
theorem hrest3 (c : Dev nD) : ∀ b, b ∉ Finset.univ.image (Pipeline.arrRef spec3) → Vx3 m c b = Ve3 m c b :=
  fun b hb => Wx3_of_ne m c b fun w e => hb (Finset.mem_image.mpr ⟨w, Finset.mem_univ _, e⟩)

/-- At region 4's entry: host stretch 4 applied to the contents before it. -/
abbrev We4 : Dev nD → Valuation τ sig (Elt F) := fun c => StableHlo.after hostOps4 (Wx3 m c)
/-- The same, read at the TensorCore's references. -/
abbrev Ve4 : (c : Dev nD) → (b : Ref sig .tc) → Buf (Elt F) ((c : Thread nD τ).loc b) := fun c b => We4 m c b
/-- At region 4's exit: its arrays at what the pipeline leaves, every other buffer as entered. -/
def Wx4 (c : Dev nD) : Valuation τ sig (Elt F) :=
  Pipeline.withArrays spec4 c (We4 m c) fun w => (dat4 (Ve4 m) c).arrAt w cfg4.N
theorem Wx4_arr (c : Dev nD) (w : Fin cfg4.W) :
    Wx4 m c (Proc.devRef .tc (Pipeline.arrRef spec4 w)) = (dat4 (Ve4 m) c).arrAt w cfg4.N := by
  unfold Wx4; exact Pipeline.withArrays_arr spec4 launch4.win.arr_inj c _ _ w
theorem Wx4_of_ne (c : Dev nD) (b : Ref sig .tc) (hb : ∀ w, Pipeline.arrRef spec4 w ≠ b) :
    Wx4 m c (Proc.devRef .tc b) = We4 m c (Proc.devRef .tc b) := by
  unfold Wx4; exact Pipeline.withArrays_of_ne spec4 c _ _ b hb
abbrev Vx4 : (c : Dev nD) → (b : Ref sig .tc) → Buf (Elt F) ((c : Thread nD τ).loc b) := fun c b => Wx4 m c b
theorem hF4 (c : Dev nD) (w : Fin cfg4.W) : (dat4 (Ve4 m) c).arrAt w cfg4.N = Vx4 m c (Pipeline.arrRef spec4 w) :=
  (Wx4_arr m c w).symm
theorem hrest4 (c : Dev nD) : ∀ b, b ∉ Finset.univ.image (Pipeline.arrRef spec4) → Vx4 m c b = Ve4 m c b :=
  fun b hb => Wx4_of_ne m c b fun w e => hb (Finset.mem_image.mpr ⟨w, Finset.mem_univ _, e⟩)

/-- At region 5's entry: host stretch 5 applied to the contents before it. -/
abbrev We5 : Dev nD → Valuation τ sig (Elt F) := fun c => StableHlo.after hostOps5 (Wx4 m c)
/-- The same, read at the TensorCore's references. -/
abbrev Ve5 : (c : Dev nD) → (b : Ref sig .tc) → Buf (Elt F) ((c : Thread nD τ).loc b) := fun c b => We5 m c b
/-- At region 5's exit: its arrays at what the pipeline leaves, every other buffer as entered. -/
def Wx5 (c : Dev nD) : Valuation τ sig (Elt F) :=
  Pipeline.withArrays spec5 c (We5 m c) fun w => (dat5 (Ve5 m) c).arrAt w cfg5.N
theorem Wx5_arr (c : Dev nD) (w : Fin cfg5.W) :
    Wx5 m c (Proc.devRef .tc (Pipeline.arrRef spec5 w)) = (dat5 (Ve5 m) c).arrAt w cfg5.N := by
  unfold Wx5; exact Pipeline.withArrays_arr spec5 launch5.win.arr_inj c _ _ w
theorem Wx5_of_ne (c : Dev nD) (b : Ref sig .tc) (hb : ∀ w, Pipeline.arrRef spec5 w ≠ b) :
    Wx5 m c (Proc.devRef .tc b) = We5 m c (Proc.devRef .tc b) := by
  unfold Wx5; exact Pipeline.withArrays_of_ne spec5 c _ _ b hb
abbrev Vx5 : (c : Dev nD) → (b : Ref sig .tc) → Buf (Elt F) ((c : Thread nD τ).loc b) := fun c b => Wx5 m c b
theorem hF5 (c : Dev nD) (w : Fin cfg5.W) : (dat5 (Ve5 m) c).arrAt w cfg5.N = Vx5 m c (Pipeline.arrRef spec5 w) :=
  (Wx5_arr m c w).symm
theorem hrest5 (c : Dev nD) : ∀ b, b ∉ Finset.univ.image (Pipeline.arrRef spec5) → Vx5 m c b = Ve5 m c b :=
  fun b hb => Wx5_of_ne m c b fun w e => hb (Finset.mem_image.mpr ⟨w, Finset.mem_univ _, e⟩)

/-- At region 6's entry: host stretch 6 applied to the contents before it. -/
abbrev We6 : Dev nD → Valuation τ sig (Elt F) := fun c => StableHlo.after hostOps6 (Wx5 m c)
/-- The same, read at the TensorCore's references. -/
abbrev Ve6 : (c : Dev nD) → (b : Ref sig .tc) → Buf (Elt F) ((c : Thread nD τ).loc b) := fun c b => We6 m c b
/-- At region 6's exit: its arrays at what the pipeline leaves, every other buffer as entered. -/
def Wx6 (c : Dev nD) : Valuation τ sig (Elt F) :=
  Pipeline.withArrays spec6 c (We6 m c) fun w => (dat6 (Ve6 m) c).arrAt w cfg6.N
theorem Wx6_arr (c : Dev nD) (w : Fin cfg6.W) :
    Wx6 m c (Proc.devRef .tc (Pipeline.arrRef spec6 w)) = (dat6 (Ve6 m) c).arrAt w cfg6.N := by
  unfold Wx6; exact Pipeline.withArrays_arr spec6 launch6.win.arr_inj c _ _ w
theorem Wx6_of_ne (c : Dev nD) (b : Ref sig .tc) (hb : ∀ w, Pipeline.arrRef spec6 w ≠ b) :
    Wx6 m c (Proc.devRef .tc b) = We6 m c (Proc.devRef .tc b) := by
  unfold Wx6; exact Pipeline.withArrays_of_ne spec6 c _ _ b hb
abbrev Vx6 : (c : Dev nD) → (b : Ref sig .tc) → Buf (Elt F) ((c : Thread nD τ).loc b) := fun c b => Wx6 m c b
theorem hF6 (c : Dev nD) (w : Fin cfg6.W) : (dat6 (Ve6 m) c).arrAt w cfg6.N = Vx6 m c (Pipeline.arrRef spec6 w) :=
  (Wx6_arr m c w).symm
theorem hrest6 (c : Dev nD) : ∀ b, b ∉ Finset.univ.image (Pipeline.arrRef spec6) → Vx6 m c b = Ve6 m c b :=
  fun b hb => Wx6_of_ne m c b fun w e => hb (Finset.mem_image.mpr ⟨w, Finset.mem_univ _, e⟩)

/-- At region 7's entry: host stretch 7 applied to the contents before it. -/
abbrev We7 : Dev nD → Valuation τ sig (Elt F) := fun c => StableHlo.after hostOps7 (Wx6 m c)
/-- The same, read at the TensorCore's references. -/
abbrev Ve7 : (c : Dev nD) → (b : Ref sig .tc) → Buf (Elt F) ((c : Thread nD τ).loc b) := fun c b => We7 m c b
/-- At region 7's exit: its arrays at what the pipeline leaves, every other buffer as entered. -/
def Wx7 (c : Dev nD) : Valuation τ sig (Elt F) :=
  Pipeline.withArrays spec7 c (We7 m c) fun w => (dat7 (Ve7 m) c).arrAt w cfg7.N
theorem Wx7_arr (c : Dev nD) (w : Fin cfg7.W) :
    Wx7 m c (Proc.devRef .tc (Pipeline.arrRef spec7 w)) = (dat7 (Ve7 m) c).arrAt w cfg7.N := by
  unfold Wx7; exact Pipeline.withArrays_arr spec7 launch7.win.arr_inj c _ _ w
theorem Wx7_of_ne (c : Dev nD) (b : Ref sig .tc) (hb : ∀ w, Pipeline.arrRef spec7 w ≠ b) :
    Wx7 m c (Proc.devRef .tc b) = We7 m c (Proc.devRef .tc b) := by
  unfold Wx7; exact Pipeline.withArrays_of_ne spec7 c _ _ b hb
abbrev Vx7 : (c : Dev nD) → (b : Ref sig .tc) → Buf (Elt F) ((c : Thread nD τ).loc b) := fun c b => Wx7 m c b
theorem hF7 (c : Dev nD) (w : Fin cfg7.W) : (dat7 (Ve7 m) c).arrAt w cfg7.N = Vx7 m c (Pipeline.arrRef spec7 w) :=
  (Wx7_arr m c w).symm
theorem hrest7 (c : Dev nD) : ∀ b, b ∉ Finset.univ.image (Pipeline.arrRef spec7) → Vx7 m c b = Ve7 m c b :=
  fun b hb => Wx7_of_ne m c b fun w e => hb (Finset.mem_image.mpr ⟨w, Finset.mem_univ _, e⟩)

/-! # The proof data of the eight pipelines, and what rides beside the buffers -/

/-- No pipeline has a prefetched table. -/
abbrev adm : (p : Fin 8) → (pcfgs (F := F) p).Adm := fun p => (cfgs p).toPCfg_adm

/-- Each pipeline's proof data at its region's entry contents. -/
def pdats : (p : Fin 8) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c
  | ⟨4, _⟩ => fun c => dat4 (Ve4 m) c
  | ⟨5, _⟩ => fun c => dat5 (Ve5 m) c
  | ⟨6, _⟩ => fun c => dat6 (Ve6 m) c
  | ⟨7, _⟩ => fun c => dat7 (Ve7 m) c

abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Wx7 m c) ∗ ∃ r, prngReg c r)

/-! # The regions as segments -/

set_option backward.isDefEq.respectTransparency.types false in
/-- Region 0: entered from every unscoped buffer at `We0`, left at `Wx0`.  Its arrays are split out of the unscoped
    buffers at entry and put back, at their final contents, at exit; the generator register goes into the pipeline's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (We0 m c) ∗ R c)
  post c := iprop(StableHlo.held (c : Thread nD τ) (Pipeline.ucRefs τ sig) (Wx0 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `We1`, left at `Wx1`.  Its arrays are split out of the unscoped
    buffers at entry and put back, at their final contents, at exit; the generator register goes into the pipeline's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (We1 m c) ∗ R c)
  post c := iprop(StableHlo.held (c : Thread nD τ) (Pipeline.ucRefs τ sig) (Wx1 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (Ve1 m) c
  hout c := hout1 (Ve1 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `We2`, left at `Wx2`.  Its arrays are split out of the unscoped
    buffers at entry and put back, at their final contents, at exit; the generator register goes into the pipeline's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (We2 m c) ∗ R c)
  post c := iprop(StableHlo.held (c : Thread nD τ) (Pipeline.ucRefs τ sig) (Wx2 m c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `We3`, left at `Wx3`.  Its arrays are split out of the unscoped
    buffers at entry and put back, at their final contents, at exit; the generator register goes into the pipeline's
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ve3 m) c).loose
  hwaits := Pipeline.hwaits_of_owed_zero _ _ _ _ L lv 3 fun _ _ => rfl
  pre c := iprop(StableHlo.held (c : Thread nD τ) (Pipeline.ucRefs τ sig) (We3 m c) ∗ R c)
  post c := iprop(StableHlo.held (c : Thread nD τ) (Pipeline.ucRefs τ sig) (Wx3 m c) ∗ R c)
  X c := iprop(∃ r, prngReg c r)
  Y c := iprop(∃ r, prngReg c r)
  Z c := Pipeline.unscopedRest (Ix := Unit) (Name := ℕ) (U := UR sig nD τ) (Lvl := ℕ) spec3 c (Ve3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Ve3 m c) (Vx3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `We4`, left at `Wx4`.  Its arrays are split out of the unscoped
    buffers at entry and put back, at their final contents, at exit; the generator register goes into the pipeline's
    invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Ve4 m) c).loose
  hwaits := Pipeline.hwaits_of_owed_zero _ _ _ _ L lv 4 fun _ _ => rfl
  pre c := iprop(StableHlo.held (c : Thread nD τ) (Pipeline.ucRefs τ sig) (We4 m c) ∗ R c)
  post c := iprop(StableHlo.held (c : Thread nD τ) (Pipeline.ucRefs τ sig) (Wx4 m c) ∗ R c)
  X c := iprop(∃ r, prngReg c r)
  Y c := iprop(∃ r, prngReg c r)
  Z c := Pipeline.unscopedRest (Ix := Unit) (Name := ℕ) (U := UR sig nD τ) (Lvl := ℕ) spec4 c (Ve4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Ve4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (Ve4 m) c
  hout c := hout4 (Ve4 m) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Ve4 m c) (Vx4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `We5`, left at `Wx5`.  Its arrays are split out of the unscoped
    buffers at entry and put back, at their final contents, at exit; the generator register goes into the pipeline's
    invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Ve5 m) c).loose
  hwaits := Pipeline.hwaits_of_owed_zero _ _ _ _ L lv 5 fun _ _ => rfl
  pre c := iprop(StableHlo.held (c : Thread nD τ) (Pipeline.ucRefs τ sig) (We5 m c) ∗ R c)
  post c := iprop(StableHlo.held (c : Thread nD τ) (Pipeline.ucRefs τ sig) (Wx5 m c) ∗ R c)
  X c := iprop(∃ r, prngReg c r)
  Y c := iprop(∃ r, prngReg c r)
  Z c := Pipeline.unscopedRest (Ix := Unit) (Name := ℕ) (U := UR sig nD τ) (Lvl := ℕ) spec5 c (Ve5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Ve5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Ve5 m c) (Vx5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `We6`, left at `Wx6`.  Its arrays are split out of the unscoped
    buffers at entry and put back, at their final contents, at exit; the generator register goes into the pipeline's
    invariant and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Ve6 m) c).loose
  hwaits := Pipeline.hwaits_of_owed_zero _ _ _ _ L lv 6 fun _ _ => rfl
  pre c := iprop(StableHlo.held (c : Thread nD τ) (Pipeline.ucRefs τ sig) (We6 m c) ∗ R c)
  post c := iprop(StableHlo.held (c : Thread nD τ) (Pipeline.ucRefs τ sig) (Wx6 m c) ∗ R c)
  X c := iprop(∃ r, prngReg c r)
  Y c := iprop(∃ r, prngReg c r)
  Z c := Pipeline.unscopedRest (Ix := Unit) (Name := ℕ) (U := UR sig nD τ) (Lvl := ℕ) spec6 c (Ve6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Ve6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Ve6 m c) (Vx6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `We7`, left at `Wx7`.  Its arrays are split out of the unscoped
    buffers at entry and put back, at their final contents, at exit; the generator register goes into the pipeline's
    invariant and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Ve7 m) c).loose
  hwaits := Pipeline.hwaits_of_owed_zero _ _ _ _ L lv 7 fun _ _ => rfl
  pre c := iprop(StableHlo.held (c : Thread nD τ) (Pipeline.ucRefs τ sig) (We7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (Ve7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Ve7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Ve7 m c) (Vx7 m c) ((pdats m 7 c).arrAt · cfg7.N) (hF7 m c) (hrest7 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's sixteen segments in order. -/
abbrev segs : List (Pipeline.Seg (pcfgs (F := F)) adm (pdats m) () defs₀ 𝒱₀ L lv) :=
  [ .host (hseg hostOps0 hostOps0_sub hostOps0_fresh (Wl m)),
    .region (reg0 m),
    .host (hseg hostOps1 hostOps1_sub hostOps1_fresh (Wx0 m)),
    .region (reg1 m),
    .host (hseg hostOps2 hostOps2_sub hostOps2_fresh (Wx1 m)),
    .region (reg2 m),
    .host (hseg hostOps3 hostOps3_sub hostOps3_fresh (Wx2 m)),
    .region (reg3 m),
    .host (hseg hostOps4 hostOps4_sub hostOps4_fresh (Wx3 m)),
    .region (reg4 m),
    .host (hseg hostOps5 hostOps5_sub hostOps5_fresh (Wx4 m)),
    .region (reg5 m),
    .host (hseg hostOps6 hostOps6_sub hostOps6_fresh (Wx5 m)),
    .region (reg6 m),
    .host (hseg hostOps7 hostOps7_sub hostOps7_fresh (Wx6 m)),
    .region (reg7 m) ]

/-- @main is the run of the segments. -/
theorem main_run (c : Dev nD) : main (F := F) c = Pipeline.Seg.run (segs m) := (main_chain c).trans (by chain_rfl)

set_option backward.isDefEq.respectTransparency.types false in
/-- Every weakly fair execution of @main from memory `m` with zero counters terminates, nothing faulting, and in the
    final memory every unscoped buffer of every core holds the last boundary's contents `Wx7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wx7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wx7 m c b)
    (hfin := fun c s' => by
      iintro ⟨⟨Hh, -⟩, HSI⟩
      unfold StableHlo.held
      imodintro
      iapply (pointsTo_read_all (Pipeline.ucRefs τ sig) (fun b => (((c : Thread nD τ)).1, b)) (Wx7 m c) s')
      isplitl [Hh] <;> iassumption)
    (hQ := fun s h c => h c)

end Cert.Kernel.Hand

end
-- ==== Proof.K.Frame.lean ====
/-
  The frame of the whole program: it runs to the end, faults nowhere, and every argument array ends as launched.
-/
import proofs.«131019_j5282809775007_1_alg».proof.Proof.K.Run

set_option maxRecDepth 16384

noncomputable section

namespace Cert.Kernel.Hand
open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The argument arrays end as launched

  No host operation writes an argument array, and no region has one as an output: the first region reads the node
  features through an input window (whose array the pipeline leaves as entered); the other four arguments are no
  window's array.  So the fold of the boundary contents at an argument walks back to the launch memory. -/

theorem Wx7_main_arg0 (c : Dev nD) : Wx7 m c (Proc.devRef .tc main_arg0) = m ((c : Thread nD τ).loc main_arg0) :=
  (Wx7_of_ne m c main_arg0 (by decide)).trans <|
    (StableHlo.after_of_writes_sub hostOps7 _ hostOps7_writes (by decide)).trans <|
    (Wx6_of_ne m c main_arg0 (by decide)).trans <|
    (StableHlo.after_of_writes_sub hostOps6 _ hostOps6_writes (by decide)).trans <|
    (Wx5_of_ne m c main_arg0 (by decide)).trans <|
    (StableHlo.after_of_writes_sub hostOps5 _ hostOps5_writes (by decide)).trans <|
    (Wx4_of_ne m c main_arg0 (by decide)).trans <|
    (StableHlo.after_of_writes_sub hostOps4 _ hostOps4_writes (by decide)).trans <|
    (Wx3_of_ne m c main_arg0 (by decide)).trans <|
    (StableHlo.after_of_writes_sub hostOps3 _ hostOps3_writes (by decide)).trans <|
    (Wx2_of_ne m c main_arg0 (by decide)).trans <|
    (StableHlo.after_of_writes_sub hostOps2 _ hostOps2_writes (by decide)).trans <|
    (Wx1_of_ne m c main_arg0 (by decide)).trans <|
    (StableHlo.after_of_writes_sub hostOps1 _ hostOps1_writes (by decide)).trans <|
    ((Wx0_arr m c 0).trans (((dat0 (Ve0 m) c).arrAt_in 0 rfl _).trans (A_eq0 (Ve0 m) c 0))).trans <|
    (StableHlo.after_of_writes_sub hostOps0 _ hostOps0_writes (by decide)).trans rfl
theorem Wx7_main_arg1 (c : Dev nD) : Wx7 m c (Proc.devRef .tc main_arg1) = m ((c : Thread nD τ).loc main_arg1) :=
  (Wx7_of_ne m c main_arg1 (by decide)).trans <|
    (StableHlo.after_of_writes_sub hostOps7 _ hostOps7_writes (by decide)).trans <|
    (Wx6_of_ne m c main_arg1 (by decide)).trans <|
    (StableHlo.after_of_writes_sub hostOps6 _ hostOps6_writes (by decide)).trans <|
    (Wx5_of_ne m c main_arg1 (by decide)).trans <|
    (StableHlo.after_of_writes_sub hostOps5 _ hostOps5_writes (by decide)).trans <|
    (Wx4_of_ne m c main_arg1 (by decide)).trans <|
    (StableHlo.after_of_writes_sub hostOps4 _ hostOps4_writes (by decide)).trans <|
    (Wx3_of_ne m c main_arg1 (by decide)).trans <|
    (StableHlo.after_of_writes_sub hostOps3 _ hostOps3_writes (by decide)).trans <|
    (Wx2_of_ne m c main_arg1 (by decide)).trans <|
    (StableHlo.after_of_writes_sub hostOps2 _ hostOps2_writes (by decide)).trans <|
    (Wx1_of_ne m c main_arg1 (by decide)).trans <|
    (StableHlo.after_of_writes_sub hostOps1 _ hostOps1_writes (by decide)).trans <|
    (Wx0_of_ne m c main_arg1 (by decide)).trans <|
    (StableHlo.after_of_writes_sub hostOps0 _ hostOps0_writes (by decide)).trans rfl
theorem Wx7_main_arg2 (c : Dev nD) : Wx7 m c (Proc.devRef .tc main_arg2) = m ((c : Thread nD τ).loc main_arg2) :=
  (Wx7_of_ne m c main_arg2 (by decide)).trans <|
    (StableHlo.after_of_writes_sub hostOps7 _ hostOps7_writes (by decide)).trans <|
    (Wx6_of_ne m c main_arg2 (by decide)).trans <|
    (StableHlo.after_of_writes_sub hostOps6 _ hostOps6_writes (by decide)).trans <|
    (Wx5_of_ne m c main_arg2 (by decide)).trans <|
    (StableHlo.after_of_writes_sub hostOps5 _ hostOps5_writes (by decide)).trans <|
    (Wx4_of_ne m c main_arg2 (by decide)).trans <|
    (StableHlo.after_of_writes_sub hostOps4 _ hostOps4_writes (by decide)).trans <|
    (Wx3_of_ne m c main_arg2 (by decide)).trans <|
    (StableHlo.after_of_writes_sub hostOps3 _ hostOps3_writes (by decide)).trans <|
    (Wx2_of_ne m c main_arg2 (by decide)).trans <|
    (StableHlo.after_of_writes_sub hostOps2 _ hostOps2_writes (by decide)).trans <|
    (Wx1_of_ne m c main_arg2 (by decide)).trans <|
    (StableHlo.after_of_writes_sub hostOps1 _ hostOps1_writes (by decide)).trans <|
    (Wx0_of_ne m c main_arg2 (by decide)).trans <|
    (StableHlo.after_of_writes_sub hostOps0 _ hostOps0_writes (by decide)).trans rfl
theorem Wx7_main_arg3 (c : Dev nD) : Wx7 m c (Proc.devRef .tc main_arg3) = m ((c : Thread nD τ).loc main_arg3) :=
  (Wx7_of_ne m c main_arg3 (by decide)).trans <|
    (StableHlo.after_of_writes_sub hostOps7 _ hostOps7_writes (by decide)).trans <|
    (Wx6_of_ne m c main_arg3 (by decide)).trans <|
    (StableHlo.after_of_writes_sub hostOps6 _ hostOps6_writes (by decide)).trans <|
    (Wx5_of_ne m c main_arg3 (by decide)).trans <|
    (StableHlo.after_of_writes_sub hostOps5 _ hostOps5_writes (by decide)).trans <|
    (Wx4_of_ne m c main_arg3 (by decide)).trans <|
    (StableHlo.after_of_writes_sub hostOps4 _ hostOps4_writes (by decide)).trans <|
    (Wx3_of_ne m c main_arg3 (by decide)).trans <|
    (StableHlo.after_of_writes_sub hostOps3 _ hostOps3_writes (by decide)).trans <|
    (Wx2_of_ne m c main_arg3 (by decide)).trans <|
    (StableHlo.after_of_writes_sub hostOps2 _ hostOps2_writes (by decide)).trans <|
    (Wx1_of_ne m c main_arg3 (by decide)).trans <|
    (StableHlo.after_of_writes_sub hostOps1 _ hostOps1_writes (by decide)).trans <|
    (Wx0_of_ne m c main_arg3 (by decide)).trans <|
    (StableHlo.after_of_writes_sub hostOps0 _ hostOps0_writes (by decide)).trans rfl
theorem Wx7_main_arg4 (c : Dev nD) : Wx7 m c (Proc.devRef .tc main_arg4) = m ((c : Thread nD τ).loc main_arg4) :=
  (Wx7_of_ne m c main_arg4 (by decide)).trans <|
    (StableHlo.after_of_writes_sub hostOps7 _ hostOps7_writes (by decide)).trans <|
    (Wx6_of_ne m c main_arg4 (by decide)).trans <|
    (StableHlo.after_of_writes_sub hostOps6 _ hostOps6_writes (by decide)).trans <|
    (Wx5_of_ne m c main_arg4 (by decide)).trans <|
    (StableHlo.after_of_writes_sub hostOps5 _ hostOps5_writes (by decide)).trans <|
    (Wx4_of_ne m c main_arg4 (by decide)).trans <|
    (StableHlo.after_of_writes_sub hostOps4 _ hostOps4_writes (by decide)).trans <|
    (Wx3_of_ne m c main_arg4 (by decide)).trans <|
    (StableHlo.after_of_writes_sub hostOps3 _ hostOps3_writes (by decide)).trans <|
    (Wx2_of_ne m c main_arg4 (by decide)).trans <|
    (StableHlo.after_of_writes_sub hostOps2 _ hostOps2_writes (by decide)).trans <|
    (Wx1_of_ne m c main_arg4 (by decide)).trans <|
    (StableHlo.after_of_writes_sub hostOps1 _ hostOps1_writes (by decide)).trans <|
    (Wx0_of_ne m c main_arg4 (by decide)).trans <|
    (StableHlo.after_of_writes_sub hostOps0 _ hostOps0_writes (by decide)).trans rfl

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wx7_main_arg0 m c),
     (h c _ (mem_uc main_arg1 (by decide))).trans (Wx7_main_arg1 m c),
     (h c _ (mem_uc main_arg2 (by decide))).trans (Wx7_main_arg2 m c),
     (h c _ (mem_uc main_arg3 (by decide))).trans (Wx7_main_arg3 m c),
     (h c _ (mem_uc main_arg4 (by decide))).trans (Wx7_main_arg4 m c)⟩) (run_all m ρ)

end Cert.Kernel.Hand

end
-- ==== Proof.KI.RegMatmul0.lean ====
import proofs.«131019_j5282809775007_1_alg».proof.Proof.Gen.KernelIdeal.Launch
import proofs.«131019_j5282809775007_1_alg».proof.Proof.Gen.KernelIdeal.Skeleton
import proofs.«131019_j5282809775007_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 0: one row tile times the weight matrix

At every grid point the body reads a 5000x128 row tile of the left operand and the whole 128x128 right
operand, narrows both to bf16, multiplies them into a zero accumulator, and stores the 5000x128 product
over the whole output tile. This file states what each window's staging buffer holds before and after the
body as a pure function of the arrays found when the region is entered, and proves the body's triple at
every grid point. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile window's current staging buffer holds its block at every point: it is fetched at every
    point, the window is uncut and never idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds its block at every point, fetched there (the first point) or
    not (every later point, where its block index has not moved and the body has left the block in place). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole row tile (and the whole output tile). -/
abbrev r0_tile : Rect S5000x128 := Rect.unit (s := S5000x128) ![0, 0] S5000x128.size inb_S5000x128_S5000x128_0_0
/-- The whole weight matrix. -/
abbrev r0_wt : Rect S128x128 := Rect.unit (s := S128x128) ![0, 0] S128x128.size inb_S128x128_S128x128_0_0

/-! ## What the body leaves in the output window's buffer -/

/-- The output tile after the body, from the two input blocks: its one store, the product of the narrowed
    row tile and the narrowed weight accumulated from zero, over the whole tile. -/
def out0_2 (x0 : Vec F S5000x128 .f32) (x1 : Vec F S128x128 .f32) : Vec F S5000x128 .f32 :=
  View.canon [⟨r0_tile, k0_pay1 (View.ld x0 r0_tile) (View.ld x1 r0_wt)⟩]

/-- The one store is the whole tile, so it covers it. -/
theorem cover0_2 (p0 : Vec F S5000x128 .f32) (y : S5000x128.Idx) :
    ∃ pc ∈ ([⟨r0_tile, p0⟩] : List (View.Piece (Elt F) S5000x128 .f32)), y ∈ pc.1.set :=
  View.cover_of_tiled [⟨r0_tile, p0⟩] S5000x128.size (by rfl) y

/-! ## The body's triple -/

set_option maxHeartbeats 1000000 in
/-- The kernel body on whole staging memrefs, the inputs' at read contents `x0`, `x1` and the output's at
    anything, runs to the continuation holding the inputs' as they were and the output's at `out0_2` of
    the inputs. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at
    point `t` each input's buffer at its block and the output's at `out0_2` of the input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.RegStats1.lean ====
import proofs.«131019_j5282809775007_1_alg».proof.Proof.Gen.KernelIdeal.Launch
import proofs.«131019_j5282809775007_1_alg».proof.Proof.Gen.KernelIdeal.Skeleton
import proofs.«131019_j5282809775007_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of region 1: column sums and column sums of squares of twenty row tiles,
    accumulated in two scratch rows carried from grid point to grid point -/

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point: the window is uncut, never idle, and
    the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The twenty row tiles of the input, as the region finds them. -/
abbrev tiles1 (c : Dev nD) : Fin cfg1.N → Vec F S5000x128 .f32 := fun t => iblk1 V c 0 t

/-! ## The running sums -/

/-- The row of column sums after the first `n` tiles: the zero row, then tile after tile its column sums added. -/
def out1_1 (x : Fin cfg1.N → Vec F S5000x128 .f32) : ℕ → Vec F S1x128 .f32
  | 0 => k1_pay1
  | n + 1 => if h : n < cfg1.N then k1_pay4 (x ⟨n, h⟩) (out1_1 x n) else out1_1 x n

/-- The row of column sums of squares after the first `n` tiles. -/
def out1_2 (x : Fin cfg1.N → Vec F S5000x128 .f32) : ℕ → Vec F S1x128 .f32
  | 0 => k1_pay2
  | n + 1 => if h : n < cfg1.N then k1_pay5 (x ⟨n, h⟩) (out1_2 x n) else out1_2 x n

theorem out1_1_succ (x : Fin cfg1.N → Vec F S5000x128 .f32) (t : Fin cfg1.N) :
    out1_1 x (t.val + 1) = k1_pay4 (x t) (out1_1 x t.val) := by
  rw [out1_1, dif_pos t.isLt]
theorem out1_2_succ (x : Fin cfg1.N → Vec F S5000x128 .f32) (t : Fin cfg1.N) :
    out1_2 x (t.val + 1) = k1_pay5 (x t) (out1_2 x t.val) := by
  rw [out1_2, dif_pos t.isLt]

/-! ## The invariant and the proof data -/

/-- The invariant before position `n`: the generator register at some state, every scoped buffer other than the two
    scratch rows at some contents, and the two scratch rows — before the first point at anything, before a later
    point `n` at the sums over the first `n` tiles. -/
def Φ1 (c : Dev nD) (n : ℕ) : sProp 𝕄 :=
  iprop((∃ r, prngReg c r)
    ∗ Pipeline.scopedRestBut (Ix := Unit) (Name := ℕ) (U := UR sig nD τ) (Lvl := ℕ) (Val := Elt F) spec1 c [cc1_scratch0, cc1_scratch1]
    ∗ ∃ s q : Vec F S1x128 .f32, ⌜n ≠ 0 → s = out1_1 (tiles1 V c) n ∧ q = out1_2 (tiles1 V c) n⌝
        ∗ owns (c : Thread nD τ) (Memref.whole cc1_scratch0) fullShare s
        ∗ owns (c : Thread nD τ) (Memref.whole cc1_scratch1) fullShare q)

/-- The proof data of the pipeline on core `c`: the arrays as the region finds them (`V`); after the body at point
    `t` the input's buffer at its block and the two output rows at the sums over the tiles up to `t` (read only at
    the last point, the one that writes them back); the invariant `Φ1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (tiles1 V c) (t.val + 1)
    | ⟨2, _⟩ => out1_2 (tiles1 V c) (t.val + 1)
  Φ t := Φ1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (tiles1 V c) (t.val + 1) := by dsimp only [dat1]
theorem after1_2 (c : Dev nD) (t : Fin cfg1.N) : (dat1 V c).after 2 t = out1_2 (tiles1 V c) (t.val + 1) := by dsimp only [dat1]

theorem Φ_eq1 (c : Dev nD) (t : Fin (cfg1.N + 1)) : (dat1 V c).Φ t = Φ1 V c t.val := by dsimp only [dat1]

theorem before1_0 (c : Dev nD) (t : Fin cfg1.N) (d) : (dat1 V c).before 0 t d = iblk1 V c 0 t :=
  before1_0_of V (dat1 V c) (A_eq1 V c 0) (after1_0 V c) t d

/-! ## The invariant at the two ends of the region -/

/-- Into the invariant: the two scratch rows are taken out of the scoped buffers, at whatever they hold. -/
theorem hin1 (c : Dev nD) :
    iprop((∃ r, prngReg c r) ∗ Pipeline.prefHeld (cfg1.toPCfg (Val := Elt F)).pre c (fun _ => fullShare) (cfg1.toPCfg_adm).1
        ∗ Pipeline.scopedRest (Ix := Unit) (Name := ℕ) (U := UR sig nD τ) (Lvl := ℕ) (Val := Elt F) cfg1.spec c)
      ⊢ (dat1 V c).Φ 0 := by
  rw [Φ_eq1, scopedRest1_split]; unfold Φ1
  iintro ⟨Hp, -, ⟨⟨%f0, H0⟩, ⟨%f1, H1⟩⟩, Hr⟩
  isplitl [Hp]; · iexact Hp
  isplitl [Hr]; · iexact Hr
  iexists f0; iexists f1
  isplitr; · ipureintro; intro h; exact absurd rfl h
  rw [owns_whole, owns_whole]
  isplitl [H0]; · iexact H0
  iexact H1

/-- Out of the invariant: the two scratch rows go back among the scoped buffers. -/
theorem hout1 (c : Dev nD) :
    (dat1 V c).Φ (Fin.last cfg1.N)
      ⊢ iprop((∃ r, prngReg c r) ∗ Pipeline.ownSems0 (Ix := Unit) (Name := ℕ) (U := UR sig nD τ) (Lvl := ℕ) (Val := Elt F) (fun k : PEmpty => k.elim) c
        ∗ Pipeline.scopedRest (Ix := Unit) (Name := ℕ) (U := UR sig nD τ) (Lvl := ℕ) (Val := Elt F) cfg1.spec c) := by
  rw [Φ_eq1, Pipeline.ownSems0_none, scopedRest1_split]; unfold Φ1
  simp only [owns_whole]
  iintro ⟨Hp, Hr, ⟨%s, %q, -, H0, H1⟩⟩
  isplitl [Hp]; · iexact Hp
  isplitr; · iempintro
  isplitr [Hr]
  swap; · iexact Hr
  isplitl [H0]
  · iexists s; iexact H0
  · iexists q; iexact H1

/-! ## The body's two branch conditions, over the grid -/

/-- The condition of the body's first conditional (zero the scratch rows): the grid coordinate is 0. -/
abbrev cond1_1 (i : grid1.Coords) : Prop :=
  (Scalar.cmpi .ne (Scalar.extui (Scalar.cmpi .eq (BitVec.ofNat 32 (i 0).val) 0#32)) 0#32) = 1#1

/-- It holds at the first point only; the second conditional's (copy the scratch rows out) at the last point only;
    the output windows are idle everywhere else — decided over the twenty points. -/
theorem hcond1_1 : ∀ t : Fin cfg1.N, cond1_1 (grid1.coords t) ↔ t.val % 20 = 0 :=
  (by decide +kernel : ∀ t : Fin grid1.N, cond1_1 (grid1.coords t) ↔ t.val % 20 = 0)
theorem hcond1_2 : ∀ t : Fin cfg1.N, k1_cond2 (grid1.coords t) = 1#1 ↔ t.val % 20 = 19 :=
  (by decide +kernel : ∀ t : Fin grid1.N, k1_cond2 (grid1.coords t) = 1#1 ↔ t.val % 20 = 19)
theorem hidle1_1 : ∀ t : Fin cfg1.N, cfg1.idle 1 (cfg1.grid.coords t) = !decide (t.val % 20 = 19) :=
  (by decide +kernel : ∀ t : Fin grid1.N, cfg1.idle 1 (cfg1.grid.coords t) = !decide (t.val % 20 = 19))
theorem hidle1_2 : ∀ t : Fin cfg1.N, cfg1.idle 2 (cfg1.grid.coords t) = !decide (t.val % 20 = 19) :=
  (by decide +kernel : ∀ t : Fin grid1.N, cfg1.idle 2 (cfg1.grid.coords t) = !decide (t.val % 20 = 19))

/-! ## Whole-row loads and stores -/

theorem zeros1 : (![0, 0] : Fin 2 → ℕ) = fun _ => 0 := by funext a; fin_cases a <;> rfl

set_option maxRecDepth 4096 in
/-- One store through the whole-row rectangle, LAST, leaves its payload, whatever the view, the prior contents and
    the earlier stores: its rectangle covers the row. -/
theorem read_store_row_cons1 {sp : Space} (v : View sig .tc sp S1x128 .f32) (f : v.ty.Contents (Elt F))
    (w : (Rect.unit (s := S1x128) ![0, 0] S1x128.size inb_S1x128_S1x128_0_0).shape.Idx → Elt F .f32)
    (L : List (View.Piece (Elt F) S1x128 .f32)) :
    v.read (Elt F) (v.writes (Elt F) f ((⟨Rect.unit (s := S1x128) ![0, 0] S1x128.size inb_S1x128_S1x128_0_0, w⟩ : View.Piece (Elt F) S1x128 .f32) :: L)) = w := by
  have hcov : ∀ y : S1x128.Idx, ∃ p ∈ ((⟨Rect.unit (s := S1x128) ![0, 0] S1x128.size inb_S1x128_S1x128_0_0, w⟩ : View.Piece (Elt F) S1x128 .f32) :: L), y ∈ p.1.set :=
    fun y => ⟨_, List.Mem.head _, View.mem_set_unit_zero (S := S1x128) zeros1 inb_S1x128_S1x128_0_0 y⟩
  rw [View.read_writes_eq_canon v f _ hcov, View.canon_cons_unit_zero (S := S1x128) zeros1 inb_S1x128_S1x128_0_0 w L]

/-- A load through the whole-row rectangle reads the row; through the whole-tile rectangle, the tile; a load of the
    row after one store of the whole row reads the stored row. -/
theorem ld_row1 (X : Vec F S1x128 .f32) : View.ld X (Rect.unit (s := S1x128) ![0, 0] S1x128.size inb_S1x128_S1x128_0_0) = X :=
  View.ld_unit_zero (S := S1x128) zeros1 inb_S1x128_S1x128_0_0 X
theorem ld_tile1 (X : Vec F S5000x128 .f32) : View.ld X (Rect.unit (s := S5000x128) ![0, 0] S5000x128.size inb_S5000x128_S5000x128_0_0) = X :=
  View.ld_unit_zero (S := S5000x128) zeros1 inb_S5000x128_S5000x128_0_0 X
theorem readCov_row1 {sp : Space} (v : View sig .tc sp S1x128 .f32)
    (w : (Rect.unit (s := S1x128) ![0, 0] S1x128.size inb_S1x128_S1x128_0_0).shape.Idx → Elt F .f32) :
    v.readCov [(⟨Rect.unit (s := S1x128) ![0, 0] S1x128.size inb_S1x128_S1x128_0_0, w⟩ : View.Piece (Elt F) S1x128 .f32)]
      (Rect.unit (s := S1x128) ![0, 0] S1x128.size inb_S1x128_S1x128_0_0).toLoadRect = w :=
  View.readCov_unit_zero v zeros1 inb_S1x128_S1x128_0_0 w

/-! ## The body's triple, case by case -/

set_option maxHeartbeats 1000000 in
/-- A MIDDLE point (neither conditional taken): each scratch row gains the tile's column sums (of squares); the
    tile and the two output rows are left as found. -/
theorem kernel1_mid (c : Dev nD) (E : Set ℕ) (i : grid1.Coords) (h1 : ¬ cond1_1 i) (h2 : ¬ k1_cond2 i = 1#1)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S5000x128 .f32) (y2 y3 s q : Vec F S1x128 .f32) (K : PUnit → sProp 𝕄) :
    iprop(owns (c : Thread nD τ) arg1 fullShare x ∗ owns (c : Thread nD τ) arg2 fullShare y2
        ∗ owns (c : Thread nD τ) arg3 fullShare y3 ∗ owns (c : Thread nD τ) arg4 fullShare s
        ∗ owns (c : Thread nD τ) arg5 fullShare q
        ∗ (iprop(owns (c : Thread nD τ) arg1 fullShare x ∗ owns (c : Thread nD τ) arg2 fullShare y2
            ∗ owns (c : Thread nD τ) arg3 fullShare y3 ∗ owns (c : Thread nD τ) arg4 fullShare (k1_pay4 x s)
            ∗ owns (c : Thread nD τ) arg5 fullShare (k1_pay5 x q)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_row_cons1, View.readAt_eq_ld, View.readAt_eq_ld, ld_row1, ld_tile1]
  · iexists _; isplitr
    swap; · iexact H5
    ipureintro
    rw [read_store_row_cons1, View.readAt_eq_ld, View.readAt_eq_ld, ld_row1, ld_tile1]

set_option maxHeartbeats 1000000 in
/-- The FIRST point (first conditional taken, second not): the scratch rows are zeroed, whatever they held, then gain
    the first tile's column sums (of squares). -/
theorem kernel1_first (c : Dev nD) (E : Set ℕ) (i : grid1.Coords) (h1 : cond1_1 i) (h2 : ¬ k1_cond2 i = 1#1)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S5000x128 .f32) (y2 y3 : Vec F S1x128 .f32) (K : PUnit → sProp 𝕄) :
    iprop(owns (c : Thread nD τ) arg1 fullShare x ∗ owns (c : Thread nD τ) arg2 fullShare y2
        ∗ owns (c : Thread nD τ) arg3 fullShare y3 ∗ (∃ s, owns (c : Thread nD τ) arg4 fullShare s)
        ∗ (∃ q, owns (c : Thread nD τ) arg5 fullShare q)
        ∗ (iprop(owns (c : Thread nD τ) arg1 fullShare x ∗ owns (c : Thread nD τ) arg2 fullShare y2
            ∗ owns (c : Thread nD τ) arg3 fullShare y3 ∗ owns (c : Thread nD τ) arg4 fullShare (k1_pay4 x k1_pay1)
            ∗ owns (c : Thread nD τ) arg5 fullShare (k1_pay5 x k1_pay2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%f2, %hf2, H2⟩, ⟨%f3, %hf3, H3⟩, ⟨%s, %f4, -, H4⟩, ⟨%q, %f5, -, H5⟩, Hk⟩
  subst hf1 hf2 hf3
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_row_cons1]; sl_unfold_run_names
    rw [readCov_row1, View.readAt_eq_ld, ld_tile1]
  · iexists _; isplitr
    swap; · iexact H5
    ipureintro
    rw [read_store_row_cons1]; sl_unfold_run_names
    rw [readCov_row1, View.readAt_eq_ld, ld_tile1]

set_option maxHeartbeats 1000000 in
/-- The LAST point (first conditional not taken, second taken): the scratch rows gain the last tile's sums and are
    then copied to the two output rows, whatever those held. -/
theorem kernel1_last (c : Dev nD) (E : Set ℕ) (i : grid1.Coords) (h1 : ¬ cond1_1 i) (h2 : k1_cond2 i = 1#1)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S5000x128 .f32) (s q : Vec F S1x128 .f32) (K : PUnit → sProp 𝕄) :
    iprop(owns (c : Thread nD τ) arg1 fullShare x ∗ (∃ y2, owns (c : Thread nD τ) arg2 fullShare y2)
        ∗ (∃ y3, owns (c : Thread nD τ) arg3 fullShare y3) ∗ owns (c : Thread nD τ) arg4 fullShare s
        ∗ owns (c : Thread nD τ) arg5 fullShare q
        ∗ (iprop(owns (c : Thread nD τ) arg1 fullShare x ∗ owns (c : Thread nD τ) arg2 fullShare (k1_pay4 x s)
            ∗ owns (c : Thread nD τ) arg3 fullShare (k1_pay5 x q) ∗ owns (c : Thread nD τ) arg4 fullShare (k1_pay4 x s)
            ∗ owns (c : Thread nD τ) arg5 fullShare (k1_pay5 x q)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%y2, %f2, -, H2⟩, ⟨%y3, %f3, -, H3⟩, ⟨%f4, %hf4, H4⟩, ⟨%f5, %hf5, H5⟩, Hk⟩
  subst hf1 hf4 hf5
  sl_exec (disch := first | exact h1 | exact h2)
  sl_step
  iapply Hk
  isplitl [H1]
  · iexists f1; isplitr; · ipureintro; rfl
    iexact H1
  isplitl [H2]
  · iexists _; isplitr
    swap; · iexact H2
    ipureintro
    rw [read_store_row_cons1]; sl_unfold_run_names
    rw [readCov_row1, View.readAt_eq_ld, View.readAt_eq_ld, ld_row1, ld_tile1]
  isplitl [H3]
  · iexists _; isplitr
    swap; · iexact H3
    ipureintro
    rw [read_store_row_cons1]; sl_unfold_run_names
    rw [readCov_row1, View.readAt_eq_ld, View.readAt_eq_ld, ld_row1, ld_tile1]
  isplitl [H4]
  · iexists _; isplitr
    swap; · iexact H4
    ipureintro
    sl_unfold_run_names
    rw [read_store_row_cons1, View.readAt_eq_ld, View.readAt_eq_ld, ld_row1, ld_tile1]
  · iexists _; isplitr
    swap; · iexact H5
    ipureintro
    sl_unfold_run_names
    rw [read_store_row_cons1, View.readAt_eq_ld, View.readAt_eq_ld, ld_row1, ld_tile1]

/-! ## The body obligation -/

theorem out1_1_zero (x : Fin cfg1.N → Vec F S5000x128 .f32) : out1_1 x 0 = k1_pay1 := rfl
theorem out1_2_zero (x : Fin cfg1.N → Vec F S5000x128 .f32) : out1_2 x 0 = k1_pay2 := rfl

/-- At a point where an output window is live (not idle), the obligation's post for it is the buffer at what the body leaves. -/
theorem leavesExact_live1 {c : Dev nD} (dat : Dat τ (Elt F) Unit ℕ (UR sig nD τ) ℕ cfg1 c) (w : Fin cfg1.W) (t : Fin cfg1.N)
    (hi : cfg1.idle w (cfg1.grid.coords t) = false) :
    dat.leavesExact w t = owns c ((cfg1.win w).stage (cfg1.slots t w)) fullShare (dat.after w t) := by
  unfold Dat.leavesExact; rw [hi]

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the input's buffer as found; each output row's buffer as found at a point idle for it, at the
    sums at the point that writes it back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (dat1 V c).leavesExact 1 t
    ∗ (dat1 V c).leavesExact 2 t)

set_option maxHeartbeats 1000000 in
/-- The body at any point, by the point's case: first (the scratch rows at anything), middle, last (the rows copied out).
    The scratch rows hold the sums over the tiles before the point and are left at the sums through it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl, after1_0, Φ_eq1, Φ_eq1,
    show (t.castSucc : Fin (cfg1.N + 1)).val = t.val from rfl, show (t.succ : Fin (cfg1.N + 1)).val = t.val + 1 from rfl]
  have hN : t.val < 20 := lt_of_lt_of_eq t.isLt (show cfg1.N = 20 from N_1)
  unfold Φ1
  by_cases h0 : t.val = 0
  · have hc1 : cond1_1 (grid1.coords t) := (hcond1_1 t).mpr (by omega)
    have hc2 : ¬ k1_cond2 (grid1.coords t) = 1#1 := fun h => by have := (hcond1_2 t).mp h; omega
    rw [Dat.leavesExact_idle (dat1 V c) 1 t (by rw [hidle1_1, decide_eq_false (by omega)]; rfl)
        (Bool.eq_false_iff.mpr fun h => by have := (flush1_1 _).mp h; omega),
      Dat.leavesExact_idle (dat1 V c) 2 t (by rw [hidle1_2, decide_eq_false (by omega)]; rfl)
        (Bool.eq_false_iff.mpr fun h => by have := (flush1_2 _).mp h; omega)]
    iintro ⟨⟨Hp, Hr, ⟨%s, %q, -, Hs, Hq⟩⟩, Ho, ⟨%d0, H0⟩, ⟨%d1, H1⟩, ⟨%d2, H2⟩⟩
    iapply (kernel1_first c Set.univ _ hc1 hc2 _ _ _ _ _ _ _ _ _ _ (iblk1 V c 0 t) _ _ _)
    isplitl [H0]; · iexact H0
    isplitl [H1]; · iexact H1
    isplitl [H2]; · iexact H2
    isplitl [Hs]; · iexists s; iexact Hs
    isplitl [Hq]; · iexists q; iexact Hq
    iintro ⟨H0, H1, H2, Hs, Hq⟩
    isplitl [Hp Hr Hs Hq]
    · isplitl [Hp]; · iexact Hp
      isplitl [Hr]; · iexact Hr
      iexists (k1_pay4 (iblk1 V c 0 t) k1_pay1); iexists (k1_pay5 (iblk1 V c 0 t) k1_pay2)
      isplitr
      · ipureintro; intro _
        exact ⟨by rw [out1_1_succ, h0, out1_1_zero], by rw [out1_2_succ, h0, out1_2_zero]⟩
      isplitl [Hs]; · iexact Hs
      iexact Hq
    isplitl [Ho]; · iexact Ho
    isplitl [H0]; · iexact H0
    isplitl [H1]; · iexists d1; iexact H1
    iexists d2; iexact H2
  by_cases h19 : t.val = 19
  · have hc1 : ¬ cond1_1 (grid1.coords t) := fun h => by have := (hcond1_1 t).mp h; omega
    have hc2 : k1_cond2 (grid1.coords t) = 1#1 := (hcond1_2 t).mpr (by omega)
    rw [leavesExact_live1 (dat1 V c) 1 t (by rw [hidle1_1, decide_eq_true (by omega)]; rfl),
      leavesExact_live1 (dat1 V c) 2 t (by rw [hidle1_2, decide_eq_true (by omega)]; rfl),
      after1_1, after1_2, out1_1_succ, out1_2_succ]
    iintro ⟨⟨Hp, Hr, ⟨%s, %q, %hsq, Hs, Hq⟩⟩, Ho, ⟨%d0, H0⟩, ⟨%d1, H1⟩, ⟨%d2, H2⟩⟩
    obtain ⟨rfl, rfl⟩ := hsq h0
    iapply (kernel1_last c Set.univ _ hc1 hc2 _ _ _ _ _ _ _ _ _ _ (iblk1 V c 0 t) _ _ _)
    isplitl [H0]; · iexact H0
    isplitl [H1]; · iexists _; iexact H1
    isplitl [H2]; · iexists _; iexact H2
    isplitl [Hs]; · iexact Hs
    isplitl [Hq]; · iexact Hq
    iintro ⟨H0, H1, H2, Hs, Hq⟩
    isplitl [Hp Hr Hs Hq]
    · isplitl [Hp]; · iexact Hp
      isplitl [Hr]; · iexact Hr
      iexists _; iexists _
      isplitr
      · ipureintro; intro _; exact ⟨rfl, rfl⟩
      isplitl [Hs]; · iexact Hs
      iexact Hq
    isplitl [Ho]; · iexact Ho
    isplitl [H0]; · iexact H0
    isplitl [H1]; · iexact H1
    iexact H2
  · have hc1 : ¬ cond1_1 (grid1.coords t) := fun h => by have := (hcond1_1 t).mp h; omega
    have hc2 : ¬ k1_cond2 (grid1.coords t) = 1#1 := fun h => by have := (hcond1_2 t).mp h; omega
    rw [Dat.leavesExact_idle (dat1 V c) 1 t (by rw [hidle1_1, decide_eq_false (by omega)]; rfl)
        (Bool.eq_false_iff.mpr fun h => by have := (flush1_1 _).mp h; omega),
      Dat.leavesExact_idle (dat1 V c) 2 t (by rw [hidle1_2, decide_eq_false (by omega)]; rfl)
        (Bool.eq_false_iff.mpr fun h => by have := (flush1_2 _).mp h; omega),
      out1_1_succ, out1_2_succ]
    iintro ⟨⟨Hp, Hr, ⟨%s, %q, %hsq, Hs, Hq⟩⟩, Ho, ⟨%d0, H0⟩, ⟨%d1, H1⟩, ⟨%d2, H2⟩⟩
    obtain ⟨rfl, rfl⟩ := hsq h0
    iapply (kernel1_mid c Set.univ _ hc1 hc2 _ _ _ _ _ _ _ _ _ _ (iblk1 V c 0 t) _ _ _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hp Hr Hs Hq]
    · isplitl [Hp]; · iexact Hp
      isplitl [Hr]; · iexact Hr
      iexists _; iexists _
      isplitr
      · ipureintro; intro _; exact ⟨rfl, rfl⟩
      isplitl [Hs]; · iexact Hs
      iexact Hq
    isplitl [Ho]; · iexact Ho
    isplitl [H0]; · iexact H0
    isplitl [H1]; · iexists d1; iexact H1
    iexists d2; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.RegBnRelu2.lean ====
/-
  The batch-norm + relu region 2 of the program, as one pipeline of six windows on a grid of twenty points:
  window 0 the 5000x128 row tile of the activations, windows 1-4 four whole 1x128 rows (mean, variance, scale,
  shift), window 5 the 5000x128 output tile.  The body reads each input buffer whole, computes
  max (((x - mean) * rsqrt (var + eps)) * gamma + beta, 0) elementwise with the rows broadcast down the tile,
  and stores the result over the whole output buffer.  Stated at any float instance and at any entry contents
  `V` of the core's buffers: each window's block at a point, what the body leaves in the output buffer as a
  function of the five input blocks, the proof data of the pipeline, and the body obligation at every point.
-/
import proofs.«131019_j5282809775007_1_alg».proof.Proof.Gen.KernelIdeal.Launch
import proofs.«131019_j5282809775007_1_alg».proof.Proof.Gen.KernelIdeal.Skeleton
import proofs.«131019_j5282809775007_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not: where the
    pipeline does not fetch, the block index has not moved since the last fetch (the four rows have a constant
    index map and are fetched once), and the body leaves every input buffer as it found it. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- The output buffer after the body, from the five input blocks (window order: tile, mean, variance, scale,
    shift): its one store, of the payload of the five whole loads, over the whole buffer. -/
def out2_5 (x0 : Vec F S5000x128 .f32) (x1 x2 x3 x4 : Vec F S1x128 .f32) : Vec F S5000x128 .f32 :=
  View.canon [⟨r2_0, k2_pay1 (View.ld x0 r2_0) (View.ld x2 r2_1) (View.ld x1 r2_1) (View.ld x3 r2_1) (View.ld x4 r2_1)⟩]

/-- The one store is of the whole buffer, so it covers it. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents `xW` and the output's at anything, runs
    to the continuation holding the inputs' as they were and the output's at `out2_5` of the inputs'. -/
theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the pipeline on core `c`: the arrays as the region finds them; after the body at point `t`
    each input's buffer at its block and the output's at `out2_5` of the input blocks; the invariant the plain
    class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

/-! Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.RegMatmul3.lean ====
import proofs.«131019_j5282809775007_1_alg».proof.Proof.Gen.KernelIdeal.Launch
import proofs.«131019_j5282809775007_1_alg».proof.Proof.Gen.KernelIdeal.Skeleton
import proofs.«131019_j5282809775007_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 3: one row tile times the weight matrix

At every grid point the body reads a 5000x128 row tile of the left operand and the whole 128x128 right
operand, narrows both to bf16, multiplies them into a zero accumulator, and stores the 5000x128 product
over the whole output tile. This file states what each window's staging buffer holds before and after the
body as a pure function of the arrays found when the region is entered, and proves the body's triple at
every grid point. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-tile window's current staging buffer holds its block at every point: it is fetched at every
    point, the window is uncut and never idle, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window's staging buffer holds its block at every point, fetched there (the first point) or
    not (every later point, where its block index has not moved and the body has left the block in place). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole row tile (and the whole output tile). -/
abbrev r3_tile : Rect S5000x128 := Rect.unit (s := S5000x128) ![0, 0] S5000x128.size inb_S5000x128_S5000x128_0_0
/-- The whole weight matrix. -/
abbrev r3_wt : Rect S128x128 := Rect.unit (s := S128x128) ![0, 0] S128x128.size inb_S128x128_S128x128_0_0

/-! ## What the body leaves in the output window's buffer -/

/-- The output tile after the body, from the two input blocks: its one store, the product of the narrowed
    row tile and the narrowed weight accumulated from zero, over the whole tile. -/
def out3_2 (x0 : Vec F S5000x128 .f32) (x1 : Vec F S128x128 .f32) : Vec F S5000x128 .f32 :=
  View.canon [⟨r3_tile, k3_pay1 (View.ld x0 r3_tile) (View.ld x1 r3_wt)⟩]

/-- The one store is the whole tile, so it covers it. -/
theorem cover3_2 (p0 : Vec F S5000x128 .f32) (y : S5000x128.Idx) :
    ∃ pc ∈ ([⟨r3_tile, p0⟩] : List (View.Piece (Elt F) S5000x128 .f32)), y ∈ pc.1.set :=
  View.cover_of_tiled [⟨r3_tile, p0⟩] S5000x128.size (by rfl) y

/-! ## The body's triple -/

set_option maxHeartbeats 1000000 in
/-- The kernel body on whole staging memrefs, the inputs' at read contents `x0`, `x1` and the output's at
    anything, runs to the continuation holding the inputs' as they were and the output's at `out3_2` of
    the inputs. -/
theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at
    point `t` each input's buffer at its block and the output's at `out3_2` of the input blocks; the
    invariant is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.RegStats4.lean ====
import proofs.«131019_j5282809775007_1_alg».proof.Proof.Gen.KernelIdeal.Launch
import proofs.«131019_j5282809775007_1_alg».proof.Proof.Gen.KernelIdeal.Skeleton
import proofs.«131019_j5282809775007_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel of region 4: column sums and column sums of squares of twenty row tiles,
    accumulated in two scratch rows carried from grid point to grid point -/

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's staging buffer holds its block at every point: the window is uncut, never idle, and
    the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The twenty row tiles of the input, as the region finds them. -/
abbrev tiles4 (c : Dev nD) : Fin cfg4.N → Vec F S5000x128 .f32 := fun t => iblk4 V c 0 t

/-! ## The running sums -/

/-- The row of column sums after the first `n` tiles: the zero row, then tile after tile its column sums added. -/
def out4_1 (x : Fin cfg4.N → Vec F S5000x128 .f32) : ℕ → Vec F S1x128 .f32
  | 0 => k4_pay1
  | n + 1 => if h : n < cfg4.N then k4_pay4 (x ⟨n, h⟩) (out4_1 x n) else out4_1 x n

/-- The row of column sums of squares after the first `n` tiles. -/
def out4_2 (x : Fin cfg4.N → Vec F S5000x128 .f32) : ℕ → Vec F S1x128 .f32
  | 0 => k4_pay2
  | n + 1 => if h : n < cfg4.N then k4_pay5 (x ⟨n, h⟩) (out4_2 x n) else out4_2 x n

theorem out4_1_succ (x : Fin cfg4.N → Vec F S5000x128 .f32) (t : Fin cfg4.N) :
    out4_1 x (t.val + 1) = k4_pay4 (x t) (out4_1 x t.val) := by
  rw [out4_1, dif_pos t.isLt]
theorem out4_2_succ (x : Fin cfg4.N → Vec F S5000x128 .f32) (t : Fin cfg4.N) :
    out4_2 x (t.val + 1) = k4_pay5 (x t) (out4_2 x t.val) := by
  rw [out4_2, dif_pos t.isLt]

/-! ## The invariant and the proof data -/

/-- The invariant before position `n`: the generator register at some state, every scoped buffer other than the two
    scratch rows at some contents, and the two scratch rows — before the first point at anything, before a later
    point `n` at the sums over the first `n` tiles. -/
def Φ4 (c : Dev nD) (n : ℕ) : sProp 𝕄 :=
  iprop((∃ r, prngReg c r)
    ∗ Pipeline.scopedRestBut (Ix := Unit) (Name := ℕ) (U := UR sig nD τ) (Lvl := ℕ) (Val := Elt F) spec4 c [cc4_scratch0, cc4_scratch1]
    ∗ ∃ s q : Vec F S1x128 .f32, ⌜n ≠ 0 → s = out4_1 (tiles4 V c) n ∧ q = out4_2 (tiles4 V c) n⌝
        ∗ owns (c : Thread nD τ) (Memref.whole cc4_scratch0) fullShare s
        ∗ owns (c : Thread nD τ) (Memref.whole cc4_scratch1) fullShare q)

/-- The proof data of the pipeline on core `c`: the arrays as the region finds them (`V`); after the body at point
    `t` the input's buffer at its block and the two output rows at the sums over the tiles up to `t` (read only at
    the last point, the one that writes them back); the invariant `Φ4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (tiles4 V c) (t.val + 1)
    | ⟨2, _⟩ => out4_2 (tiles4 V c) (t.val + 1)
  Φ t := Φ4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = out4_1 (tiles4 V c) (t.val + 1) := by dsimp only [dat4]
theorem after4_2 (c : Dev nD) (t : Fin cfg4.N) : (dat4 V c).after 2 t = out4_2 (tiles4 V c) (t.val + 1) := by dsimp only [dat4]

theorem Φ_eq4 (c : Dev nD) (t : Fin (cfg4.N + 1)) : (dat4 V c).Φ t = Φ4 V c t.val := by dsimp only [dat4]

theorem before4_0 (c : Dev nD) (t : Fin cfg4.N) (d) : (dat4 V c).before 0 t d = iblk4 V c 0 t :=
  before4_0_of V (dat4 V c) (A_eq4 V c 0) (after4_0 V c) t d

/-! ## The invariant at the two ends of the region -/

/-- Into the invariant: the two scratch rows are taken out of the scoped buffers, at whatever they hold. -/
theorem hin4 (c : Dev nD) :
    iprop((∃ r, prngReg c r) ∗ Pipeline.prefHeld (cfg4.toPCfg (Val := Elt F)).pre c (fun _ => fullShare) (cfg4.toPCfg_adm).1
        ∗ Pipeline.scopedRest (Ix := Unit) (Name := ℕ) (U := UR sig nD τ) (Lvl := ℕ) (Val := Elt F) cfg4.spec c)
      ⊢ (dat4 V c).Φ 0 := by
  rw [Φ_eq4, scopedRest4_split]; unfold Φ4
  iintro ⟨Hp, -, ⟨⟨%f0, H0⟩, ⟨%f1, H1⟩⟩, Hr⟩
  isplitl [Hp]; · iexact Hp
  isplitl [Hr]; · iexact Hr
  iexists f0; iexists f1
  isplitr; · ipureintro; intro h; exact absurd rfl h
  rw [owns_whole, owns_whole]
  isplitl [H0]; · iexact H0
  iexact H1

/-- Out of the invariant: the two scratch rows go back among the scoped buffers. -/
theorem hout4 (c : Dev nD) :
    (dat4 V c).Φ (Fin.last cfg4.N)
      ⊢ iprop((∃ r, prngReg c r) ∗ Pipeline.ownSems0 (Ix := Unit) (Name := ℕ) (U := UR sig nD τ) (Lvl := ℕ) (Val := Elt F) (fun k : PEmpty => k.elim) c
        ∗ Pipeline.scopedRest (Ix := Unit) (Name := ℕ) (U := UR sig nD τ) (Lvl := ℕ) (Val := Elt F) cfg4.spec c) := by
  rw [Φ_eq4, Pipeline.ownSems0_none, scopedRest4_split]; unfold Φ4
  simp only [owns_whole]
  iintro ⟨Hp, Hr, ⟨%s, %q, -, H0, H1⟩⟩
  isplitl [Hp]; · iexact Hp
  isplitr; · iempintro
  isplitr [Hr]
  swap; · iexact Hr
  isplitl [H0]
  · iexists s; iexact H0
  · iexists q; iexact H1

/-! ## The body's two branch conditions, over the grid -/

/-- The condition of the body's first conditional (zero the scratch rows): the grid coordinate is 0. -/
abbrev cond4_1 (i : grid4.Coords) : Prop :=
  (Scalar.cmpi .ne (Scalar.extui (Scalar.cmpi .eq (BitVec.ofNat 32 (i 0).val) 0#32)) 0#32) = 1#1

/-- It holds at the first point only; the second conditional's (copy the scratch rows out) at the last point only;
    the output windows are idle everywhere else — decided over the twenty points. -/
theorem hcond4_1 : ∀ t : Fin cfg4.N, cond4_1 (grid4.coords t) ↔ t.val % 20 = 0 :=
  (by decide +kernel : ∀ t : Fin grid4.N, cond4_1 (grid4.coords t) ↔ t.val % 20 = 0)
theorem hcond4_2 : ∀ t : Fin cfg4.N, k4_cond2 (grid4.coords t) = 1#1 ↔ t.val % 20 = 19 :=
  (by decide +kernel : ∀ t : Fin grid4.N, k4_cond2 (grid4.coords t) = 1#1 ↔ t.val % 20 = 19)
theorem hidle4_1 : ∀ t : Fin cfg4.N, cfg4.idle 1 (cfg4.grid.coords t) = !decide (t.val % 20 = 19) :=
  (by decide +kernel : ∀ t : Fin grid4.N, cfg4.idle 1 (cfg4.grid.coords t) = !decide (t.val % 20 = 19))
theorem hidle4_2 : ∀ t : Fin cfg4.N, cfg4.idle 2 (cfg4.grid.coords t) = !decide (t.val % 20 = 19) :=
  (by decide +kernel : ∀ t : Fin grid4.N, cfg4.idle 2 (cfg4.grid.coords t) = !decide (t.val % 20 = 19))

/-! ## Whole-row loads and stores -/

theorem zeros4 : (![0, 0] : Fin 2 → ℕ) = fun _ => 0 := by funext a; fin_cases a <;> rfl

set_option maxRecDepth 4096 in
/-- One store through the whole-row rectangle, LAST, leaves its payload, whatever the view, the prior contents and
    the earlier stores: its rectangle covers the row. -/
theorem read_store_row_cons4 {sp : Space} (v : View sig .tc sp S1x128 .f32) (f : v.ty.Contents (Elt F))
    (w : (Rect.unit (s := S1x128) ![0, 0] S1x128.size inb_S1x128_S1x128_0_0).shape.Idx → Elt F .f32)
    (L : List (View.Piece (Elt F) S1x128 .f32)) :
    v.read (Elt F) (v.writes (Elt F) f ((⟨Rect.unit (s := S1x128) ![0, 0] S1x128.size inb_S1x128_S1x128_0_0, w⟩ : View.Piece (Elt F) S1x128 .f32) :: L)) = w := by
  have hcov : ∀ y : S1x128.Idx, ∃ p ∈ ((⟨Rect.unit (s := S1x128) ![0, 0] S1x128.size inb_S1x128_S1x128_0_0, w⟩ : View.Piece (Elt F) S1x128 .f32) :: L), y ∈ p.1.set :=
    fun y => ⟨_, List.Mem.head _, View.mem_set_unit_zero (S := S1x128) zeros4 inb_S1x128_S1x128_0_0 y⟩
  rw [View.read_writes_eq_canon v f _ hcov, View.canon_cons_unit_zero (S := S1x128) zeros4 inb_S1x128_S1x128_0_0 w L]

/-- A load through the whole-row rectangle reads the row; through the whole-tile rectangle, the tile; a load of the
    row after one store of the whole row reads the stored row. -/
theorem ld_row4 (X : Vec F S1x128 .f32) : View.ld X (Rect.unit (s := S1x128) ![0, 0] S1x128.size inb_S1x128_S1x128_0_0) = X :=
  View.ld_unit_zero (S := S1x128) zeros4 inb_S1x128_S1x128_0_0 X
theorem ld_tile4 (X : Vec F S5000x128 .f32) : View.ld X (Rect.unit (s := S5000x128) ![0, 0] S5000x128.size inb_S5000x128_S5000x128_0_0) = X :=
  View.ld_unit_zero (S := S5000x128) zeros4 inb_S5000x128_S5000x128_0_0 X
theorem readCov_row4 {sp : Space} (v : View sig .tc sp S1x128 .f32)
    (w : (Rect.unit (s := S1x128) ![0, 0] S1x128.size inb_S1x128_S1x128_0_0).shape.Idx → Elt F .f32) :
    v.readCov [(⟨Rect.unit (s := S1x128) ![0, 0] S1x128.size inb_S1x128_S1x128_0_0, w⟩ : View.Piece (Elt F) S1x128 .f32)]
      (Rect.unit (s := S1x128) ![0, 0] S1x128.size inb_S1x128_S1x128_0_0).toLoadRect = w :=
  View.readCov_unit_zero v zeros4 inb_S1x128_S1x128_0_0 w

/-! ## The body's triple, case by case -/

set_option maxHeartbeats 1000000 in
/-- A MIDDLE point (neither conditional taken): each scratch row gains the tile's column sums (of squares); the
    tile and the two output rows are left as found. -/
theorem kernel4_mid (c : Dev nD) (E : Set ℕ) (i : grid4.Coords) (h1 : ¬ cond4_1 i) (h2 : ¬ k4_cond2 i = 1#1)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S5000x128 .f32) (y2 y3 s q : Vec F S1x128 .f32) (K : PUnit → sProp 𝕄) :
    iprop(owns (c : Thread nD τ) arg1 fullShare x ∗ owns (c : Thread nD τ) arg2 fullShare y2
        ∗ owns (c : Thread nD τ) arg3 fullShare y3 ∗ owns (c : Thread nD τ) arg4 fullShare s
        ∗ owns (c : Thread nD τ) arg5 fullShare q
        ∗ (iprop(owns (c : Thread nD τ) arg1 fullShare x ∗ owns (c : Thread nD τ) arg2 fullShare y2
            ∗ owns (c : Thread nD τ) arg3 fullShare y3 ∗ owns (c : Thread nD τ) arg4 fullShare (k4_pay4 x s)
            ∗ owns (c : Thread nD τ) arg5 fullShare (k4_pay5 x q)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_row_cons4, View.readAt_eq_ld, View.readAt_eq_ld, ld_row4, ld_tile4]
  · iexists _; isplitr
    swap; · iexact H5
    ipureintro
    rw [read_store_row_cons4, View.readAt_eq_ld, View.readAt_eq_ld, ld_row4, ld_tile4]

set_option maxHeartbeats 1000000 in
/-- The FIRST point (first conditional taken, second not): the scratch rows are zeroed, whatever they held, then gain
    the first tile's column sums (of squares). -/
theorem kernel4_first (c : Dev nD) (E : Set ℕ) (i : grid4.Coords) (h1 : cond4_1 i) (h2 : ¬ k4_cond2 i = 1#1)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S5000x128 .f32) (y2 y3 : Vec F S1x128 .f32) (K : PUnit → sProp 𝕄) :
    iprop(owns (c : Thread nD τ) arg1 fullShare x ∗ owns (c : Thread nD τ) arg2 fullShare y2
        ∗ owns (c : Thread nD τ) arg3 fullShare y3 ∗ (∃ s, owns (c : Thread nD τ) arg4 fullShare s)
        ∗ (∃ q, owns (c : Thread nD τ) arg5 fullShare q)
        ∗ (iprop(owns (c : Thread nD τ) arg1 fullShare x ∗ owns (c : Thread nD τ) arg2 fullShare y2
            ∗ owns (c : Thread nD τ) arg3 fullShare y3 ∗ owns (c : Thread nD τ) arg4 fullShare (k4_pay4 x k4_pay1)
            ∗ owns (c : Thread nD τ) arg5 fullShare (k4_pay5 x k4_pay2)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f1, %hf1, H1⟩, ⟨%f2, %hf2, H2⟩, ⟨%f3, %hf3, H3⟩, ⟨%s, %f4, -, H4⟩, ⟨%q, %f5, -, H5⟩, Hk⟩
  subst hf1 hf2 hf3
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_row_cons4]; sl_unfold_run_names
    rw [readCov_row4, View.readAt_eq_ld, ld_tile4]
  · iexists _; isplitr
    swap; · iexact H5
    ipureintro
    rw [read_store_row_cons4]; sl_unfold_run_names
    rw [readCov_row4, View.readAt_eq_ld, ld_tile4]

set_option maxHeartbeats 1000000 in
/-- The LAST point (first conditional not taken, second taken): the scratch rows gain the last tile's sums and are
    then copied to the two output rows, whatever those held. -/
theorem kernel4_last (c : Dev nD) (E : Set ℕ) (i : grid4.Coords) (h1 : ¬ cond4_1 i) (h2 : k4_cond2 i = 1#1)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (x : Vec F S5000x128 .f32) (s q : Vec F S1x128 .f32) (K : PUnit → sProp 𝕄) :
    iprop(owns (c : Thread nD τ) arg1 fullShare x ∗ (∃ y2, owns (c : Thread nD τ) arg2 fullShare y2)
        ∗ (∃ y3, owns (c : Thread nD τ) arg3 fullShare y3) ∗ owns (c : Thread nD τ) arg4 fullShare s
        ∗ owns (c : Thread nD τ) arg5 fullShare q
        ∗ (iprop(owns (c : Thread nD τ) arg1 fullShare x ∗ owns (c : Thread nD τ) arg2 fullShare (k4_pay4 x s)
            ∗ owns (c : Thread nD τ) arg3 fullShare (k4_pay5 x q) ∗ owns (c : Thread nD τ) arg4 fullShare (k4_pay4 x s)
            ∗ owns (c : Thread nD τ) arg5 fullShare (k4_pay5 x q)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f1, %hf1, H1⟩, ⟨%y2, %f2, -, H2⟩, ⟨%y3, %f3, -, H3⟩, ⟨%f4, %hf4, H4⟩, ⟨%f5, %hf5, H5⟩, Hk⟩
  subst hf1 hf4 hf5
  sl_exec (disch := first | exact h1 | exact h2)
  sl_step
  iapply Hk
  isplitl [H1]
  · iexists f1; isplitr; · ipureintro; rfl
    iexact H1
  isplitl [H2]
  · iexists _; isplitr
    swap; · iexact H2
    ipureintro
    rw [read_store_row_cons4]; sl_unfold_run_names
    rw [readCov_row4, View.readAt_eq_ld, View.readAt_eq_ld, ld_row4, ld_tile4]
  isplitl [H3]
  · iexists _; isplitr
    swap; · iexact H3
    ipureintro
    rw [read_store_row_cons4]; sl_unfold_run_names
    rw [readCov_row4, View.readAt_eq_ld, View.readAt_eq_ld, ld_row4, ld_tile4]
  isplitl [H4]
  · iexists _; isplitr
    swap; · iexact H4
    ipureintro
    sl_unfold_run_names
    rw [read_store_row_cons4, View.readAt_eq_ld, View.readAt_eq_ld, ld_row4, ld_tile4]
  · iexists _; isplitr
    swap; · iexact H5
    ipureintro
    sl_unfold_run_names
    rw [read_store_row_cons4, View.readAt_eq_ld, View.readAt_eq_ld, ld_row4, ld_tile4]

/-! ## The body obligation -/

theorem out4_1_zero (x : Fin cfg4.N → Vec F S5000x128 .f32) : out4_1 x 0 = k4_pay1 := rfl
theorem out4_2_zero (x : Fin cfg4.N → Vec F S5000x128 .f32) : out4_2 x 0 = k4_pay2 := rfl

/-- At a point where an output window is live (not idle), the obligation's post for it is the buffer at what the body leaves. -/
theorem leavesExact_live4 {c : Dev nD} (dat : Dat τ (Elt F) Unit ℕ (UR sig nD τ) ℕ cfg4 c) (w : Fin cfg4.W) (t : Fin cfg4.N)
    (hi : cfg4.idle w (cfg4.grid.coords t) = false) :
    dat.leavesExact w t = owns c ((cfg4.win w).stage (cfg4.slots t w)) fullShare (dat.after w t) := by
  unfold Dat.leavesExact; rw [hi]

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: the input's buffer as found; each output row's buffer as found at a point idle for it, at the
    sums at the point that writes it back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ (dat4 V c).leavesExact 1 t
    ∗ (dat4 V c).leavesExact 2 t)

set_option maxHeartbeats 1000000 in
/-- The body at any point, by the point's case: first (the scratch rows at anything), middle, last (the rows copied out).
    The scratch rows hold the sums over the tiles before the point and are left at the sums through it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl, after4_0, Φ_eq4, Φ_eq4,
    show (t.castSucc : Fin (cfg4.N + 1)).val = t.val from rfl, show (t.succ : Fin (cfg4.N + 1)).val = t.val + 1 from rfl]
  have hN : t.val < 20 := lt_of_lt_of_eq t.isLt (show cfg4.N = 20 from N_4)
  unfold Φ4
  by_cases h0 : t.val = 0
  · have hc1 : cond4_1 (grid4.coords t) := (hcond4_1 t).mpr (by omega)
    have hc2 : ¬ k4_cond2 (grid4.coords t) = 1#1 := fun h => by have := (hcond4_2 t).mp h; omega
    rw [Dat.leavesExact_idle (dat4 V c) 1 t (by rw [hidle4_1, decide_eq_false (by omega)]; rfl)
        (Bool.eq_false_iff.mpr fun h => by have := (flush4_1 _).mp h; omega),
      Dat.leavesExact_idle (dat4 V c) 2 t (by rw [hidle4_2, decide_eq_false (by omega)]; rfl)
        (Bool.eq_false_iff.mpr fun h => by have := (flush4_2 _).mp h; omega)]
    iintro ⟨⟨Hp, Hr, ⟨%s, %q, -, Hs, Hq⟩⟩, Ho, ⟨%d0, H0⟩, ⟨%d1, H1⟩, ⟨%d2, H2⟩⟩
    iapply (kernel4_first c Set.univ _ hc1 hc2 _ _ _ _ _ _ _ _ _ _ (iblk4 V c 0 t) _ _ _)
    isplitl [H0]; · iexact H0
    isplitl [H1]; · iexact H1
    isplitl [H2]; · iexact H2
    isplitl [Hs]; · iexists s; iexact Hs
    isplitl [Hq]; · iexists q; iexact Hq
    iintro ⟨H0, H1, H2, Hs, Hq⟩
    isplitl [Hp Hr Hs Hq]
    · isplitl [Hp]; · iexact Hp
      isplitl [Hr]; · iexact Hr
      iexists (k4_pay4 (iblk4 V c 0 t) k4_pay1); iexists (k4_pay5 (iblk4 V c 0 t) k4_pay2)
      isplitr
      · ipureintro; intro _
        exact ⟨by rw [out4_1_succ, h0, out4_1_zero], by rw [out4_2_succ, h0, out4_2_zero]⟩
      isplitl [Hs]; · iexact Hs
      iexact Hq
    isplitl [Ho]; · iexact Ho
    isplitl [H0]; · iexact H0
    isplitl [H1]; · iexists d1; iexact H1
    iexists d2; iexact H2
  by_cases h19 : t.val = 19
  · have hc1 : ¬ cond4_1 (grid4.coords t) := fun h => by have := (hcond4_1 t).mp h; omega
    have hc2 : k4_cond2 (grid4.coords t) = 1#1 := (hcond4_2 t).mpr (by omega)
    rw [leavesExact_live4 (dat4 V c) 1 t (by rw [hidle4_1, decide_eq_true (by omega)]; rfl),
      leavesExact_live4 (dat4 V c) 2 t (by rw [hidle4_2, decide_eq_true (by omega)]; rfl),
      after4_1, after4_2, out4_1_succ, out4_2_succ]
    iintro ⟨⟨Hp, Hr, ⟨%s, %q, %hsq, Hs, Hq⟩⟩, Ho, ⟨%d0, H0⟩, ⟨%d1, H1⟩, ⟨%d2, H2⟩⟩
    obtain ⟨rfl, rfl⟩ := hsq h0
    iapply (kernel4_last c Set.univ _ hc1 hc2 _ _ _ _ _ _ _ _ _ _ (iblk4 V c 0 t) _ _ _)
    isplitl [H0]; · iexact H0
    isplitl [H1]; · iexists _; iexact H1
    isplitl [H2]; · iexists _; iexact H2
    isplitl [Hs]; · iexact Hs
    isplitl [Hq]; · iexact Hq
    iintro ⟨H0, H1, H2, Hs, Hq⟩
    isplitl [Hp Hr Hs Hq]
    · isplitl [Hp]; · iexact Hp
      isplitl [Hr]; · iexact Hr
      iexists _; iexists _
      isplitr
      · ipureintro; intro _; exact ⟨rfl, rfl⟩
      isplitl [Hs]; · iexact Hs
      iexact Hq
    isplitl [Ho]; · iexact Ho
    isplitl [H0]; · iexact H0
    isplitl [H1]; · iexact H1
    iexact H2
  · have hc1 : ¬ cond4_1 (grid4.coords t) := fun h => by have := (hcond4_1 t).mp h; omega
    have hc2 : ¬ k4_cond2 (grid4.coords t) = 1#1 := fun h => by have := (hcond4_2 t).mp h; omega
    rw [Dat.leavesExact_idle (dat4 V c) 1 t (by rw [hidle4_1, decide_eq_false (by omega)]; rfl)
        (Bool.eq_false_iff.mpr fun h => by have := (flush4_1 _).mp h; omega),
      Dat.leavesExact_idle (dat4 V c) 2 t (by rw [hidle4_2, decide_eq_false (by omega)]; rfl)
        (Bool.eq_false_iff.mpr fun h => by have := (flush4_2 _).mp h; omega),
      out4_1_succ, out4_2_succ]
    iintro ⟨⟨Hp, Hr, ⟨%s, %q, %hsq, Hs, Hq⟩⟩, Ho, ⟨%d0, H0⟩, ⟨%d1, H1⟩, ⟨%d2, H2⟩⟩
    obtain ⟨rfl, rfl⟩ := hsq h0
    iapply (kernel4_mid c Set.univ _ hc1 hc2 _ _ _ _ _ _ _ _ _ _ (iblk4 V c 0 t) _ _ _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hp Hr Hs Hq]
    · isplitl [Hp]; · iexact Hp
      isplitl [Hr]; · iexact Hr
      iexists _; iexists _
      isplitr
      · ipureintro; intro _; exact ⟨rfl, rfl⟩
      isplitl [Hs]; · iexact Hs
      iexact Hq
    isplitl [Ho]; · iexact Ho
    isplitl [H0]; · iexact H0
    isplitl [H1]; · iexists d1; iexact H1
    iexists d2; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.RegBnRelu5.lean ====
/-
  The batch-norm + relu region 5 of the program, as one pipeline of six windows on a grid of twenty points:
  window 0 the 5000x128 row tile of the activations, windows 1-4 four whole 1x128 rows (mean, variance, scale,
  shift), window 5 the 5000x128 output tile.  The body reads each input buffer whole, computes
  max (((x - mean) * rsqrt (var + eps)) * gamma + beta, 0) elementwise with the rows broadcast down the tile,
  and stores the result over the whole output buffer.  Stated at any float instance and at any entry contents
  `V` of the core's buffers: each window's block at a point, what the body leaves in the output buffer as a
  function of the five input blocks, the proof data of the pipeline, and the body obligation at every point.
-/
import proofs.«131019_j5282809775007_1_alg».proof.Proof.Gen.KernelIdeal.Launch
import proofs.«131019_j5282809775007_1_alg».proof.Proof.Gen.KernelIdeal.Skeleton
import proofs.«131019_j5282809775007_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current staging buffer holds its block at every point, fetched there or not: where the
    pipeline does not fetch, the block index has not moved since the last fetch (the four rows have a constant
    index map and are fetched once), and the body leaves every input buffer as it found it. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- The output buffer after the body, from the five input blocks (window order: tile, mean, variance, scale,
    shift): its one store, of the payload of the five whole loads, over the whole buffer. -/
def out5_5 (x0 : Vec F S5000x128 .f32) (x1 x2 x3 x4 : Vec F S1x128 .f32) : Vec F S5000x128 .f32 :=
  View.canon [⟨r5_0, k5_pay1 (View.ld x0 r5_0) (View.ld x2 r5_1) (View.ld x1 r5_1) (View.ld x3 r5_1) (View.ld x4 r5_1)⟩]

/-- The one store is of the whole buffer, so it covers it. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `xW` and the output's at anything, runs
    to the continuation holding the inputs' as they were and the output's at `out5_5` of the inputs'. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the pipeline on core `c`: the arrays as the region finds them; after the body at point `t`
    each input's buffer at its block and the output's at `out5_5` of the input blocks; the invariant the plain
    class's (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-! What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

/-! Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.RegMatmul6.lean ====
import proofs.«131019_j5282809775007_1_alg».proof.Proof.Gen.KernelIdeal.Launch
import proofs.«131019_j5282809775007_1_alg».proof.Proof.Gen.KernelIdeal.Skeleton
import proofs.«131019_j5282809775007_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 6: one row tile times the weight matrix

At every grid point the body reads a 5000x128 row tile of the left operand and the whole 128x128 right
operand, narrows both to bf16, multiplies them into a zero accumulator, and stores the 5000x128 product
over the whole output tile. This file states what each window's staging buffer holds before and after the
body as a pure function of the arrays found when the region is entered, and proves the body's triple at
every grid point. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row-tile window's current staging buffer holds its block at every point: it is fetched at every
    point, the window is uncut and never idle, and the body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight window's staging buffer holds its block at every point, fetched there (the first point) or
    not (every later point, where its block index has not moved and the body has left the block in place). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole row tile (and the whole output tile). -/
abbrev r6_tile : Rect S5000x128 := Rect.unit (s := S5000x128) ![0, 0] S5000x128.size inb_S5000x128_S5000x128_0_0
/-- The whole weight matrix. -/
abbrev r6_wt : Rect S128x128 := Rect.unit (s := S128x128) ![0, 0] S128x128.size inb_S128x128_S128x128_0_0

/-! ## What the body leaves in the output window's buffer -/

/-- The output tile after the body, from the two input blocks: its one store, the product of the narrowed
    row tile and the narrowed weight accumulated from zero, over the whole tile. -/
def out6_2 (x0 : Vec F S5000x128 .f32) (x1 : Vec F S128x128 .f32) : Vec F S5000x128 .f32 :=
  View.canon [⟨r6_tile, k6_pay1 (View.ld x0 r6_tile) (View.ld x1 r6_wt)⟩]

/-- The one store is the whole tile, so it covers it. -/
theorem cover6_2 (p0 : Vec F S5000x128 .f32) (y : S5000x128.Idx) :
    ∃ pc ∈ ([⟨r6_tile, p0⟩] : List (View.Piece (Elt F) S5000x128 .f32)), y ∈ pc.1.set :=
  View.cover_of_tiled [⟨r6_tile, p0⟩] S5000x128.size (by rfl) y

/-! ## The body's triple -/

set_option maxHeartbeats 1000000 in
/-- The kernel body on whole staging memrefs, the inputs' at read contents `x0`, `x1` and the output's at
    anything, runs to the continuation holding the inputs' as they were and the output's at `out6_2` of
    the inputs. -/
theorem sound_kernel6 (c : Dev nD) (E : Set ℕ) (i : grid6.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of this pipeline on core `c`: the arrays as the region finds them; after the body at
    point `t` each input's buffer at its block and the output's at `out6_2` of the input blocks; the
    invariant is the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the
    invariant and the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.RegLogSoftmax7.lean ====
import proofs.«131019_j5282809775007_1_alg».proof.Proof.Gen.KernelIdeal.Launch
import proofs.«131019_j5282809775007_1_alg».proof.Proof.Gen.KernelIdeal.Skeleton
import proofs.«131019_j5282809775007_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 7: the row-wise log-softmax of one row tile

At every grid point the body reads a 5000x128 row tile, takes each row's maximum over the 128 lanes,
subtracts it, exponentiates, sums each row over the lanes, takes the logarithm of the sums, subtracts that
too, and stores the result over the whole 5000x128 output tile. This file states what each window's
staging buffer holds before and after the body as a pure function of the arrays found when the region is
entered, and proves the body's triple at every grid point. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current staging buffer holds its block at every point: it is fetched at every
    point, the window is uncut and never idle, and the body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole row tile (and the whole output tile). -/
abbrev r7_tile : Rect S5000x128 := Rect.unit (s := S5000x128) ![0, 0] S5000x128.size inb_S5000x128_S5000x128_0_0

/-! ## What the body leaves in the output window's buffer -/

/-- The output tile after the body, from the input block: its one store, the log-softmax of the rows of
    the tile, over the whole tile. -/
def out7_1 (x0 : Vec F S5000x128 .f32) : Vec F S5000x128 .f32 :=
  View.canon [⟨r7_tile, k7_pay1 (View.ld x0 r7_tile)⟩]

/-- The one store is the whole tile, so it covers it. -/
theorem cover7_1 (p0 : Vec F S5000x128 .f32) (y : S5000x128.Idx) :
    ∃ pc ∈ ([⟨r7_tile, p0⟩] : List (View.Piece (Elt F) S5000x128 .f32)), y ∈ pc.1.set :=
  View.cover_of_tiled [⟨r7_tile, p0⟩] S5000x128.size (by rfl) y

/-! ## The body's triple -/

set_option maxHeartbeats 1000000 in
/-- The kernel body on whole staging memrefs, the input's at read contents `x0` and the output's at
    anything, runs to the continuation holding the input's as it was and the output's at `out7_1` of
    the input. -/
theorem sound_kernel7 (c : Dev nD) (E : Set ℕ) (i : grid7.Coords)
    (arg1 : Memref sig .tc .vmem S5000x128 .f32) (harg1 : arg1.IsWhole) (arg2 : Memref sig .tc .vmem S5000x128 .f32) (harg2 : arg2.IsWhole)
    (x0 : Vec F S5000x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out7_1 x0)) -∗ K ⟨⟩))
      ⊢ wp frame (wpE (defs₀ (F := F)) Variants.none c none) E (cc7__log_softmax_kernel i arg1 harg1 arg2 harg2) K := by
  simp only [cc7__log_softmax_kernel_eq_skeleton]; unfold cc7__log_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover7_1 _)

/-! ## The pipeline's proof data -/

/-- The proof data of this pipeline on core `c`: the arrays as the region finds them; after the body at
    point `t` the input's buffer at its block and the output's at `out7_1` of the input block; the
    invariant is the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => out7_1 (iblk7 V c 0 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = out7_1 (iblk7 V c 0 t) := by dsimp only [dat7]

/-- The input's current staging buffer holds its block at every point. -/
theorem before7_0 (c : Dev nD) (t : Fin cfg7.N) (d) : (dat7 V c).before 0 t d = iblk7 V c 0 t :=
  before7_0_of V (dat7 V c) (A_eq7 V c 0) (after7_0 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t))

/-- The body at any point: the input's memref holds its block, so `sound_kernel7` applies; the
    invariant and the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1]
  iintro ⟨HΦ, Ho, ⟨%d0, H0⟩, ⟨%d1, H1⟩⟩
  iapply (sound_kernel7 c Set.univ _ _ _ _ _ (iblk7 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.Run.lean ====
/-
  The whole program's run, composed from its parts.  @main is eight stretches of host operations, each followed by
  one kernel region: three matrix products, two column-statistics passes that carry two accumulator rows across their
  grid points, two normalisation passes and one row-wise log-softmax.  Each region's pipeline runs from the buffer
  contents the items before it left, and leaves its output arrays at the fold of the blocks its grid points wrote
  back; the host stretches in between are folds of host operations.  The run says: every weakly fair execution
  terminates, nothing faults, and the final memory holds, buffer by buffer, the last boundary's contents.
-/
import proofs.«131019_j5282809775007_1_alg».proof.Proof.KI.RegMatmul0
import proofs.«131019_j5282809775007_1_alg».proof.Proof.KI.RegStats1
import proofs.«131019_j5282809775007_1_alg».proof.Proof.KI.RegBnRelu2
import proofs.«131019_j5282809775007_1_alg».proof.Proof.KI.RegMatmul3
import proofs.«131019_j5282809775007_1_alg».proof.Proof.KI.RegStats4
import proofs.«131019_j5282809775007_1_alg».proof.Proof.KI.RegBnRelu5
import proofs.«131019_j5282809775007_1_alg».proof.Proof.KI.RegMatmul6
import proofs.«131019_j5282809775007_1_alg».proof.Proof.KI.RegLogSoftmax7
import proofs.«131019_j5282809775007_1_alg».proof.Proof.Gen.KernelIdeal.Regions

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The contents of a core's buffers at each boundary of @main

  @main is eight stretches of host operations, each followed by one kernel region.  The contents at a boundary are a
  fold through @main: the launch memory; after a host stretch, the stretch's operations applied in order; after a
  region, the region's arrays at what its pipeline leaves (an input array as entered, an output array with every
  grid point's block written back) and every other buffer as entered. -/

/-- Core `c`'s buffers at launch. -/
abbrev Wl : Dev nD → Valuation τ sig (Elt F) := fun c b => m (c, b)

/-- At region 0's entry: host stretch 0 applied to the contents before it. -/
abbrev We0 : Dev nD → Valuation τ sig (Elt F) := fun c => StableHlo.after hostOps0 (Wl m c)
/-- The same, read at the TensorCore's references. -/
abbrev Ve0 : (c : Dev nD) → (b : Ref sig .tc) → Buf (Elt F) ((c : Thread nD τ).loc b) := fun c b => We0 m c b
/-- At region 0's exit: its arrays at what the pipeline leaves, every other buffer as entered. -/
def Wx0 (c : Dev nD) : Valuation τ sig (Elt F) :=
  Pipeline.withArrays spec0 c (We0 m c) fun w => (dat0 (Ve0 m) c).arrAt w cfg0.N
theorem Wx0_arr (c : Dev nD) (w : Fin cfg0.W) :
    Wx0 m c (Proc.devRef .tc (Pipeline.arrRef spec0 w)) = (dat0 (Ve0 m) c).arrAt w cfg0.N := by
  unfold Wx0; exact Pipeline.withArrays_arr spec0 launch0.win.arr_inj c _ _ w
theorem Wx0_of_ne (c : Dev nD) (b : Ref sig .tc) (hb : ∀ w, Pipeline.arrRef spec0 w ≠ b) :
    Wx0 m c (Proc.devRef .tc b) = We0 m c (Proc.devRef .tc b) := by
  unfold Wx0; exact Pipeline.withArrays_of_ne spec0 c _ _ b hb
abbrev Vx0 : (c : Dev nD) → (b : Ref sig .tc) → Buf (Elt F) ((c : Thread nD τ).loc b) := fun c b => Wx0 m c b
theorem hF0 (c : Dev nD) (w : Fin cfg0.W) : (dat0 (Ve0 m) c).arrAt w cfg0.N = Vx0 m c (Pipeline.arrRef spec0 w) :=
  (Wx0_arr m c w).symm
theorem hrest0 (c : Dev nD) : ∀ b, b ∉ Finset.univ.image (Pipeline.arrRef spec0) → Vx0 m c b = Ve0 m c b :=
  fun b hb => Wx0_of_ne m c b fun w e => hb (Finset.mem_image.mpr ⟨w, Finset.mem_univ _, e⟩)

/-- At region 1's entry: host stretch 1 applied to the contents before it. -/
abbrev We1 : Dev nD → Valuation τ sig (Elt F) := fun c => StableHlo.after hostOps1 (Wx0 m c)
/-- The same, read at the TensorCore's references. -/
abbrev Ve1 : (c : Dev nD) → (b : Ref sig .tc) → Buf (Elt F) ((c : Thread nD τ).loc b) := fun c b => We1 m c b
/-- At region 1's exit: its arrays at what the pipeline leaves, every other buffer as entered. -/
def Wx1 (c : Dev nD) : Valuation τ sig (Elt F) :=
  Pipeline.withArrays spec1 c (We1 m c) fun w => (dat1 (Ve1 m) c).arrAt w cfg1.N
theorem Wx1_arr (c : Dev nD) (w : Fin cfg1.W) :
    Wx1 m c (Proc.devRef .tc (Pipeline.arrRef spec1 w)) = (dat1 (Ve1 m) c).arrAt w cfg1.N := by
  unfold Wx1; exact Pipeline.withArrays_arr spec1 launch1.win.arr_inj c _ _ w
theorem Wx1_of_ne (c : Dev nD) (b : Ref sig .tc) (hb : ∀ w, Pipeline.arrRef spec1 w ≠ b) :
    Wx1 m c (Proc.devRef .tc b) = We1 m c (Proc.devRef .tc b) := by
  unfold Wx1; exact Pipeline.withArrays_of_ne spec1 c _ _ b hb
abbrev Vx1 : (c : Dev nD) → (b : Ref sig .tc) → Buf (Elt F) ((c : Thread nD τ).loc b) := fun c b => Wx1 m c b
theorem hF1 (c : Dev nD) (w : Fin cfg1.W) : (dat1 (Ve1 m) c).arrAt w cfg1.N = Vx1 m c (Pipeline.arrRef spec1 w) :=
  (Wx1_arr m c w).symm
theorem hrest1 (c : Dev nD) : ∀ b, b ∉ Finset.univ.image (Pipeline.arrRef spec1) → Vx1 m c b = Ve1 m c b :=
  fun b hb => Wx1_of_ne m c b fun w e => hb (Finset.mem_image.mpr ⟨w, Finset.mem_univ _, e⟩)

/-- At region 2's entry: host stretch 2 applied to the contents before it. -/
abbrev We2 : Dev nD → Valuation τ sig (Elt F) := fun c => StableHlo.after hostOps2 (Wx1 m c)
/-- The same, read at the TensorCore's references. -/
abbrev Ve2 : (c : Dev nD) → (b : Ref sig .tc) → Buf (Elt F) ((c : Thread nD τ).loc b) := fun c b => We2 m c b
/-- At region 2's exit: its arrays at what the pipeline leaves, every other buffer as entered. -/
def Wx2 (c : Dev nD) : Valuation τ sig (Elt F) :=
  Pipeline.withArrays spec2 c (We2 m c) fun w => (dat2 (Ve2 m) c).arrAt w cfg2.N
theorem Wx2_arr (c : Dev nD) (w : Fin cfg2.W) :
    Wx2 m c (Proc.devRef .tc (Pipeline.arrRef spec2 w)) = (dat2 (Ve2 m) c).arrAt w cfg2.N := by
  unfold Wx2; exact Pipeline.withArrays_arr spec2 launch2.win.arr_inj c _ _ w
theorem Wx2_of_ne (c : Dev nD) (b : Ref sig .tc) (hb : ∀ w, Pipeline.arrRef spec2 w ≠ b) :
    Wx2 m c (Proc.devRef .tc b) = We2 m c (Proc.devRef .tc b) := by
  unfold Wx2; exact Pipeline.withArrays_of_ne spec2 c _ _ b hb
abbrev Vx2 : (c : Dev nD) → (b : Ref sig .tc) → Buf (Elt F) ((c : Thread nD τ).loc b) := fun c b => Wx2 m c b
theorem hF2 (c : Dev nD) (w : Fin cfg2.W) : (dat2 (Ve2 m) c).arrAt w cfg2.N = Vx2 m c (Pipeline.arrRef spec2 w) :=
  (Wx2_arr m c w).symm
theorem hrest2 (c : Dev nD) : ∀ b, b ∉ Finset.univ.image (Pipeline.arrRef spec2) → Vx2 m c b = Ve2 m c b :=
  fun b hb => Wx2_of_ne m c b fun w e => hb (Finset.mem_image.mpr ⟨w, Finset.mem_univ _, e⟩)

/-- At region 3's entry: host stretch 3 applied to the contents before it. -/
abbrev We3 : Dev nD → Valuation τ sig (Elt F) := fun c => StableHlo.after hostOps3 (Wx2 m c)
/-- The same, read at the TensorCore's references. -/
abbrev Ve3 : (c : Dev nD) → (b : Ref sig .tc) → Buf (Elt F) ((c : Thread nD τ).loc b) := fun c b => We3 m c b
/-- At region 3's exit: its arrays at what the pipeline leaves, every other buffer as entered. -/
def Wx3 (c : Dev nD) : Valuation τ sig (Elt F) :=
  Pipeline.withArrays spec3 c (We3 m c) fun w => (dat3 (Ve3 m) c).arrAt w cfg3.N
theorem Wx3_arr (c : Dev nD) (w : Fin cfg3.W) :
    Wx3 m c (Proc.devRef .tc (Pipeline.arrRef spec3 w)) = (dat3 (Ve3 m) c).arrAt w cfg3.N := by
  unfold Wx3; exact Pipeline.withArrays_arr spec3 launch3.win.arr_inj c _ _ w
theorem Wx3_of_ne (c : Dev nD) (b : Ref sig .tc) (hb : ∀ w, Pipeline.arrRef spec3 w ≠ b) :
    Wx3 m c (Proc.devRef .tc b) = We3 m c (Proc.devRef .tc b) := by
  unfold Wx3; exact Pipeline.withArrays_of_ne spec3 c _ _ b hb
abbrev Vx3 : (c : Dev nD) → (b : Ref sig .tc) → Buf (Elt F) ((c : Thread nD τ).loc b) := fun c b => Wx3 m c b
theorem hF3 (c : Dev nD) (w : Fin cfg3.W) : (dat3 (Ve3 m) c).arrAt w cfg3.N = Vx3 m c (Pipeline.arrRef spec3 w) :=
  (Wx3_arr m c w).symm
theorem hrest3 (c : Dev nD) : ∀ b, b ∉ Finset.univ.image (Pipeline.arrRef spec3) → Vx3 m c b = Ve3 m c b :=
  fun b hb => Wx3_of_ne m c b fun w e => hb (Finset.mem_image.mpr ⟨w, Finset.mem_univ _, e⟩)

/-- At region 4's entry: host stretch 4 applied to the contents before it. -/
abbrev We4 : Dev nD → Valuation τ sig (Elt F) := fun c => StableHlo.after hostOps4 (Wx3 m c)
/-- The same, read at the TensorCore's references. -/
abbrev Ve4 : (c : Dev nD) → (b : Ref sig .tc) → Buf (Elt F) ((c : Thread nD τ).loc b) := fun c b => We4 m c b
/-- At region 4's exit: its arrays at what the pipeline leaves, every other buffer as entered. -/
def Wx4 (c : Dev nD) : Valuation τ sig (Elt F) :=
  Pipeline.withArrays spec4 c (We4 m c) fun w => (dat4 (Ve4 m) c).arrAt w cfg4.N
theorem Wx4_arr (c : Dev nD) (w : Fin cfg4.W) :
    Wx4 m c (Proc.devRef .tc (Pipeline.arrRef spec4 w)) = (dat4 (Ve4 m) c).arrAt w cfg4.N := by
  unfold Wx4; exact Pipeline.withArrays_arr spec4 launch4.win.arr_inj c _ _ w
theorem Wx4_of_ne (c : Dev nD) (b : Ref sig .tc) (hb : ∀ w, Pipeline.arrRef spec4 w ≠ b) :
    Wx4 m c (Proc.devRef .tc b) = We4 m c (Proc.devRef .tc b) := by
  unfold Wx4; exact Pipeline.withArrays_of_ne spec4 c _ _ b hb
abbrev Vx4 : (c : Dev nD) → (b : Ref sig .tc) → Buf (Elt F) ((c : Thread nD τ).loc b) := fun c b => Wx4 m c b
theorem hF4 (c : Dev nD) (w : Fin cfg4.W) : (dat4 (Ve4 m) c).arrAt w cfg4.N = Vx4 m c (Pipeline.arrRef spec4 w) :=
  (Wx4_arr m c w).symm
theorem hrest4 (c : Dev nD) : ∀ b, b ∉ Finset.univ.image (Pipeline.arrRef spec4) → Vx4 m c b = Ve4 m c b :=
  fun b hb => Wx4_of_ne m c b fun w e => hb (Finset.mem_image.mpr ⟨w, Finset.mem_univ _, e⟩)

/-- At region 5's entry: host stretch 5 applied to the contents before it. -/
abbrev We5 : Dev nD → Valuation τ sig (Elt F) := fun c => StableHlo.after hostOps5 (Wx4 m c)
/-- The same, read at the TensorCore's references. -/
abbrev Ve5 : (c : Dev nD) → (b : Ref sig .tc) → Buf (Elt F) ((c : Thread nD τ).loc b) := fun c b => We5 m c b
/-- At region 5's exit: its arrays at what the pipeline leaves, every other buffer as entered. -/
def Wx5 (c : Dev nD) : Valuation τ sig (Elt F) :=
  Pipeline.withArrays spec5 c (We5 m c) fun w => (dat5 (Ve5 m) c).arrAt w cfg5.N
theorem Wx5_arr (c : Dev nD) (w : Fin cfg5.W) :
    Wx5 m c (Proc.devRef .tc (Pipeline.arrRef spec5 w)) = (dat5 (Ve5 m) c).arrAt w cfg5.N := by
  unfold Wx5; exact Pipeline.withArrays_arr spec5 launch5.win.arr_inj c _ _ w
theorem Wx5_of_ne (c : Dev nD) (b : Ref sig .tc) (hb : ∀ w, Pipeline.arrRef spec5 w ≠ b) :
    Wx5 m c (Proc.devRef .tc b) = We5 m c (Proc.devRef .tc b) := by
  unfold Wx5; exact Pipeline.withArrays_of_ne spec5 c _ _ b hb
abbrev Vx5 : (c : Dev nD) → (b : Ref sig .tc) → Buf (Elt F) ((c : Thread nD τ).loc b) := fun c b => Wx5 m c b
theorem hF5 (c : Dev nD) (w : Fin cfg5.W) : (dat5 (Ve5 m) c).arrAt w cfg5.N = Vx5 m c (Pipeline.arrRef spec5 w) :=
  (Wx5_arr m c w).symm
theorem hrest5 (c : Dev nD) : ∀ b, b ∉ Finset.univ.image (Pipeline.arrRef spec5) → Vx5 m c b = Ve5 m c b :=
  fun b hb => Wx5_of_ne m c b fun w e => hb (Finset.mem_image.mpr ⟨w, Finset.mem_univ _, e⟩)

/-- At region 6's entry: host stretch 6 applied to the contents before it. -/
abbrev We6 : Dev nD → Valuation τ sig (Elt F) := fun c => StableHlo.after hostOps6 (Wx5 m c)
/-- The same, read at the TensorCore's references. -/
abbrev Ve6 : (c : Dev nD) → (b : Ref sig .tc) → Buf (Elt F) ((c : Thread nD τ).loc b) := fun c b => We6 m c b
/-- At region 6's exit: its arrays at what the pipeline leaves, every other buffer as entered. -/
def Wx6 (c : Dev nD) : Valuation τ sig (Elt F) :=
  Pipeline.withArrays spec6 c (We6 m c) fun w => (dat6 (Ve6 m) c).arrAt w cfg6.N
theorem Wx6_arr (c : Dev nD) (w : Fin cfg6.W) :
    Wx6 m c (Proc.devRef .tc (Pipeline.arrRef spec6 w)) = (dat6 (Ve6 m) c).arrAt w cfg6.N := by
  unfold Wx6; exact Pipeline.withArrays_arr spec6 launch6.win.arr_inj c _ _ w
theorem Wx6_of_ne (c : Dev nD) (b : Ref sig .tc) (hb : ∀ w, Pipeline.arrRef spec6 w ≠ b) :
    Wx6 m c (Proc.devRef .tc b) = We6 m c (Proc.devRef .tc b) := by
  unfold Wx6; exact Pipeline.withArrays_of_ne spec6 c _ _ b hb
abbrev Vx6 : (c : Dev nD) → (b : Ref sig .tc) → Buf (Elt F) ((c : Thread nD τ).loc b) := fun c b => Wx6 m c b
theorem hF6 (c : Dev nD) (w : Fin cfg6.W) : (dat6 (Ve6 m) c).arrAt w cfg6.N = Vx6 m c (Pipeline.arrRef spec6 w) :=
  (Wx6_arr m c w).symm
theorem hrest6 (c : Dev nD) : ∀ b, b ∉ Finset.univ.image (Pipeline.arrRef spec6) → Vx6 m c b = Ve6 m c b :=
  fun b hb => Wx6_of_ne m c b fun w e => hb (Finset.mem_image.mpr ⟨w, Finset.mem_univ _, e⟩)

/-- At region 7's entry: host stretch 7 applied to the contents before it. -/
abbrev We7 : Dev nD → Valuation τ sig (Elt F) := fun c => StableHlo.after hostOps7 (Wx6 m c)
/-- The same, read at the TensorCore's references. -/
abbrev Ve7 : (c : Dev nD) → (b : Ref sig .tc) → Buf (Elt F) ((c : Thread nD τ).loc b) := fun c b => We7 m c b
/-- At region 7's exit: its arrays at what the pipeline leaves, every other buffer as entered. -/
def Wx7 (c : Dev nD) : Valuation τ sig (Elt F) :=
  Pipeline.withArrays spec7 c (We7 m c) fun w => (dat7 (Ve7 m) c).arrAt w cfg7.N
theorem Wx7_arr (c : Dev nD) (w : Fin cfg7.W) :
    Wx7 m c (Proc.devRef .tc (Pipeline.arrRef spec7 w)) = (dat7 (Ve7 m) c).arrAt w cfg7.N := by
  unfold Wx7; exact Pipeline.withArrays_arr spec7 launch7.win.arr_inj c _ _ w
theorem Wx7_of_ne (c : Dev nD) (b : Ref sig .tc) (hb : ∀ w, Pipeline.arrRef spec7 w ≠ b) :
    Wx7 m c (Proc.devRef .tc b) = We7 m c (Proc.devRef .tc b) := by
  unfold Wx7; exact Pipeline.withArrays_of_ne spec7 c _ _ b hb
abbrev Vx7 : (c : Dev nD) → (b : Ref sig .tc) → Buf (Elt F) ((c : Thread nD τ).loc b) := fun c b => Wx7 m c b
theorem hF7 (c : Dev nD) (w : Fin cfg7.W) : (dat7 (Ve7 m) c).arrAt w cfg7.N = Vx7 m c (Pipeline.arrRef spec7 w) :=
  (Wx7_arr m c w).symm
theorem hrest7 (c : Dev nD) : ∀ b, b ∉ Finset.univ.image (Pipeline.arrRef spec7) → Vx7 m c b = Ve7 m c b :=
  fun b hb => Wx7_of_ne m c b fun w e => hb (Finset.mem_image.mpr ⟨w, Finset.mem_univ _, e⟩)

/-! # The proof data of the eight pipelines, and what rides beside the buffers -/

/-- No pipeline has a prefetched table. -/
abbrev adm : (p : Fin 8) → (pcfgs (F := F) p).Adm := fun p => (cfgs p).toPCfg_adm

/-- Each pipeline's proof data at its region's entry contents. -/
def pdats : (p : Fin 8) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c
  | ⟨4, _⟩ => fun c => dat4 (Ve4 m) c
  | ⟨5, _⟩ => fun c => dat5 (Ve5 m) c
  | ⟨6, _⟩ => fun c => dat6 (Ve6 m) c
  | ⟨7, _⟩ => fun c => dat7 (Ve7 m) c

abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Wx7 m c) ∗ ∃ r, prngReg c r)

/-! # The regions as segments -/

set_option backward.isDefEq.respectTransparency.types false in
/-- Region 0: entered from every unscoped buffer at `We0`, left at `Wx0`.  Its arrays are split out of the unscoped
    buffers at entry and put back, at their final contents, at exit; the generator register goes into the pipeline's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (We0 m c) ∗ R c)
  post c := iprop(StableHlo.held (c : Thread nD τ) (Pipeline.ucRefs τ sig) (Wx0 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `We1`, left at `Wx1`.  Its arrays are split out of the unscoped
    buffers at entry and put back, at their final contents, at exit; the generator register goes into the pipeline's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (We1 m c) ∗ R c)
  post c := iprop(StableHlo.held (c : Thread nD τ) (Pipeline.ucRefs τ sig) (Wx1 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (Ve1 m) c
  hout c := hout1 (Ve1 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `We2`, left at `Wx2`.  Its arrays are split out of the unscoped
    buffers at entry and put back, at their final contents, at exit; the generator register goes into the pipeline's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (We2 m c) ∗ R c)
  post c := iprop(StableHlo.held (c : Thread nD τ) (Pipeline.ucRefs τ sig) (Wx2 m c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `We3`, left at `Wx3`.  Its arrays are split out of the unscoped
    buffers at entry and put back, at their final contents, at exit; the generator register goes into the pipeline's
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ve3 m) c).loose
  hwaits := Pipeline.hwaits_of_owed_zero _ _ _ _ L lv 3 fun _ _ => rfl
  pre c := iprop(StableHlo.held (c : Thread nD τ) (Pipeline.ucRefs τ sig) (We3 m c) ∗ R c)
  post c := iprop(StableHlo.held (c : Thread nD τ) (Pipeline.ucRefs τ sig) (Wx3 m c) ∗ R c)
  X c := iprop(∃ r, prngReg c r)
  Y c := iprop(∃ r, prngReg c r)
  Z c := Pipeline.unscopedRest (Ix := Unit) (Name := ℕ) (U := UR sig nD τ) (Lvl := ℕ) spec3 c (Ve3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Ve3 m c) (Vx3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `We4`, left at `Wx4`.  Its arrays are split out of the unscoped
    buffers at entry and put back, at their final contents, at exit; the generator register goes into the pipeline's
    invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Ve4 m) c).loose
  hwaits := Pipeline.hwaits_of_owed_zero _ _ _ _ L lv 4 fun _ _ => rfl
  pre c := iprop(StableHlo.held (c : Thread nD τ) (Pipeline.ucRefs τ sig) (We4 m c) ∗ R c)
  post c := iprop(StableHlo.held (c : Thread nD τ) (Pipeline.ucRefs τ sig) (Wx4 m c) ∗ R c)
  X c := iprop(∃ r, prngReg c r)
  Y c := iprop(∃ r, prngReg c r)
  Z c := Pipeline.unscopedRest (Ix := Unit) (Name := ℕ) (U := UR sig nD τ) (Lvl := ℕ) spec4 c (Ve4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Ve4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (Ve4 m) c
  hout c := hout4 (Ve4 m) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Ve4 m c) (Vx4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `We5`, left at `Wx5`.  Its arrays are split out of the unscoped
    buffers at entry and put back, at their final contents, at exit; the generator register goes into the pipeline's
    invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Ve5 m) c).loose
  hwaits := Pipeline.hwaits_of_owed_zero _ _ _ _ L lv 5 fun _ _ => rfl
  pre c := iprop(StableHlo.held (c : Thread nD τ) (Pipeline.ucRefs τ sig) (We5 m c) ∗ R c)
  post c := iprop(StableHlo.held (c : Thread nD τ) (Pipeline.ucRefs τ sig) (Wx5 m c) ∗ R c)
  X c := iprop(∃ r, prngReg c r)
  Y c := iprop(∃ r, prngReg c r)
  Z c := Pipeline.unscopedRest (Ix := Unit) (Name := ℕ) (U := UR sig nD τ) (Lvl := ℕ) spec5 c (Ve5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Ve5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Ve5 m c) (Vx5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `We6`, left at `Wx6`.  Its arrays are split out of the unscoped
    buffers at entry and put back, at their final contents, at exit; the generator register goes into the pipeline's
    invariant and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Ve6 m) c).loose
  hwaits := Pipeline.hwaits_of_owed_zero _ _ _ _ L lv 6 fun _ _ => rfl
  pre c := iprop(StableHlo.held (c : Thread nD τ) (Pipeline.ucRefs τ sig) (We6 m c) ∗ R c)
  post c := iprop(StableHlo.held (c : Thread nD τ) (Pipeline.ucRefs τ sig) (Wx6 m c) ∗ R c)
  X c := iprop(∃ r, prngReg c r)
  Y c := iprop(∃ r, prngReg c r)
  Z c := Pipeline.unscopedRest (Ix := Unit) (Name := ℕ) (U := UR sig nD τ) (Lvl := ℕ) spec6 c (Ve6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Ve6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Ve6 m c) (Vx6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `We7`, left at `Wx7`.  Its arrays are split out of the unscoped
    buffers at entry and put back, at their final contents, at exit; the generator register goes into the pipeline's
    invariant and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Ve7 m) c).loose
  hwaits := Pipeline.hwaits_of_owed_zero _ _ _ _ L lv 7 fun _ _ => rfl
  pre c := iprop(StableHlo.held (c : Thread nD τ) (Pipeline.ucRefs τ sig) (We7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (Ve7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Ve7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Ve7 m c) (Vx7 m c) ((pdats m 7 c).arrAt · cfg7.N) (hF7 m c) (hrest7 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's sixteen segments in order. -/
abbrev segs : List (Pipeline.Seg (pcfgs (F := F)) adm (pdats m) () defs₀ 𝒱₀ L lv) :=
  [ .host (hseg hostOps0 hostOps0_sub hostOps0_fresh (Wl m)),
    .region (reg0 m),
    .host (hseg hostOps1 hostOps1_sub hostOps1_fresh (Wx0 m)),
    .region (reg1 m),
    .host (hseg hostOps2 hostOps2_sub hostOps2_fresh (Wx1 m)),
    .region (reg2 m),
    .host (hseg hostOps3 hostOps3_sub hostOps3_fresh (Wx2 m)),
    .region (reg3 m),
    .host (hseg hostOps4 hostOps4_sub hostOps4_fresh (Wx3 m)),
    .region (reg4 m),
    .host (hseg hostOps5 hostOps5_sub hostOps5_fresh (Wx4 m)),
    .region (reg5 m),
    .host (hseg hostOps6 hostOps6_sub hostOps6_fresh (Wx5 m)),
    .region (reg6 m),
    .host (hseg hostOps7 hostOps7_sub hostOps7_fresh (Wx6 m)),
    .region (reg7 m) ]

/-- @main is the run of the segments. -/
theorem main_run (c : Dev nD) : main (F := F) c = Pipeline.Seg.run (segs m) := (main_chain c).trans (by chain_rfl)

set_option backward.isDefEq.respectTransparency.types false in
/-- Every weakly fair execution of @main from memory `m` with zero counters terminates, nothing faulting, and in the
    final memory every unscoped buffer of every core holds the last boundary's contents `Wx7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wx7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wx7 m c b)
    (hfin := fun c s' => by
      iintro ⟨⟨Hh, -⟩, HSI⟩
      unfold StableHlo.held
      imodintro
      iapply (pointsTo_read_all (Pipeline.ucRefs τ sig) (fun b => (((c : Thread nD τ)).1, b)) (Wx7 m c) s')
      isplitl [Hh] <;> iassumption)
    (hQ := fun s h c => h c)

end Cert.KernelIdeal.Hand

end
-- ==== Proof.KI.Frame.lean ====
/-
  The frame of the whole program: it runs to the end, faults nowhere, and every argument array ends as launched.
-/
import proofs.«131019_j5282809775007_1_alg».proof.Proof.KI.Run

set_option maxRecDepth 16384

noncomputable section

namespace Cert.KernelIdeal.Hand
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The argument arrays end as launched

  No host operation writes an argument array, and no region has one as an output: the first region reads the node
  features through an input window (whose array the pipeline leaves as entered); the other four arguments are no
  window's array.  So the fold of the boundary contents at an argument walks back to the launch memory. -/

theorem Wx7_main_arg0 (c : Dev nD) : Wx7 m c (Proc.devRef .tc main_arg0) = m ((c : Thread nD τ).loc main_arg0) :=
  (Wx7_of_ne m c main_arg0 (by decide)).trans <|
    (StableHlo.after_of_writes_sub hostOps7 _ hostOps7_writes (by decide)).trans <|
    (Wx6_of_ne m c main_arg0 (by decide)).trans <|
    (StableHlo.after_of_writes_sub hostOps6 _ hostOps6_writes (by decide)).trans <|
    (Wx5_of_ne m c main_arg0 (by decide)).trans <|
    (StableHlo.after_of_writes_sub hostOps5 _ hostOps5_writes (by decide)).trans <|
    (Wx4_of_ne m c main_arg0 (by decide)).trans <|
    (StableHlo.after_of_writes_sub hostOps4 _ hostOps4_writes (by decide)).trans <|
    (Wx3_of_ne m c main_arg0 (by decide)).trans <|
    (StableHlo.after_of_writes_sub hostOps3 _ hostOps3_writes (by decide)).trans <|
    (Wx2_of_ne m c main_arg0 (by decide)).trans <|
    (StableHlo.after_of_writes_sub hostOps2 _ hostOps2_writes (by decide)).trans <|
    (Wx1_of_ne m c main_arg0 (by decide)).trans <|
    (StableHlo.after_of_writes_sub hostOps1 _ hostOps1_writes (by decide)).trans <|
    ((Wx0_arr m c 0).trans (((dat0 (Ve0 m) c).arrAt_in 0 rfl _).trans (A_eq0 (Ve0 m) c 0))).trans <|
    (StableHlo.after_of_writes_sub hostOps0 _ hostOps0_writes (by decide)).trans rfl
theorem Wx7_main_arg1 (c : Dev nD) : Wx7 m c (Proc.devRef .tc main_arg1) = m ((c : Thread nD τ).loc main_arg1) :=
  (Wx7_of_ne m c main_arg1 (by decide)).trans <|
    (StableHlo.after_of_writes_sub hostOps7 _ hostOps7_writes (by decide)).trans <|
    (Wx6_of_ne m c main_arg1 (by decide)).trans <|
    (StableHlo.after_of_writes_sub hostOps6 _ hostOps6_writes (by decide)).trans <|
    (Wx5_of_ne m c main_arg1 (by decide)).trans <|
    (StableHlo.after_of_writes_sub hostOps5 _ hostOps5_writes (by decide)).trans <|
    (Wx4_of_ne m c main_arg1 (by decide)).trans <|
    (StableHlo.after_of_writes_sub hostOps4 _ hostOps4_writes (by decide)).trans <|
    (Wx3_of_ne m c main_arg1 (by decide)).trans <|
    (StableHlo.after_of_writes_sub hostOps3 _ hostOps3_writes (by decide)).trans <|
    (Wx2_of_ne m c main_arg1 (by decide)).trans <|
    (StableHlo.after_of_writes_sub hostOps2 _ hostOps2_writes (by decide)).trans <|
    (Wx1_of_ne m c main_arg1 (by decide)).trans <|
    (StableHlo.after_of_writes_sub hostOps1 _ hostOps1_writes (by decide)).trans <|
    (Wx0_of_ne m c main_arg1 (by decide)).trans <|
    (StableHlo.after_of_writes_sub hostOps0 _ hostOps0_writes (by decide)).trans rfl
theorem Wx7_main_arg2 (c : Dev nD) : Wx7 m c (Proc.devRef .tc main_arg2) = m ((c : Thread nD τ).loc main_arg2) :=
  (Wx7_of_ne m c main_arg2 (by decide)).trans <|
    (StableHlo.after_of_writes_sub hostOps7 _ hostOps7_writes (by decide)).trans <|
    (Wx6_of_ne m c main_arg2 (by decide)).trans <|
    (StableHlo.after_of_writes_sub hostOps6 _ hostOps6_writes (by decide)).trans <|
    (Wx5_of_ne m c main_arg2 (by decide)).trans <|
    (StableHlo.after_of_writes_sub hostOps5 _ hostOps5_writes (by decide)).trans <|
    (Wx4_of_ne m c main_arg2 (by decide)).trans <|
    (StableHlo.after_of_writes_sub hostOps4 _ hostOps4_writes (by decide)).trans <|
    (Wx3_of_ne m c main_arg2 (by decide)).trans <|
    (StableHlo.after_of_writes_sub hostOps3 _ hostOps3_writes (by decide)).trans <|
    (Wx2_of_ne m c main_arg2 (by decide)).trans <|
    (StableHlo.after_of_writes_sub hostOps2 _ hostOps2_writes (by decide)).trans <|
    (Wx1_of_ne m c main_arg2 (by decide)).trans <|
    (StableHlo.after_of_writes_sub hostOps1 _ hostOps1_writes (by decide)).trans <|
    (Wx0_of_ne m c main_arg2 (by decide)).trans <|
    (StableHlo.after_of_writes_sub hostOps0 _ hostOps0_writes (by decide)).trans rfl
theorem Wx7_main_arg3 (c : Dev nD) : Wx7 m c (Proc.devRef .tc main_arg3) = m ((c : Thread nD τ).loc main_arg3) :=
  (Wx7_of_ne m c main_arg3 (by decide)).trans <|
    (StableHlo.after_of_writes_sub hostOps7 _ hostOps7_writes (by decide)).trans <|
    (Wx6_of_ne m c main_arg3 (by decide)).trans <|
    (StableHlo.after_of_writes_sub hostOps6 _ hostOps6_writes (by decide)).trans <|
    (Wx5_of_ne m c main_arg3 (by decide)).trans <|
    (StableHlo.after_of_writes_sub hostOps5 _ hostOps5_writes (by decide)).trans <|
    (Wx4_of_ne m c main_arg3 (by decide)).trans <|
    (StableHlo.after_of_writes_sub hostOps4 _ hostOps4_writes (by decide)).trans <|
    (Wx3_of_ne m c main_arg3 (by decide)).trans <|
    (StableHlo.after_of_writes_sub hostOps3 _ hostOps3_writes (by decide)).trans <|
    (Wx2_of_ne m c main_arg3 (by decide)).trans <|
    (StableHlo.after_of_writes_sub hostOps2 _ hostOps2_writes (by decide)).trans <|
    (Wx1_of_ne m c main_arg3 (by decide)).trans <|
    (StableHlo.after_of_writes_sub hostOps1 _ hostOps1_writes (by decide)).trans <|
    (Wx0_of_ne m c main_arg3 (by decide)).trans <|
    (StableHlo.after_of_writes_sub hostOps0 _ hostOps0_writes (by decide)).trans rfl
theorem Wx7_main_arg4 (c : Dev nD) : Wx7 m c (Proc.devRef .tc main_arg4) = m ((c : Thread nD τ).loc main_arg4) :=
  (Wx7_of_ne m c main_arg4 (by decide)).trans <|
    (StableHlo.after_of_writes_sub hostOps7 _ hostOps7_writes (by decide)).trans <|
    (Wx6_of_ne m c main_arg4 (by decide)).trans <|
    (StableHlo.after_of_writes_sub hostOps6 _ hostOps6_writes (by decide)).trans <|
    (Wx5_of_ne m c main_arg4 (by decide)).trans <|
    (StableHlo.after_of_writes_sub hostOps5 _ hostOps5_writes (by decide)).trans <|
    (Wx4_of_ne m c main_arg4 (by decide)).trans <|
    (StableHlo.after_of_writes_sub hostOps4 _ hostOps4_writes (by decide)).trans <|
    (Wx3_of_ne m c main_arg4 (by decide)).trans <|
    (StableHlo.after_of_writes_sub hostOps3 _ hostOps3_writes (by decide)).trans <|
    (Wx2_of_ne m c main_arg4 (by decide)).trans <|
    (StableHlo.after_of_writes_sub hostOps2 _ hostOps2_writes (by decide)).trans <|
    (Wx1_of_ne m c main_arg4 (by decide)).trans <|
    (StableHlo.after_of_writes_sub hostOps1 _ hostOps1_writes (by decide)).trans <|
    (Wx0_of_ne m c main_arg4 (by decide)).trans <|
    (StableHlo.after_of_writes_sub hostOps0 _ hostOps0_writes (by decide)).trans rfl

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wx7_main_arg0 m c),
     (h c _ (mem_uc main_arg1 (by decide))).trans (Wx7_main_arg1 m c),
     (h c _ (mem_uc main_arg2 (by decide))).trans (Wx7_main_arg2 m c),
     (h c _ (mem_uc main_arg3 (by decide))).trans (Wx7_main_arg3 m c),
     (h c _ (mem_uc main_arg4 (by decide))).trans (Wx7_main_arg4 m c)⟩) (run_all m ρ)

end Cert.KernelIdeal.Hand

end
-- ==== Proof.KIV.HostStages.lean ====
/-
  The host operations between the kernel regions, as named functions on the extended reals.  Between two regions the
  host slices the edge array into its source and destination index vectors, slices a layer's weight matrix out of the
  weight stack, gathers the rows of a node array at the (wrapped) source indices and adds them into a zero array at
  the destination indices, divides the two accumulated rows (column sums and column sums of squares) by the row count
  to get the mean row and, as the mean of squares minus the square of the mean, the variance row, and slices a layer's
  scale and shift rows.  Each host stretch's result at a buffer is one of these functions of the contents before it.
-/
import proofs.«131019_j5282809775007_1_alg».proof.Proof.Gen.KernelIdeal.Launch
import Idealize.ShloMosaic.Lib.StableHlo.Run
import Idealize.ShloMosaic.PureOps.Ideal

set_option maxRecDepth 16384

noncomputable section

namespace Cert.KernelIdeal.HandValue

open Cert.KernelIdeal Cert.KernelIdeal.Gen
open Idealize.ShloMosaic Idealize.ShloMosaic.TcCoe Idealize.SL.Sem

/-- The edge array, a 2 × 1600000 array of 32-bit integers. -/
abbrev Edges : Type := (⟨S2x1600000, .i32⟩ : BufTy).Contents (Elt Ideal)
/-- A vector of 1600000 indices. -/
abbrev IdxVec : Type := (⟨S1600000, .i32⟩ : BufTy).Contents (Elt Ideal)
/-- A 100000 × 128 float array. -/
abbrev Nodes : Type := FVec Ideal S100000x128 .f32
/-- A 1 × 128 float row. -/
abbrev Row : Type := FVec Ideal S1x128 .f32

/-- Row 0 of the edge array: the source node of every edge. -/
def srcVec (ei : Edges) : IdxVec :=
  shapeCast S1600000 (extractStridedSlice S1x1600000 ![0, 0] ei slices_S2x1600000_S1x1600000_0_0) shapeCasts_S1x1600000_S1600000
/-- Row 1 of the edge array: the destination node of every edge. -/
def dstVec (ei : Edges) : IdxVec :=
  shapeCast S1600000 (extractStridedSlice S1x1600000 ![1, 0] ei slices_S2x1600000_S1x1600000_1_0) shapeCasts_S1x1600000_S1600000
/-- Layer 0's weight matrix out of the stack of three. -/
def weight0 (ws : (⟨S3x128x128, .f32⟩ : BufTy).Contents (Elt Ideal)) : (⟨S128x128, .f32⟩ : BufTy).Contents (Elt Ideal) :=
  shapeCast S128x128 (extractStridedSlice S1x128x128 ![0, 0, 0] ws slices_S3x128x128_S1x128x128_0_0_0) shapeCasts_S1x128x128_S128x128
/-- Layer 1's weight matrix. -/
def weight1 (ws : (⟨S3x128x128, .f32⟩ : BufTy).Contents (Elt Ideal)) : (⟨S128x128, .f32⟩ : BufTy).Contents (Elt Ideal) :=
  shapeCast S128x128 (extractStridedSlice S1x128x128 ![1, 0, 0] ws slices_S3x128x128_S1x128x128_1_0_0) shapeCasts_S1x128x128_S128x128
/-- Layer 2's weight matrix. -/
def weight2 (ws : (⟨S3x128x128, .f32⟩ : BufTy).Contents (Elt Ideal)) : (⟨S128x128, .f32⟩ : BufTy).Contents (Elt Ideal) :=
  shapeCast S128x128 (extractStridedSlice S1x128x128 ![2, 0, 0] ws slices_S3x128x128_S1x128x128_2_0_0) shapeCasts_S1x128x128_S128x128

/-- Message passing: gather the rows of `h` at the source indices (a negative index wrapped by the node count) and add
    them into a zero array at the destination indices. -/
def agg (h : Nodes) (s d : IdxVec) : Nodes :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- An accumulated row divided by the row count. -/
def perRow (s : Row) : Row :=
  Host.divf (F := Ideal) s (broadcastInDim S1x128 ![] bcast_S_S1x128 (constant (F := Ideal) S_ .f32 0x47C35000#32))
/-- The variance row from the accumulated sums `s` and sums of squares `q`. -/
def varRow (sm q : Row) : Row := subf (F := Ideal) (s := S1x128) (φ := .f32) (perRow q) (mulf (F := Ideal) (s := S1x128) (φ := .f32) (perRow sm) (perRow sm))
/-- Row 0 of a 2 × 128 parameter array, as a 1 × 128 row. -/
def paramRow0 (g : (⟨S2x128, .f32⟩ : BufTy).Contents (Elt Ideal)) : Row :=
  shapeCast S1x128 (shapeCast S128 (extractStridedSlice S1x128 ![0, 0] g slices_S2x128_S1x128_0_0) shapeCasts_S1x128_S128) shapeCasts_S128_S1x128
/-- Row 1 of a 2 × 128 parameter array, as a 1 × 128 row. -/
def paramRow1 (g : (⟨S2x128, .f32⟩ : BufTy).Contents (Elt Ideal)) : Row :=
  shapeCast S1x128 (shapeCast S128 (extractStridedSlice S1x128 ![1, 0] g slices_S2x128_S1x128_1_0) shapeCasts_S1x128_S128) shapeCasts_S128_S1x128

variable (W : Valuation τ sig (Elt Ideal))

/-! ## Each host stretch, read at the buffers a later region or stretch reads -/

theorem hs0_v1 : StableHlo.after (hostOps0 (F := Ideal)) W (Proc.devRef .tc main_v1) = srcVec (W (Proc.devRef .tc main_arg1)) := by
  after_results; rfl
theorem hs0_v3 : StableHlo.after (hostOps0 (F := Ideal)) W (Proc.devRef .tc main_v3) = dstVec (W (Proc.devRef .tc main_arg1)) := by
  after_results; rfl
theorem hs0_v5 : StableHlo.after (hostOps0 (F := Ideal)) W (Proc.devRef .tc main_v5) = weight0 (W (Proc.devRef .tc main_arg2)) := by
  after_results; rfl
set_option maxHeartbeats 2000000 in
theorem hs1_v16 : StableHlo.after (hostOps1 (F := Ideal)) W (Proc.devRef .tc main_v16)
    = agg (W (Proc.devRef .tc main_v6)) (W (Proc.devRef .tc main_v1)) (W (Proc.devRef .tc main_v3)) := by
  after_results; rfl
theorem hs2_v19 : StableHlo.after (hostOps2 (F := Ideal)) W (Proc.devRef .tc main_v19) = perRow (W (Proc.devRef .tc main_v17_0)) := by
  after_results; rfl
theorem hs2_v23 : StableHlo.after (hostOps2 (F := Ideal)) W (Proc.devRef .tc main_v23)
    = varRow (W (Proc.devRef .tc main_v17_0)) (W (Proc.devRef .tc main_v17_1)) := by
  after_results; rfl
theorem hs2_v26 : StableHlo.after (hostOps2 (F := Ideal)) W (Proc.devRef .tc main_v26) = paramRow0 (W (Proc.devRef .tc main_arg3)) := by
  after_results; rfl
theorem hs2_v29 : StableHlo.after (hostOps2 (F := Ideal)) W (Proc.devRef .tc main_v29) = paramRow0 (W (Proc.devRef .tc main_arg4)) := by
  after_results; rfl
theorem hs3_v32 : StableHlo.after (hostOps3 (F := Ideal)) W (Proc.devRef .tc main_v32) = weight1 (W (Proc.devRef .tc main_arg2)) := by
  after_results; rfl
set_option maxHeartbeats 2000000 in
theorem hs4_v43 : StableHlo.after (hostOps4 (F := Ideal)) W (Proc.devRef .tc main_v43)
    = agg (W (Proc.devRef .tc main_v33)) (W (Proc.devRef .tc main_v1)) (W (Proc.devRef .tc main_v3)) := by
  after_results; rfl
theorem hs5_v46 : StableHlo.after (hostOps5 (F := Ideal)) W (Proc.devRef .tc main_v46) = perRow (W (Proc.devRef .tc main_v44_0)) := by
  after_results; rfl
theorem hs5_v50 : StableHlo.after (hostOps5 (F := Ideal)) W (Proc.devRef .tc main_v50)
    = varRow (W (Proc.devRef .tc main_v44_0)) (W (Proc.devRef .tc main_v44_1)) := by
  after_results; rfl
theorem hs5_v53 : StableHlo.after (hostOps5 (F := Ideal)) W (Proc.devRef .tc main_v53) = paramRow1 (W (Proc.devRef .tc main_arg3)) := by
  after_results; rfl
theorem hs5_v56 : StableHlo.after (hostOps5 (F := Ideal)) W (Proc.devRef .tc main_v56) = paramRow1 (W (Proc.devRef .tc main_arg4)) := by
  after_results; rfl
theorem hs6_v59 : StableHlo.after (hostOps6 (F := Ideal)) W (Proc.devRef .tc main_v59) = weight2 (W (Proc.devRef .tc main_arg2)) := by
  after_results; rfl
set_option maxHeartbeats 2000000 in
theorem hs7_v70 : StableHlo.after (hostOps7 (F := Ideal)) W (Proc.devRef .tc main_v70)
    = agg (W (Proc.devRef .tc main_v60)) (W (Proc.devRef .tc main_v1)) (W (Proc.devRef .tc main_v3)) := by
  after_results; rfl

end Cert.KernelIdeal.HandValue

end
-- ==== Proof.Spec.lean ====
/-
  The arithmetic of one graph-convolution layer's normalisation and of the final row-wise log-softmax, on the
  extended reals, index by index over a 100000 × 128 array.  A column's statistics are taken over the 100000 rows:
  the mean is the column sum divided by the row count; the variance is stated in its two textbook forms, the mean
  of the squares minus the square of the mean, and the mean of the squared deviations from the mean (equal when
  every entry is a real number).  Normalisation subtracts the mean, multiplies by the reciprocal square root of the
  variance plus a small positive offset, scales, shifts, and takes the maximum with zero.  The log-softmax of a row
  subtracts the row's maximum and then the logarithm of the sum of the exponentials of those differences.
-/
import Idealize.ShloMosaic.PureOps.Ideal
import Idealize.ShloMosaic.Lib.ValueIdx

noncomputable section

namespace Cert.GcnSpec

open Idealize.ShloMosaic Idealize.ShloMosaic.ValueIdx

/-- A 100000 × 128 array of extended reals: one row per node, one column per feature. -/
abbrev Mat : Type := (⟨2, ![100000, 128]⟩ : Shape).Idx → EReal

/-- One extended real per feature column. -/
abbrev Col : Type := Fin 128 → EReal

/-- The row count as the float both programs divide by: 100000. -/
def rowCount : EReal := Ideal.ofBits .f32 0x47C35000#32

/-- The offset added to a variance before the reciprocal square root: the float nearest to 1e-5. -/
def offset : EReal := Ideal.ofBits .f32 0x3727C5AC#32

/-- The sum of column `j` over all rows. -/
def colSum (a : Mat) : Col := fun j => ∑ r : Fin 100000, a (ix2 r j)

/-- The mean of column `j`. -/
def mean (a : Mat) : Col := fun j => Ideal.div (colSum a j) rowCount

/-- The variance of column `j` as the mean of the squares minus the square of the mean. -/
def varOfSquares (a : Mat) : Col := fun j =>
  Ideal.div (colSum (fun i => a i * a i) j) rowCount - mean a j * mean a j

/-- The variance of column `j` as the mean of the squared deviations from the column's mean. -/
def varOfDeviations (a : Mat) : Col := fun j =>
  Ideal.div (∑ r : Fin 100000, (a (ix2 r j) - mean a j) * (a (ix2 r j) - mean a j)) rowCount

/-- Normalise each column by the statistics `mu`, `var`, scale by `g`, shift by `b`, and clamp below at zero. -/
def normRelu (a : Mat) (mu var g b : Col) : Mat := fun i =>
  max ((a i - mu (i 1)) * Ideal.rsqrt (var (i 1) + offset) * g (i 1) + b (i 1)) 0

/-- The largest entry of row `r` (the bottom element `-∞` is the neutral start of the maximum). -/
def rowMax (a : Mat) (r : Fin 100000) : EReal := Finset.univ.sup fun k : Fin 128 => a (ix2 r k)

/-- The row-wise log-softmax. -/
def logSoftmax (a : Mat) : Mat := fun i =>
  (a i - rowMax a (i 0)) - Ideal.log (∑ k : Fin 128, Ideal.exp (a (ix2 (i 0) k) - rowMax a (i 0)))

end Cert.GcnSpec

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.LibMatProd.lean ====
/-
  Matrix products at the exact (extended-real) reading, element by element. A rows-by-columns product, whether the host's
  `dot_general` or a kernel's matmul into a zero accumulator whose operands were first narrowed to a shorter float format
  (a change of format is the identity on exact values), is at (r, c) the sum over the shared axis of A(r, k) · B(k, c).
  Both are stated for any record of dimension numbers whose operand indices are known coordinate by coordinate.
-/
import Idealize.ShloMosaic.PureOps.Ideal.Laws
import Idealize.ShloMosaic.Lib.ValueIdx
import proofs.«131019_j5282809775007_1_alg».proof.Proof.LibDotSum

noncomputable section

open scoped BigOperators

namespace Cert.Spec

open Idealize.ShloMosaic Idealize.ShloMosaic.ValueIdx

/-- The product of an `M × K` array by a `K × N` array: at (r, c) the sum over k of A(r, k) · B(k, c). -/
def rowsByCols {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- Two `M × N` arrays added, then one row `b` added to every row, then the maximum with a fixed value `z`
    (with `z` zero: bias, then the rectifier). -/
def addRowMax {M N : Nat} (P Q : (⟨2, ![M, N]⟩ : Shape).Idx → EReal) (b : (⟨2, ![1, N]⟩ : Shape).Idx → EReal) (z : EReal) :
    (⟨2, ![M, N]⟩ : Shape).Idx → EReal :=
  fun j => max ((P j + Q j) + b (ix2 (0 : Fin 1) (j 1))) z

/-- One row `b` added to every row of an `M × N` array. -/
def addRow {M N : Nat} (P : (⟨2, ![M, N]⟩ : Shape).Idx → EReal) (b : (⟨2, ![1, N]⟩ : Shape).Idx → EReal) :
    (⟨2, ![M, N]⟩ : Shape).Idx → EReal :=
  fun j => P j + b (ix2 (0 : Fin 1) (j 1))

end Cert.Spec

namespace Cert.MatProd

open Idealize.ShloMosaic Idealize.ShloMosaic.ValueIdx

/-- The host's product of an `M × K` by a `K × N` array, at (r, c): `∑ k, A (r, k) · B (k, c)`. -/
theorem hostDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) (j : (⟨2, ![M, N]⟩ : Shape).Idx) :
    Host.dotGeneral (F := Ideal) d none A B j = Cert.Spec.rowsByCols A B j := by
  unfold Cert.Spec.rowsByCols
  simp only [Host.dotGeneral]
  rw [Ideal.dotGeneral_apply]
  exact Cert.LibDotSum.plain d hr hs hl0 hl1 hr0 hr1 (fun a b => A a * B b) j

/-- A kernel's matmul of two blocks narrowed to bf16, into the zero accumulator, at (r, c): the same sum of the
    un-narrowed blocks' products. -/
theorem tileDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32)
    (hb : (FTy.bf16).bits < (FTy.f32).bits) (j : (⟨2, ![M, N]⟩ : Shape).Idx) :
    matmul (F := Ideal) d none (truncf .bf16 A hb) (truncf .bf16 B hb) (constant ⟨2, ![M, N]⟩ .f32 0x00000000#32) j
      = Cert.Spec.rowsByCols A B j := by
  unfold Cert.Spec.rowsByCols
  simp only [matmul]
  rw [Ideal.matmul_constant_zero_apply]
  exact Cert.LibDotSum.plain d hr hs hl0 hl1 hr0 hr1 (fun a b => A a * B b) j

end Cert.MatProd

end
-- ==== Proof.KIV.KernelFn.lean ====
/-
  The idealized kernel program's result as one function of its five argument arrays, on the extended reals: three
  layers, each a matrix product with the layer's weight followed by message passing (gather at the source indices,
  add at the destination indices); after the first two, batch normalisation with the column statistics taken from
  the two accumulated rows (column sums and column sums of squares: the mean is the sum over the row count, the
  variance the mean of squares minus the square of the mean) and the maximum with zero; after the third, the
  row-wise log-softmax.
-/
import proofs.«131019_j5282809775007_1_alg».proof.Proof.KIV.HostStages
import proofs.«131019_j5282809775007_1_alg».proof.Proof.Spec
import proofs.«131019_j5282809775007_1_alg».proof.Proof.LibMatProd
import Idealize.ShloMosaic.Lib.ValueIdx

noncomputable section

namespace Cert.KernelIdeal.HandValue

open Cert.KernelIdeal Cert.GcnSpec
open Idealize.ShloMosaic Idealize.ShloMosaic.ValueIdx

/-- A 1 × 128 row read as one extended real per column. -/
def colOf (r : Row) : Col := fun j => r (ix2 (0 : Fin 1) j)

/-- One layer's linear part: the matrix product with the layer's weight, then message passing. -/
def lin (a : Nodes) (w : FVec Ideal S128x128 .f32) (s d : IdxVec) : Nodes := agg (Cert.Spec.rowsByCols a w) s d

/-- The column sums of `a` as a row. -/
def sumRow (a : Nodes) : Row := fun i => colSum a (i 1)
/-- The column sums of the squares of `a` as a row. -/
def sqRow (a : Nodes) : Row := fun i => colSum (fun k => a k * a k) (i 1)

/-- One layer's normalisation as the kernel program computes it: the statistics from the two accumulated rows. -/
def norm (a : Nodes) (g b : Row) : Nodes :=
  normRelu a (colOf (perRow (sumRow a))) (colOf (varRow (sumRow a) (sqRow a))) (colOf g) (colOf b)

/-- The kernel program's result. -/
def kout (x : Nodes) (ei : Edges) (ws : (⟨S3x128x128, .f32⟩ : BufTy).Contents (Elt Ideal))
    (gam bet : (⟨S2x128, .f32⟩ : BufTy).Contents (Elt Ideal)) : Nodes :=
  logSoftmax (lin (norm (lin (norm (lin x (weight0 ws) (srcVec ei) (dstVec ei)) (paramRow0 gam) (paramRow0 bet))
    (weight1 ws) (srcVec ei) (dstVec ei)) (paramRow1 gam) (paramRow1 bet)) (weight2 ws) (srcVec ei) (dstVec ei))

end Cert.KernelIdeal.HandValue

end
-- ==== Proof.KIV.ValMatmul0.lean ====
import proofs.«131019_j5282809775007_1_alg».proof.Proof.KI.RegMatmul0
import proofs.«131019_j5282809775007_1_alg».proof.Proof.LibMatProd
import Idealize.ShloMosaic.Lib.Pipeline.Value

/-! # The value of kernel region 0: the product of the left array by the weight matrix

At the exact (extended-real) reading, the 100000x128 output array of this region ends holding, at (r, c),
the sum over k of left(r, k) · weight(k, c): each grid point writes the product of its 5000-row tile, and
the twenty tiles cover all rows. -/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem zeroOffsets0 : (![0, 0] : Fin 2 → Nat) = fun _ => 0 := funext fun a => by fin_cases a <;> rfl

/-- The body's payload at an index: narrowing to bf16 changes no exact value, so the product accumulated
    from zero is the plain rows-by-columns sum of the two loaded blocks. -/
theorem tileProduct0_apply (x0 : Vec Ideal S5000x128 .f32) (x1 : Vec Ideal S128x128 .f32) (j : S5000x128.Idx) :
    k0_pay1 x0 x1 j = Cert.Spec.rowsByCols x0 x1 j := by
  unfold k0_pay1
  rw [shapeCast_self]
  exact Cert.MatProd.tileDot_apply dot_S5000x128_S128x128_S5000x128_1_0_0_1_n_n rfl rfl (fun _ _ => rfl) (fun _ _ => rfl)
    (fun _ _ => rfl) (fun _ _ => rfl) x0 x1 bitsLt_bf16_f32 j

/-- A tile whose rows are rows `b · 5000 …` of `A`, times a block that is all of `B`, is at (p, q) the
    product of `A` by `B` at (b · 5000 + p, q). -/
theorem tileRows0 (A : S100000x128.Idx → EReal) (B : S128x128.Idx → EReal)
    (x0 : Vec Ideal S5000x128 .f32) (x1 : Vec Ideal S128x128 .f32) (b : Nat) (hb : b * 5000 + 5000 ≤ 100000)
    (h0 : ∀ (p : Fin 5000) (k : Fin 128), x0 (ix2 p k) = A (ix2 (⟨b * 5000 + p.val, by omega⟩ : Fin 100000) k))
    (h1 : ∀ (k q : Fin 128), x1 (ix2 k q) = B (ix2 k q)) (p : Fin 5000) (q : Fin 128) :
    k0_pay1 x0 x1 (ix2 p q) = Cert.Spec.rowsByCols A B (ix2 (⟨b * 5000 + p.val, by omega⟩ : Fin 100000) q) := by
  refine (tileProduct0_apply x0 x1 (ix2 p q)).trans ?_
  unfold Cert.Spec.rowsByCols
  refine Finset.sum_congr rfl fun k _ => ?_
  show x0 (ix2 p k) * x1 (ix2 k q) = A (ix2 _ k) * B (ix2 k q)
  rw [h0, h1]

/-- The printed index maps, decided over the grid: the row tile moves with the output tile, the weight
    block stays at the origin, and the output's block index along the rows is below twenty. -/
theorem tileIndex0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the twenty row tiles is some point's. -/
theorem tileOnto0 : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the product of the two arrays as the region finds them. -/
theorem flushed0_eq (c : Dev nD) (t : Fin cfg0.N) :
    (dat0 (F := Ideal) V c).flushed 2 t
      = ((cfg0.win 2).blk t).view.read (Elt Ideal) (Cert.Spec.rowsByCols (V c main_arg0) (V c main_v5)) := by
  show (cfg0.win 2).cut (grid0.coords t) ((dat0 V c).after 2 t) = _
  rw [after0_2]
  unfold out0_2
  rw [View.canon_unit_zero zeroOffsets0]
  simp only [View.ld_unit_zero (S := S5000x128) zeroOffsets0, View.ld_unit_zero (S := S128x128) zeroOffsets0]
  obtain ⟨e0, e1, e2, e3, e4, e5⟩ := tileIndex0 t
  funext j
  obtain ⟨p, q, rfl⟩ : ∃ (p : Fin 5000) (q : Fin 128), j = ix2 p q := ⟨j 0, j 1, eq_ix2 j⟩
  have hb : win0_2.index t (0 : Fin 2) * 5000 + 5000 ≤ 100000 := by omega
  refine (tileRows0 (V c main_arg0) (V c main_v5) (iblk0 V c 0 t) (iblk0 V c 1 t) (win0_2.index t (0 : Fin 2)) hb ?_ ?_ p q).trans ?_
  · intro p k
    show V c main_arg0 (((cfg0.win 0).blk t).view.emb (ix2 p k)) = V c main_arg0 _
    refine congrArg _ ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  · intro k q
    show V c main_v5 (((cfg0.win 1).blk t).view.emb (ix2 k q)) = V c main_v5 _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  · show Cert.Spec.rowsByCols (V c main_arg0) (V c main_v5) _ = Cert.Spec.rowsByCols (V c main_arg0) (V c main_v5) (((cfg0.win 2).blk t).view.emb (ix2 p q))
    refine congrArg _ ?_
    funext a; apply Fin.ext
    match a with
    | ⟨0, _⟩ => show win0_2.index t (0 : Fin 2) * 5000 + p.val = win0_2.index t (0 : Fin 2) * 5000 + 1 * p.val; omega
    | ⟨1, _⟩ => show q.val = win0_2.index t (1 : Fin 2) * 128 + 1 * q.val; omega

/-- An index of the array is in point `t`'s block iff each coordinate is in the block's range on its axis. -/
theorem mem_tile0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v6).slice (win0_2.rect t)).set ↔ _
  rw [View.set_slice_whole, Rect.mem_set_unit]
  exact Iff.rfl

/-- Every index of the array lies in some point's block: row `r` in the block of the point whose tile is
    number `r / 5000`. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := tileOnto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_tile0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the left array by the weight matrix, everywhere. -/
theorem final0 (c : Dev nD) :
    (dat0 (F := Ideal) V c).arrAt 2 cfg0.N = Cert.Spec.rowsByCols (V c main_arg0) (V c main_v5) :=
  (dat0 (F := Ideal) V c).arrAt_eq_of_cover 2 _ (fun t _ => flushed0_eq V c t) (covered0)

end Cert.KernelIdeal.HandValue
-- ==== Proof.KIV.ValMatmul3.lean ====
import proofs.«131019_j5282809775007_1_alg».proof.Proof.KI.RegMatmul3
import proofs.«131019_j5282809775007_1_alg».proof.Proof.LibMatProd
import Idealize.ShloMosaic.Lib.Pipeline.Value

/-! # The value of kernel region 3: the product of the left array by the weight matrix

At the exact (extended-real) reading, the 100000x128 output array of this region ends holding, at (r, c),
the sum over k of left(r, k) · weight(k, c): each grid point writes the product of its 5000-row tile, and
the twenty tiles cover all rows. -/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem zeroOffsets3 : (![0, 0] : Fin 2 → Nat) = fun _ => 0 := funext fun a => by fin_cases a <;> rfl

/-- The body's payload at an index: narrowing to bf16 changes no exact value, so the product accumulated
    from zero is the plain rows-by-columns sum of the two loaded blocks. -/
theorem tileProduct3_apply (x0 : Vec Ideal S5000x128 .f32) (x1 : Vec Ideal S128x128 .f32) (j : S5000x128.Idx) :
    k3_pay1 x0 x1 j = Cert.Spec.rowsByCols x0 x1 j := by
  unfold k3_pay1
  rw [shapeCast_self, shapeCast_self]
  exact Cert.MatProd.tileDot_apply dot_S5000x128_S128x128_S5000x128_1_0_0_1_n_n rfl rfl (fun _ _ => rfl) (fun _ _ => rfl)
    (fun _ _ => rfl) (fun _ _ => rfl) x0 x1 bitsLt_bf16_f32 j

/-- A tile whose rows are rows `b · 5000 …` of `A`, times a block that is all of `B`, is at (p, q) the
    product of `A` by `B` at (b · 5000 + p, q). -/
theorem tileRows3 (A : S100000x128.Idx → EReal) (B : S128x128.Idx → EReal)
    (x0 : Vec Ideal S5000x128 .f32) (x1 : Vec Ideal S128x128 .f32) (b : Nat) (hb : b * 5000 + 5000 ≤ 100000)
    (h0 : ∀ (p : Fin 5000) (k : Fin 128), x0 (ix2 p k) = A (ix2 (⟨b * 5000 + p.val, by omega⟩ : Fin 100000) k))
    (h1 : ∀ (k q : Fin 128), x1 (ix2 k q) = B (ix2 k q)) (p : Fin 5000) (q : Fin 128) :
    k3_pay1 x0 x1 (ix2 p q) = Cert.Spec.rowsByCols A B (ix2 (⟨b * 5000 + p.val, by omega⟩ : Fin 100000) q) := by
  refine (tileProduct3_apply x0 x1 (ix2 p q)).trans ?_
  unfold Cert.Spec.rowsByCols
  refine Finset.sum_congr rfl fun k _ => ?_
  show x0 (ix2 p k) * x1 (ix2 k q) = A (ix2 _ k) * B (ix2 k q)
  rw [h0, h1]

/-- The printed index maps, decided over the grid: the row tile moves with the output tile, the weight
    block stays at the origin, and the output's block index along the rows is below twenty. -/
theorem tileIndex3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 19 :=
  (by decide +kernel : ∀ t : Fin grid3.N, _)

/-- Every one of the twenty row tiles is some point's. -/
theorem tileOnto3 : ∀ q0 : Fin 20, ∃ t : Fin cfg3.N, win3_2.index t = ![q0.val, 0] :=
  (by decide +kernel : ∀ q0 : Fin 20, ∃ t : Fin grid3.N, win3_2.index t = ![q0.val, 0])

/-- What point `t` writes back is block `t` of the product of the two arrays as the region finds them. -/
theorem flushed3_eq (c : Dev nD) (t : Fin cfg3.N) :
    (dat3 (F := Ideal) V c).flushed 2 t
      = ((cfg3.win 2).blk t).view.read (Elt Ideal) (Cert.Spec.rowsByCols (V c main_v30) (V c main_v32)) := by
  show (cfg3.win 2).cut (grid3.coords t) ((dat3 V c).after 2 t) = _
  rw [after3_2]
  unfold out3_2
  rw [View.canon_unit_zero zeroOffsets3]
  simp only [View.ld_unit_zero (S := S5000x128) zeroOffsets3, View.ld_unit_zero (S := S128x128) zeroOffsets3]
  obtain ⟨e0, e1, e2, e3, e4, e5⟩ := tileIndex3 t
  funext j
  obtain ⟨p, q, rfl⟩ : ∃ (p : Fin 5000) (q : Fin 128), j = ix2 p q := ⟨j 0, j 1, eq_ix2 j⟩
  have hb : win3_2.index t (0 : Fin 2) * 5000 + 5000 ≤ 100000 := by omega
  refine (tileRows3 (V c main_v30) (V c main_v32) (iblk3 V c 0 t) (iblk3 V c 1 t) (win3_2.index t (0 : Fin 2)) hb ?_ ?_ p q).trans ?_
  · intro p k
    show V c main_v30 (((cfg3.win 0).blk t).view.emb (ix2 p k)) = V c main_v30 _
    refine congrArg _ ?_
    funext a; apply Fin.ext
    match a with
    | ⟨0, _⟩ => show win3_0.index t (0 : Fin 2) * 5000 + 1 * p.val = win3_2.index t (0 : Fin 2) * 5000 + p.val; omega
    | ⟨1, _⟩ => show win3_0.index t (1 : Fin 2) * 128 + 1 * k.val = k.val; omega
  · intro k q
    show V c main_v32 (((cfg3.win 1).blk t).view.emb (ix2 k q)) = V c main_v32 _
    refine congrArg _ ?_
    funext a; apply Fin.ext
    match a with
    | ⟨0, _⟩ => show win3_1.index t (0 : Fin 2) * 128 + 1 * k.val = k.val; omega
    | ⟨1, _⟩ => show win3_1.index t (1 : Fin 2) * 128 + 1 * q.val = q.val; omega
  · show Cert.Spec.rowsByCols (V c main_v30) (V c main_v32) _ = Cert.Spec.rowsByCols (V c main_v30) (V c main_v32) (((cfg3.win 2).blk t).view.emb (ix2 p q))
    refine congrArg _ ?_
    funext a; apply Fin.ext
    match a with
    | ⟨0, _⟩ => show win3_2.index t (0 : Fin 2) * 5000 + p.val = win3_2.index t (0 : Fin 2) * 5000 + 1 * p.val; omega
    | ⟨1, _⟩ => show q.val = win3_2.index t (1 : Fin 2) * 128 + 1 * q.val; omega

/-- An index of the array is in point `t`'s block iff each coordinate is in the block's range on its axis. -/
theorem mem_tile3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v33).slice (win3_2.rect t)).set ↔ _
  rw [View.set_slice_whole, Rect.mem_set_unit]
  exact Iff.rfl

/-- Every index of the array lies in some point's block: row `r` in the block of the point whose tile is
    number `r / 5000`. -/
theorem covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := tileOnto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_tile3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: the product of the left array by the weight matrix, everywhere. -/
theorem final3 (c : Dev nD) :
    (dat3 (F := Ideal) V c).arrAt 2 cfg3.N = Cert.Spec.rowsByCols (V c main_v30) (V c main_v32) :=
  (dat3 (F := Ideal) V c).arrAt_eq_of_cover 2 _ (fun t _ => flushed3_eq V c t) (covered3)

end Cert.KernelIdeal.HandValue
-- ==== Proof.KIV.ValMatmul6.lean ====
import proofs.«131019_j5282809775007_1_alg».proof.Proof.KI.RegMatmul6
import proofs.«131019_j5282809775007_1_alg».proof.Proof.LibMatProd
import Idealize.ShloMosaic.Lib.Pipeline.Value

/-! # The value of kernel region 6: the product of the left array by the weight matrix

At the exact (extended-real) reading, the 100000x128 output array of this region ends holding, at (r, c),
the sum over k of left(r, k) · weight(k, c): each grid point writes the product of its 5000-row tile, and
the twenty tiles cover all rows. -/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem zeroOffsets6 : (![0, 0] : Fin 2 → Nat) = fun _ => 0 := funext fun a => by fin_cases a <;> rfl

/-- The body's payload at an index: narrowing to bf16 changes no exact value, so the product accumulated
    from zero is the plain rows-by-columns sum of the two loaded blocks. -/
theorem tileProduct6_apply (x0 : Vec Ideal S5000x128 .f32) (x1 : Vec Ideal S128x128 .f32) (j : S5000x128.Idx) :
    k6_pay1 x0 x1 j = Cert.Spec.rowsByCols x0 x1 j := by
  unfold k6_pay1
  rw [shapeCast_self, shapeCast_self]
  exact Cert.MatProd.tileDot_apply dot_S5000x128_S128x128_S5000x128_1_0_0_1_n_n rfl rfl (fun _ _ => rfl) (fun _ _ => rfl)
    (fun _ _ => rfl) (fun _ _ => rfl) x0 x1 bitsLt_bf16_f32 j

/-- A tile whose rows are rows `b · 5000 …` of `A`, times a block that is all of `B`, is at (p, q) the
    product of `A` by `B` at (b · 5000 + p, q). -/
theorem tileRows6 (A : S100000x128.Idx → EReal) (B : S128x128.Idx → EReal)
    (x0 : Vec Ideal S5000x128 .f32) (x1 : Vec Ideal S128x128 .f32) (b : Nat) (hb : b * 5000 + 5000 ≤ 100000)
    (h0 : ∀ (p : Fin 5000) (k : Fin 128), x0 (ix2 p k) = A (ix2 (⟨b * 5000 + p.val, by omega⟩ : Fin 100000) k))
    (h1 : ∀ (k q : Fin 128), x1 (ix2 k q) = B (ix2 k q)) (p : Fin 5000) (q : Fin 128) :
    k6_pay1 x0 x1 (ix2 p q) = Cert.Spec.rowsByCols A B (ix2 (⟨b * 5000 + p.val, by omega⟩ : Fin 100000) q) := by
  refine (tileProduct6_apply x0 x1 (ix2 p q)).trans ?_
  unfold Cert.Spec.rowsByCols
  refine Finset.sum_congr rfl fun k _ => ?_
  show x0 (ix2 p k) * x1 (ix2 k q) = A (ix2 _ k) * B (ix2 k q)
  rw [h0, h1]

/-- The printed index maps, decided over the grid: the row tile moves with the output tile, the weight
    block stays at the origin, and the output's block index along the rows is below twenty. -/
theorem tileIndex6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 19 :=
  (by decide +kernel : ∀ t : Fin grid6.N, _)

/-- Every one of the twenty row tiles is some point's. -/
theorem tileOnto6 : ∀ q0 : Fin 20, ∃ t : Fin cfg6.N, win6_2.index t = ![q0.val, 0] :=
  (by decide +kernel : ∀ q0 : Fin 20, ∃ t : Fin grid6.N, win6_2.index t = ![q0.val, 0])

/-- What point `t` writes back is block `t` of the product of the two arrays as the region finds them. -/
theorem flushed6_eq (c : Dev nD) (t : Fin cfg6.N) :
    (dat6 (F := Ideal) V c).flushed 2 t
      = ((cfg6.win 2).blk t).view.read (Elt Ideal) (Cert.Spec.rowsByCols (V c main_v57) (V c main_v59)) := by
  show (cfg6.win 2).cut (grid6.coords t) ((dat6 V c).after 2 t) = _
  rw [after6_2]
  unfold out6_2
  rw [View.canon_unit_zero zeroOffsets6]
  simp only [View.ld_unit_zero (S := S5000x128) zeroOffsets6, View.ld_unit_zero (S := S128x128) zeroOffsets6]
  obtain ⟨e0, e1, e2, e3, e4, e5⟩ := tileIndex6 t
  funext j
  obtain ⟨p, q, rfl⟩ : ∃ (p : Fin 5000) (q : Fin 128), j = ix2 p q := ⟨j 0, j 1, eq_ix2 j⟩
  have hb : win6_2.index t (0 : Fin 2) * 5000 + 5000 ≤ 100000 := by omega
  refine (tileRows6 (V c main_v57) (V c main_v59) (iblk6 V c 0 t) (iblk6 V c 1 t) (win6_2.index t (0 : Fin 2)) hb ?_ ?_ p q).trans ?_
  · intro p k
    show V c main_v57 (((cfg6.win 0).blk t).view.emb (ix2 p k)) = V c main_v57 _
    refine congrArg _ ?_
    funext a; apply Fin.ext
    match a with
    | ⟨0, _⟩ => show win6_0.index t (0 : Fin 2) * 5000 + 1 * p.val = win6_2.index t (0 : Fin 2) * 5000 + p.val; omega
    | ⟨1, _⟩ => show win6_0.index t (1 : Fin 2) * 128 + 1 * k.val = k.val; omega
  · intro k q
    show V c main_v59 (((cfg6.win 1).blk t).view.emb (ix2 k q)) = V c main_v59 _
    refine congrArg _ ?_
    funext a; apply Fin.ext
    match a with
    | ⟨0, _⟩ => show win6_1.index t (0 : Fin 2) * 128 + 1 * k.val = k.val; omega
    | ⟨1, _⟩ => show win6_1.index t (1 : Fin 2) * 128 + 1 * q.val = q.val; omega
  · show Cert.Spec.rowsByCols (V c main_v57) (V c main_v59) _ = Cert.Spec.rowsByCols (V c main_v57) (V c main_v59) (((cfg6.win 2).blk t).view.emb (ix2 p q))
    refine congrArg _ ?_
    funext a; apply Fin.ext
    match a with
    | ⟨0, _⟩ => show win6_2.index t (0 : Fin 2) * 5000 + p.val = win6_2.index t (0 : Fin 2) * 5000 + 1 * p.val; omega
    | ⟨1, _⟩ => show q.val = win6_2.index t (1 : Fin 2) * 128 + 1 * q.val; omega

/-- An index of the array is in point `t`'s block iff each coordinate is in the block's range on its axis. -/
theorem mem_tile6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v60).slice (win6_2.rect t)).set ↔ _
  rw [View.set_slice_whole, Rect.mem_set_unit]
  exact Iff.rfl

/-- Every index of the array lies in some point's block: row `r` in the block of the point whose tile is
    number `r / 5000`. -/
theorem covered6 (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  obtain ⟨t, ht⟩ := tileOnto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_tile6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The output array after the region: the product of the left array by the weight matrix, everywhere. -/
theorem final6 (c : Dev nD) :
    (dat6 (F := Ideal) V c).arrAt 2 cfg6.N = Cert.Spec.rowsByCols (V c main_v57) (V c main_v59) :=
  (dat6 (F := Ideal) V c).arrAt_eq_of_cover 2 _ (fun t _ => flushed6_eq V c t) (covered6)

end Cert.KernelIdeal.HandValue
-- ==== Proof.LibRowSum.lean ====
/-
  Rows of a matrix summed along the lanes, and the column that sum is kept as.

  A reduction of an [a, b] array along its second axis is read at a row as the sum of that row's b entries, both
  when a vector unit does it (a multi-reduction with add) and when the host does it (a reduce with an add body from a zero
  initial value).  The result, a vector of a entries, is usually kept as a column [a, 1] and spread back over b lanes;
  the column forms of the layout operations are read here at an index given by coordinates: a vector [a] cast or
  broadcast to the column [a, 1], and the column [a, 1] broadcast to [a, b].  Every lemma is over arbitrary extents and
  mentions no program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibRowSum

open Idealize.ShloMosaic Idealize.ShloMosaic.ValueIdx

variable {α : Type}

/-! ## The column forms of the layout operations -/

/-- A vector [a] cast to the column [a, 1] reads, at (i, u), the vector at i: the two row-major positions are
    i and i * 1 + 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b lanes reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a vector [a] into the column [a, 1] along axis 0 reads, at (i, u), the vector at i. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The host's broadcast of a column [a, 1] to [a, b] along both axes reads, at (p, c), the column's entry of row p. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's sum -/

/-- The source index a lane reduction reads for row r and lane k is (r, k). -/
theorem lift_lane {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A vector unit's add reduction of an [a, b] array along the lanes, read at row r at the ideal values, is the sum of the
    row's entries.  The accumulator's word is any word that is the sum's neutral one. -/
theorem multiReduction_lane_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_lane h r k)

/-- The host's reduce of an [a, b] array along the lanes with an add body, read at row r at the ideal values, is the
    initial value plus the sum of the row's entries. -/
theorem hostReduceAdd_lane_apply {a b : ℕ} {φ : FTy} {u : Shape} (x : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_lane h r k))

end Cert.LibRowSum

end
-- ==== Proof.KIV.ValLogSoftmax7.lean ====
import proofs.«131019_j5282809775007_1_alg».proof.Proof.KI.RegLogSoftmax7
import proofs.«131019_j5282809775007_1_alg».proof.Proof.LibRowSum
import proofs.«131019_j5282809775007_1_alg».proof.Proof.Spec
import Idealize.ShloMosaic.Lib.Pipeline.Value

/-! # The value of kernel region 7: the row-wise log-softmax of the input array

At the exact (extended-real) reading, the 100000x128 output array of this region ends holding, at (r, c),
the entry minus its row's maximum minus the logarithm of the sum over the row of the exponentials of those
differences: each grid point writes the log-softmax of its 5000-row tile (rows are whole inside a tile), and
the twenty tiles cover all rows. -/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem zeroOffsets7 : (![0, 0] : Fin 2 → Nat) = fun _ => 0 := funext fun a => by fin_cases a <;> rfl

/-! ## A row's maximum along the lanes -/

/-- The fold of the maximum from the bottom element is the supremum. -/
theorem foldMaxBot7_eq_sup {ι : Type} (s : Finset ι) (f : ι → EReal) : s.fold max ⊥ f = s.sup f := by
  classical
  induction s using Finset.induction_on with
  | empty => rfl
  | insert a s ha ih => rw [Finset.fold_insert ha, Finset.sup_insert, ih]

/-- The f32 word of minus infinity is the bottom element. -/
theorem negInfWord7 : Ideal.ofBits .f32 0xFF800000#32 = ⊥ := by simp [Ideal.ofBits, Ideal.ieee]

/-- So the fold of the maximum from the f32 word of minus infinity is the supremum. -/
theorem foldMaxNegInf7 {n : ℕ} (f : Fin n → EReal) :
    (Finset.univ : Finset (Fin n)).fold max (Ideal.ofBits .f32 0xFF800000#32) f = Finset.univ.sup f := by
  rw [negInfWord7]; exact foldMaxBot7_eq_sup _ _

/-- A vector unit's maximum reduction of an [a, b] array along the lanes from minus infinity, read at row r at the
    exact values, is the supremum of the row's entries. -/
theorem laneMax7_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src _ h hφ hacc (ix1 r)).trans ?_
  refine (foldMaxNegInf7 (n := b) (src ∘ h.lift (ix1 r))).trans ?_
  exact Finset.sup_congr rfl fun k _ => congrArg src (Cert.LibRowSum.lift_lane h r k)

/-! ## The body's payload at an index -/

/-- The largest entry of row `p` of a tile. -/
def tileRowMax7 (x : S5000x128.Idx → EReal) (p : Fin 5000) : EReal := Finset.univ.sup fun k : Fin 128 => x (ix2 p k)

/-- The lane maximum kept as a column and spread back over the lanes, at (p, q): row p's maximum. -/
theorem rowMaxSpread7_apply (x : FVec Ideal S5000x128 .f32) (p : Fin 5000) (q : Fin 128) :
    broadcastTo S5000x128 (shapeCast S5000x1 (multiReduction .maximumf [1] S5000 x 0xFF800000#32 reduces_S5000x128_S5000 (.inl rfl) rfl)
        shapeCasts_S5000_S5000x1) broadcasts_S5000x1_S5000x128 (ix2 p q) = tileRowMax7 x p := by
  refine (Cert.LibRowSum.broadcastTo_a1_ab_apply _ _ p q).trans ?_
  refine (Cert.LibRowSum.shapeCast_a_a1_apply _ _ p (0 : Fin 1)).trans ?_
  exact laneMax7_apply x reduces_S5000x128_S5000 (.inl rfl) rfl p

/-- The logarithm of the lane sum kept as a column and spread back over the lanes, at (p, q): the logarithm of
    row p's sum. -/
theorem rowLogSumSpread7_apply (y : FVec Ideal S5000x128 .f32) (p : Fin 5000) (q : Fin 128) :
    broadcastTo S5000x128 (log (shapeCast S5000x1 (multiReduction .add [1] S5000 y 0x00000000#32 reduces_S5000x128_S5000 (.inl rfl) rfl)
        shapeCasts_S5000_S5000x1)) broadcasts_S5000x1_S5000x128 (ix2 p q) = Ideal.log (∑ k : Fin 128, y (ix2 p k)) := by
  refine (Cert.LibRowSum.broadcastTo_a1_ab_apply _ _ p q).trans ?_
  show Ideal.log (shapeCast S5000x1 (multiReduction .add [1] S5000 y 0x00000000#32 reduces_S5000x128_S5000 (.inl rfl) rfl)
        shapeCasts_S5000_S5000x1 (ix2 p (0 : Fin 1))) = _
  refine congrArg Ideal.log ?_
  refine (Cert.LibRowSum.shapeCast_a_a1_apply _ _ p (0 : Fin 1)).trans ?_
  exact Cert.LibRowSum.multiReduction_lane_apply y _ reduces_S5000x128_S5000 (.inl rfl) rfl p

/-- The body's payload at (p, q): the entry minus its row's maximum, minus the logarithm of the row's sum of the
    exponentials of those differences. -/
theorem tileLogSoftmax7_apply (x0 : Vec Ideal S5000x128 .f32) (p : Fin 5000) (q : Fin 128) :
    k7_pay1 x0 (ix2 p q)
      = (x0 (ix2 p q) - tileRowMax7 x0 p) - Ideal.log (∑ k : Fin 128, Ideal.exp (x0 (ix2 p k) - tileRowMax7 x0 p)) := by
  unfold k7_pay1
  simp only [shapeCast_self]
  refine (subf_apply _ _ (ix2 p q)).trans ?_
  rw [rowLogSumSpread7_apply]
  have hd : ∀ k : Fin 128, subf (F := Ideal) (φ := .f32) x0 (broadcastTo S5000x128 (shapeCast S5000x1 (multiReduction .maximumf [1] S5000 x0 0xFF800000#32 reduces_S5000x128_S5000 (.inl rfl) rfl)
        shapeCasts_S5000_S5000x1) broadcasts_S5000x1_S5000x128) (ix2 p k) = x0 (ix2 p k) - tileRowMax7 x0 p :=
    fun k => (subf_apply _ _ (ix2 p k)).trans (congrArg (x0 (ix2 p k) - ·) (rowMaxSpread7_apply x0 p k))
  rw [hd q]
  refine congrArg (_ - ·) (congrArg Ideal.log (Finset.sum_congr rfl fun k _ => ?_))
  exact congrArg Ideal.exp (hd k)

/-- A tile whose rows are rows `b · 5000 …` of `A` has, at (p, q), the log-softmax of `A` at (b · 5000 + p, q). -/
theorem tileRows7 (A : Cert.GcnSpec.Mat) (x0 : Vec Ideal S5000x128 .f32) (b : Nat) (hb : b * 5000 + 5000 ≤ 100000)
    (h0 : ∀ (p : Fin 5000) (k : Fin 128), x0 (ix2 p k) = A (ix2 (⟨b * 5000 + p.val, by omega⟩ : Fin 100000) k))
    (p : Fin 5000) (q : Fin 128) :
    k7_pay1 x0 (ix2 p q) = Cert.GcnSpec.logSoftmax A (ix2 (⟨b * 5000 + p.val, by omega⟩ : Fin 100000) q) := by
  refine (tileLogSoftmax7_apply x0 p q).trans ?_
  have hm : tileRowMax7 x0 p = Cert.GcnSpec.rowMax A (⟨b * 5000 + p.val, by omega⟩ : Fin 100000) := by
    unfold tileRowMax7 Cert.GcnSpec.rowMax
    exact Finset.sup_congr rfl fun k _ => h0 p k
  unfold Cert.GcnSpec.logSoftmax
  show _ = (A (ix2 _ q) - Cert.GcnSpec.rowMax A _) - Ideal.log (∑ k : Fin 128, Ideal.exp (A (ix2 _ k) - Cert.GcnSpec.rowMax A _))
  rw [hm, h0]
  refine congrArg (_ - ·) (congrArg Ideal.log (Finset.sum_congr rfl fun k _ => ?_))
  rw [h0]

/-! ## From blocks to the array -/

/-- The printed index maps, decided over the grid: the input tile moves with the output tile along the rows,
    both stay at the origin along the lanes, and the output's block index along the rows is below twenty. -/
theorem tileIndex7 : ∀ t : Fin cfg7.N, win7_0.index t (0 : Fin 2) = win7_1.index t (0 : Fin 2)
    ∧ win7_0.index t (1 : Fin 2) = 0
    ∧ win7_1.index t (1 : Fin 2) = 0
    ∧ win7_1.index t (0 : Fin 2) ≤ 19 :=
  (by decide +kernel : ∀ t : Fin grid7.N, _)

/-- Every one of the twenty row tiles is some point's. -/
theorem tileOnto7 : ∀ q0 : Fin 20, ∃ t : Fin cfg7.N, win7_1.index t = ![q0.val, 0] :=
  (by decide +kernel : ∀ q0 : Fin 20, ∃ t : Fin grid7.N, win7_1.index t = ![q0.val, 0])

/-- What point `t` writes back is block `t` of the log-softmax of the input array as the region finds it. -/
theorem flushed7_eq (c : Dev nD) (t : Fin cfg7.N) :
    (dat7 (F := Ideal) V c).flushed 1 t
      = ((cfg7.win 1).blk t).view.read (Elt Ideal) (Cert.GcnSpec.logSoftmax (V c main_v70)) := by
  show (cfg7.win 1).cut (grid7.coords t) ((dat7 V c).after 1 t) = _
  rw [after7_1]
  unfold out7_1
  rw [View.canon_unit_zero zeroOffsets7]
  simp only [View.ld_unit_zero (S := S5000x128) zeroOffsets7]
  obtain ⟨e0, e1, e2, e3⟩ := tileIndex7 t
  funext j
  obtain ⟨p, q, rfl⟩ : ∃ (p : Fin 5000) (q : Fin 128), j = ix2 p q := ⟨j 0, j 1, eq_ix2 j⟩
  have hb : win7_1.index t (0 : Fin 2) * 5000 + 5000 ≤ 100000 := by omega
  refine (tileRows7 (V c main_v70) (iblk7 V c 0 t) (win7_1.index t (0 : Fin 2)) hb ?_ p q).trans ?_
  · intro p k
    show V c main_v70 (((cfg7.win 0).blk t).view.emb (ix2 p k)) = V c main_v70 _
    refine congrArg _ ?_
    funext a; apply Fin.ext
    match a with
    | ⟨0, _⟩ => show win7_0.index t (0 : Fin 2) * 5000 + 1 * p.val = win7_1.index t (0 : Fin 2) * 5000 + p.val; omega
    | ⟨1, _⟩ => show win7_0.index t (1 : Fin 2) * 128 + 1 * k.val = k.val; omega
  · show Cert.GcnSpec.logSoftmax (V c main_v70) _ = Cert.GcnSpec.logSoftmax (V c main_v70) (((cfg7.win 1).blk t).view.emb (ix2 p q))
    refine congrArg _ ?_
    funext a; apply Fin.ext
    match a with
    | ⟨0, _⟩ => show win7_1.index t (0 : Fin 2) * 5000 + p.val = win7_1.index t (0 : Fin 2) * 5000 + 1 * p.val; omega
    | ⟨1, _⟩ => show q.val = win7_1.index t (1 : Fin 2) * 128 + 1 * q.val; omega

/-- An index of the array is in point `t`'s block iff each coordinate is in the block's range on its axis. -/
theorem mem_tile7 (t : Fin cfg7.N) (i : S100000x128.Idx) :
    i ∈ ((cfg7.win 1).blk t).view.set ↔ ∀ a : Fin 2, win7_1.index t a * S5000x128.size a ≤ (i a).val ∧ (i a).val < win7_1.index t a * S5000x128.size a + S5000x128.size a := by
  show i ∈ ((View.whole main_v71).slice (win7_1.rect t)).set ↔ _
  rw [View.set_slice_whole, Rect.mem_set_unit]
  exact Iff.rfl

/-- Every index of the array lies in some point's block: row `r` in the block of the point whose tile is
    number `r / 5000`. -/
theorem covered7 (i : S100000x128.Idx) :
    ∃ t : Fin cfg7.N, (cfg7.win 1).flush t = true ∧ i ∈ ((cfg7.win 1).blk t).view.set := by
  have hi0 : (i 0).val < 100000 := (i 0).isLt
  have hi1 : (i 1).val < 128 := (i 1).isLt
  obtain ⟨t, ht⟩ := tileOnto7 ⟨(i 0).val / 5000, by omega⟩
  have q0 : win7_1.index t (0 : Fin 2) = (i 0).val / 5000 := congrFun ht 0
  have q1 : win7_1.index t (1 : Fin 2) = 0 := congrFun ht 1
  refine ⟨t, flush7_1 t, ?_⟩
  rw [mem_tile7]
  intro a
  match a with
  | ⟨0, _⟩ => show win7_1.index t (0 : Fin 2) * 5000 ≤ (i 0).val ∧ (i 0).val < win7_1.index t (0 : Fin 2) * 5000 + 5000; omega
  | ⟨1, _⟩ => show win7_1.index t (1 : Fin 2) * 128 ≤ (i 1).val ∧ (i 1).val < win7_1.index t (1 : Fin 2) * 128 + 128; omega

/-- The output array after the region: the row-wise log-softmax of the input array, everywhere. -/
theorem final7 (c : Dev nD) :
    (dat7 (F := Ideal) V c).arrAt 1 cfg7.N = Cert.GcnSpec.logSoftmax (V c main_v70) :=
  (dat7 (F := Ideal) V c).arrAt_eq_of_cover 1 _ (fun t _ => flushed7_eq V c t) (covered7)

end Cert.KernelIdeal.HandValue
-- ==== Proof.LibRowBias.lean ====
/-
  One row added to every row of an array: a [1, b] block broadcast over a rows reads, at (p, c), the block's one row at c.
-/
import Idealize.ShloMosaic.Lib.ValueIdx
import Idealize.ShloMosaic.Lib.ValueLayout
import Idealize.ShloMosaic.Lib.Pipeline.Value

noncomputable section

namespace Cert.RowBias

open Idealize.ShloMosaic Idealize.ShloMosaic.ValueIdx

/-- A `[1, b]` array broadcast to `[a, b]`, read at any index `y`: the one row at `y`'s column. -/
theorem bcastRow_apply {a b : ℕ} {α : Type} (v : (⟨2, ![1, b]⟩ : Shape).Idx → α)
    (h : (⟨2, ![1, b]⟩ : Shape).Broadcasts ⟨2, ![a, b]⟩) (y : (⟨2, ![a, b]⟩ : Shape).Idx) :
    broadcastTo ⟨2, ![a, b]⟩ v h y = v (ix2 (0 : Fin 1) (y 1)) := by
  obtain ⟨p, q, rfl⟩ : ∃ (p : Fin a) (q : Fin b), y = ix2 p q := ⟨y 0, y 1, eq_ix2 y⟩
  exact broadcastTo_1b_ab_apply v h p q

/-- A vector of `b` entries reshaped to one row, read at `(0, c)`: the entry `c`. -/
theorem rowOf_apply {b : ℕ} {α : Type} (x : (⟨1, ![b]⟩ : Shape).Idx → α) (h : (⟨1, ![b]⟩ : Shape).ShapeCasts ⟨2, ![1, b]⟩)
    (c : Fin b) : shapeCast ⟨2, ![1, b]⟩ x h (ix2 (0 : Fin 1) c) = x (ix1 c) :=
  shapeCast_a_1a_apply x h 0 c

end Cert.RowBias

end
-- ==== Proof.KIV.ValBnRelu2.lean ====
/-
  The value of the batch-norm + relu region 2 on the extended reals: after the region's twenty points the
  output array holds, at every index (r, c), max (((x (r, c) - mean c) * rsqrt (var c + eps)) * gamma c + beta c, 0)
  of the five arrays the region found.  First the body's payload at one index of a tile (the four rows broadcast
  down the tile read the row at the index's column); then what a point writes back is its block of that one
  whole-array function (the row tile of the activations moves with the output tile, the four rows do not move);
  then the twenty row tiles cover the 100000 rows, the tile of row r being the point r / 5000.
-/
import proofs.«131019_j5282809775007_1_alg».proof.Proof.KI.RegBnRelu2
import proofs.«131019_j5282809775007_1_alg».proof.Proof.LibRowBias
import proofs.«131019_j5282809775007_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The payload at an index of a tile -/

/-- The body's payload at index `j` of the tile: the entry less the mean of its column, times the reciprocal square
    root of the column's variance plus the offset, times the column's scale, plus its shift, clamped below at zero.
    Every operation is elementwise except the four row broadcasts, which read the row at the index's column. -/
theorem tile2_apply (x : Vec Ideal S5000x128 .f32) (mu var g b : Vec Ideal S1x128 .f32) (j : S5000x128.Idx) :
    k2_pay1 x var mu g b j
      = max ((x j - mu (ix2 (n0 := 1) (n1 := 128) 0 (j 1))) * Ideal.rsqrt (var (ix2 (n0 := 1) (n1 := 128) 0 (j 1)) + Cert.GcnSpec.offset)
          * g (ix2 (n0 := 1) (n1 := 128) 0 (j 1)) + b (ix2 (n0 := 1) (n1 := 128) 0 (j 1))) 0 := by
  unfold k2_pay1
  simp only [shapeCast_self]
  show max (((x j - broadcastTo S5000x128 mu broadcasts_S1x128_S5000x128 j)
        * broadcastTo S5000x128 (rsqrt (F := Ideal) (addf (F := Ideal) var (broadcast S1x128 (Scalar.ofBits (F := Ideal) .f32 0x3727C5AC#32)))) broadcasts_S1x128_S5000x128 j)
      * broadcastTo S5000x128 g broadcasts_S1x128_S5000x128 j + broadcastTo S5000x128 b broadcasts_S1x128_S5000x128 j)
    (Ideal.ofBits .f32 0x00000000#32) = _
  rw [Cert.RowBias.bcastRow_apply (a := 5000) (b := 128) mu broadcasts_S1x128_S5000x128 j,
    Cert.RowBias.bcastRow_apply (a := 5000) (b := 128) g broadcasts_S1x128_S5000x128 j,
    Cert.RowBias.bcastRow_apply (a := 5000) (b := 128) b broadcasts_S1x128_S5000x128 j,
    Cert.RowBias.bcastRow_apply (a := 5000) (b := 128) (rsqrt (F := Ideal) (addf (F := Ideal) var (broadcast S1x128 (Scalar.ofBits (F := Ideal) .f32 0x3727C5AC#32)))) broadcasts_S1x128_S5000x128 j,
    Ideal.ofBits_zero_f32]
  rfl

/-! ## What a point writes back -/

/-- The specification's function at an index `i'`, from its operands read at indices equal to `i'` (the tile) and to
    row 0 at `i'`'s column (the four rows). -/
theorem normReluAt (A : S100000x128.Idx → EReal) (M W G B : S1x128.Idx → EReal) (i i' : S100000x128.Idx) (k1 k2 k3 k4 : S1x128.Idx)
    (h0 : i = i') (h1 : k1 = ix2 (n0 := 1) (n1 := 128) 0 (i' 1)) (h2 : k2 = ix2 (n0 := 1) (n1 := 128) 0 (i' 1))
    (h3 : k3 = ix2 (n0 := 1) (n1 := 128) 0 (i' 1)) (h4 : k4 = ix2 (n0 := 1) (n1 := 128) 0 (i' 1)) :
    max ((A i - M k1) * Ideal.rsqrt (W k2 + Cert.GcnSpec.offset) * G k3 + B k4) 0
      = Cert.GcnSpec.normRelu A (fun j => M (ix2 0 j)) (fun j => W (ix2 0 j)) (fun j => G (ix2 0 j)) (fun j => B (ix2 0 j)) i' := by
  subst h0 h1 h2 h3 h4; rfl

theorem zeroOffsets : (![0, 0] : Fin 2 → Nat) = fun _ => 0 := funext fun a => by fin_cases a <;> rfl

/-- The region's output as one function of the arrays it finds. -/
abbrev result2 (c : Dev nD) : Cert.GcnSpec.Mat :=
  Cert.GcnSpec.normRelu (V c main_v16) (fun j => V c main_v19 (ix2 0 j)) (fun j => V c main_v23 (ix2 0 j))
    (fun j => V c main_v26 (ix2 0 j)) (fun j => V c main_v29 (ix2 0 j))

/-- The printed index maps, decided over the grid: the activations' row tile has the output tile's block index on
    both axes; the four rows' block index is (0, 0) at every point; the output's column block index is 0 and its
    row block index is the point. -/
theorem indexFacts2 : ∀ t : Fin cfg2.N, win2_0.index t (0 : Fin 2) = win2_5.index t (0 : Fin 2)
    ∧ win2_0.index t (1 : Fin 2) = win2_5.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of `result2`. -/
theorem flushed2_eq (c : Dev nD) (t : Fin cfg2.N) :
    (dat2 (F := Ideal) V c).flushed 5 t = ((cfg2.win 5).blk t).view.read (Elt Ideal) (result2 V c) := by
  show (cfg2.win 5).cut (grid2.coords t) ((dat2 (F := Ideal) V c).after 5 t) = _
  rw [after2_5]
  unfold out2_5
  rw [View.canon_unit_zero zeroOffsets]
  simp only [View.ld_unit_zero (S := S5000x128) zeroOffsets, View.ld_unit_zero (S := S1x128) zeroOffsets]
  obtain ⟨e0, e1, e2, e3, e4, e5, e6, e7, e8, e9, e10, e11⟩ := indexFacts2 t
  funext j
  refine (tile2_apply _ _ _ _ _ j).trans ?_
  have h0 : ((cfg2.win 0).blk t).view.emb j = ((cfg2.win 5).blk t).view.emb j := by
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * (j 1).val = win2_5.index t (1 : Fin 2) * 128 + 1 * (j 1).val; omega
  have h1 : ((cfg2.win 1).blk t).view.emb (ix2 (n0 := 1) (n1 := 128) 0 (j 1)) = ix2 (n0 := 1) (n1 := 128) 0 (((cfg2.win 5).blk t).view.emb j 1) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_5.index t (1 : Fin 2) * 128 + 1 * (j 1).val; omega
  have h2 : ((cfg2.win 2).blk t).view.emb (ix2 (n0 := 1) (n1 := 128) 0 (j 1)) = ix2 (n0 := 1) (n1 := 128) 0 (((cfg2.win 5).blk t).view.emb j 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_5.index t (1 : Fin 2) * 128 + 1 * (j 1).val; omega
  have h3 : ((cfg2.win 3).blk t).view.emb (ix2 (n0 := 1) (n1 := 128) 0 (j 1)) = ix2 (n0 := 1) (n1 := 128) 0 (((cfg2.win 5).blk t).view.emb j 1) := by
    funext a; apply Fin.ext
    match a with
    | ⟨0, _⟩ => show win2_3.index t (0 : Fin 2) * 1 + 1 * 0 = 0; omega
    | ⟨1, _⟩ => show win2_3.index t (1 : Fin 2) * 128 + 1 * (j 1).val = win2_5.index t (1 : Fin 2) * 128 + 1 * (j 1).val; omega
  have h4 : ((cfg2.win 4).blk t).view.emb (ix2 (n0 := 1) (n1 := 128) 0 (j 1)) = ix2 (n0 := 1) (n1 := 128) 0 (((cfg2.win 5).blk t).view.emb j 1) := by
    funext a; apply Fin.ext
    match a with
    | ⟨0, _⟩ => show win2_4.index t (0 : Fin 2) * 1 + 1 * 0 = 0; omega
    | ⟨1, _⟩ => show win2_4.index t (1 : Fin 2) * 128 + 1 * (j 1).val = win2_5.index t (1 : Fin 2) * 128 + 1 * (j 1).val; omega
  exact normReluAt (V c main_v16) (V c main_v19) (V c main_v23) (V c main_v26) (V c main_v29)
    (((cfg2.win 0).blk t).view.emb j) (((cfg2.win 5).blk t).view.emb j)
    (((cfg2.win 1).blk t).view.emb (ix2 (n0 := 1) (n1 := 128) 0 (j 1))) (((cfg2.win 2).blk t).view.emb (ix2 (n0 := 1) (n1 := 128) 0 (j 1)))
    (((cfg2.win 3).blk t).view.emb (ix2 (n0 := 1) (n1 := 128) 0 (j 1))) (((cfg2.win 4).blk t).view.emb (ix2 (n0 := 1) (n1 := 128) 0 (j 1)))
    h0 h1 h2 h3 h4

/-! ## The twenty row tiles cover the array -/

/-- An index of the array is in point `t`'s block iff each coordinate is in the block's range on its axis. -/
theorem mem_tile2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v30).slice (win2_5.rect t)).set ↔ _
  rw [View.set_slice_whole, Rect.mem_set_unit]
  exact Iff.rfl

/-- Every block index of the output's twenty row tiles is some point's. -/
theorem tileOnto2 : ∀ (q0 : Fin 20) (q1 : Fin 1), ∃ t : Fin cfg2.N, win2_5.index t = ![q0.val, q1.val] :=
  (by decide +kernel : ∀ (q0 : Fin 20) (q1 : Fin 1), ∃ t : Fin grid2.N, win2_5.index t = ![q0.val, q1.val])

/-- Every index of the array is in the block of the point its row falls in: row r in tile r / 5000. -/
theorem covered2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := tileOnto2 ⟨(i 0).val / 5000, by omega⟩ ⟨(i 1).val / 128, by omega⟩
  have q0 : win2_5.index t (0 : Fin 2) = (i 0).val / 5000 := congrFun ht 0
  have q1 : win2_5.index t (1 : Fin 2) = (i 1).val / 128 := congrFun ht 1
  refine ⟨t, flush2_5 t, ?_⟩
  rw [mem_tile2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-! ## The array after the region -/

/-- After the region's twenty points the output array is the normalised, scaled, shifted and clamped activations,
    index by index, of the arrays the region found. -/
theorem final2 (c : Dev nD) : (dat2 (F := Ideal) V c).arrAt 5 cfg2.N
    = Cert.GcnSpec.normRelu (V c main_v16) (fun j => V c main_v19 (ix2 0 j)) (fun j => V c main_v23 (ix2 0 j))
        (fun j => V c main_v26 (ix2 0 j)) (fun j => V c main_v29 (ix2 0 j)) :=
  (dat2 (F := Ideal) V c).arrAt_eq_of_cover 5 (result2 V c) (fun t _ => flushed2_eq V c t) covered2

end Cert.KernelIdeal.HandValue

end
-- ==== Proof.KIV.ValBnRelu5.lean ====
/-
  The value of the batch-norm + relu region 5 on the extended reals: after the region's twenty points the
  output array holds, at every index (r, c), max (((x (r, c) - mean c) * rsqrt (var c + eps)) * gamma c + beta c, 0)
  of the five arrays the region found.  First the body's payload at one index of a tile (the four rows broadcast
  down the tile read the row at the index's column); then what a point writes back is its block of that one
  whole-array function (the row tile of the activations moves with the output tile, the four rows do not move);
  then the twenty row tiles cover the 100000 rows, the tile of row r being the point r / 5000.
-/
import proofs.«131019_j5282809775007_1_alg».proof.Proof.KI.RegBnRelu5
import proofs.«131019_j5282809775007_1_alg».proof.Proof.LibRowBias
import proofs.«131019_j5282809775007_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The payload at an index of a tile -/

/-- The body's payload at index `j` of the tile: the entry less the mean of its column, times the reciprocal square
    root of the column's variance plus the offset, times the column's scale, plus its shift, clamped below at zero.
    Every operation is elementwise except the four row broadcasts, which read the row at the index's column. -/
theorem tile5_apply (x : Vec Ideal S5000x128 .f32) (mu var g b : Vec Ideal S1x128 .f32) (j : S5000x128.Idx) :
    k5_pay1 x var mu g b j
      = max ((x j - mu (ix2 (n0 := 1) (n1 := 128) 0 (j 1))) * Ideal.rsqrt (var (ix2 (n0 := 1) (n1 := 128) 0 (j 1)) + Cert.GcnSpec.offset)
          * g (ix2 (n0 := 1) (n1 := 128) 0 (j 1)) + b (ix2 (n0 := 1) (n1 := 128) 0 (j 1))) 0 := by
  unfold k5_pay1
  simp only [shapeCast_self]
  show max (((x j - broadcastTo S5000x128 mu broadcasts_S1x128_S5000x128 j)
        * broadcastTo S5000x128 (rsqrt (F := Ideal) (addf (F := Ideal) var (broadcast S1x128 (Scalar.ofBits (F := Ideal) .f32 0x3727C5AC#32)))) broadcasts_S1x128_S5000x128 j)
      * broadcastTo S5000x128 g broadcasts_S1x128_S5000x128 j + broadcastTo S5000x128 b broadcasts_S1x128_S5000x128 j)
    (Ideal.ofBits .f32 0x00000000#32) = _
  rw [Cert.RowBias.bcastRow_apply (a := 5000) (b := 128) mu broadcasts_S1x128_S5000x128 j,
    Cert.RowBias.bcastRow_apply (a := 5000) (b := 128) g broadcasts_S1x128_S5000x128 j,
    Cert.RowBias.bcastRow_apply (a := 5000) (b := 128) b broadcasts_S1x128_S5000x128 j,
    Cert.RowBias.bcastRow_apply (a := 5000) (b := 128) (rsqrt (F := Ideal) (addf (F := Ideal) var (broadcast S1x128 (Scalar.ofBits (F := Ideal) .f32 0x3727C5AC#32)))) broadcasts_S1x128_S5000x128 j,
    Ideal.ofBits_zero_f32]
  rfl

/-! ## What a point writes back -/

/-- The specification's function at an index `i'`, from its operands read at indices equal to `i'` (the tile) and to
    row 0 at `i'`'s column (the four rows). -/
theorem normReluAt5 (A : S100000x128.Idx → EReal) (M W G B : S1x128.Idx → EReal) (i i' : S100000x128.Idx) (k1 k2 k3 k4 : S1x128.Idx)
    (h0 : i = i') (h1 : k1 = ix2 (n0 := 1) (n1 := 128) 0 (i' 1)) (h2 : k2 = ix2 (n0 := 1) (n1 := 128) 0 (i' 1))
    (h3 : k3 = ix2 (n0 := 1) (n1 := 128) 0 (i' 1)) (h4 : k4 = ix2 (n0 := 1) (n1 := 128) 0 (i' 1)) :
    max ((A i - M k1) * Ideal.rsqrt (W k2 + Cert.GcnSpec.offset) * G k3 + B k4) 0
      = Cert.GcnSpec.normRelu A (fun j => M (ix2 0 j)) (fun j => W (ix2 0 j)) (fun j => G (ix2 0 j)) (fun j => B (ix2 0 j)) i' := by
  subst h0 h1 h2 h3 h4; rfl

theorem zeroOffsets5 : (![0, 0] : Fin 2 → Nat) = fun _ => 0 := funext fun a => by fin_cases a <;> rfl

/-- The region's output as one function of the arrays it finds. -/
abbrev result5 (c : Dev nD) : Cert.GcnSpec.Mat :=
  Cert.GcnSpec.normRelu (V c main_v43) (fun j => V c main_v46 (ix2 0 j)) (fun j => V c main_v50 (ix2 0 j))
    (fun j => V c main_v53 (ix2 0 j)) (fun j => V c main_v56 (ix2 0 j))

/-- The printed index maps, decided over the grid: the activations' row tile has the output tile's block index on
    both axes; the four rows' block index is (0, 0) at every point; the output's column block index is 0 and its
    row block index is the point. -/
theorem indexFacts5 : ∀ t : Fin cfg5.N, win5_0.index t (0 : Fin 2) = win5_5.index t (0 : Fin 2)
    ∧ win5_0.index t (1 : Fin 2) = win5_5.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is block `t` of `result5`. -/
theorem flushed5_eq (c : Dev nD) (t : Fin cfg5.N) :
    (dat5 (F := Ideal) V c).flushed 5 t = ((cfg5.win 5).blk t).view.read (Elt Ideal) (result5 V c) := by
  show (cfg5.win 5).cut (grid5.coords t) ((dat5 (F := Ideal) V c).after 5 t) = _
  rw [after5_5]
  unfold out5_5
  rw [View.canon_unit_zero zeroOffsets5]
  simp only [View.ld_unit_zero (S := S5000x128) zeroOffsets5, View.ld_unit_zero (S := S1x128) zeroOffsets5]
  obtain ⟨e0, e1, e2, e3, e4, e5, e6, e7, e8, e9, e10, e11⟩ := indexFacts5 t
  funext j
  refine (tile5_apply _ _ _ _ _ j).trans ?_
  have h0 : ((cfg5.win 0).blk t).view.emb j = ((cfg5.win 5).blk t).view.emb j := by
    funext a; apply Fin.ext
    match a with
    | ⟨0, _⟩ => show win5_0.index t (0 : Fin 2) * 5000 + 1 * (j 0).val = win5_5.index t (0 : Fin 2) * 5000 + 1 * (j 0).val; omega
    | ⟨1, _⟩ => show win5_0.index t (1 : Fin 2) * 128 + 1 * (j 1).val = win5_5.index t (1 : Fin 2) * 128 + 1 * (j 1).val; omega
  have h1 : ((cfg5.win 1).blk t).view.emb (ix2 (n0 := 1) (n1 := 128) 0 (j 1)) = ix2 (n0 := 1) (n1 := 128) 0 (((cfg5.win 5).blk t).view.emb j 1) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_5.index t (1 : Fin 2) * 128 + 1 * (j 1).val; omega
  have h2 : ((cfg5.win 2).blk t).view.emb (ix2 (n0 := 1) (n1 := 128) 0 (j 1)) = ix2 (n0 := 1) (n1 := 128) 0 (((cfg5.win 5).blk t).view.emb j 1) := by
    funext a; apply Fin.ext
    match a with
    | ⟨0, _⟩ => show win5_2.index t (0 : Fin 2) * 1 + 1 * 0 = 0; omega
    | ⟨1, _⟩ => show win5_2.index t (1 : Fin 2) * 128 + 1 * (j 1).val = win5_5.index t (1 : Fin 2) * 128 + 1 * (j 1).val; omega
  have h3 : ((cfg5.win 3).blk t).view.emb (ix2 (n0 := 1) (n1 := 128) 0 (j 1)) = ix2 (n0 := 1) (n1 := 128) 0 (((cfg5.win 5).blk t).view.emb j 1) := by
    funext a; apply Fin.ext
    match a with
    | ⟨0, _⟩ => show win5_3.index t (0 : Fin 2) * 1 + 1 * 0 = 0; omega
    | ⟨1, _⟩ => show win5_3.index t (1 : Fin 2) * 128 + 1 * (j 1).val = win5_5.index t (1 : Fin 2) * 128 + 1 * (j 1).val; omega
  have h4 : ((cfg5.win 4).blk t).view.emb (ix2 (n0 := 1) (n1 := 128) 0 (j 1)) = ix2 (n0 := 1) (n1 := 128) 0 (((cfg5.win 5).blk t).view.emb j 1) := by
    funext a; apply Fin.ext
    match a with
    | ⟨0, _⟩ => show win5_4.index t (0 : Fin 2) * 1 + 1 * 0 = 0; omega
    | ⟨1, _⟩ => show win5_4.index t (1 : Fin 2) * 128 + 1 * (j 1).val = win5_5.index t (1 : Fin 2) * 128 + 1 * (j 1).val; omega
  exact normReluAt5 (V c main_v43) (V c main_v46) (V c main_v50) (V c main_v53) (V c main_v56)
    (((cfg5.win 0).blk t).view.emb j) (((cfg5.win 5).blk t).view.emb j)
    (((cfg5.win 1).blk t).view.emb (ix2 (n0 := 1) (n1 := 128) 0 (j 1))) (((cfg5.win 2).blk t).view.emb (ix2 (n0 := 1) (n1 := 128) 0 (j 1)))
    (((cfg5.win 3).blk t).view.emb (ix2 (n0 := 1) (n1 := 128) 0 (j 1))) (((cfg5.win 4).blk t).view.emb (ix2 (n0 := 1) (n1 := 128) 0 (j 1)))
    h0 h1 h2 h3 h4

/-! ## The twenty row tiles cover the array -/

/-- An index of the array is in point `t`'s block iff each coordinate is in the block's range on its axis. -/
theorem mem_tile5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v57).slice (win5_5.rect t)).set ↔ _
  rw [View.set_slice_whole, Rect.mem_set_unit]
  exact Iff.rfl

/-- Every block index of the output's twenty row tiles is some point's. -/
theorem tileOnto5 : ∀ (q0 : Fin 20) (q1 : Fin 1), ∃ t : Fin cfg5.N, win5_5.index t = ![q0.val, q1.val] :=
  (by decide +kernel : ∀ (q0 : Fin 20) (q1 : Fin 1), ∃ t : Fin grid5.N, win5_5.index t = ![q0.val, q1.val])

/-- Every index of the array is in the block of the point its row falls in: row r in tile r / 5000. -/
theorem covered5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  obtain ⟨t, ht⟩ := tileOnto5 ⟨(i 0).val / 5000, by omega⟩ ⟨(i 1).val / 128, by omega⟩
  have q0 : win5_5.index t (0 : Fin 2) = (i 0).val / 5000 := congrFun ht 0
  have q1 : win5_5.index t (1 : Fin 2) = (i 1).val / 128 := congrFun ht 1
  refine ⟨t, flush5_5 t, ?_⟩
  rw [mem_tile5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-! ## The array after the region -/

/-- After the region's twenty points the output array is the normalised, scaled, shifted and clamped activations,
    index by index, of the arrays the region found. -/
theorem final5 (c : Dev nD) : (dat5 (F := Ideal) V c).arrAt 5 cfg5.N
    = Cert.GcnSpec.normRelu (V c main_v43) (fun j => V c main_v46 (ix2 0 j)) (fun j => V c main_v50 (ix2 0 j))
        (fun j => V c main_v53 (ix2 0 j)) (fun j => V c main_v56 (ix2 0 j)) :=
  (dat5 (F := Ideal) V c).arrAt_eq_of_cover 5 (result5 V c) (fun t _ => flushed5_eq V c t) covered5

end Cert.KernelIdeal.HandValue

end
-- ==== Proof.LibColSum.lean ====
/-
  Columns of a matrix summed over the rows, and the small layout facts that go with them.

  A reduction of an [a, b] array along its first axis is read at a lane as the sum of that lane's a entries; a single entry
  [1, 1] spread over an [a, b] array reads that entry everywhere; a sum over the a·b rows of a tall array cut into a
  blocks of b rows is the sum over the blocks of each block's sum.  Every lemma is over arbitrary extents and mentions no
  program.
-/
import Mathlib.Algebra.BigOperators.Fin
import Mathlib.Data.Fintype.BigOperators
import Mathlib.Tactic.Ring
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColSum

open Idealize.ShloMosaic Idealize.ShloMosaic.ValueIdx

variable {α : Type}

/-- The source index a row reduction reads for lane j and row r is (r, j). -/
theorem lift_row {a b : ℕ} (h : (⟨2, ![a, b]⟩ : Shape).Reduces [0] ⟨1, ![b]⟩) (j : Fin b) (r : Fin a) :
    h.lift (ix1 j) r = ix2 r j := by
  funext c
  apply Fin.ext
  match c with
  | ⟨0, _⟩ => rfl
  | ⟨1, _⟩ => rfl

/-- A vector unit's add reduction of an [a, b] array over the rows, read at lane j at the ideal values, is the sum of the
    lane's entries.  The accumulator's word is any word that is the sum's neutral one. -/
theorem multiReduction_row_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ r : Fin a, src (ix2 r j) := by
  refine (Ideal.multiReduction_add_single src acc h hφ hacc (ix1 j)).trans ?_
  exact Finset.sum_congr rfl fun r _ => congrArg src (lift_row h j r)

/-- A single entry [1, 1] spread over an [a, b] array reads that entry at every index. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A sum over the n·m rows of a tall array is the sum over its n blocks of m rows of each block's sum: only the order
    and grouping of the terms change. -/
theorem sum_blocks {M : Type*} [AddCommMonoid M] (n m : ℕ) (f : Fin (n * m) → M) :
    ∑ i : Fin (n * m), f i
      = ∑ t : Fin n, ∑ y : Fin m, f ⟨m * t.val + y.val, by
          have ht := t.isLt; have hy := y.isLt
          calc m * t.val + y.val < m * t.val + m := by omega
            _ = m * (t.val + 1) := by ring
            _ ≤ m * n := Nat.mul_le_mul_left m ht
            _ = n * m := Nat.mul_comm m n⟩ := by
  rw [← Equiv.sum_comp finProdFinEquiv f, Fintype.sum_prod_type]
  refine Finset.sum_congr rfl fun t _ => Finset.sum_congr rfl fun y _ => congrArg f (Fin.ext ?_)
  show y.val + m * t.val = m * t.val + y.val
  omega

end Cert.LibColSum

end
-- ==== Proof.LibBlockSum.lean ====
/-
  A sum over a range cut into equal consecutive blocks, and a running total built one block at a time.

  The a·b indices below a·b are the pairs (block t below a, offset y below b) through t·b + y, so a sum over all of
  them is the sum over the blocks of the sums within each block; only the commutativity and associativity of the
  addition is used. A running total that starts at z plus the first term and adds one more term at every step ends at z
  plus the sum of all the terms.
-/
import Mathlib

open scoped BigOperators

namespace Cert.LibBlockSum

variable {M : Type*} [AddCommMonoid M]

/-- Offset y of block t lies below a·b. -/
theorem blk_lt {a b : ℕ} (t : Fin a) (y : Fin b) : t.val * b + y.val < a * b :=
  calc t.val * b + y.val < t.val * b + b := Nat.add_lt_add_left y.isLt _
    _ = (t.val + 1) * b := (Nat.succ_mul _ _).symm
    _ ≤ a * b := Nat.mul_le_mul_right b t.isLt

/-- The same with the product written the other way round. -/
theorem blk_lt' {a b : ℕ} (t : Fin a) (y : Fin b) : b * t.val + y.val < a * b := by
  rw [Nat.mul_comm b]; exact blk_lt t y

/-- A sum over the indices below a·b is the sum over the a blocks of the sums over the b offsets within a block, the index
    written t·b + y. -/
theorem sum_blocks (a b : ℕ) (f : Fin (a * b) → M) (h : ∀ (t : Fin a) (y : Fin b), t.val * b + y.val < a * b) :
    ∑ t : Fin a, ∑ y : Fin b, f ⟨t.val * b + y.val, h t y⟩ = ∑ r : Fin (a * b), f r := by
  rw [← Equiv.sum_comp finProdFinEquiv f, Fintype.sum_prod_type]
  refine Finset.sum_congr rfl fun t _ => Finset.sum_congr rfl fun y _ => congrArg f (Fin.ext ?_)
  show t.val * b + y.val = y.val + b * t.val
  rw [Nat.mul_comm, Nat.add_comm]

/-- The same with the index written b·t + y. -/
theorem sum_blocks' (a b : ℕ) (f : Fin (a * b) → M) (h : ∀ (t : Fin a) (y : Fin b), b * t.val + y.val < a * b) :
    ∑ t : Fin a, ∑ y : Fin b, f ⟨b * t.val + y.val, h t y⟩ = ∑ r : Fin (a * b), f r := by
  rw [← sum_blocks a b f fun t y => blk_lt t y]
  exact Finset.sum_congr rfl fun t _ => Finset.sum_congr rfl fun y _ => congrArg f (Fin.ext (by
    show b * t.val + y.val = t.val * b + y.val
    rw [Nat.mul_comm]))

/-- 50000 rows as 10 blocks of 5000, the row written t·5000 + y. -/
theorem sum_rows_10x5000 (f : Fin 50000 → M) (h : ∀ (t : Fin 10) (y : Fin 5000), t.val * 5000 + y.val < 50000) :
    ∑ t : Fin 10, ∑ y : Fin 5000, f ⟨t.val * 5000 + y.val, h t y⟩ = ∑ r : Fin 50000, f r :=
  sum_blocks 10 5000 f h

/-- 50000 rows as 10 blocks of 5000, the row written 5000·t + y. -/
theorem sum_rows_10x5000' (f : Fin 50000 → M) (h : ∀ (t : Fin 10) (y : Fin 5000), 5000 * t.val + y.val < 50000) :
    ∑ t : Fin 10, ∑ y : Fin 5000, f ⟨5000 * t.val + y.val, h t y⟩ = ∑ r : Fin 50000, f r :=
  sum_blocks' 10 5000 f h

/-- A running total over terms indexed by the naturals: from z plus term 0, one more term added at each of n steps, it
    ends at z plus the sum of the terms 0 … n. -/
theorem acc_range (n : ℕ) (g : ℕ → M) (z : M) (acc : ℕ → M) (h0 : acc 0 = z + g 0)
    (hs : ∀ t, t < n → acc (t + 1) = acc t + g (t + 1)) : acc n = z + ∑ t ∈ Finset.range (n + 1), g t := by
  induction n with
  | zero => rw [h0, Finset.sum_range_one]
  | succ k ih =>
    rw [hs k (Nat.lt_succ_self k), ih fun t ht => hs t (Nat.lt_succ_of_lt ht), Finset.sum_range_succ _ (k + 1), add_assoc]

/-- The same over n + 1 terms indexed below n + 1. -/
theorem acc_fin (n : ℕ) (g : Fin (n + 1) → M) (z : M) (acc : ℕ → M) (h0 : acc 0 = z + g 0)
    (hs : ∀ t (ht : t < n), acc (t + 1) = acc t + g ⟨t + 1, Nat.succ_lt_succ ht⟩) :
    acc n = z + ∑ t : Fin (n + 1), g t := by
  have key := acc_range n (fun t => if ht : t < n + 1 then g ⟨t, ht⟩ else 0) z acc
    (by rw [h0, dif_pos (Nat.succ_pos n)]; rfl)
    (fun t ht => by rw [hs t ht, dif_pos (Nat.succ_lt_succ ht)])
  rw [key, ← Fin.sum_univ_eq_sum_range (fun t => if ht : t < n + 1 then g ⟨t, ht⟩ else 0) (n + 1)]
  exact congrArg (z + ·) (Finset.sum_congr rfl fun t _ => by rw [dif_pos t.isLt])

/-- Ten terms: from z plus term 0, one more term added at each of nine steps, the total ends at z plus the sum of the ten. -/
theorem acc_fin_10 (g : Fin 10 → M) (z : M) (acc : ℕ → M) (h0 : acc 0 = z + g 0)
    (hs : ∀ t (ht : t < 9), acc (t + 1) = acc t + g ⟨t + 1, Nat.succ_lt_succ ht⟩) :
    acc 9 = z + ∑ t : Fin 10, g t :=
  acc_fin 9 g z acc h0 hs

end Cert.LibBlockSum
-- ==== Proof.KIV.ValStats1.lean ====
import proofs.«131019_j5282809775007_1_alg».proof.Proof.KI.RegStats1
import proofs.«131019_j5282809775007_1_alg».proof.Proof.Spec
import proofs.«131019_j5282809775007_1_alg».proof.Proof.LibColSum
import proofs.«131019_j5282809775007_1_alg».proof.Proof.LibBlockSum
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.HandValue

open Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! # Region 1 at the ideal values: the two output rows end at the column sums, and the column sums of the squares,
    over all 100000 rows -/

/-! ## The payloads read at a lane -/

/-- The row the first point stores is zero at every lane. -/
theorem pay1_1 (j : Fin 128) : k1_pay1 (F := Ideal) (ix2 (0 : Fin 1) j) = 0 := by
  unfold k1_pay1
  refine (congrFun (shapeCast_self _ _) _).trans ?_
  exact Ideal.ofBits_zero_f32
theorem pay2_1 (j : Fin 128) : k1_pay2 (F := Ideal) (ix2 (0 : Fin 1) j) = 0 := by
  unfold k1_pay2
  refine (congrFun (shapeCast_self _ _) _).trans ?_
  exact Ideal.ofBits_zero_f32

theorem ix2_succ1 (j : Fin 128) : (fun a : Fin 1 => (ix2 (0 : Fin 1) j) a.succ) = ix1 j := by
  funext a; match a with | ⟨0, _⟩ => rfl

/-- A point adds to the row, at every lane, the sum of the tile's 5000 entries of that lane; -/
theorem pay4_1 (x : Vec Ideal S5000x128 .f32) (s : Vec Ideal S1x128 .f32) (j : Fin 128) :
    k1_pay4 (F := Ideal) x s (ix2 (0 : Fin 1) j) = s (ix2 (0 : Fin 1) j) + ∑ r : Fin 5000, x (ix2 r j) := by
  unfold k1_pay4 k1_pay3
  refine (congrFun (shapeCast_self _ _) _).trans ?_
  refine (addf_apply _ _ _).trans ?_
  refine congrArg (s (ix2 (0 : Fin 1) j) + ·) ?_
  refine (shapeCast_addUnit_apply ![128] _ _ (ix2 (0 : Fin 1) j)).trans ?_
  refine (congrArg _ (ix2_succ1 j)).trans ?_
  refine (Cert.LibColSum.multiReduction_row_apply (a := 5000) (b := 128) _ _ _ _ _ j).trans ?_
  exact Finset.sum_congr rfl fun r _ => congrFun (shapeCast_self x _) _

/-- to the row of squares, the sum of the squares of those entries. -/
theorem pay5_1 (x : Vec Ideal S5000x128 .f32) (q : Vec Ideal S1x128 .f32) (j : Fin 128) :
    k1_pay5 (F := Ideal) x q (ix2 (0 : Fin 1) j) = q (ix2 (0 : Fin 1) j) + ∑ r : Fin 5000, x (ix2 r j) * x (ix2 r j) := by
  unfold k1_pay5 k1_pay3
  refine (congrFun (shapeCast_self _ _) _).trans ?_
  refine (addf_apply _ _ _).trans ?_
  refine congrArg (q (ix2 (0 : Fin 1) j) + ·) ?_
  refine (shapeCast_addUnit_apply ![128] _ _ (ix2 (0 : Fin 1) j)).trans ?_
  refine (congrArg _ (ix2_succ1 j)).trans ?_
  refine (Cert.LibColSum.multiReduction_row_apply (a := 5000) (b := 128) _ _ _ _ _ j).trans ?_
  refine Finset.sum_congr rfl fun r _ => ?_
  refine (mulf_apply _ _ _).trans ?_
  rw [shapeCast_self]

variable (V : (c : Dev nD) → (b : Ref sig .tc) → Buf (Elt Ideal) ((c : Thread nD τ).loc b))

/-! ## The tiles are consecutive bands of 5000 rows -/

/-- Row `r` of a 100000 × 128 array at lane `j` (zero past the last row, which no tile reaches). -/
def rowAt1 (a : Cert.GcnSpec.Mat) (r : ℕ) (j : Fin 128) : EReal := if h : r < 100000 then a (ix2 ⟨r, h⟩ j) else 0

/-- The input window's block index at point `t` is `(t, 0)`. -/
theorem index1_0 : ∀ t : Fin cfg1.N, win1_0.index t 0 = t.val ∧ win1_0.index t 1 = 0 :=
  (by decide +kernel : ∀ t : Fin grid1.N, win1_0.index t 0 = t.val ∧ win1_0.index t 1 = 0)

/-- Tile `t` at `(y, j)` is the array at row `5000 t + y`, lane `j`. -/
theorem tile1_apply (c : Dev nD) (t : Fin cfg1.N) (y : Fin 5000) (j : Fin 128) :
    tiles1 V c t (ix2 y j) = rowAt1 (V c main_v16) (5000 * t.val + y.val) j := by
  have ht : t.val < 20 := lt_of_lt_of_eq t.isLt N_1
  have hr : 5000 * t.val + y.val < 100000 := by have := y.isLt; omega
  have hi := index1_0 t
  unfold rowAt1; rw [dif_pos hr]
  show iblk1 V c 0 t (ix2 y j) = _
  unfold iblk1
  rw [View.read_apply]
  show V c main_v16 _ = V c main_v16 _
  congr 1
  funext a
  apply Fin.ext
  match a with
  | ⟨0, _⟩ => show win1_0.index t 0 * 5000 + 1 * y.val = 5000 * t.val + y.val; rw [hi.1]; omega
  | ⟨1, _⟩ => show win1_0.index t 1 * 128 + 1 * j.val = j.val; rw [hi.2]; omega

/-! ## The running sums in closed form -/

/-- After `n` tiles the row of sums holds, at lane `j`, the sum of the lane over the first `5000 n` rows, band by band. -/
theorem sum1_apply (c : Dev nD) (j : Fin 128) : ∀ n : ℕ, n ≤ 20 →
    out1_1 (tiles1 V c) n (ix2 (0 : Fin 1) j)
      = ∑ t ∈ Finset.range n, ∑ y : Fin 5000, rowAt1 (V c main_v16) (5000 * t + y.val) j
  | 0, _ => by rw [out1_1_zero, Finset.range_zero, Finset.sum_empty]; exact pay1_1 j
  | n + 1, hn => by
    have hN : n < cfg1.N := lt_of_lt_of_eq (by omega) N_1.symm
    rw [show out1_1 (tiles1 V c) (n + 1) = k1_pay4 (tiles1 V c ⟨n, hN⟩) (out1_1 (tiles1 V c) n)
        from out1_1_succ (tiles1 V c) ⟨n, hN⟩,
      pay4_1, sum1_apply c j n (by omega), Finset.sum_range_succ]
    exact congrArg (_ + ·) (Finset.sum_congr rfl fun y _ => tile1_apply V c ⟨n, hN⟩ y j)

/-- The same for the squares. -/
theorem sq1_apply (c : Dev nD) (j : Fin 128) : ∀ n : ℕ, n ≤ 20 →
    out1_2 (tiles1 V c) n (ix2 (0 : Fin 1) j)
      = ∑ t ∈ Finset.range n, ∑ y : Fin 5000,
          rowAt1 (V c main_v16) (5000 * t + y.val) j * rowAt1 (V c main_v16) (5000 * t + y.val) j
  | 0, _ => by rw [out1_2_zero, Finset.range_zero, Finset.sum_empty]; exact pay2_1 j
  | n + 1, hn => by
    have hN : n < cfg1.N := lt_of_lt_of_eq (by omega) N_1.symm
    rw [show out1_2 (tiles1 V c) (n + 1) = k1_pay5 (tiles1 V c ⟨n, hN⟩) (out1_2 (tiles1 V c) n)
        from out1_2_succ (tiles1 V c) ⟨n, hN⟩,
      pay5_1, sq1_apply c j n (by omega), Finset.sum_range_succ]
    exact congrArg (_ + ·) (Finset.sum_congr rfl fun y _ => by rw [tile1_apply V c ⟨n, hN⟩ y j])

/-- Twenty bands of 5000 rows are the 100000 rows: only the grouping of the terms changes. -/
theorem bands1 (f : ℕ → EReal) :
    ∑ t ∈ Finset.range 20, ∑ y : Fin 5000, f (5000 * t + y.val) = ∑ r : Fin 100000, f r.val := by
  rw [← Fin.sum_univ_eq_sum_range (fun t => ∑ y : Fin 5000, f (5000 * t + y.val)) 20]
  exact (Cert.LibColSum.sum_blocks 20 5000 (fun r : Fin (20 * 5000) => f r.val)).symm

/-! ## What the two output arrays end holding -/

/-- The rows the last point copies out, as contents of the two output arrays (each array is its one block). -/
abbrev res1_sum (c : Dev nD) : Buf (Elt Ideal) ((c : Thread nD τ).loc main_v17_0) := out1_1 (tiles1 V c) 20
abbrev res1_sq (c : Dev nD) : Buf (Elt Ideal) ((c : Thread nD τ).loc main_v17_1) := out1_2 (tiles1 V c) 20

theorem last1 : ∀ t : Fin cfg1.N, t.val % 20 = 19 → t = ⟨19, by decide⟩ := fun t h =>
  Fin.ext (by have := lt_of_lt_of_eq t.isLt N_1; show t.val = 19; omega)

/-- The one write-back of each row, at the last point, writes the whole array: its block index is `(0, 0)`. -/
theorem flushed1_1 (c : Dev nD) (t : Fin cfg1.N) (hf : (cfg1.win 1).flush t = true) :
    (dat1 V c).flushed 1 t = ((cfg1.win 1).blk t).view.read (Elt Ideal) (res1_sum V c) := by
  obtain rfl := last1 t ((flush1_1 t).mp hf)
  show (cfg1.win 1).cut (grid1.coords ⟨19, _⟩) ((dat1 V c).after 1 ⟨19, _⟩) = _
  rw [after1_1]
  have hz' : (fun a => win1_1.index ⟨19, by decide⟩ a * main_v17_0.ty.shape.size a) = fun _ => 0 := funext fun a => by fin_cases a <;> decide
  exact (Memref.read_access_unit_zero (Elt Ideal) main_v17_0 hz' (fun a => by rw [congrFun hz' a]; simp) (res1_sum V c)).symm
theorem flushed1_2 (c : Dev nD) (t : Fin cfg1.N) (hf : (cfg1.win 2).flush t = true) :
    (dat1 V c).flushed 2 t = ((cfg1.win 2).blk t).view.read (Elt Ideal) (res1_sq V c) := by
  obtain rfl := last1 t ((flush1_2 t).mp hf)
  show (cfg1.win 2).cut (grid1.coords ⟨19, _⟩) ((dat1 V c).after 2 ⟨19, _⟩) = _
  rw [after1_2]
  have hz' : (fun a => win1_2.index ⟨19, by decide⟩ a * main_v17_1.ty.shape.size a) = fun _ => 0 := funext fun a => by fin_cases a <;> decide
  exact (Memref.read_access_unit_zero (Elt Ideal) main_v17_1 hz' (fun a => by rw [congrFun hz' a]; simp) (res1_sq V c)).symm

/-- The last grid point. -/
abbrev t19_1 : Fin cfg1.N := ⟨19, by decide⟩

/-- So each output array ends holding the row the last point copied out: that one write-back covers it. -/
theorem arr1_sum (c : Dev nD) : (dat1 V c).arrAt 1 cfg1.N = res1_sum V c :=
  (dat1 V c).arrAt_eq_of_cover 1 (res1_sum V c) (flushed1_1 V c) fun i =>
    ⟨t19_1, (flush1_1 _).mpr rfl, by
      show i ∈ ((View.whole main_v17_0).slice (win1_1.rect t19_1)).set
      rw [View.set_slice_whole, Rect.mem_set_unit]
      intro a
      have h0 : (i 0 : Nat) < 1 := (i 0).isLt
      have h1 : (i 1 : Nat) < 128 := (i 1).isLt
      match a with
      | ⟨0, _⟩ => show win1_1.index t19_1 0 * win1_1.size 0 ≤ (i 0 : Nat) ∧ (i 0 : Nat) < win1_1.index t19_1 0 * win1_1.size 0 + win1_1.xsize (grid1.coords t19_1) 0
                  rw [show win1_1.index t19_1 0 * win1_1.size 0 = 0 from by decide +kernel, show win1_1.xsize (grid1.coords t19_1) 0 = 1 from by decide +kernel]; omega
      | ⟨1, _⟩ => show win1_1.index t19_1 1 * win1_1.size 1 ≤ (i 1 : Nat) ∧ (i 1 : Nat) < win1_1.index t19_1 1 * win1_1.size 1 + win1_1.xsize (grid1.coords t19_1) 1
                  rw [show win1_1.index t19_1 1 * win1_1.size 1 = 0 from by decide +kernel, show win1_1.xsize (grid1.coords t19_1) 1 = 128 from by decide +kernel]; omega⟩
theorem arr1_sq (c : Dev nD) : (dat1 V c).arrAt 2 cfg1.N = res1_sq V c :=
  (dat1 V c).arrAt_eq_of_cover 2 (res1_sq V c) (flushed1_2 V c) fun i =>
    ⟨t19_1, (flush1_2 _).mpr rfl, by
      show i ∈ ((View.whole main_v17_1).slice (win1_2.rect t19_1)).set
      rw [View.set_slice_whole, Rect.mem_set_unit]
      intro a
      have h0 : (i 0 : Nat) < 1 := (i 0).isLt
      have h1 : (i 1 : Nat) < 128 := (i 1).isLt
      match a with
      | ⟨0, _⟩ => show win1_2.index t19_1 0 * win1_2.size 0 ≤ (i 0 : Nat) ∧ (i 0 : Nat) < win1_2.index t19_1 0 * win1_2.size 0 + win1_2.xsize (grid1.coords t19_1) 0
                  rw [show win1_2.index t19_1 0 * win1_2.size 0 = 0 from by decide +kernel, show win1_2.xsize (grid1.coords t19_1) 0 = 1 from by decide +kernel]; omega
      | ⟨1, _⟩ => show win1_2.index t19_1 1 * win1_2.size 1 ≤ (i 1 : Nat) ∧ (i 1 : Nat) < win1_2.index t19_1 1 * win1_2.size 1 + win1_2.xsize (grid1.coords t19_1) 1
                  rw [show win1_2.index t19_1 1 * win1_2.size 1 = 0 from by decide +kernel, show win1_2.xsize (grid1.coords t19_1) 1 = 128 from by decide +kernel]; omega⟩

/-- An index of a 1 × 128 row is `(0, lane)`. -/
theorem row_ix1 (i : (⟨2, ![1, 128]⟩ : Shape).Idx) : i = ix2 (0 : Fin 1) (i 1) := by
  funext a
  match a with
  | ⟨0, _⟩ => exact Fin.ext (by have h := idx2_lt0 i; show (i 0).val = 0; omega)
  | ⟨1, _⟩ => rfl

/-- The region's input array as a 100000 × 128 matrix of extended reals. -/
abbrev inp1 (c : Dev nD) : Cert.GcnSpec.Mat := V c main_v16

/-- THE VALUE: the first output array ends holding, at every lane, the column's sum over all 100000 rows; -/
theorem final1_sum (c : Dev nD) :
    (dat1 (F := Ideal) V c).arrAt 1 cfg1.N = fun i => Cert.GcnSpec.colSum (V c main_v16) (i 1) :=
  (arr1_sum V c).trans (funext fun i => by
    show out1_1 (tiles1 V c) 20 i = _
    refine (congrArg (out1_1 (tiles1 V c) 20) (row_ix1 i)).trans ?_
    refine (sum1_apply V c (i 1) 20 le_rfl).trans ?_
    refine (bands1 (fun r => rowAt1 (V c main_v16) r (i 1))).trans ?_
    unfold Cert.GcnSpec.colSum
    exact Finset.sum_congr rfl fun r _ => dif_pos r.isLt)

/-- the second, the sum of the column's squares. -/
theorem final1_sq (c : Dev nD) :
    (dat1 (F := Ideal) V c).arrAt 2 cfg1.N = fun i => Cert.GcnSpec.colSum (fun k => inp1 V c k * inp1 V c k) (i 1) :=
  (arr1_sq V c).trans (funext fun i => by
    show out1_2 (tiles1 V c) 20 i = _
    refine (congrArg (out1_2 (tiles1 V c) 20) (row_ix1 i)).trans ?_
    refine (sq1_apply V c (i 1) 20 le_rfl).trans ?_
    refine (bands1 (fun r => rowAt1 (V c main_v16) r (i 1) * rowAt1 (V c main_v16) r (i 1))).trans ?_
    unfold Cert.GcnSpec.colSum
    exact Finset.sum_congr rfl fun r _ => by unfold rowAt1; rw [dif_pos r.isLt])

end Cert.KernelIdeal.HandValue

end
-- ==== Proof.KIV.ValStats4.lean ====
import proofs.«131019_j5282809775007_1_alg».proof.Proof.KI.RegStats4
import proofs.«131019_j5282809775007_1_alg».proof.Proof.Spec
import proofs.«131019_j5282809775007_1_alg».proof.Proof.LibColSum
import proofs.«131019_j5282809775007_1_alg».proof.Proof.LibBlockSum
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.HandValue

open Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! # Region 4 at the ideal values: the two output rows end at the column sums, and the column sums of the squares,
    over all 100000 rows -/

/-! ## The payloads read at a lane -/

/-- The row the first point stores is zero at every lane. -/
theorem pay1_4 (j : Fin 128) : k4_pay1 (F := Ideal) (ix2 (0 : Fin 1) j) = 0 := by
  unfold k4_pay1
  refine (congrFun (shapeCast_self _ _) _).trans ?_
  exact Ideal.ofBits_zero_f32
theorem pay2_4 (j : Fin 128) : k4_pay2 (F := Ideal) (ix2 (0 : Fin 1) j) = 0 := by
  unfold k4_pay2
  refine (congrFun (shapeCast_self _ _) _).trans ?_
  exact Ideal.ofBits_zero_f32

theorem ix2_succ4 (j : Fin 128) : (fun a : Fin 1 => (ix2 (0 : Fin 1) j) a.succ) = ix1 j := by
  funext a; match a with | ⟨0, _⟩ => rfl

/-- A point adds to the row, at every lane, the sum of the tile's 5000 entries of that lane; -/
theorem pay4_4 (x : Vec Ideal S5000x128 .f32) (s : Vec Ideal S1x128 .f32) (j : Fin 128) :
    k4_pay4 (F := Ideal) x s (ix2 (0 : Fin 1) j) = s (ix2 (0 : Fin 1) j) + ∑ r : Fin 5000, x (ix2 r j) := by
  unfold k4_pay4 k4_pay3
  refine (congrFun (shapeCast_self _ _) _).trans ?_
  refine (addf_apply _ _ _).trans ?_
  refine congrArg (s (ix2 (0 : Fin 1) j) + ·) ?_
  refine (shapeCast_addUnit_apply ![128] _ _ (ix2 (0 : Fin 1) j)).trans ?_
  refine (congrArg _ (ix2_succ4 j)).trans ?_
  refine (Cert.LibColSum.multiReduction_row_apply (a := 5000) (b := 128) _ _ _ _ _ j).trans ?_
  exact Finset.sum_congr rfl fun r _ => congrFun (shapeCast_self x _) _

/-- to the row of squares, the sum of the squares of those entries. -/
theorem pay5_4 (x : Vec Ideal S5000x128 .f32) (q : Vec Ideal S1x128 .f32) (j : Fin 128) :
    k4_pay5 (F := Ideal) x q (ix2 (0 : Fin 1) j) = q (ix2 (0 : Fin 1) j) + ∑ r : Fin 5000, x (ix2 r j) * x (ix2 r j) := by
  unfold k4_pay5 k4_pay3
  refine (congrFun (shapeCast_self _ _) _).trans ?_
  refine (addf_apply _ _ _).trans ?_
  refine congrArg (q (ix2 (0 : Fin 1) j) + ·) ?_
  refine (shapeCast_addUnit_apply ![128] _ _ (ix2 (0 : Fin 1) j)).trans ?_
  refine (congrArg _ (ix2_succ4 j)).trans ?_
  refine (Cert.LibColSum.multiReduction_row_apply (a := 5000) (b := 128) _ _ _ _ _ j).trans ?_
  refine Finset.sum_congr rfl fun r _ => ?_
  refine (mulf_apply _ _ _).trans ?_
  rw [shapeCast_self]

variable (V : (c : Dev nD) → (b : Ref sig .tc) → Buf (Elt Ideal) ((c : Thread nD τ).loc b))

/-! ## The tiles are consecutive bands of 5000 rows -/

/-- Row `r` of a 100000 × 128 array at lane `j` (zero past the last row, which no tile reaches). -/
def rowAt4 (a : Cert.GcnSpec.Mat) (r : ℕ) (j : Fin 128) : EReal := if h : r < 100000 then a (ix2 ⟨r, h⟩ j) else 0

/-- The input window's block index at point `t` is `(t, 0)`. -/
theorem index4_0 : ∀ t : Fin cfg4.N, win4_0.index t 0 = t.val ∧ win4_0.index t 1 = 0 :=
  (by decide +kernel : ∀ t : Fin grid4.N, win4_0.index t 0 = t.val ∧ win4_0.index t 1 = 0)

/-- Tile `t` at `(y, j)` is the array at row `5000 t + y`, lane `j`. -/
theorem tile4_apply (c : Dev nD) (t : Fin cfg4.N) (y : Fin 5000) (j : Fin 128) :
    tiles4 V c t (ix2 y j) = rowAt4 (V c main_v43) (5000 * t.val + y.val) j := by
  have ht : t.val < 20 := lt_of_lt_of_eq t.isLt N_4
  have hr : 5000 * t.val + y.val < 100000 := by have := y.isLt; omega
  have hi := index4_0 t
  unfold rowAt4; rw [dif_pos hr]
  show iblk4 V c 0 t (ix2 y j) = _
  unfold iblk4
  rw [View.read_apply]
  show V c main_v43 _ = V c main_v43 _
  congr 1
  funext a
  apply Fin.ext
  match a with
  | ⟨0, _⟩ => show win4_0.index t 0 * 5000 + 1 * y.val = 5000 * t.val + y.val; rw [hi.1]; omega
  | ⟨1, _⟩ => show win4_0.index t 1 * 128 + 1 * j.val = j.val; rw [hi.2]; omega

/-! ## The running sums in closed form -/

/-- After `n` tiles the row of sums holds, at lane `j`, the sum of the lane over the first `5000 n` rows, band by band. -/
theorem sum4_apply (c : Dev nD) (j : Fin 128) : ∀ n : ℕ, n ≤ 20 →
    out4_1 (tiles4 V c) n (ix2 (0 : Fin 1) j)
      = ∑ t ∈ Finset.range n, ∑ y : Fin 5000, rowAt4 (V c main_v43) (5000 * t + y.val) j
  | 0, _ => by rw [out4_1_zero, Finset.range_zero, Finset.sum_empty]; exact pay1_4 j
  | n + 1, hn => by
    have hN : n < cfg4.N := lt_of_lt_of_eq (by omega) N_4.symm
    rw [show out4_1 (tiles4 V c) (n + 1) = k4_pay4 (tiles4 V c ⟨n, hN⟩) (out4_1 (tiles4 V c) n)
        from out4_1_succ (tiles4 V c) ⟨n, hN⟩,
      pay4_4, sum4_apply c j n (by omega), Finset.sum_range_succ]
    exact congrArg (_ + ·) (Finset.sum_congr rfl fun y _ => tile4_apply V c ⟨n, hN⟩ y j)

/-- The same for the squares. -/
theorem sq4_apply (c : Dev nD) (j : Fin 128) : ∀ n : ℕ, n ≤ 20 →
    out4_2 (tiles4 V c) n (ix2 (0 : Fin 1) j)
      = ∑ t ∈ Finset.range n, ∑ y : Fin 5000,
          rowAt4 (V c main_v43) (5000 * t + y.val) j * rowAt4 (V c main_v43) (5000 * t + y.val) j
  | 0, _ => by rw [out4_2_zero, Finset.range_zero, Finset.sum_empty]; exact pay2_4 j
  | n + 1, hn => by
    have hN : n < cfg4.N := lt_of_lt_of_eq (by omega) N_4.symm
    rw [show out4_2 (tiles4 V c) (n + 1) = k4_pay5 (tiles4 V c ⟨n, hN⟩) (out4_2 (tiles4 V c) n)
        from out4_2_succ (tiles4 V c) ⟨n, hN⟩,
      pay5_4, sq4_apply c j n (by omega), Finset.sum_range_succ]
    exact congrArg (_ + ·) (Finset.sum_congr rfl fun y _ => by rw [tile4_apply V c ⟨n, hN⟩ y j])

/-- Twenty bands of 5000 rows are the 100000 rows: only the grouping of the terms changes. -/
theorem bands4 (f : ℕ → EReal) :
    ∑ t ∈ Finset.range 20, ∑ y : Fin 5000, f (5000 * t + y.val) = ∑ r : Fin 100000, f r.val := by
  rw [← Fin.sum_univ_eq_sum_range (fun t => ∑ y : Fin 5000, f (5000 * t + y.val)) 20]
  exact (Cert.LibColSum.sum_blocks 20 5000 (fun r : Fin (20 * 5000) => f r.val)).symm

/-! ## What the two output arrays end holding -/

/-- The rows the last point copies out, as contents of the two output arrays (each array is its one block). -/
abbrev res4_sum (c : Dev nD) : Buf (Elt Ideal) ((c : Thread nD τ).loc main_v44_0) := out4_1 (tiles4 V c) 20
abbrev res4_sq (c : Dev nD) : Buf (Elt Ideal) ((c : Thread nD τ).loc main_v44_1) := out4_2 (tiles4 V c) 20

theorem last4 : ∀ t : Fin cfg4.N, t.val % 20 = 19 → t = ⟨19, by decide⟩ := fun t h =>
  Fin.ext (by have := lt_of_lt_of_eq t.isLt N_4; show t.val = 19; omega)

/-- The one write-back of each row, at the last point, writes the whole array: its block index is `(0, 0)`. -/
theorem flushed4_1 (c : Dev nD) (t : Fin cfg4.N) (hf : (cfg4.win 1).flush t = true) :
    (dat4 V c).flushed 1 t = ((cfg4.win 1).blk t).view.read (Elt Ideal) (res4_sum V c) := by
  obtain rfl := last4 t ((flush4_1 t).mp hf)
  show (cfg4.win 1).cut (grid4.coords ⟨19, _⟩) ((dat4 V c).after 1 ⟨19, _⟩) = _
  rw [after4_1]
  have hz' : (fun a => win4_1.index ⟨19, by decide⟩ a * main_v44_0.ty.shape.size a) = fun _ => 0 := funext fun a => by fin_cases a <;> decide
  exact (Memref.read_access_unit_zero (Elt Ideal) main_v44_0 hz' (fun a => by rw [congrFun hz' a]; simp) (res4_sum V c)).symm
theorem flushed4_2 (c : Dev nD) (t : Fin cfg4.N) (hf : (cfg4.win 2).flush t = true) :
    (dat4 V c).flushed 2 t = ((cfg4.win 2).blk t).view.read (Elt Ideal) (res4_sq V c) := by
  obtain rfl := last4 t ((flush4_2 t).mp hf)
  show (cfg4.win 2).cut (grid4.coords ⟨19, _⟩) ((dat4 V c).after 2 ⟨19, _⟩) = _
  rw [after4_2]
  have hz' : (fun a => win4_2.index ⟨19, by decide⟩ a * main_v44_1.ty.shape.size a) = fun _ => 0 := funext fun a => by fin_cases a <;> decide
  exact (Memref.read_access_unit_zero (Elt Ideal) main_v44_1 hz' (fun a => by rw [congrFun hz' a]; simp) (res4_sq V c)).symm

/-- The last grid point. -/
abbrev t19_4 : Fin cfg4.N := ⟨19, by decide⟩

/-- So each output array ends holding the row the last point copied out: that one write-back covers it. -/
theorem arr4_sum (c : Dev nD) : (dat4 V c).arrAt 1 cfg4.N = res4_sum V c :=
  (dat4 V c).arrAt_eq_of_cover 1 (res4_sum V c) (flushed4_1 V c) fun i =>
    ⟨t19_4, (flush4_1 _).mpr rfl, by
      show i ∈ ((View.whole main_v44_0).slice (win4_1.rect t19_4)).set
      rw [View.set_slice_whole, Rect.mem_set_unit]
      intro a
      have h0 : (i 0 : Nat) < 1 := (i 0).isLt
      have h1 : (i 1 : Nat) < 128 := (i 1).isLt
      match a with
      | ⟨0, _⟩ => show win4_1.index t19_4 0 * win4_1.size 0 ≤ (i 0 : Nat) ∧ (i 0 : Nat) < win4_1.index t19_4 0 * win4_1.size 0 + win4_1.xsize (grid4.coords t19_4) 0
                  rw [show win4_1.index t19_4 0 * win4_1.size 0 = 0 from by decide +kernel, show win4_1.xsize (grid4.coords t19_4) 0 = 1 from by decide +kernel]; omega
      | ⟨1, _⟩ => show win4_1.index t19_4 1 * win4_1.size 1 ≤ (i 1 : Nat) ∧ (i 1 : Nat) < win4_1.index t19_4 1 * win4_1.size 1 + win4_1.xsize (grid4.coords t19_4) 1
                  rw [show win4_1.index t19_4 1 * win4_1.size 1 = 0 from by decide +kernel, show win4_1.xsize (grid4.coords t19_4) 1 = 128 from by decide +kernel]; omega⟩
theorem arr4_sq (c : Dev nD) : (dat4 V c).arrAt 2 cfg4.N = res4_sq V c :=
  (dat4 V c).arrAt_eq_of_cover 2 (res4_sq V c) (flushed4_2 V c) fun i =>
    ⟨t19_4, (flush4_2 _).mpr rfl, by
      show i ∈ ((View.whole main_v44_1).slice (win4_2.rect t19_4)).set
      rw [View.set_slice_whole, Rect.mem_set_unit]
      intro a
      have h0 : (i 0 : Nat) < 1 := (i 0).isLt
      have h1 : (i 1 : Nat) < 128 := (i 1).isLt
      match a with
      | ⟨0, _⟩ => show win4_2.index t19_4 0 * win4_2.size 0 ≤ (i 0 : Nat) ∧ (i 0 : Nat) < win4_2.index t19_4 0 * win4_2.size 0 + win4_2.xsize (grid4.coords t19_4) 0
                  rw [show win4_2.index t19_4 0 * win4_2.size 0 = 0 from by decide +kernel, show win4_2.xsize (grid4.coords t19_4) 0 = 1 from by decide +kernel]; omega
      | ⟨1, _⟩ => show win4_2.index t19_4 1 * win4_2.size 1 ≤ (i 1 : Nat) ∧ (i 1 : Nat) < win4_2.index t19_4 1 * win4_2.size 1 + win4_2.xsize (grid4.coords t19_4) 1
                  rw [show win4_2.index t19_4 1 * win4_2.size 1 = 0 from by decide +kernel, show win4_2.xsize (grid4.coords t19_4) 1 = 128 from by decide +kernel]; omega⟩

/-- An index of a 1 × 128 row is `(0, lane)`. -/
theorem row_ix4 (i : (⟨2, ![1, 128]⟩ : Shape).Idx) : i = ix2 (0 : Fin 1) (i 1) := by
  funext a
  match a with
  | ⟨0, _⟩ => exact Fin.ext (by have h := idx2_lt0 i; show (i 0).val = 0; omega)
  | ⟨1, _⟩ => rfl

/-- The region's input array as a 100000 × 128 matrix of extended reals. -/
abbrev inp4 (c : Dev nD) : Cert.GcnSpec.Mat := V c main_v43

/-- THE VALUE: the first output array ends holding, at every lane, the column's sum over all 100000 rows; -/
theorem final4_sum (c : Dev nD) :
    (dat4 (F := Ideal) V c).arrAt 1 cfg4.N = fun i => Cert.GcnSpec.colSum (V c main_v43) (i 1) :=
  (arr4_sum V c).trans (funext fun i => by
    show out4_1 (tiles4 V c) 20 i = _
    refine (congrArg (out4_1 (tiles4 V c) 20) (row_ix4 i)).trans ?_
    refine (sum4_apply V c (i 1) 20 le_rfl).trans ?_
    refine (bands4 (fun r => rowAt4 (V c main_v43) r (i 1))).trans ?_
    unfold Cert.GcnSpec.colSum
    exact Finset.sum_congr rfl fun r _ => dif_pos r.isLt)

/-- the second, the sum of the column's squares. -/
theorem final4_sq (c : Dev nD) :
    (dat4 (F := Ideal) V c).arrAt 2 cfg4.N = fun i => Cert.GcnSpec.colSum (fun k => inp4 V c k * inp4 V c k) (i 1) :=
  (arr4_sq V c).trans (funext fun i => by
    show out4_2 (tiles4 V c) 20 i = _
    refine (congrArg (out4_2 (tiles4 V c) 20) (row_ix4 i)).trans ?_
    refine (sq4_apply V c (i 1) 20 le_rfl).trans ?_
    refine (bands4 (fun r => rowAt4 (V c main_v43) r (i 1) * rowAt4 (V c main_v43) r (i 1))).trans ?_
    unfold Cert.GcnSpec.colSum
    exact Finset.sum_congr rfl fun r _ => by unfold rowAt4; rw [dif_pos r.isLt])

end Cert.KernelIdeal.HandValue

end
-- ==== Proof.KIV.Chain.lean ====
/-
  The idealized kernel program's run read boundary by boundary: each host stretch's result is a named function of the
  contents before it, each region's output array the whole-array function its pipeline computes of the arrays it
  found, and what no later item writes keeps its contents.  Composed from the launch to the return, the result array
  holds the program's function of the five argument arrays.
-/
import proofs.«131019_j5282809775007_1_alg».proof.Proof.KI.Run
import proofs.«131019_j5282809775007_1_alg».proof.Proof.KIV.HostStages
import proofs.«131019_j5282809775007_1_alg».proof.Proof.KIV.KernelFn
import proofs.«131019_j5282809775007_1_alg».proof.Proof.KIV.ValMatmul0
import proofs.«131019_j5282809775007_1_alg».proof.Proof.KIV.ValMatmul3
import proofs.«131019_j5282809775007_1_alg».proof.Proof.KIV.ValMatmul6
import proofs.«131019_j5282809775007_1_alg».proof.Proof.KIV.ValLogSoftmax7
import proofs.«131019_j5282809775007_1_alg».proof.Proof.KIV.ValBnRelu2
import proofs.«131019_j5282809775007_1_alg».proof.Proof.KIV.ValBnRelu5
import proofs.«131019_j5282809775007_1_alg».proof.Proof.KIV.ValStats1
import proofs.«131019_j5282809775007_1_alg».proof.Proof.KIV.ValStats4
import proofs.«131019_j5282809775007_1_alg».proof.Proof.Spec
import proofs.«131019_j5282809775007_1_alg».proof.Proof.LibMatProd

set_option maxRecDepth 16384

noncomputable section

namespace Cert.KernelIdeal.HandValue
open Cert.KernelIdeal Cert.KernelIdeal.Gen Cert.KernelIdeal.Hand Cert.GcnSpec
open Idealize.ShloMosaic Idealize.ShloMosaic.TcCoe Idealize.SL.Sem Idealize.ShloMosaic.ValueIdx

variable (m : (ℓ : Loc nD τ sig) → Buf (Elt Ideal) ℓ) (c : Dev nD)

/-! # The idealized kernel program's result as a function of its arguments

  Boundary by boundary: what each buffer that a later region or host stretch reads holds, as a function of the five
  argument arrays.  A buffer no later item writes keeps its contents from where it was last written. -/

/-- The five argument arrays on core `c` at launch. -/
abbrev aX : Nodes := m ((c : Thread nD τ).loc main_arg0)
abbrev aE : Edges := m ((c : Thread nD τ).loc main_arg1)
abbrev aW : (⟨S3x128x128, .f32⟩ : BufTy).Contents (Elt Ideal) := m ((c : Thread nD τ).loc main_arg2)
abbrev aG : (⟨S2x128, .f32⟩ : BufTy).Contents (Elt Ideal) := m ((c : Thread nD τ).loc main_arg3)
abbrev aB : (⟨S2x128, .f32⟩ : BufTy).Contents (Elt Ideal) := m ((c : Thread nD τ).loc main_arg4)

/-! ## What no item changes: the index vectors and the parameter arguments, carried boundary by boundary -/

theorem e0_arg0 : We0 m c (Proc.devRef .tc main_arg0) = (aX m c) := (StableHlo.after_of_writes_sub hostOps0 _ hostOps0_writes (by decide) : We0 m c (Proc.devRef .tc main_arg0) = Wl m c (Proc.devRef .tc main_arg0)).trans rfl
theorem e0_v1 : We0 m c (Proc.devRef .tc main_v1) = srcVec (aE m c) := hs0_v1 (Wl m c)
theorem e0_v3 : We0 m c (Proc.devRef .tc main_v3) = dstVec (aE m c) := hs0_v3 (Wl m c)
theorem e0_v5 : We0 m c (Proc.devRef .tc main_v5) = weight0 (aW m c) := hs0_v5 (Wl m c)
theorem e0_arg2 : We0 m c (Proc.devRef .tc main_arg2) = (aW m c) := (StableHlo.after_of_writes_sub hostOps0 _ hostOps0_writes (by decide) : We0 m c (Proc.devRef .tc main_arg2) = Wl m c (Proc.devRef .tc main_arg2)).trans rfl
theorem e0_arg3 : We0 m c (Proc.devRef .tc main_arg3) = (aG m c) := (StableHlo.after_of_writes_sub hostOps0 _ hostOps0_writes (by decide) : We0 m c (Proc.devRef .tc main_arg3) = Wl m c (Proc.devRef .tc main_arg3)).trans rfl
theorem e0_arg4 : We0 m c (Proc.devRef .tc main_arg4) = (aB m c) := (StableHlo.after_of_writes_sub hostOps0 _ hostOps0_writes (by decide) : We0 m c (Proc.devRef .tc main_arg4) = Wl m c (Proc.devRef .tc main_arg4)).trans rfl
theorem x0_v1 : Wx0 m c (Proc.devRef .tc main_v1) = srcVec (aE m c) := (Wx0_of_ne m c main_v1 (by decide) : Wx0 m c (Proc.devRef .tc main_v1) = We0 m c (Proc.devRef .tc main_v1)).trans (e0_v1 m c)
theorem e1_v1 : We1 m c (Proc.devRef .tc main_v1) = srcVec (aE m c) := (StableHlo.after_of_writes_sub hostOps1 _ hostOps1_writes (by decide) : We1 m c (Proc.devRef .tc main_v1) = Wx0 m c (Proc.devRef .tc main_v1)).trans (x0_v1 m c)
theorem x0_v3 : Wx0 m c (Proc.devRef .tc main_v3) = dstVec (aE m c) := (Wx0_of_ne m c main_v3 (by decide) : Wx0 m c (Proc.devRef .tc main_v3) = We0 m c (Proc.devRef .tc main_v3)).trans (e0_v3 m c)
theorem e1_v3 : We1 m c (Proc.devRef .tc main_v3) = dstVec (aE m c) := (StableHlo.after_of_writes_sub hostOps1 _ hostOps1_writes (by decide) : We1 m c (Proc.devRef .tc main_v3) = Wx0 m c (Proc.devRef .tc main_v3)).trans (x0_v3 m c)
theorem x0_arg2 : Wx0 m c (Proc.devRef .tc main_arg2) = (aW m c) := (Wx0_of_ne m c main_arg2 (by decide) : Wx0 m c (Proc.devRef .tc main_arg2) = We0 m c (Proc.devRef .tc main_arg2)).trans (e0_arg2 m c)
theorem e1_arg2 : We1 m c (Proc.devRef .tc main_arg2) = (aW m c) := (StableHlo.after_of_writes_sub hostOps1 _ hostOps1_writes (by decide) : We1 m c (Proc.devRef .tc main_arg2) = Wx0 m c (Proc.devRef .tc main_arg2)).trans (x0_arg2 m c)
theorem x0_arg3 : Wx0 m c (Proc.devRef .tc main_arg3) = (aG m c) := (Wx0_of_ne m c main_arg3 (by decide) : Wx0 m c (Proc.devRef .tc main_arg3) = We0 m c (Proc.devRef .tc main_arg3)).trans (e0_arg3 m c)
theorem e1_arg3 : We1 m c (Proc.devRef .tc main_arg3) = (aG m c) := (StableHlo.after_of_writes_sub hostOps1 _ hostOps1_writes (by decide) : We1 m c (Proc.devRef .tc main_arg3) = Wx0 m c (Proc.devRef .tc main_arg3)).trans (x0_arg3 m c)
theorem x0_arg4 : Wx0 m c (Proc.devRef .tc main_arg4) = (aB m c) := (Wx0_of_ne m c main_arg4 (by decide) : Wx0 m c (Proc.devRef .tc main_arg4) = We0 m c (Proc.devRef .tc main_arg4)).trans (e0_arg4 m c)
theorem e1_arg4 : We1 m c (Proc.devRef .tc main_arg4) = (aB m c) := (StableHlo.after_of_writes_sub hostOps1 _ hostOps1_writes (by decide) : We1 m c (Proc.devRef .tc main_arg4) = Wx0 m c (Proc.devRef .tc main_arg4)).trans (x0_arg4 m c)
theorem x1_v1 : Wx1 m c (Proc.devRef .tc main_v1) = srcVec (aE m c) := (Wx1_of_ne m c main_v1 (by decide) : Wx1 m c (Proc.devRef .tc main_v1) = We1 m c (Proc.devRef .tc main_v1)).trans (e1_v1 m c)
theorem e2_v1 : We2 m c (Proc.devRef .tc main_v1) = srcVec (aE m c) := (StableHlo.after_of_writes_sub hostOps2 _ hostOps2_writes (by decide) : We2 m c (Proc.devRef .tc main_v1) = Wx1 m c (Proc.devRef .tc main_v1)).trans (x1_v1 m c)
theorem x1_v3 : Wx1 m c (Proc.devRef .tc main_v3) = dstVec (aE m c) := (Wx1_of_ne m c main_v3 (by decide) : Wx1 m c (Proc.devRef .tc main_v3) = We1 m c (Proc.devRef .tc main_v3)).trans (e1_v3 m c)
theorem e2_v3 : We2 m c (Proc.devRef .tc main_v3) = dstVec (aE m c) := (StableHlo.after_of_writes_sub hostOps2 _ hostOps2_writes (by decide) : We2 m c (Proc.devRef .tc main_v3) = Wx1 m c (Proc.devRef .tc main_v3)).trans (x1_v3 m c)
theorem x1_arg2 : Wx1 m c (Proc.devRef .tc main_arg2) = (aW m c) := (Wx1_of_ne m c main_arg2 (by decide) : Wx1 m c (Proc.devRef .tc main_arg2) = We1 m c (Proc.devRef .tc main_arg2)).trans (e1_arg2 m c)
theorem e2_arg2 : We2 m c (Proc.devRef .tc main_arg2) = (aW m c) := (StableHlo.after_of_writes_sub hostOps2 _ hostOps2_writes (by decide) : We2 m c (Proc.devRef .tc main_arg2) = Wx1 m c (Proc.devRef .tc main_arg2)).trans (x1_arg2 m c)
theorem x1_arg3 : Wx1 m c (Proc.devRef .tc main_arg3) = (aG m c) := (Wx1_of_ne m c main_arg3 (by decide) : Wx1 m c (Proc.devRef .tc main_arg3) = We1 m c (Proc.devRef .tc main_arg3)).trans (e1_arg3 m c)
theorem e2_arg3 : We2 m c (Proc.devRef .tc main_arg3) = (aG m c) := (StableHlo.after_of_writes_sub hostOps2 _ hostOps2_writes (by decide) : We2 m c (Proc.devRef .tc main_arg3) = Wx1 m c (Proc.devRef .tc main_arg3)).trans (x1_arg3 m c)
theorem x1_arg4 : Wx1 m c (Proc.devRef .tc main_arg4) = (aB m c) := (Wx1_of_ne m c main_arg4 (by decide) : Wx1 m c (Proc.devRef .tc main_arg4) = We1 m c (Proc.devRef .tc main_arg4)).trans (e1_arg4 m c)
theorem e2_arg4 : We2 m c (Proc.devRef .tc main_arg4) = (aB m c) := (StableHlo.after_of_writes_sub hostOps2 _ hostOps2_writes (by decide) : We2 m c (Proc.devRef .tc main_arg4) = Wx1 m c (Proc.devRef .tc main_arg4)).trans (x1_arg4 m c)
theorem x2_v1 : Wx2 m c (Proc.devRef .tc main_v1) = srcVec (aE m c) := (Wx2_of_ne m c main_v1 (by decide) : Wx2 m c (Proc.devRef .tc main_v1) = We2 m c (Proc.devRef .tc main_v1)).trans (e2_v1 m c)
theorem e3_v1 : We3 m c (Proc.devRef .tc main_v1) = srcVec (aE m c) := (StableHlo.after_of_writes_sub hostOps3 _ hostOps3_writes (by decide) : We3 m c (Proc.devRef .tc main_v1) = Wx2 m c (Proc.devRef .tc main_v1)).trans (x2_v1 m c)
theorem x2_v3 : Wx2 m c (Proc.devRef .tc main_v3) = dstVec (aE m c) := (Wx2_of_ne m c main_v3 (by decide) : Wx2 m c (Proc.devRef .tc main_v3) = We2 m c (Proc.devRef .tc main_v3)).trans (e2_v3 m c)
theorem e3_v3 : We3 m c (Proc.devRef .tc main_v3) = dstVec (aE m c) := (StableHlo.after_of_writes_sub hostOps3 _ hostOps3_writes (by decide) : We3 m c (Proc.devRef .tc main_v3) = Wx2 m c (Proc.devRef .tc main_v3)).trans (x2_v3 m c)
theorem x2_arg2 : Wx2 m c (Proc.devRef .tc main_arg2) = (aW m c) := (Wx2_of_ne m c main_arg2 (by decide) : Wx2 m c (Proc.devRef .tc main_arg2) = We2 m c (Proc.devRef .tc main_arg2)).trans (e2_arg2 m c)
theorem e3_arg2 : We3 m c (Proc.devRef .tc main_arg2) = (aW m c) := (StableHlo.after_of_writes_sub hostOps3 _ hostOps3_writes (by decide) : We3 m c (Proc.devRef .tc main_arg2) = Wx2 m c (Proc.devRef .tc main_arg2)).trans (x2_arg2 m c)
theorem x2_arg3 : Wx2 m c (Proc.devRef .tc main_arg3) = (aG m c) := (Wx2_of_ne m c main_arg3 (by decide) : Wx2 m c (Proc.devRef .tc main_arg3) = We2 m c (Proc.devRef .tc main_arg3)).trans (e2_arg3 m c)
theorem e3_arg3 : We3 m c (Proc.devRef .tc main_arg3) = (aG m c) := (StableHlo.after_of_writes_sub hostOps3 _ hostOps3_writes (by decide) : We3 m c (Proc.devRef .tc main_arg3) = Wx2 m c (Proc.devRef .tc main_arg3)).trans (x2_arg3 m c)
theorem x2_arg4 : Wx2 m c (Proc.devRef .tc main_arg4) = (aB m c) := (Wx2_of_ne m c main_arg4 (by decide) : Wx2 m c (Proc.devRef .tc main_arg4) = We2 m c (Proc.devRef .tc main_arg4)).trans (e2_arg4 m c)
theorem e3_arg4 : We3 m c (Proc.devRef .tc main_arg4) = (aB m c) := (StableHlo.after_of_writes_sub hostOps3 _ hostOps3_writes (by decide) : We3 m c (Proc.devRef .tc main_arg4) = Wx2 m c (Proc.devRef .tc main_arg4)).trans (x2_arg4 m c)
theorem x3_v1 : Wx3 m c (Proc.devRef .tc main_v1) = srcVec (aE m c) := (Wx3_of_ne m c main_v1 (by decide) : Wx3 m c (Proc.devRef .tc main_v1) = We3 m c (Proc.devRef .tc main_v1)).trans (e3_v1 m c)
theorem e4_v1 : We4 m c (Proc.devRef .tc main_v1) = srcVec (aE m c) := (StableHlo.after_of_writes_sub hostOps4 _ hostOps4_writes (by decide) : We4 m c (Proc.devRef .tc main_v1) = Wx3 m c (Proc.devRef .tc main_v1)).trans (x3_v1 m c)
theorem x3_v3 : Wx3 m c (Proc.devRef .tc main_v3) = dstVec (aE m c) := (Wx3_of_ne m c main_v3 (by decide) : Wx3 m c (Proc.devRef .tc main_v3) = We3 m c (Proc.devRef .tc main_v3)).trans (e3_v3 m c)
theorem e4_v3 : We4 m c (Proc.devRef .tc main_v3) = dstVec (aE m c) := (StableHlo.after_of_writes_sub hostOps4 _ hostOps4_writes (by decide) : We4 m c (Proc.devRef .tc main_v3) = Wx3 m c (Proc.devRef .tc main_v3)).trans (x3_v3 m c)
theorem x3_arg2 : Wx3 m c (Proc.devRef .tc main_arg2) = (aW m c) := (Wx3_of_ne m c main_arg2 (by decide) : Wx3 m c (Proc.devRef .tc main_arg2) = We3 m c (Proc.devRef .tc main_arg2)).trans (e3_arg2 m c)
theorem e4_arg2 : We4 m c (Proc.devRef .tc main_arg2) = (aW m c) := (StableHlo.after_of_writes_sub hostOps4 _ hostOps4_writes (by decide) : We4 m c (Proc.devRef .tc main_arg2) = Wx3 m c (Proc.devRef .tc main_arg2)).trans (x3_arg2 m c)
theorem x3_arg3 : Wx3 m c (Proc.devRef .tc main_arg3) = (aG m c) := (Wx3_of_ne m c main_arg3 (by decide) : Wx3 m c (Proc.devRef .tc main_arg3) = We3 m c (Proc.devRef .tc main_arg3)).trans (e3_arg3 m c)
theorem e4_arg3 : We4 m c (Proc.devRef .tc main_arg3) = (aG m c) := (StableHlo.after_of_writes_sub hostOps4 _ hostOps4_writes (by decide) : We4 m c (Proc.devRef .tc main_arg3) = Wx3 m c (Proc.devRef .tc main_arg3)).trans (x3_arg3 m c)
theorem x3_arg4 : Wx3 m c (Proc.devRef .tc main_arg4) = (aB m c) := (Wx3_of_ne m c main_arg4 (by decide) : Wx3 m c (Proc.devRef .tc main_arg4) = We3 m c (Proc.devRef .tc main_arg4)).trans (e3_arg4 m c)
theorem e4_arg4 : We4 m c (Proc.devRef .tc main_arg4) = (aB m c) := (StableHlo.after_of_writes_sub hostOps4 _ hostOps4_writes (by decide) : We4 m c (Proc.devRef .tc main_arg4) = Wx3 m c (Proc.devRef .tc main_arg4)).trans (x3_arg4 m c)
theorem x4_v1 : Wx4 m c (Proc.devRef .tc main_v1) = srcVec (aE m c) := (Wx4_of_ne m c main_v1 (by decide) : Wx4 m c (Proc.devRef .tc main_v1) = We4 m c (Proc.devRef .tc main_v1)).trans (e4_v1 m c)
theorem e5_v1 : We5 m c (Proc.devRef .tc main_v1) = srcVec (aE m c) := (StableHlo.after_of_writes_sub hostOps5 _ hostOps5_writes (by decide) : We5 m c (Proc.devRef .tc main_v1) = Wx4 m c (Proc.devRef .tc main_v1)).trans (x4_v1 m c)
theorem x4_v3 : Wx4 m c (Proc.devRef .tc main_v3) = dstVec (aE m c) := (Wx4_of_ne m c main_v3 (by decide) : Wx4 m c (Proc.devRef .tc main_v3) = We4 m c (Proc.devRef .tc main_v3)).trans (e4_v3 m c)
theorem e5_v3 : We5 m c (Proc.devRef .tc main_v3) = dstVec (aE m c) := (StableHlo.after_of_writes_sub hostOps5 _ hostOps5_writes (by decide) : We5 m c (Proc.devRef .tc main_v3) = Wx4 m c (Proc.devRef .tc main_v3)).trans (x4_v3 m c)
theorem x4_arg2 : Wx4 m c (Proc.devRef .tc main_arg2) = (aW m c) := (Wx4_of_ne m c main_arg2 (by decide) : Wx4 m c (Proc.devRef .tc main_arg2) = We4 m c (Proc.devRef .tc main_arg2)).trans (e4_arg2 m c)
theorem e5_arg2 : We5 m c (Proc.devRef .tc main_arg2) = (aW m c) := (StableHlo.after_of_writes_sub hostOps5 _ hostOps5_writes (by decide) : We5 m c (Proc.devRef .tc main_arg2) = Wx4 m c (Proc.devRef .tc main_arg2)).trans (x4_arg2 m c)
theorem x4_arg3 : Wx4 m c (Proc.devRef .tc main_arg3) = (aG m c) := (Wx4_of_ne m c main_arg3 (by decide) : Wx4 m c (Proc.devRef .tc main_arg3) = We4 m c (Proc.devRef .tc main_arg3)).trans (e4_arg3 m c)
theorem e5_arg3 : We5 m c (Proc.devRef .tc main_arg3) = (aG m c) := (StableHlo.after_of_writes_sub hostOps5 _ hostOps5_writes (by decide) : We5 m c (Proc.devRef .tc main_arg3) = Wx4 m c (Proc.devRef .tc main_arg3)).trans (x4_arg3 m c)
theorem x4_arg4 : Wx4 m c (Proc.devRef .tc main_arg4) = (aB m c) := (Wx4_of_ne m c main_arg4 (by decide) : Wx4 m c (Proc.devRef .tc main_arg4) = We4 m c (Proc.devRef .tc main_arg4)).trans (e4_arg4 m c)
theorem e5_arg4 : We5 m c (Proc.devRef .tc main_arg4) = (aB m c) := (StableHlo.after_of_writes_sub hostOps5 _ hostOps5_writes (by decide) : We5 m c (Proc.devRef .tc main_arg4) = Wx4 m c (Proc.devRef .tc main_arg4)).trans (x4_arg4 m c)
theorem x5_v1 : Wx5 m c (Proc.devRef .tc main_v1) = srcVec (aE m c) := (Wx5_of_ne m c main_v1 (by decide) : Wx5 m c (Proc.devRef .tc main_v1) = We5 m c (Proc.devRef .tc main_v1)).trans (e5_v1 m c)
theorem e6_v1 : We6 m c (Proc.devRef .tc main_v1) = srcVec (aE m c) := (StableHlo.after_of_writes_sub hostOps6 _ hostOps6_writes (by decide) : We6 m c (Proc.devRef .tc main_v1) = Wx5 m c (Proc.devRef .tc main_v1)).trans (x5_v1 m c)
theorem x5_v3 : Wx5 m c (Proc.devRef .tc main_v3) = dstVec (aE m c) := (Wx5_of_ne m c main_v3 (by decide) : Wx5 m c (Proc.devRef .tc main_v3) = We5 m c (Proc.devRef .tc main_v3)).trans (e5_v3 m c)
theorem e6_v3 : We6 m c (Proc.devRef .tc main_v3) = dstVec (aE m c) := (StableHlo.after_of_writes_sub hostOps6 _ hostOps6_writes (by decide) : We6 m c (Proc.devRef .tc main_v3) = Wx5 m c (Proc.devRef .tc main_v3)).trans (x5_v3 m c)
theorem x5_arg2 : Wx5 m c (Proc.devRef .tc main_arg2) = (aW m c) := (Wx5_of_ne m c main_arg2 (by decide) : Wx5 m c (Proc.devRef .tc main_arg2) = We5 m c (Proc.devRef .tc main_arg2)).trans (e5_arg2 m c)
theorem e6_arg2 : We6 m c (Proc.devRef .tc main_arg2) = (aW m c) := (StableHlo.after_of_writes_sub hostOps6 _ hostOps6_writes (by decide) : We6 m c (Proc.devRef .tc main_arg2) = Wx5 m c (Proc.devRef .tc main_arg2)).trans (x5_arg2 m c)
theorem x5_arg3 : Wx5 m c (Proc.devRef .tc main_arg3) = (aG m c) := (Wx5_of_ne m c main_arg3 (by decide) : Wx5 m c (Proc.devRef .tc main_arg3) = We5 m c (Proc.devRef .tc main_arg3)).trans (e5_arg3 m c)
theorem e6_arg3 : We6 m c (Proc.devRef .tc main_arg3) = (aG m c) := (StableHlo.after_of_writes_sub hostOps6 _ hostOps6_writes (by decide) : We6 m c (Proc.devRef .tc main_arg3) = Wx5 m c (Proc.devRef .tc main_arg3)).trans (x5_arg3 m c)
theorem x5_arg4 : Wx5 m c (Proc.devRef .tc main_arg4) = (aB m c) := (Wx5_of_ne m c main_arg4 (by decide) : Wx5 m c (Proc.devRef .tc main_arg4) = We5 m c (Proc.devRef .tc main_arg4)).trans (e5_arg4 m c)
theorem e6_arg4 : We6 m c (Proc.devRef .tc main_arg4) = (aB m c) := (StableHlo.after_of_writes_sub hostOps6 _ hostOps6_writes (by decide) : We6 m c (Proc.devRef .tc main_arg4) = Wx5 m c (Proc.devRef .tc main_arg4)).trans (x5_arg4 m c)
theorem x6_v1 : Wx6 m c (Proc.devRef .tc main_v1) = srcVec (aE m c) := (Wx6_of_ne m c main_v1 (by decide) : Wx6 m c (Proc.devRef .tc main_v1) = We6 m c (Proc.devRef .tc main_v1)).trans (e6_v1 m c)
theorem e7_v1 : We7 m c (Proc.devRef .tc main_v1) = srcVec (aE m c) := (StableHlo.after_of_writes_sub hostOps7 _ hostOps7_writes (by decide) : We7 m c (Proc.devRef .tc main_v1) = Wx6 m c (Proc.devRef .tc main_v1)).trans (x6_v1 m c)
theorem x6_v3 : Wx6 m c (Proc.devRef .tc main_v3) = dstVec (aE m c) := (Wx6_of_ne m c main_v3 (by decide) : Wx6 m c (Proc.devRef .tc main_v3) = We6 m c (Proc.devRef .tc main_v3)).trans (e6_v3 m c)
theorem e7_v3 : We7 m c (Proc.devRef .tc main_v3) = dstVec (aE m c) := (StableHlo.after_of_writes_sub hostOps7 _ hostOps7_writes (by decide) : We7 m c (Proc.devRef .tc main_v3) = Wx6 m c (Proc.devRef .tc main_v3)).trans (x6_v3 m c)
theorem x6_arg2 : Wx6 m c (Proc.devRef .tc main_arg2) = (aW m c) := (Wx6_of_ne m c main_arg2 (by decide) : Wx6 m c (Proc.devRef .tc main_arg2) = We6 m c (Proc.devRef .tc main_arg2)).trans (e6_arg2 m c)
theorem e7_arg2 : We7 m c (Proc.devRef .tc main_arg2) = (aW m c) := (StableHlo.after_of_writes_sub hostOps7 _ hostOps7_writes (by decide) : We7 m c (Proc.devRef .tc main_arg2) = Wx6 m c (Proc.devRef .tc main_arg2)).trans (x6_arg2 m c)
theorem x6_arg3 : Wx6 m c (Proc.devRef .tc main_arg3) = (aG m c) := (Wx6_of_ne m c main_arg3 (by decide) : Wx6 m c (Proc.devRef .tc main_arg3) = We6 m c (Proc.devRef .tc main_arg3)).trans (e6_arg3 m c)
theorem e7_arg3 : We7 m c (Proc.devRef .tc main_arg3) = (aG m c) := (StableHlo.after_of_writes_sub hostOps7 _ hostOps7_writes (by decide) : We7 m c (Proc.devRef .tc main_arg3) = Wx6 m c (Proc.devRef .tc main_arg3)).trans (x6_arg3 m c)
theorem x6_arg4 : Wx6 m c (Proc.devRef .tc main_arg4) = (aB m c) := (Wx6_of_ne m c main_arg4 (by decide) : Wx6 m c (Proc.devRef .tc main_arg4) = We6 m c (Proc.devRef .tc main_arg4)).trans (e6_arg4 m c)
theorem e7_arg4 : We7 m c (Proc.devRef .tc main_arg4) = (aB m c) := (StableHlo.after_of_writes_sub hostOps7 _ hostOps7_writes (by decide) : We7 m c (Proc.devRef .tc main_arg4) = Wx6 m c (Proc.devRef .tc main_arg4)).trans (x6_arg4 m c)

/-! ## Layer 0 -/

theorem x0_v6 : Wx0 m c (Proc.devRef .tc main_v6) = Cert.Spec.rowsByCols (aX m c) (weight0 (aW m c)) :=
  (Wx0_arr m c 2).trans ((final0 (Ve0 m) c).trans (congrArg₂ Cert.Spec.rowsByCols (e0_arg0 m c) (e0_v5 m c)))
theorem e1_v16 : We1 m c (Proc.devRef .tc main_v16) = (lin (aX m c) (weight0 (aW m c)) (srcVec (aE m c)) (dstVec (aE m c))) :=
  (hs1_v16 (Wx0 m c)).trans (by rw [x0_v6, x0_v1, x0_v3]; rfl)
theorem x1_v16 : Wx1 m c (Proc.devRef .tc main_v16) = (lin (aX m c) (weight0 (aW m c)) (srcVec (aE m c)) (dstVec (aE m c))) := ((Wx1_arr m c 0).trans (((dat1 (Ve1 m) c).arrAt_in 0 rfl _).trans (A_eq1 (Ve1 m) c 0)) : Wx1 m c (Proc.devRef .tc main_v16) = We1 m c (Proc.devRef .tc main_v16)).trans (e1_v16 m c)
theorem x1_sum : Wx1 m c (Proc.devRef .tc main_v17_0) = sumRow (lin (aX m c) (weight0 (aW m c)) (srcVec (aE m c)) (dstVec (aE m c))) :=
  (Wx1_arr m c 1).trans ((final1_sum (Ve1 m) c).trans (congrArg sumRow (e1_v16 m c)))
theorem x1_sq : Wx1 m c (Proc.devRef .tc main_v17_1) = sqRow (lin (aX m c) (weight0 (aW m c)) (srcVec (aE m c)) (dstVec (aE m c))) :=
  (Wx1_arr m c 2).trans ((final1_sq (Ve1 m) c).trans (congrArg sqRow (e1_v16 m c)))
theorem e2_v19 : We2 m c (Proc.devRef .tc main_v19) = perRow (sumRow (lin (aX m c) (weight0 (aW m c)) (srcVec (aE m c)) (dstVec (aE m c)))) := (hs2_v19 (Wx1 m c)).trans (congrArg perRow (x1_sum m c))
theorem e2_v23 : We2 m c (Proc.devRef .tc main_v23) = varRow (sumRow (lin (aX m c) (weight0 (aW m c)) (srcVec (aE m c)) (dstVec (aE m c)))) (sqRow (lin (aX m c) (weight0 (aW m c)) (srcVec (aE m c)) (dstVec (aE m c)))) := (hs2_v23 (Wx1 m c)).trans (congrArg₂ varRow (x1_sum m c) (x1_sq m c))
theorem e2_v26 : We2 m c (Proc.devRef .tc main_v26) = paramRow0 (aG m c) := (hs2_v26 (Wx1 m c)).trans (congrArg paramRow0 (x1_arg3 m c))
theorem e2_v29 : We2 m c (Proc.devRef .tc main_v29) = paramRow0 (aB m c) := (hs2_v29 (Wx1 m c)).trans (congrArg paramRow0 (x1_arg4 m c))
theorem e2_v16 : We2 m c (Proc.devRef .tc main_v16) = (lin (aX m c) (weight0 (aW m c)) (srcVec (aE m c)) (dstVec (aE m c))) := (StableHlo.after_of_writes_sub hostOps2 _ hostOps2_writes (by decide) : We2 m c (Proc.devRef .tc main_v16) = Wx1 m c (Proc.devRef .tc main_v16)).trans (x1_v16 m c)
theorem x2_v30 : Wx2 m c (Proc.devRef .tc main_v30) = (norm (lin (aX m c) (weight0 (aW m c)) (srcVec (aE m c)) (dstVec (aE m c))) (paramRow0 (aG m c)) (paramRow0 (aB m c))) :=
  (Wx2_arr m c 5).trans ((final2 (Ve2 m) c).trans (by
    show normRelu (We2 m c (Proc.devRef .tc main_v16)) (fun j => We2 m c (Proc.devRef .tc main_v19) (ix2 0 j)) (fun j => We2 m c (Proc.devRef .tc main_v23) (ix2 0 j)) (fun j => We2 m c (Proc.devRef .tc main_v26) (ix2 0 j)) (fun j => We2 m c (Proc.devRef .tc main_v29) (ix2 0 j)) = _
    rw [e2_v16, e2_v19, e2_v23, e2_v26, e2_v29]; rfl))

/-! ## Layer 1 -/

theorem e3_v32 : We3 m c (Proc.devRef .tc main_v32) = weight1 (aW m c) := (hs3_v32 (Wx2 m c)).trans (congrArg weight1 (x2_arg2 m c))
theorem e3_v30 : We3 m c (Proc.devRef .tc main_v30) = (norm (lin (aX m c) (weight0 (aW m c)) (srcVec (aE m c)) (dstVec (aE m c))) (paramRow0 (aG m c)) (paramRow0 (aB m c))) := (StableHlo.after_of_writes_sub hostOps3 _ hostOps3_writes (by decide) : We3 m c (Proc.devRef .tc main_v30) = Wx2 m c (Proc.devRef .tc main_v30)).trans (x2_v30 m c)
theorem x3_v33 : Wx3 m c (Proc.devRef .tc main_v33) = Cert.Spec.rowsByCols (norm (lin (aX m c) (weight0 (aW m c)) (srcVec (aE m c)) (dstVec (aE m c))) (paramRow0 (aG m c)) (paramRow0 (aB m c))) (weight1 (aW m c)) :=
  (Wx3_arr m c 2).trans ((final3 (Ve3 m) c).trans (congrArg₂ Cert.Spec.rowsByCols (e3_v30 m c) (e3_v32 m c)))
theorem e4_v43 : We4 m c (Proc.devRef .tc main_v43) = (lin (norm (lin (aX m c) (weight0 (aW m c)) (srcVec (aE m c)) (dstVec (aE m c))) (paramRow0 (aG m c)) (paramRow0 (aB m c))) (weight1 (aW m c)) (srcVec (aE m c)) (dstVec (aE m c))) :=
  (hs4_v43 (Wx3 m c)).trans (by rw [x3_v33, x3_v1, x3_v3]; rfl)
theorem x4_v43 : Wx4 m c (Proc.devRef .tc main_v43) = (lin (norm (lin (aX m c) (weight0 (aW m c)) (srcVec (aE m c)) (dstVec (aE m c))) (paramRow0 (aG m c)) (paramRow0 (aB m c))) (weight1 (aW m c)) (srcVec (aE m c)) (dstVec (aE m c))) := ((Wx4_arr m c 0).trans (((dat4 (Ve4 m) c).arrAt_in 0 rfl _).trans (A_eq4 (Ve4 m) c 0)) : Wx4 m c (Proc.devRef .tc main_v43) = We4 m c (Proc.devRef .tc main_v43)).trans (e4_v43 m c)
theorem x4_sum : Wx4 m c (Proc.devRef .tc main_v44_0) = sumRow (lin (norm (lin (aX m c) (weight0 (aW m c)) (srcVec (aE m c)) (dstVec (aE m c))) (paramRow0 (aG m c)) (paramRow0 (aB m c))) (weight1 (aW m c)) (srcVec (aE m c)) (dstVec (aE m c))) :=
  (Wx4_arr m c 1).trans ((final4_sum (Ve4 m) c).trans (congrArg sumRow (e4_v43 m c)))
theorem x4_sq : Wx4 m c (Proc.devRef .tc main_v44_1) = sqRow (lin (norm (lin (aX m c) (weight0 (aW m c)) (srcVec (aE m c)) (dstVec (aE m c))) (paramRow0 (aG m c)) (paramRow0 (aB m c))) (weight1 (aW m c)) (srcVec (aE m c)) (dstVec (aE m c))) :=
  (Wx4_arr m c 2).trans ((final4_sq (Ve4 m) c).trans (congrArg sqRow (e4_v43 m c)))
theorem e5_v46 : We5 m c (Proc.devRef .tc main_v46) = perRow (sumRow (lin (norm (lin (aX m c) (weight0 (aW m c)) (srcVec (aE m c)) (dstVec (aE m c))) (paramRow0 (aG m c)) (paramRow0 (aB m c))) (weight1 (aW m c)) (srcVec (aE m c)) (dstVec (aE m c)))) := (hs5_v46 (Wx4 m c)).trans (congrArg perRow (x4_sum m c))
theorem e5_v50 : We5 m c (Proc.devRef .tc main_v50) = varRow (sumRow (lin (norm (lin (aX m c) (weight0 (aW m c)) (srcVec (aE m c)) (dstVec (aE m c))) (paramRow0 (aG m c)) (paramRow0 (aB m c))) (weight1 (aW m c)) (srcVec (aE m c)) (dstVec (aE m c)))) (sqRow (lin (norm (lin (aX m c) (weight0 (aW m c)) (srcVec (aE m c)) (dstVec (aE m c))) (paramRow0 (aG m c)) (paramRow0 (aB m c))) (weight1 (aW m c)) (srcVec (aE m c)) (dstVec (aE m c)))) := (hs5_v50 (Wx4 m c)).trans (congrArg₂ varRow (x4_sum m c) (x4_sq m c))
theorem e5_v53 : We5 m c (Proc.devRef .tc main_v53) = paramRow1 (aG m c) := (hs5_v53 (Wx4 m c)).trans (congrArg paramRow1 (x4_arg3 m c))
theorem e5_v56 : We5 m c (Proc.devRef .tc main_v56) = paramRow1 (aB m c) := (hs5_v56 (Wx4 m c)).trans (congrArg paramRow1 (x4_arg4 m c))
theorem e5_v43 : We5 m c (Proc.devRef .tc main_v43) = (lin (norm (lin (aX m c) (weight0 (aW m c)) (srcVec (aE m c)) (dstVec (aE m c))) (paramRow0 (aG m c)) (paramRow0 (aB m c))) (weight1 (aW m c)) (srcVec (aE m c)) (dstVec (aE m c))) := (StableHlo.after_of_writes_sub hostOps5 _ hostOps5_writes (by decide) : We5 m c (Proc.devRef .tc main_v43) = Wx4 m c (Proc.devRef .tc main_v43)).trans (x4_v43 m c)
theorem x5_v57 : Wx5 m c (Proc.devRef .tc main_v57) = (norm (lin (norm (lin (aX m c) (weight0 (aW m c)) (srcVec (aE m c)) (dstVec (aE m c))) (paramRow0 (aG m c)) (paramRow0 (aB m c))) (weight1 (aW m c)) (srcVec (aE m c)) (dstVec (aE m c))) (paramRow1 (aG m c)) (paramRow1 (aB m c))) :=
  (Wx5_arr m c 5).trans ((final5 (Ve5 m) c).trans (by
    show normRelu (We5 m c (Proc.devRef .tc main_v43)) (fun j => We5 m c (Proc.devRef .tc main_v46) (ix2 0 j)) (fun j => We5 m c (Proc.devRef .tc main_v50) (ix2 0 j)) (fun j => We5 m c (Proc.devRef .tc main_v53) (ix2 0 j)) (fun j => We5 m c (Proc.devRef .tc main_v56) (ix2 0 j)) = _
    rw [e5_v43, e5_v46, e5_v50, e5_v53, e5_v56]; rfl))

/-! ## Layer 2 -/

theorem e6_v59 : We6 m c (Proc.devRef .tc main_v59) = weight2 (aW m c) := (hs6_v59 (Wx5 m c)).trans (congrArg weight2 (x5_arg2 m c))
theorem e6_v57 : We6 m c (Proc.devRef .tc main_v57) = (norm (lin (norm (lin (aX m c) (weight0 (aW m c)) (srcVec (aE m c)) (dstVec (aE m c))) (paramRow0 (aG m c)) (paramRow0 (aB m c))) (weight1 (aW m c)) (srcVec (aE m c)) (dstVec (aE m c))) (paramRow1 (aG m c)) (paramRow1 (aB m c))) := (StableHlo.after_of_writes_sub hostOps6 _ hostOps6_writes (by decide) : We6 m c (Proc.devRef .tc main_v57) = Wx5 m c (Proc.devRef .tc main_v57)).trans (x5_v57 m c)
theorem x6_v60 : Wx6 m c (Proc.devRef .tc main_v60) = Cert.Spec.rowsByCols (norm (lin (norm (lin (aX m c) (weight0 (aW m c)) (srcVec (aE m c)) (dstVec (aE m c))) (paramRow0 (aG m c)) (paramRow0 (aB m c))) (weight1 (aW m c)) (srcVec (aE m c)) (dstVec (aE m c))) (paramRow1 (aG m c)) (paramRow1 (aB m c))) (weight2 (aW m c)) :=
  (Wx6_arr m c 2).trans ((final6 (Ve6 m) c).trans (congrArg₂ Cert.Spec.rowsByCols (e6_v57 m c) (e6_v59 m c)))
theorem e7_v70 : We7 m c (Proc.devRef .tc main_v70) = (lin (norm (lin (norm (lin (aX m c) (weight0 (aW m c)) (srcVec (aE m c)) (dstVec (aE m c))) (paramRow0 (aG m c)) (paramRow0 (aB m c))) (weight1 (aW m c)) (srcVec (aE m c)) (dstVec (aE m c))) (paramRow1 (aG m c)) (paramRow1 (aB m c))) (weight2 (aW m c)) (srcVec (aE m c)) (dstVec (aE m c))) :=
  (hs7_v70 (Wx6 m c)).trans (by rw [x6_v60, x6_v1, x6_v3]; rfl)

/-- The result array after the run is the kernel program's function of the five argument arrays. -/
theorem kernel_value : Wx7 m c (Proc.devRef .tc main_v71) = kout (aX m c) (aE m c) (aW m c) (aG m c) (aB m c) :=
  (Wx7_arr m c 1).trans ((final7 (Ve7 m) c).trans (congrArg logSoftmax (e7_v70 m c)))

end Cert.KernelIdeal.HandValue

end
-- ==== Proof.Ref.RunOps.lean ====
/- The program's host operations as twelve consecutive lists, one per stage of the computation (the calls of its
   outlined functions written out at the call's own buffers), with, for each list, the buffers it writes, that it
   touches device buffers only, and that every operation determines its result. -/
import proofs.«131019_j5282809775007_1_alg».proof.Proof.Gen.ReferenceIdeal
import Idealize.ShloMosaic.Lib.StableHlo.Run
import Idealize.ShloMosaic.PureOps.Ideal

noncomputable section

namespace Cert.ReferenceIdeal.HandRun

open Cert.ReferenceIdeal Cert.ReferenceIdeal.Gen Idealize.ShloMosaic Idealize.SL.Sem Idealize.ShloMosaic.TcCoe Idealize.ShloMosaic.StableHlo

set_option Elab.async false

/-- A singleton of a listed reference lies in the list's set of device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.mpr fun a h =>
    (List.mem_append.mp h).elim (List.forall_iff_forall_mem.mp h₁ a) (List.forall_iff_forall_mem.mp h₂ a)

/-- The contents after two lists run in turn: the second's fold over the first's. -/
theorem after_app : ∀ (l₁ l₂ : List (HloOp τ sig (Elt Ideal))) (V : Valuation τ sig (Elt Ideal)), after (l₁ ++ l₂) V = after l₂ (after l₁ V)
  | [], _, _ => rfl
  | op :: l₁, l₂, V => after_app l₁ l₂ (op.result V)

/-- An element-wise equal head and an equal tail make equal lists. -/
theorem cons_congr {α : Type} {a b : α} {l m : List α} (h : a = b) (t : l = m) : a :: l = b :: m := by
  subst h; subst t; rfl

/-! An operation of an outlined function, stated over references that carry their tensor type, is the plain operation
    over the same buffers when the carried type is the buffer's own: the transports along the type equation are the
    identity. Stated for any references and any function, so that nothing about a particular operation is opened. -/

theorem tref_nullary_eq (y : Ref sig .tc) (hy1 : y.space ≠ .host) (hy2 : y.isScoped = false) (v : y.ty.Contents (Elt Ideal)) :
    (StableHlo.TRef.nullary (TRef.of (T := y.ty) y rfl hy1 hy2) v : HloOp τ sig (Elt Ideal))
      = StableHlo.nullary y v ⟨hy1, hy2⟩ := rfl

theorem tref_unary_eq (x y : Ref sig .tc) (hx1 : x.space ≠ .host) (hx2 : x.isScoped = false)
    (hy1 : y.space ≠ .host) (hy2 : y.isScoped = false) (f : x.ty.Contents (Elt Ideal) → y.ty.Contents (Elt Ideal)) :
    (StableHlo.TRef.unary (TRef.of (T := x.ty) x rfl hx1 hx2) (TRef.of (T := y.ty) y rfl hy1 hy2) f : HloOp τ sig (Elt Ideal))
      = StableHlo.unary x y f ⟨hx1, hx2⟩ ⟨hy1, hy2⟩ := rfl

theorem tref_binary_eq (a b y : Ref sig .tc) (ha1 : a.space ≠ .host) (ha2 : a.isScoped = false)
    (hb1 : b.space ≠ .host) (hb2 : b.isScoped = false) (hy1 : y.space ≠ .host) (hy2 : y.isScoped = false)
    (f : a.ty.Contents (Elt Ideal) → b.ty.Contents (Elt Ideal) → y.ty.Contents (Elt Ideal)) :
    (StableHlo.TRef.binary (TRef.of (T := a.ty) a rfl ha1 ha2) (TRef.of (T := b.ty) b rfl hb1 hb2)
        (TRef.of (T := y.ty) y rfl hy1 hy2) f : HloOp τ sig (Elt Ideal))
      = StableHlo.binary a b y f ⟨ha1, ha2⟩ ⟨hb1, hb2⟩ ⟨hy1, hy2⟩ := rfl

theorem tref_ternary_eq (c a b y : Ref sig .tc) (hc1 : c.space ≠ .host) (hc2 : c.isScoped = false)
    (ha1 : a.space ≠ .host) (ha2 : a.isScoped = false) (hb1 : b.space ≠ .host) (hb2 : b.isScoped = false)
    (hy1 : y.space ≠ .host) (hy2 : y.isScoped = false)
    (f : c.ty.Contents (Elt Ideal) → a.ty.Contents (Elt Ideal) → b.ty.Contents (Elt Ideal) → y.ty.Contents (Elt Ideal)) :
    (StableHlo.TRef.ternary (TRef.of (T := c.ty) c rfl hc1 hc2) (TRef.of (T := a.ty) a rfl ha1 ha2)
        (TRef.of (T := b.ty) b rfl hb1 hb2) (TRef.of (T := y.ty) y rfl hy1 hy2) f : HloOp τ sig (Elt Ideal))
      = StableHlo.ternary c a b y f ⟨hc1, hc2⟩ ⟨ha1, ha2⟩ ⟨hb1, hb2⟩ ⟨hy1, hy2⟩ := rfl

/-- Operations 1 … 4 of 169: the two rows of the edge table as index vectors. -/
abbrev s1 : List (HloOp τ sig (Elt Ideal)) :=
  [ StableHlo.unary main_arg1 main_v0 ((extractStridedSlice S1x1600000 ![0, 0] · slices_S2x1600000_S1x1600000_0_0) : (⟨S2x1600000, .i32⟩ : BufTy).Contents (Elt Ideal) → (⟨S1x1600000, .i32⟩ : BufTy).Contents (Elt Ideal)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt Ideal) → (⟨S1x1600000, .i32⟩ : BufTy).Contents (Elt Ideal)),
    StableHlo.reshape main_v2 main_v3 rfl shapeCasts_S1x1600000_S1600000 ]

/-- The buffers `s1` writes. -/
abbrev s1_W : List (Ref sig .tc) := [main_v0, main_v1, main_v2, main_v3]
theorem s1_writes : (s1 : List (HloOp τ sig (Elt Ideal))).Forall fun op => op.writes ⊆ (s1_W.map (Proc.devRef (τ := τ) .tc)).toFinset :=
  ⟨single_sub_of_mem (y := main_v0) (by decide),
   single_sub_of_mem (y := main_v1) (by decide),
   single_sub_of_mem (y := main_v2) (by decide),
   single_sub_of_mem (y := main_v3) (by decide)⟩
theorem s1_sub : (s1 : List (HloOp τ sig (Elt Ideal))).Forall fun op => op.bufs ⊆ tcRefs τ sig :=
  ⟨unary_bufs_sub .., reshape_bufs_sub .., unary_bufs_sub .., reshape_bufs_sub ..⟩
theorem s1_fresh : (s1 : List (HloOp τ sig (Elt Ideal))).Forall fun op => op.fresh = ∅ :=
  ⟨rfl, rfl, rfl, rfl⟩

/-- Operations 5 … 20 of 169: layer 0: the weight slice, the product, the wrapped source column, the gather, the scatter-add into zeros. -/
abbrev s2 : List (HloOp τ sig (Elt Ideal)) :=
  [ StableHlo.unary main_arg2 main_v4 ((extractStridedSlice S1x128x128 ![0, 0, 0] · slices_S3x128x128_S1x128x128_0_0_0) : (⟨S3x128x128, .f32⟩ : BufTy).Contents (Elt Ideal) → (⟨S1x128x128, .f32⟩ : BufTy).Contents (Elt Ideal)),
    StableHlo.reshape main_v4 main_v5 rfl shapeCasts_S1x128x128_S128x128,
    StableHlo.binary main_arg0 main_v5 main_v6 ((fun l r => Host.dotGeneral (F := Ideal) (φ₁ := .f32) (φ₂ := .f32) dot_S100000x128_S128x128_S100000x128_1_0_0_1_n_n none l r) : (⟨S100000x128, .f32⟩ : BufTy).Contents (Elt Ideal) → (⟨S128x128, .f32⟩ : BufTy).Contents (Elt Ideal) → (⟨S100000x128, .f32⟩ : BufTy).Contents (Elt Ideal)),
    StableHlo.nullary main_c (constantI S_ 32 0#32),
    StableHlo.unary main_c main_v7 (broadcastInDim S1600000 ![] bcast_S_S1600000 : (⟨S_, .i32⟩ : BufTy).Contents (Elt Ideal) → (⟨S1600000, .i32⟩ : BufTy).Contents (Elt Ideal)),
    StableHlo.binary main_v1 main_v7 main_v8 (cmpi .slt : (⟨S1600000, .i32⟩ : BufTy).Contents (Elt Ideal) → (⟨S1600000, .i32⟩ : BufTy).Contents (Elt Ideal) → (⟨S1600000, .i1⟩ : BufTy).Contents (Elt Ideal)),
    StableHlo.nullary main_c_0 (constantI S_ 32 100000#32),
    StableHlo.unary main_c_0 main_v9 (broadcastInDim S1600000 ![] bcast_S_S1600000 : (⟨S_, .i32⟩ : BufTy).Contents (Elt Ideal) → (⟨S1600000, .i32⟩ : BufTy).Contents (Elt Ideal)),
    StableHlo.binary main_v1 main_v9 main_v10 (addi : (⟨S1600000, .i32⟩ : BufTy).Contents (Elt Ideal) → (⟨S1600000, .i32⟩ : BufTy).Contents (Elt Ideal) → (⟨S1600000, .i32⟩ : BufTy).Contents (Elt Ideal)),
    StableHlo.ternary main_v8 main_v10 main_v1 main_v11 (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)),
    StableHlo.unary main_v11 main_v12 (broadcastInDim S1600000x1 ![0] bcast_S1600000_S1600000x1_0 : (⟨S1600000, .i32⟩ : BufTy).Contents (Elt Ideal) → (⟨S1600000x1, .i32⟩ : BufTy).Contents (Elt Ideal)),
    StableHlo.binary main_v6 main_v12 main_v13 ((fun x i => Host.gather gather_S100000x128_S1600000x1_S1600000x128_1_0_n_n_0_1_1128 x i) : (⟨S100000x128, .f32⟩ : BufTy).Contents (Elt Ideal) → (⟨S1600000x1, .i32⟩ : BufTy).Contents (Elt Ideal) → (⟨S1600000x128, .f32⟩ : BufTy).Contents (Elt Ideal)),
    StableHlo.nullary main_cst (constant (F := Ideal) S_ .f32 0x00000000#32),
    StableHlo.unary main_cst main_v14 (broadcastInDim S100000x128 ![] bcast_S_S100000x128 : (⟨S_, .f32⟩ : BufTy).Contents (Elt Ideal) → (⟨S100000x128, .f32⟩ : BufTy).Contents (Elt Ideal)),
    StableHlo.unary main_v3 main_v15 (broadcastInDim S1600000x1 ![0] bcast_S1600000_S1600000x1_0 : (⟨S1600000, .i32⟩ : BufTy).Contents (Elt Ideal) → (⟨S1600000x1, .i32⟩ : BufTy).Contents (Elt Ideal)),
    StableHlo.ternary main_v14 main_v15 main_v13 main_v16 ((fun x i u => Host.scatterAdd (F := Ideal) (φ := .f32) scatter_S100000x128_S1600000x1_S1600000x128_1_0_0_1 x i u) : (⟨S100000x128, .f32⟩ : BufTy).Contents (Elt Ideal) → (⟨S1600000x1, .i32⟩ : BufTy).Contents (Elt Ideal) → (⟨S1600000x128, .f32⟩ : BufTy).Contents (Elt Ideal) → (⟨S100000x128, .f32⟩ : BufTy).Contents (Elt Ideal)) ]

/-- The buffers `s2` writes. -/
abbrev s2_W : List (Ref sig .tc) := [main_v4, main_v5, main_v6, main_c, main_v7, main_v8, main_c_0, main_v9, main_v10, main_v11, main_v12, main_v13, main_cst, main_v14, main_v15, main_v16]
theorem s2_writes : (s2 : List (HloOp τ sig (Elt Ideal))).Forall fun op => op.writes ⊆ (s2_W.map (Proc.devRef (τ := τ) .tc)).toFinset :=
  ⟨single_sub_of_mem (y := main_v4) (by decide),
   single_sub_of_mem (y := main_v5) (by decide),
   single_sub_of_mem (y := main_v6) (by decide),
   single_sub_of_mem (y := main_c) (by decide),
   single_sub_of_mem (y := main_v7) (by decide),
   single_sub_of_mem (y := main_v8) (by decide),
   single_sub_of_mem (y := main_c_0) (by decide),
   single_sub_of_mem (y := main_v9) (by decide),
   single_sub_of_mem (y := main_v10) (by decide),
   single_sub_of_mem (y := main_v11) (by decide),
   single_sub_of_mem (y := main_v12) (by decide),
   single_sub_of_mem (y := main_v13) (by decide),
   single_sub_of_mem (y := main_cst) (by decide),
   single_sub_of_mem (y := main_v14) (by decide),
   single_sub_of_mem (y := main_v15) (by decide),
   single_sub_of_mem (y := main_v16) (by decide)⟩
theorem s2_sub : (s2 : List (HloOp τ sig (Elt Ideal))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem s2_fresh : (s2 : List (HloOp τ sig (Elt Ideal))).Forall fun op => op.fresh = ∅ :=
  ⟨rfl, rfl, rfl, rfl, rfl, rfl, rfl, rfl, rfl, rfl, rfl, rfl, rfl, rfl, rfl, rfl⟩

/-- Operations 21 … 29 of 169: layer 0: the scale and shift rows and the column mean. -/
abbrev s3 : List (HloOp τ sig (Elt Ideal)) :=
  [ StableHlo.unary main_arg3 main_v17 ((extractStridedSlice S1x128 ![0, 0] · slices_S2x128_S1x128_0_0) : (⟨S2x128, .f32⟩ : BufTy).Contents (Elt Ideal) → (⟨S1x128, .f32⟩ : BufTy).Contents (Elt Ideal)),
    StableHlo.reshape main_v17 main_v18 rfl shapeCasts_S1x128_S128,
    StableHlo.unary main_arg4 main_v19 ((extractStridedSlice S1x128 ![0, 0] · slices_S2x128_S1x128_0_0) : (⟨S2x128, .f32⟩ : BufTy).Contents (Elt Ideal) → (⟨S1x128, .f32⟩ : BufTy).Contents (Elt Ideal)),
    StableHlo.reshape main_v19 main_v20 rfl shapeCasts_S1x128_S128,
    StableHlo.nullary main_cst_1 (constant (F := Ideal) S_ .f32 0x00000000#32),
    StableHlo.binary main_v16 main_cst_1 main_v21 ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal)),
    StableHlo.nullary main_cst_2 (constant (F := Ideal) S_ .f32 0x47C35000#32),
    StableHlo.unary main_cst_2 main_v22 (broadcastInDim S128 ![] bcast_S_S128 : (⟨S_, .f32⟩ : BufTy).Contents (Elt Ideal) → (⟨S128, .f32⟩ : BufTy).Contents (Elt Ideal)),
    StableHlo.binary main_v21 main_v22 main_v23 (Host.divf (F := Ideal) (φ := .f32) : (⟨S128, .f32⟩ : BufTy).Contents (Elt Ideal) → (⟨S128, .f32⟩ : BufTy).Contents (Elt Ideal) → (⟨S128, .f32⟩ : BufTy).Contents (Elt Ideal)) ]

/-- The buffers `s3` writes. -/
abbrev s3_W : List (Ref sig .tc) := [main_v17, main_v18, main_v19, main_v20, main_cst_1, main_v21, main_cst_2, main_v22, main_v23]
theorem s3_writes : (s3 : List (HloOp τ sig (Elt Ideal))).Forall fun op => op.writes ⊆ (s3_W.map (Proc.devRef (τ := τ) .tc)).toFinset :=
  ⟨single_sub_of_mem (y := main_v17) (by decide),
   single_sub_of_mem (y := main_v18) (by decide),
   single_sub_of_mem (y := main_v19) (by decide),
   single_sub_of_mem (y := main_v20) (by decide),
   single_sub_of_mem (y := main_cst_1) (by decide),
   single_sub_of_mem (y := main_v21) (by decide),
   single_sub_of_mem (y := main_cst_2) (by decide),
   single_sub_of_mem (y := main_v22) (by decide),
   single_sub_of_mem (y := main_v23) (by decide)⟩
theorem s3_sub : (s3 : List (HloOp τ sig (Elt Ideal))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub ..⟩
theorem s3_fresh : (s3 : List (HloOp τ sig (Elt Ideal))).Forall fun op => op.fresh = ∅ :=
  ⟨rfl, rfl, rfl, rfl, rfl, rfl, rfl, rfl, rfl⟩

/-- Operations 30 … 52 of 169: layer 0: the column variance (the variance function and its guard, written out). -/
abbrev s4 : List (HloOp τ sig (Elt Ideal)) :=
  [ StableHlo.nullary main_c_3 (constantI S_ 32 0#32),
    StableHlo.nullary main_call0_cst (constant (F := Ideal) S_ .f32 0x00000000#32),
    StableHlo.binary main_v16 main_call0_cst main_call0_v0 ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal)),
    StableHlo.unary main_call0_v0 main_call0_v1 ((broadcastInDim S1x128 ![1] bcast_S128_S1x128_1) : (⟨S128, .f32⟩ : BufTy).Contents (Elt Ideal) → (⟨S1x128, .f32⟩ : BufTy).Contents (Elt Ideal)),
    StableHlo.nullary main_call0_cst_0 (constant (F := Ideal) S_ .f32 0x47C35000#32),
    StableHlo.unary main_call0_cst_0 main_call0_v2 ((broadcastInDim S1x128 ![] bcast_S_S1x128) : (⟨S_, .f32⟩ : BufTy).Contents (Elt Ideal) → (⟨S1x128, .f32⟩ : BufTy).Contents (Elt Ideal)),
    StableHlo.binary main_call0_v1 main_call0_v2 main_call0_v3 ((Host.divf (F := Ideal) (φ := .f32)) : (⟨S1x128, .f32⟩ : BufTy).Contents (Elt Ideal) → (⟨S1x128, .f32⟩ : BufTy).Contents (Elt Ideal) → (⟨S1x128, .f32⟩ : BufTy).Contents (Elt Ideal)),
    StableHlo.unary main_call0_v3 main_call0_v4 ((broadcastInDim S100000x128 ![0, 1] bcast_S1x128_S100000x128_0_1) : (⟨S1x128, .f32⟩ : BufTy).Contents (Elt Ideal) → (⟨S100000x128, .f32⟩ : BufTy).Contents (Elt Ideal)),
    StableHlo.binary main_v16 main_call0_v4 main_call0_v5 ((subf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)),
    StableHlo.binary main_call0_v5 main_call0_v5 main_call0_v6 ((mulf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)),
    StableHlo.unary main_c_3 main_call0_v7 ((sitofp (F := Ideal) .f32) : (⟨S_, .i32⟩ : BufTy).Contents (Elt Ideal) → (⟨S_, .f32⟩ : BufTy).Contents (Elt Ideal)),
    StableHlo.nullary main_call0_cst_1 (constant (F := Ideal) S_ .f32 0x47C35000#32),
    StableHlo.binary main_call0_cst_1 main_call0_v7 main_call0_v8 ((subf (F := Ideal) (φ := .f32)) : (⟨S_, .f32⟩ : BufTy).Contents (Elt Ideal) → (⟨S_, .f32⟩ : BufTy).Contents (Elt Ideal) → (⟨S_, .f32⟩ : BufTy).Contents (Elt Ideal)),
    StableHlo.nullary main_call0_cst_2 (constant (F := Ideal) S_ .f32 0x00000000#32),
    StableHlo.binary main_call0_v6 main_call0_cst_2 main_call0_v9 ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal)),
    StableHlo.unary main_call0_v8 main_call0_v10 ((broadcastInDim S128 ![] bcast_S_S128) : (⟨S_, .f32⟩ : BufTy).Contents (Elt Ideal) → (⟨S128, .f32⟩ : BufTy).Contents (Elt Ideal)),
    StableHlo.binary main_call0_v9 main_call0_v10 main_call0_v11 ((Host.divf (F := Ideal) (φ := .f32)) : (⟨S128, .f32⟩ : BufTy).Contents (Elt Ideal) → (⟨S128, .f32⟩ : BufTy).Contents (Elt Ideal) → (⟨S128, .f32⟩ : BufTy).Contents (Elt Ideal)),
    StableHlo.nullary main_call0_cst_3 (constant (F := Ideal) S_ .f32 0x00000000#32),
    StableHlo.binary main_call0_v8 main_call0_cst_3 main_call0_v12 ((cmpf (F := Ideal) (φ := .f32) .ogt) : (⟨S_, .f32⟩ : BufTy).Contents (Elt Ideal) → (⟨S_, .f32⟩ : BufTy).Contents (Elt Ideal) → (⟨S_, .i1⟩ : BufTy).Contents (Elt Ideal)),
    StableHlo.nullary main_call0_cst_4 (constant (F := Ideal) S_ .f32 0x7FC00000#32),
    StableHlo.unary main_call0_cst_4 main_call0_call0_v0 (id : (⟨S_, .f32⟩ : BufTy).Contents (Elt Ideal) → (⟨S_, .f32⟩ : BufTy).Contents (Elt Ideal)),
    StableHlo.unary main_call0_call0_v0 main_call0_call0_v1 ((broadcastInDim S128 ![] bcast_S_S128) : (⟨S_, .f32⟩ : BufTy).Contents (Elt Ideal) → (⟨S128, .f32⟩ : BufTy).Contents (Elt Ideal)),
    StableHlo.ternary main_call0_v12 main_call0_v11 main_call0_call0_v1 main_v24 ((fun p a b => select (broadcastInDim S128 ![] bcast_S_S128 p) a b) : (⟨S_, .i1⟩ : BufTy).Contents (Elt Ideal) → (⟨S128, .f32⟩ : BufTy).Contents (Elt Ideal) → (⟨S128, .f32⟩ : BufTy).Contents (Elt Ideal) → (⟨S128, .f32⟩ : BufTy).Contents (Elt Ideal)) ]

/-- The buffers `s4` writes. -/
abbrev s4_W : List (Ref sig .tc) := [main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v24]
theorem s4_writes : (s4 : List (HloOp τ sig (Elt Ideal))).Forall fun op => op.writes ⊆ (s4_W.map (Proc.devRef (τ := τ) .tc)).toFinset :=
  ⟨single_sub_of_mem (y := main_c_3) (by decide),
   single_sub_of_mem (y := main_call0_cst) (by decide),
   single_sub_of_mem (y := main_call0_v0) (by decide),
   single_sub_of_mem (y := main_call0_v1) (by decide),
   single_sub_of_mem (y := main_call0_cst_0) (by decide),
   single_sub_of_mem (y := main_call0_v2) (by decide),
   single_sub_of_mem (y := main_call0_v3) (by decide),
   single_sub_of_mem (y := main_call0_v4) (by decide),
   single_sub_of_mem (y := main_call0_v5) (by decide),
   single_sub_of_mem (y := main_call0_v6) (by decide),
   single_sub_of_mem (y := main_call0_v7) (by decide),
   single_sub_of_mem (y := main_call0_cst_1) (by decide),
   single_sub_of_mem (y := main_call0_v8) (by decide),
   single_sub_of_mem (y := main_call0_cst_2) (by decide),
   single_sub_of_mem (y := main_call0_v9) (by decide),
   single_sub_of_mem (y := main_call0_v10) (by decide),
   single_sub_of_mem (y := main_call0_v11) (by decide),
   single_sub_of_mem (y := main_call0_cst_3) (by decide),
   single_sub_of_mem (y := main_call0_v12) (by decide),
   single_sub_of_mem (y := main_call0_cst_4) (by decide),
   single_sub_of_mem (y := main_call0_call0_v0) (by decide),
   single_sub_of_mem (y := main_call0_call0_v1) (by decide),
   single_sub_of_mem (y := main_v24) (by decide)⟩
theorem s4_sub : (s4 : List (HloOp τ sig (Elt Ideal))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem s4_fresh : (s4 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Operations 53 … 71 of 169: layer 0: normalisation, scale, shift and the rectifier. -/
abbrev s5 : List (HloOp τ sig (Elt Ideal)) :=
  [ StableHlo.unary main_v23 main_v25 (broadcastInDim S1x128 ![1] bcast_S128_S1x128_1 : (⟨S128, .f32⟩ : BufTy).Contents (Elt Ideal) → (⟨S1x128, .f32⟩ : BufTy).Contents (Elt Ideal)),
    StableHlo.unary main_v25 main_v26 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v16 main_v26 main_v27 (subf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.nullary main_cst_4 (constant (F := Ideal) S_ .f32 0x3727C5AC#32),
    StableHlo.unary main_cst_4 main_v28 (broadcastInDim S128 ![] bcast_S_S128 : (⟨S_, .f32⟩ : BufTy).Contents (Elt Ideal) → (⟨S128, .f32⟩ : BufTy).Contents (Elt Ideal)),
    StableHlo.binary main_v24 main_v28 main_v29 (addf (F := Ideal) (φ := .f32) : (⟨S128, .f32⟩ : BufTy).Contents (Elt Ideal) → (⟨S128, .f32⟩ : BufTy).Contents (Elt Ideal) → (⟨S128, .f32⟩ : BufTy).Contents (Elt Ideal)),
    StableHlo.unary main_v29 main_v30 (Host.rsqrt (F := Ideal) (φ := .f32) : (⟨S128, .f32⟩ : BufTy).Contents (Elt Ideal) → (⟨S128, .f32⟩ : BufTy).Contents (Elt Ideal)),
    StableHlo.unary main_v30 main_v31 (broadcastInDim S1x128 ![1] bcast_S128_S1x128_1 : (⟨S128, .f32⟩ : BufTy).Contents (Elt Ideal) → (⟨S1x128, .f32⟩ : BufTy).Contents (Elt Ideal)),
    StableHlo.unary main_v31 main_v32 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v27 main_v32 main_v33 (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.unary main_v18 main_v34 (broadcastInDim S1x128 ![1] bcast_S128_S1x128_1 : (⟨S128, .f32⟩ : BufTy).Contents (Elt Ideal) → (⟨S1x128, .f32⟩ : BufTy).Contents (Elt Ideal)),
    StableHlo.unary main_v34 main_v35 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v33 main_v35 main_v36 (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.unary main_v20 main_v37 (broadcastInDim S1x128 ![1] bcast_S128_S1x128_1 : (⟨S128, .f32⟩ : BufTy).Contents (Elt Ideal) → (⟨S1x128, .f32⟩ : BufTy).Contents (Elt Ideal)),
    StableHlo.unary main_v37 main_v38 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v36 main_v38 main_v39 (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.nullary main_call1_cst (constant (F := Ideal) S_ .f32 0x00000000#32),
    StableHlo.unary main_call1_cst main_call1_v0 ((broadcastInDim S100000x128 ![] bcast_S_S100000x128) : (⟨S_, .f32⟩ : BufTy).Contents (Elt Ideal) → (⟨S100000x128, .f32⟩ : BufTy).Contents (Elt Ideal)),
    StableHlo.binary main_v39 main_call1_v0 main_v40 ((maximumf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) ]

/-- The buffers `s5` writes. -/
abbrev s5_W : List (Ref sig .tc) := [main_v25, main_v26, main_v27, main_cst_4, main_v28, main_v29, main_v30, main_v31, main_v32, main_v33, main_v34, main_v35, main_v36, main_v37, main_v38, main_v39, main_call1_cst, main_call1_v0, main_v40]
theorem s5_writes : (s5 : List (HloOp τ sig (Elt Ideal))).Forall fun op => op.writes ⊆ (s5_W.map (Proc.devRef (τ := τ) .tc)).toFinset :=
  ⟨single_sub_of_mem (y := main_v25) (by decide),
   single_sub_of_mem (y := main_v26) (by decide),
   single_sub_of_mem (y := main_v27) (by decide),
   single_sub_of_mem (y := main_cst_4) (by decide),
   single_sub_of_mem (y := main_v28) (by decide),
   single_sub_of_mem (y := main_v29) (by decide),
   single_sub_of_mem (y := main_v30) (by decide),
   single_sub_of_mem (y := main_v31) (by decide),
   single_sub_of_mem (y := main_v32) (by decide),
   single_sub_of_mem (y := main_v33) (by decide),
   single_sub_of_mem (y := main_v34) (by decide),
   single_sub_of_mem (y := main_v35) (by decide),
   single_sub_of_mem (y := main_v36) (by decide),
   single_sub_of_mem (y := main_v37) (by decide),
   single_sub_of_mem (y := main_v38) (by decide),
   single_sub_of_mem (y := main_v39) (by decide),
   single_sub_of_mem (y := main_call1_cst) (by decide),
   single_sub_of_mem (y := main_call1_v0) (by decide),
   single_sub_of_mem (y := main_v40) (by decide)⟩
theorem s5_sub : (s5 : List (HloOp τ sig (Elt Ideal))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem s5_fresh : (s5 : List (HloOp τ sig (Elt Ideal))).Forall fun op => op.fresh = ∅ :=
  ⟨rfl, rfl, rfl, rfl, rfl, rfl, rfl, rfl, rfl, rfl, rfl, rfl, rfl, rfl, rfl, rfl, rfl, rfl, rfl⟩

/-- Operations 72 … 83 of 169: layer 1: the weight slice, the product, the wrapped source column and the gather. -/
abbrev s6 : List (HloOp τ sig (Elt Ideal)) :=
  [ StableHlo.unary main_arg2 main_v41 ((extractStridedSlice S1x128x128 ![1, 0, 0] · slices_S3x128x128_S1x128x128_1_0_0) : (⟨S3x128x128, .f32⟩ : BufTy).Contents (Elt Ideal) → (⟨S1x128x128, .f32⟩ : BufTy).Contents (Elt Ideal)),
    StableHlo.reshape main_v41 main_v42 rfl shapeCasts_S1x128x128_S128x128,
    StableHlo.binary main_v40 main_v42 main_v43 ((fun l r => Host.dotGeneral (F := Ideal) (φ₁ := .f32) (φ₂ := .f32) dot_S100000x128_S128x128_S100000x128_1_0_0_1_n_n none l r) : (⟨S100000x128, .f32⟩ : BufTy).Contents (Elt Ideal) → (⟨S128x128, .f32⟩ : BufTy).Contents (Elt Ideal) → (⟨S100000x128, .f32⟩ : BufTy).Contents (Elt Ideal)),
    StableHlo.nullary main_c_5 (constantI S_ 32 0#32),
    StableHlo.unary main_c_5 main_v44 (broadcastInDim S1600000 ![] bcast_S_S1600000 : (⟨S_, .i32⟩ : BufTy).Contents (Elt Ideal) → (⟨S1600000, .i32⟩ : BufTy).Contents (Elt Ideal)),
    StableHlo.binary main_v1 main_v44 main_v45 (cmpi .slt : (⟨S1600000, .i32⟩ : BufTy).Contents (Elt Ideal) → (⟨S1600000, .i32⟩ : BufTy).Contents (Elt Ideal) → (⟨S1600000, .i1⟩ : BufTy).Contents (Elt Ideal)),
    StableHlo.nullary main_c_6 (constantI S_ 32 100000#32),
    StableHlo.unary main_c_6 main_v46 (broadcastInDim S1600000 ![] bcast_S_S1600000 : (⟨S_, .i32⟩ : BufTy).Contents (Elt Ideal) → (⟨S1600000, .i32⟩ : BufTy).Contents (Elt Ideal)),
    StableHlo.binary main_v1 main_v46 main_v47 (addi : (⟨S1600000, .i32⟩ : BufTy).Contents (Elt Ideal) → (⟨S1600000, .i32⟩ : BufTy).Contents (Elt Ideal) → (⟨S1600000, .i32⟩ : BufTy).Contents (Elt Ideal)),
    StableHlo.ternary main_v45 main_v47 main_v1 main_v48 (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)),
    StableHlo.unary main_v48 main_v49 (broadcastInDim S1600000x1 ![0] bcast_S1600000_S1600000x1_0 : (⟨S1600000, .i32⟩ : BufTy).Contents (Elt Ideal) → (⟨S1600000x1, .i32⟩ : BufTy).Contents (Elt Ideal)),
    StableHlo.binary main_v43 main_v49 main_v50 ((fun x i => Host.gather gather_S100000x128_S1600000x1_S1600000x128_1_0_n_n_0_1_1128 x i) : (⟨S100000x128, .f32⟩ : BufTy).Contents (Elt Ideal) → (⟨S1600000x1, .i32⟩ : BufTy).Contents (Elt Ideal) → (⟨S1600000x128, .f32⟩ : BufTy).Contents (Elt Ideal)) ]

/-- The buffers `s6` writes. -/
abbrev s6_W : List (Ref sig .tc) := [main_v41, main_v42, main_v43, main_c_5, main_v44, main_v45, main_c_6, main_v46, main_v47, main_v48, main_v49, main_v50]
theorem s6_writes : (s6 : List (HloOp τ sig (Elt Ideal))).Forall fun op => op.writes ⊆ (s6_W.map (Proc.devRef (τ := τ) .tc)).toFinset :=
  ⟨single_sub_of_mem (y := main_v41) (by decide),
   single_sub_of_mem (y := main_v42) (by decide),
   single_sub_of_mem (y := main_v43) (by decide),
   single_sub_of_mem (y := main_c_5) (by decide),
   single_sub_of_mem (y := main_v44) (by decide),
   single_sub_of_mem (y := main_v45) (by decide),
   single_sub_of_mem (y := main_c_6) (by decide),
   single_sub_of_mem (y := main_v46) (by decide),
   single_sub_of_mem (y := main_v47) (by decide),
   single_sub_of_mem (y := main_v48) (by decide),
   single_sub_of_mem (y := main_v49) (by decide),
   single_sub_of_mem (y := main_v50) (by decide)⟩
theorem s6_sub : (s6 : List (HloOp τ sig (Elt Ideal))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem s6_fresh : (s6 : List (HloOp τ sig (Elt Ideal))).Forall fun op => op.fresh = ∅ :=
  ⟨rfl, rfl, rfl, rfl, rfl, rfl, rfl, rfl, rfl, rfl, rfl, rfl⟩

/-- Operations 84 … 87 of 169: layer 1: the scatter-add into zeros. -/
abbrev s7 : List (HloOp τ sig (Elt Ideal)) :=
  [ StableHlo.nullary main_cst_7 (constant (F := Ideal) S_ .f32 0x00000000#32),
    StableHlo.unary main_cst_7 main_v51 (broadcastInDim S100000x128 ![] bcast_S_S100000x128 : (⟨S_, .f32⟩ : BufTy).Contents (Elt Ideal) → (⟨S100000x128, .f32⟩ : BufTy).Contents (Elt Ideal)),
    StableHlo.unary main_v3 main_v52 (broadcastInDim S1600000x1 ![0] bcast_S1600000_S1600000x1_0 : (⟨S1600000, .i32⟩ : BufTy).Contents (Elt Ideal) → (⟨S1600000x1, .i32⟩ : BufTy).Contents (Elt Ideal)),
    StableHlo.ternary main_v51 main_v52 main_v50 main_v53 ((fun x i u => Host.scatterAdd (F := Ideal) (φ := .f32) scatter_S100000x128_S1600000x1_S1600000x128_1_0_0_1 x i u) : (⟨S100000x128, .f32⟩ : BufTy).Contents (Elt Ideal) → (⟨S1600000x1, .i32⟩ : BufTy).Contents (Elt Ideal) → (⟨S1600000x128, .f32⟩ : BufTy).Contents (Elt Ideal) → (⟨S100000x128, .f32⟩ : BufTy).Contents (Elt Ideal)) ]

/-- The buffers `s7` writes. -/
abbrev s7_W : List (Ref sig .tc) := [main_cst_7, main_v51, main_v52, main_v53]
theorem s7_writes : (s7 : List (HloOp τ sig (Elt Ideal))).Forall fun op => op.writes ⊆ (s7_W.map (Proc.devRef (τ := τ) .tc)).toFinset :=
  ⟨single_sub_of_mem (y := main_cst_7) (by decide),
   single_sub_of_mem (y := main_v51) (by decide),
   single_sub_of_mem (y := main_v52) (by decide),
   single_sub_of_mem (y := main_v53) (by decide)⟩
theorem s7_sub : (s7 : List (HloOp τ sig (Elt Ideal))).Forall fun op => op.bufs ⊆ tcRefs τ sig :=
  ⟨nullary_bufs_sub .., unary_bufs_sub .., unary_bufs_sub .., ternary_bufs_sub ..⟩
theorem s7_fresh : (s7 : List (HloOp τ sig (Elt Ideal))).Forall fun op => op.fresh = ∅ :=
  ⟨rfl, rfl, rfl, rfl⟩

/-- Operations 88 … 96 of 169: layer 1: the scale and shift rows and the column mean. -/
abbrev s8 : List (HloOp τ sig (Elt Ideal)) :=
  [ StableHlo.unary main_arg3 main_v54 ((extractStridedSlice S1x128 ![1, 0] · slices_S2x128_S1x128_1_0) : (⟨S2x128, .f32⟩ : BufTy).Contents (Elt Ideal) → (⟨S1x128, .f32⟩ : BufTy).Contents (Elt Ideal)),
    StableHlo.reshape main_v54 main_v55 rfl shapeCasts_S1x128_S128,
    StableHlo.unary main_arg4 main_v56 ((extractStridedSlice S1x128 ![1, 0] · slices_S2x128_S1x128_1_0) : (⟨S2x128, .f32⟩ : BufTy).Contents (Elt Ideal) → (⟨S1x128, .f32⟩ : BufTy).Contents (Elt Ideal)),
    StableHlo.reshape main_v56 main_v57 rfl shapeCasts_S1x128_S128,
    StableHlo.nullary main_cst_8 (constant (F := Ideal) S_ .f32 0x00000000#32),
    StableHlo.binary main_v53 main_cst_8 main_v58 ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal)),
    StableHlo.nullary main_cst_9 (constant (F := Ideal) S_ .f32 0x47C35000#32),
    StableHlo.unary main_cst_9 main_v59 (broadcastInDim S128 ![] bcast_S_S128 : (⟨S_, .f32⟩ : BufTy).Contents (Elt Ideal) → (⟨S128, .f32⟩ : BufTy).Contents (Elt Ideal)),
    StableHlo.binary main_v58 main_v59 main_v60 (Host.divf (F := Ideal) (φ := .f32) : (⟨S128, .f32⟩ : BufTy).Contents (Elt Ideal) → (⟨S128, .f32⟩ : BufTy).Contents (Elt Ideal) → (⟨S128, .f32⟩ : BufTy).Contents (Elt Ideal)) ]

/-- The buffers `s8` writes. -/
abbrev s8_W : List (Ref sig .tc) := [main_v54, main_v55, main_v56, main_v57, main_cst_8, main_v58, main_cst_9, main_v59, main_v60]
theorem s8_writes : (s8 : List (HloOp τ sig (Elt Ideal))).Forall fun op => op.writes ⊆ (s8_W.map (Proc.devRef (τ := τ) .tc)).toFinset :=
  ⟨single_sub_of_mem (y := main_v54) (by decide),
   single_sub_of_mem (y := main_v55) (by decide),
   single_sub_of_mem (y := main_v56) (by decide),
   single_sub_of_mem (y := main_v57) (by decide),
   single_sub_of_mem (y := main_cst_8) (by decide),
   single_sub_of_mem (y := main_v58) (by decide),
   single_sub_of_mem (y := main_cst_9) (by decide),
   single_sub_of_mem (y := main_v59) (by decide),
   single_sub_of_mem (y := main_v60) (by decide)⟩
theorem s8_sub : (s8 : List (HloOp τ sig (Elt Ideal))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub ..⟩
theorem s8_fresh : (s8 : List (HloOp τ sig (Elt Ideal))).Forall fun op => op.fresh = ∅ :=
  ⟨rfl, rfl, rfl, rfl, rfl, rfl, rfl, rfl, rfl⟩

/-- Operations 97 … 119 of 169: layer 1: the column variance. -/
abbrev s9 : List (HloOp τ sig (Elt Ideal)) :=
  [ StableHlo.nullary main_c_10 (constantI S_ 32 0#32),
    StableHlo.nullary main_call2_cst (constant (F := Ideal) S_ .f32 0x00000000#32),
    StableHlo.binary main_v53 main_call2_cst main_call2_v0 ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal)),
    StableHlo.unary main_call2_v0 main_call2_v1 ((broadcastInDim S1x128 ![1] bcast_S128_S1x128_1) : (⟨S128, .f32⟩ : BufTy).Contents (Elt Ideal) → (⟨S1x128, .f32⟩ : BufTy).Contents (Elt Ideal)),
    StableHlo.nullary main_call2_cst_0 (constant (F := Ideal) S_ .f32 0x47C35000#32),
    StableHlo.unary main_call2_cst_0 main_call2_v2 ((broadcastInDim S1x128 ![] bcast_S_S1x128) : (⟨S_, .f32⟩ : BufTy).Contents (Elt Ideal) → (⟨S1x128, .f32⟩ : BufTy).Contents (Elt Ideal)),
    StableHlo.binary main_call2_v1 main_call2_v2 main_call2_v3 ((Host.divf (F := Ideal) (φ := .f32)) : (⟨S1x128, .f32⟩ : BufTy).Contents (Elt Ideal) → (⟨S1x128, .f32⟩ : BufTy).Contents (Elt Ideal) → (⟨S1x128, .f32⟩ : BufTy).Contents (Elt Ideal)),
    StableHlo.unary main_call2_v3 main_call2_v4 ((broadcastInDim S100000x128 ![0, 1] bcast_S1x128_S100000x128_0_1) : (⟨S1x128, .f32⟩ : BufTy).Contents (Elt Ideal) → (⟨S100000x128, .f32⟩ : BufTy).Contents (Elt Ideal)),
    StableHlo.binary main_v53 main_call2_v4 main_call2_v5 ((subf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)),
    StableHlo.binary main_call2_v5 main_call2_v5 main_call2_v6 ((mulf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)),
    StableHlo.unary main_c_10 main_call2_v7 ((sitofp (F := Ideal) .f32) : (⟨S_, .i32⟩ : BufTy).Contents (Elt Ideal) → (⟨S_, .f32⟩ : BufTy).Contents (Elt Ideal)),
    StableHlo.nullary main_call2_cst_1 (constant (F := Ideal) S_ .f32 0x47C35000#32),
    StableHlo.binary main_call2_cst_1 main_call2_v7 main_call2_v8 ((subf (F := Ideal) (φ := .f32)) : (⟨S_, .f32⟩ : BufTy).Contents (Elt Ideal) → (⟨S_, .f32⟩ : BufTy).Contents (Elt Ideal) → (⟨S_, .f32⟩ : BufTy).Contents (Elt Ideal)),
    StableHlo.nullary main_call2_cst_2 (constant (F := Ideal) S_ .f32 0x00000000#32),
    StableHlo.binary main_call2_v6 main_call2_cst_2 main_call2_v9 ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal)),
    StableHlo.unary main_call2_v8 main_call2_v10 ((broadcastInDim S128 ![] bcast_S_S128) : (⟨S_, .f32⟩ : BufTy).Contents (Elt Ideal) → (⟨S128, .f32⟩ : BufTy).Contents (Elt Ideal)),
    StableHlo.binary main_call2_v9 main_call2_v10 main_call2_v11 ((Host.divf (F := Ideal) (φ := .f32)) : (⟨S128, .f32⟩ : BufTy).Contents (Elt Ideal) → (⟨S128, .f32⟩ : BufTy).Contents (Elt Ideal) → (⟨S128, .f32⟩ : BufTy).Contents (Elt Ideal)),
    StableHlo.nullary main_call2_cst_3 (constant (F := Ideal) S_ .f32 0x00000000#32),
    StableHlo.binary main_call2_v8 main_call2_cst_3 main_call2_v12 ((cmpf (F := Ideal) (φ := .f32) .ogt) : (⟨S_, .f32⟩ : BufTy).Contents (Elt Ideal) → (⟨S_, .f32⟩ : BufTy).Contents (Elt Ideal) → (⟨S_, .i1⟩ : BufTy).Contents (Elt Ideal)),
    StableHlo.nullary main_call2_cst_4 (constant (F := Ideal) S_ .f32 0x7FC00000#32),
    StableHlo.unary main_call2_cst_4 main_call2_call0_v0 (id : (⟨S_, .f32⟩ : BufTy).Contents (Elt Ideal) → (⟨S_, .f32⟩ : BufTy).Contents (Elt Ideal)),
    StableHlo.unary main_call2_call0_v0 main_call2_call0_v1 ((broadcastInDim S128 ![] bcast_S_S128) : (⟨S_, .f32⟩ : BufTy).Contents (Elt Ideal) → (⟨S128, .f32⟩ : BufTy).Contents (Elt Ideal)),
    StableHlo.ternary main_call2_v12 main_call2_v11 main_call2_call0_v1 main_v61 ((fun p a b => select (broadcastInDim S128 ![] bcast_S_S128 p) a b) : (⟨S_, .i1⟩ : BufTy).Contents (Elt Ideal) → (⟨S128, .f32⟩ : BufTy).Contents (Elt Ideal) → (⟨S128, .f32⟩ : BufTy).Contents (Elt Ideal) → (⟨S128, .f32⟩ : BufTy).Contents (Elt Ideal)) ]

/-- The buffers `s9` writes. -/
abbrev s9_W : List (Ref sig .tc) := [main_c_10, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v61]
theorem s9_writes : (s9 : List (HloOp τ sig (Elt Ideal))).Forall fun op => op.writes ⊆ (s9_W.map (Proc.devRef (τ := τ) .tc)).toFinset :=
  ⟨single_sub_of_mem (y := main_c_10) (by decide),
   single_sub_of_mem (y := main_call2_cst) (by decide),
   single_sub_of_mem (y := main_call2_v0) (by decide),
   single_sub_of_mem (y := main_call2_v1) (by decide),
   single_sub_of_mem (y := main_call2_cst_0) (by decide),
   single_sub_of_mem (y := main_call2_v2) (by decide),
   single_sub_of_mem (y := main_call2_v3) (by decide),
   single_sub_of_mem (y := main_call2_v4) (by decide),
   single_sub_of_mem (y := main_call2_v5) (by decide),
   single_sub_of_mem (y := main_call2_v6) (by decide),
   single_sub_of_mem (y := main_call2_v7) (by decide),
   single_sub_of_mem (y := main_call2_cst_1) (by decide),
   single_sub_of_mem (y := main_call2_v8) (by decide),
   single_sub_of_mem (y := main_call2_cst_2) (by decide),
   single_sub_of_mem (y := main_call2_v9) (by decide),
   single_sub_of_mem (y := main_call2_v10) (by decide),
   single_sub_of_mem (y := main_call2_v11) (by decide),
   single_sub_of_mem (y := main_call2_cst_3) (by decide),
   single_sub_of_mem (y := main_call2_v12) (by decide),
   single_sub_of_mem (y := main_call2_cst_4) (by decide),
   single_sub_of_mem (y := main_call2_call0_v0) (by decide),
   single_sub_of_mem (y := main_call2_call0_v1) (by decide),
   single_sub_of_mem (y := main_v61) (by decide)⟩
theorem s9_sub : (s9 : List (HloOp τ sig (Elt Ideal))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem s9_fresh : (s9 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Operations 120 … 138 of 169: layer 1: normalisation, scale, shift and the rectifier. -/
abbrev s10 : List (HloOp τ sig (Elt Ideal)) :=
  [ StableHlo.unary main_v60 main_v62 (broadcastInDim S1x128 ![1] bcast_S128_S1x128_1 : (⟨S128, .f32⟩ : BufTy).Contents (Elt Ideal) → (⟨S1x128, .f32⟩ : BufTy).Contents (Elt Ideal)),
    StableHlo.unary main_v62 main_v63 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v53 main_v63 main_v64 (subf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.nullary main_cst_11 (constant (F := Ideal) S_ .f32 0x3727C5AC#32),
    StableHlo.unary main_cst_11 main_v65 (broadcastInDim S128 ![] bcast_S_S128 : (⟨S_, .f32⟩ : BufTy).Contents (Elt Ideal) → (⟨S128, .f32⟩ : BufTy).Contents (Elt Ideal)),
    StableHlo.binary main_v61 main_v65 main_v66 (addf (F := Ideal) (φ := .f32) : (⟨S128, .f32⟩ : BufTy).Contents (Elt Ideal) → (⟨S128, .f32⟩ : BufTy).Contents (Elt Ideal) → (⟨S128, .f32⟩ : BufTy).Contents (Elt Ideal)),
    StableHlo.unary main_v66 main_v67 (Host.rsqrt (F := Ideal) (φ := .f32) : (⟨S128, .f32⟩ : BufTy).Contents (Elt Ideal) → (⟨S128, .f32⟩ : BufTy).Contents (Elt Ideal)),
    StableHlo.unary main_v67 main_v68 (broadcastInDim S1x128 ![1] bcast_S128_S1x128_1 : (⟨S128, .f32⟩ : BufTy).Contents (Elt Ideal) → (⟨S1x128, .f32⟩ : BufTy).Contents (Elt Ideal)),
    StableHlo.unary main_v68 main_v69 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v64 main_v69 main_v70 (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.unary main_v55 main_v71 (broadcastInDim S1x128 ![1] bcast_S128_S1x128_1 : (⟨S128, .f32⟩ : BufTy).Contents (Elt Ideal) → (⟨S1x128, .f32⟩ : BufTy).Contents (Elt Ideal)),
    StableHlo.unary main_v71 main_v72 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v70 main_v72 main_v73 (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.unary main_v57 main_v74 (broadcastInDim S1x128 ![1] bcast_S128_S1x128_1 : (⟨S128, .f32⟩ : BufTy).Contents (Elt Ideal) → (⟨S1x128, .f32⟩ : BufTy).Contents (Elt Ideal)),
    StableHlo.unary main_v74 main_v75 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v73 main_v75 main_v76 (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.nullary main_call3_cst (constant (F := Ideal) S_ .f32 0x00000000#32),
    StableHlo.unary main_call3_cst main_call3_v0 ((broadcastInDim S100000x128 ![] bcast_S_S100000x128) : (⟨S_, .f32⟩ : BufTy).Contents (Elt Ideal) → (⟨S100000x128, .f32⟩ : BufTy).Contents (Elt Ideal)),
    StableHlo.binary main_v76 main_call3_v0 main_v77 ((maximumf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) ]

/-- The buffers `s10` writes. -/
abbrev s10_W : List (Ref sig .tc) := [main_v62, main_v63, main_v64, main_cst_11, main_v65, main_v66, main_v67, main_v68, main_v69, main_v70, main_v71, main_v72, main_v73, main_v74, main_v75, main_v76, main_call3_cst, main_call3_v0, main_v77]
theorem s10_writes : (s10 : List (HloOp τ sig (Elt Ideal))).Forall fun op => op.writes ⊆ (s10_W.map (Proc.devRef (τ := τ) .tc)).toFinset :=
  ⟨single_sub_of_mem (y := main_v62) (by decide),
   single_sub_of_mem (y := main_v63) (by decide),
   single_sub_of_mem (y := main_v64) (by decide),
   single_sub_of_mem (y := main_cst_11) (by decide),
   single_sub_of_mem (y := main_v65) (by decide),
   single_sub_of_mem (y := main_v66) (by decide),
   single_sub_of_mem (y := main_v67) (by decide),
   single_sub_of_mem (y := main_v68) (by decide),
   single_sub_of_mem (y := main_v69) (by decide),
   single_sub_of_mem (y := main_v70) (by decide),
   single_sub_of_mem (y := main_v71) (by decide),
   single_sub_of_mem (y := main_v72) (by decide),
   single_sub_of_mem (y := main_v73) (by decide),
   single_sub_of_mem (y := main_v74) (by decide),
   single_sub_of_mem (y := main_v75) (by decide),
   single_sub_of_mem (y := main_v76) (by decide),
   single_sub_of_mem (y := main_call3_cst) (by decide),
   single_sub_of_mem (y := main_call3_v0) (by decide),
   single_sub_of_mem (y := main_v77) (by decide)⟩
theorem s10_sub : (s10 : List (HloOp τ sig (Elt Ideal))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem s10_fresh : (s10 : List (HloOp τ sig (Elt Ideal))).Forall fun op => op.fresh = ∅ :=
  ⟨rfl, rfl, rfl, rfl, rfl, rfl, rfl, rfl, rfl, rfl, rfl, rfl, rfl, rfl, rfl, rfl, rfl, rfl, rfl⟩

/-- Operations 139 … 154 of 169: layer 2: the weight slice, the product, the gather and the scatter-add. -/
abbrev s11 : List (HloOp τ sig (Elt Ideal)) :=
  [ StableHlo.unary main_arg2 main_v78 ((extractStridedSlice S1x128x128 ![2, 0, 0] · slices_S3x128x128_S1x128x128_2_0_0) : (⟨S3x128x128, .f32⟩ : BufTy).Contents (Elt Ideal) → (⟨S1x128x128, .f32⟩ : BufTy).Contents (Elt Ideal)),
    StableHlo.reshape main_v78 main_v79 rfl shapeCasts_S1x128x128_S128x128,
    StableHlo.binary main_v77 main_v79 main_v80 ((fun l r => Host.dotGeneral (F := Ideal) (φ₁ := .f32) (φ₂ := .f32) dot_S100000x128_S128x128_S100000x128_1_0_0_1_n_n none l r) : (⟨S100000x128, .f32⟩ : BufTy).Contents (Elt Ideal) → (⟨S128x128, .f32⟩ : BufTy).Contents (Elt Ideal) → (⟨S100000x128, .f32⟩ : BufTy).Contents (Elt Ideal)),
    StableHlo.nullary main_c_12 (constantI S_ 32 0#32),
    StableHlo.unary main_c_12 main_v81 (broadcastInDim S1600000 ![] bcast_S_S1600000 : (⟨S_, .i32⟩ : BufTy).Contents (Elt Ideal) → (⟨S1600000, .i32⟩ : BufTy).Contents (Elt Ideal)),
    StableHlo.binary main_v1 main_v81 main_v82 (cmpi .slt : (⟨S1600000, .i32⟩ : BufTy).Contents (Elt Ideal) → (⟨S1600000, .i32⟩ : BufTy).Contents (Elt Ideal) → (⟨S1600000, .i1⟩ : BufTy).Contents (Elt Ideal)),
    StableHlo.nullary main_c_13 (constantI S_ 32 100000#32),
    StableHlo.unary main_c_13 main_v83 (broadcastInDim S1600000 ![] bcast_S_S1600000 : (⟨S_, .i32⟩ : BufTy).Contents (Elt Ideal) → (⟨S1600000, .i32⟩ : BufTy).Contents (Elt Ideal)),
    StableHlo.binary main_v1 main_v83 main_v84 (addi : (⟨S1600000, .i32⟩ : BufTy).Contents (Elt Ideal) → (⟨S1600000, .i32⟩ : BufTy).Contents (Elt Ideal) → (⟨S1600000, .i32⟩ : BufTy).Contents (Elt Ideal)),
    StableHlo.ternary main_v82 main_v84 main_v1 main_v85 (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)),
    StableHlo.unary main_v85 main_v86 (broadcastInDim S1600000x1 ![0] bcast_S1600000_S1600000x1_0 : (⟨S1600000, .i32⟩ : BufTy).Contents (Elt Ideal) → (⟨S1600000x1, .i32⟩ : BufTy).Contents (Elt Ideal)),
    StableHlo.binary main_v80 main_v86 main_v87 ((fun x i => Host.gather gather_S100000x128_S1600000x1_S1600000x128_1_0_n_n_0_1_1128 x i) : (⟨S100000x128, .f32⟩ : BufTy).Contents (Elt Ideal) → (⟨S1600000x1, .i32⟩ : BufTy).Contents (Elt Ideal) → (⟨S1600000x128, .f32⟩ : BufTy).Contents (Elt Ideal)),
    StableHlo.nullary main_cst_14 (constant (F := Ideal) S_ .f32 0x00000000#32),
    StableHlo.unary main_cst_14 main_v88 (broadcastInDim S100000x128 ![] bcast_S_S100000x128 : (⟨S_, .f32⟩ : BufTy).Contents (Elt Ideal) → (⟨S100000x128, .f32⟩ : BufTy).Contents (Elt Ideal)),
    StableHlo.unary main_v3 main_v89 (broadcastInDim S1600000x1 ![0] bcast_S1600000_S1600000x1_0 : (⟨S1600000, .i32⟩ : BufTy).Contents (Elt Ideal) → (⟨S1600000x1, .i32⟩ : BufTy).Contents (Elt Ideal)),
    StableHlo.ternary main_v88 main_v89 main_v87 main_v90 ((fun x i u => Host.scatterAdd (F := Ideal) (φ := .f32) scatter_S100000x128_S1600000x1_S1600000x128_1_0_0_1 x i u) : (⟨S100000x128, .f32⟩ : BufTy).Contents (Elt Ideal) → (⟨S1600000x1, .i32⟩ : BufTy).Contents (Elt Ideal) → (⟨S1600000x128, .f32⟩ : BufTy).Contents (Elt Ideal) → (⟨S100000x128, .f32⟩ : BufTy).Contents (Elt Ideal)) ]

/-- The buffers `s11` writes. -/
abbrev s11_W : List (Ref sig .tc) := [main_v78, main_v79, main_v80, main_c_12, main_v81, main_v82, main_c_13, main_v83, main_v84, main_v85, main_v86, main_v87, main_cst_14, main_v88, main_v89, main_v90]
theorem s11_writes : (s11 : List (HloOp τ sig (Elt Ideal))).Forall fun op => op.writes ⊆ (s11_W.map (Proc.devRef (τ := τ) .tc)).toFinset :=
  ⟨single_sub_of_mem (y := main_v78) (by decide),
   single_sub_of_mem (y := main_v79) (by decide),
   single_sub_of_mem (y := main_v80) (by decide),
   single_sub_of_mem (y := main_c_12) (by decide),
   single_sub_of_mem (y := main_v81) (by decide),
   single_sub_of_mem (y := main_v82) (by decide),
   single_sub_of_mem (y := main_c_13) (by decide),
   single_sub_of_mem (y := main_v83) (by decide),
   single_sub_of_mem (y := main_v84) (by decide),
   single_sub_of_mem (y := main_v85) (by decide),
   single_sub_of_mem (y := main_v86) (by decide),
   single_sub_of_mem (y := main_v87) (by decide),
   single_sub_of_mem (y := main_cst_14) (by decide),
   single_sub_of_mem (y := main_v88) (by decide),
   single_sub_of_mem (y := main_v89) (by decide),
   single_sub_of_mem (y := main_v90) (by decide)⟩
theorem s11_sub : (s11 : List (HloOp τ sig (Elt Ideal))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem s11_fresh : (s11 : List (HloOp τ sig (Elt Ideal))).Forall fun op => op.fresh = ∅ :=
  ⟨rfl, rfl, rfl, rfl, rfl, rfl, rfl, rfl, rfl, rfl, rfl, rfl, rfl, rfl, rfl, rfl⟩

/-- Operations 155 … 169 of 169: the row-wise log-softmax. -/
abbrev s12 : List (HloOp τ sig (Elt Ideal)) :=
  [ StableHlo.nullary main_call4_cst (constant (F := Ideal) S_ .f32 0xFF800000#32),
    StableHlo.binary main_v90 main_call4_cst main_call4_v0 ((fun x v => Host.reduce (FloatOps.maximumf (F := Ideal) (φ := .f32)) x v reducesTo_S100000x128_S100000_d1 h_S_) : (⟨S100000x128, .f32⟩ : BufTy).Contents (Elt Ideal) → (⟨S_, .f32⟩ : BufTy).Contents (Elt Ideal) → (⟨S100000, .f32⟩ : BufTy).Contents (Elt Ideal)),
    StableHlo.nullary main_call4_cst_0 (constant (F := Ideal) S_ .f32 0xFF800000#32),
    StableHlo.unary main_call4_cst_0 main_call4_v1 ((broadcastInDim S100000 ![] bcast_S_S100000) : (⟨S_, .f32⟩ : BufTy).Contents (Elt Ideal) → (⟨S100000, .f32⟩ : BufTy).Contents (Elt Ideal)),
    StableHlo.binary main_call4_v1 main_call4_v0 main_call4_v2 ((maximumf (F := Ideal) (φ := .f32)) : (⟨S100000, .f32⟩ : BufTy).Contents (Elt Ideal) → (⟨S100000, .f32⟩ : BufTy).Contents (Elt Ideal) → (⟨S100000, .f32⟩ : BufTy).Contents (Elt Ideal)),
    StableHlo.unary main_call4_v2 main_call4_v3 ((broadcastInDim S100000x1 ![0] bcast_S100000_S100000x1_0) : (⟨S100000, .f32⟩ : BufTy).Contents (Elt Ideal) → (⟨S100000x1, .f32⟩ : BufTy).Contents (Elt Ideal)),
    StableHlo.unary main_call4_v3 main_call4_v4 ((broadcastInDim S100000x128 ![0, 1] bcast_S100000x1_S100000x128_0_1) : (⟨S100000x1, .f32⟩ : BufTy).Contents (Elt Ideal) → (⟨S100000x128, .f32⟩ : BufTy).Contents (Elt Ideal)),
    StableHlo.binary main_v90 main_call4_v4 main_call4_v5 ((subf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)),
    StableHlo.unary main_call4_v5 main_call4_v6 ((Host.exp (F := Ideal) (φ := .f32)) : (⟨S100000x128, .f32⟩ : BufTy).Contents (Elt Ideal) → (⟨S100000x128, .f32⟩ : BufTy).Contents (Elt Ideal)),
    StableHlo.nullary main_call4_cst_1 (constant (F := Ideal) S_ .f32 0x00000000#32),
    StableHlo.binary main_call4_v6 main_call4_cst_1 main_call4_v7 ((fun x v => Host.reduceAdd (F := Ideal) (φ := .f32) x v reducesTo_S100000x128_S100000_d1 h_S_) : (⟨S100000x128, .f32⟩ : BufTy).Contents (Elt Ideal) → (⟨S_, .f32⟩ : BufTy).Contents (Elt Ideal) → (⟨S100000, .f32⟩ : BufTy).Contents (Elt Ideal)),
    StableHlo.unary main_call4_v7 main_call4_v8 ((broadcastInDim S100000x1 ![0] bcast_S100000_S100000x1_0) : (⟨S100000, .f32⟩ : BufTy).Contents (Elt Ideal) → (⟨S100000x1, .f32⟩ : BufTy).Contents (Elt Ideal)),
    StableHlo.unary main_call4_v8 main_call4_v9 ((Host.log (F := Ideal) (φ := .f32)) : (⟨S100000x1, .f32⟩ : BufTy).Contents (Elt Ideal) → (⟨S100000x1, .f32⟩ : BufTy).Contents (Elt Ideal)),
    StableHlo.unary main_call4_v9 main_call4_v10 ((broadcastInDim S100000x128 ![0, 1] bcast_S100000x1_S100000x128_0_1) : (⟨S100000x1, .f32⟩ : BufTy).Contents (Elt Ideal) → (⟨S100000x128, .f32⟩ : BufTy).Contents (Elt Ideal)),
    StableHlo.binary main_call4_v5 main_call4_v10 main_v91 ((subf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) ]

/-- The buffers `s12` writes. -/
abbrev s12_W : List (Ref sig .tc) := [main_call4_cst, main_call4_v0, main_call4_cst_0, main_call4_v1, main_call4_v2, main_call4_v3, main_call4_v4, main_call4_v5, main_call4_v6, main_call4_cst_1, main_call4_v7, main_call4_v8, main_call4_v9, main_call4_v10, main_v91]
theorem s12_writes : (s12 : List (HloOp τ sig (Elt Ideal))).Forall fun op => op.writes ⊆ (s12_W.map (Proc.devRef (τ := τ) .tc)).toFinset :=
  ⟨single_sub_of_mem (y := main_call4_cst) (by decide),
   single_sub_of_mem (y := main_call4_v0) (by decide),
   single_sub_of_mem (y := main_call4_cst_0) (by decide),
   single_sub_of_mem (y := main_call4_v1) (by decide),
   single_sub_of_mem (y := main_call4_v2) (by decide),
   single_sub_of_mem (y := main_call4_v3) (by decide),
   single_sub_of_mem (y := main_call4_v4) (by decide),
   single_sub_of_mem (y := main_call4_v5) (by decide),
   single_sub_of_mem (y := main_call4_v6) (by decide),
   single_sub_of_mem (y := main_call4_cst_1) (by decide),
   single_sub_of_mem (y := main_call4_v7) (by decide),
   single_sub_of_mem (y := main_call4_v8) (by decide),
   single_sub_of_mem (y := main_call4_v9) (by decide),
   single_sub_of_mem (y := main_call4_v10) (by decide),
   single_sub_of_mem (y := main_v91) (by decide)⟩
theorem s12_sub : (s12 : List (HloOp τ sig (Elt Ideal))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem s12_fresh : (s12 : List (HloOp τ sig (Elt Ideal))).Forall fun op => op.fresh = ∅ :=
  ⟨rfl, rfl, rfl, rfl, rfl, rfl, rfl, rfl, rfl, rfl, rfl, rfl, rfl, rfl, rfl⟩

/-- The first window's operations (statements 1 … 60 of the program). -/
abbrev opsP0 : List (HloOp τ sig (Elt Ideal)) := s1 ++ (s2 ++ (s3 ++ (s4 ++ (s5 ++ (s6)))))
/-- The second window's operations (statements 61 … 110). -/
abbrev opsP1 : List (HloOp τ sig (Elt Ideal)) := s7 ++ (s8 ++ (s9 ++ (s10 ++ (s11 ++ (s12)))))
/-- All 169 operations, in order. -/
abbrev ops : List (HloOp τ sig (Elt Ideal)) := opsP0 ++ opsP1

/-- The operations of `s4` as the program states them: the outlined functions' over typed references. -/
abbrev s4T : List (HloOp τ sig (Elt Ideal)) :=
  [ StableHlo.nullary main_c_3 (constantI S_ 32 0#32),
    StableHlo.TRef.nullary (TRef.of (T := ⟨S_, .f32⟩) main_call0_cst) (constant (F := Ideal) S_ .f32 0x00000000#32),
    StableHlo.TRef.binary (TRef.of (T := ⟨S100000x128, .f32⟩) main_v16) (TRef.of (T := ⟨S_, .f32⟩) main_call0_cst) (TRef.of (T := ⟨S128, .f32⟩) main_call0_v0) (fun x v => Host.reduceAdd (F := Ideal) (φ := .f32) x v reducesTo_S100000x128_S128_d0 h_S_),
    StableHlo.TRef.unary (TRef.of (T := ⟨S128, .f32⟩) main_call0_v0) (TRef.of (T := ⟨S1x128, .f32⟩) main_call0_v1) (broadcastInDim S1x128 ![1] bcast_S128_S1x128_1),
    StableHlo.TRef.nullary (TRef.of (T := ⟨S_, .f32⟩) main_call0_cst_0) (constant (F := Ideal) S_ .f32 0x47C35000#32),
    StableHlo.TRef.unary (TRef.of (T := ⟨S_, .f32⟩) main_call0_cst_0) (TRef.of (T := ⟨S1x128, .f32⟩) main_call0_v2) (broadcastInDim S1x128 ![] bcast_S_S1x128),
    StableHlo.TRef.binary (TRef.of (T := ⟨S1x128, .f32⟩) main_call0_v1) (TRef.of (T := ⟨S1x128, .f32⟩) main_call0_v2) (TRef.of (T := ⟨S1x128, .f32⟩) main_call0_v3) (Host.divf (F := Ideal) (φ := .f32)),
    StableHlo.TRef.unary (TRef.of (T := ⟨S1x128, .f32⟩) main_call0_v3) (TRef.of (T := ⟨S100000x128, .f32⟩) main_call0_v4) (broadcastInDim S100000x128 ![0, 1] bcast_S1x128_S100000x128_0_1),
    StableHlo.TRef.binary (TRef.of (T := ⟨S100000x128, .f32⟩) main_v16) (TRef.of (T := ⟨S100000x128, .f32⟩) main_call0_v4) (TRef.of (T := ⟨S100000x128, .f32⟩) main_call0_v5) (subf (F := Ideal) (φ := .f32)),
    StableHlo.TRef.binary (TRef.of (T := ⟨S100000x128, .f32⟩) main_call0_v5) (TRef.of (T := ⟨S100000x128, .f32⟩) main_call0_v5) (TRef.of (T := ⟨S100000x128, .f32⟩) main_call0_v6) (mulf (F := Ideal) (φ := .f32)),
    StableHlo.TRef.unary (TRef.of (T := ⟨S_, .i32⟩) main_c_3) (TRef.of (T := ⟨S_, .f32⟩) main_call0_v7) (sitofp (F := Ideal) .f32),
    StableHlo.TRef.nullary (TRef.of (T := ⟨S_, .f32⟩) main_call0_cst_1) (constant (F := Ideal) S_ .f32 0x47C35000#32),
    StableHlo.TRef.binary (TRef.of (T := ⟨S_, .f32⟩) main_call0_cst_1) (TRef.of (T := ⟨S_, .f32⟩) main_call0_v7) (TRef.of (T := ⟨S_, .f32⟩) main_call0_v8) (subf (F := Ideal) (φ := .f32)),
    StableHlo.TRef.nullary (TRef.of (T := ⟨S_, .f32⟩) main_call0_cst_2) (constant (F := Ideal) S_ .f32 0x00000000#32),
    StableHlo.TRef.binary (TRef.of (T := ⟨S100000x128, .f32⟩) main_call0_v6) (TRef.of (T := ⟨S_, .f32⟩) main_call0_cst_2) (TRef.of (T := ⟨S128, .f32⟩) main_call0_v9) (fun x v => Host.reduceAdd (F := Ideal) (φ := .f32) x v reducesTo_S100000x128_S128_d0 h_S_),
    StableHlo.TRef.unary (TRef.of (T := ⟨S_, .f32⟩) main_call0_v8) (TRef.of (T := ⟨S128, .f32⟩) main_call0_v10) (broadcastInDim S128 ![] bcast_S_S128),
    StableHlo.TRef.binary (TRef.of (T := ⟨S128, .f32⟩) main_call0_v9) (TRef.of (T := ⟨S128, .f32⟩) main_call0_v10) (TRef.of (T := ⟨S128, .f32⟩) main_call0_v11) (Host.divf (F := Ideal) (φ := .f32)),
    StableHlo.TRef.nullary (TRef.of (T := ⟨S_, .f32⟩) main_call0_cst_3) (constant (F := Ideal) S_ .f32 0x00000000#32),
    StableHlo.TRef.binary (TRef.of (T := ⟨S_, .f32⟩) main_call0_v8) (TRef.of (T := ⟨S_, .f32⟩) main_call0_cst_3) (TRef.of (T := ⟨S_, .i1⟩) main_call0_v12) (cmpf (F := Ideal) (φ := .f32) .ogt),
    StableHlo.TRef.nullary (TRef.of (T := ⟨S_, .f32⟩) main_call0_cst_4) (constant (F := Ideal) S_ .f32 0x7FC00000#32),
    StableHlo.TRef.unary (TRef.of (T := ⟨S_, .f32⟩) main_call0_cst_4) (TRef.of (T := ⟨S_, .f32⟩) main_call0_call0_v0) id,
    StableHlo.TRef.unary (TRef.of (T := ⟨S_, .f32⟩) main_call0_call0_v0) (TRef.of (T := ⟨S128, .f32⟩) main_call0_call0_v1) (broadcastInDim S128 ![] bcast_S_S128),
    StableHlo.TRef.ternary (TRef.of (T := ⟨S_, .i1⟩) main_call0_v12) (TRef.of (T := ⟨S128, .f32⟩) main_call0_v11) (TRef.of (T := ⟨S128, .f32⟩) main_call0_call0_v1) (TRef.of (T := ⟨S128, .f32⟩) main_v24) (fun p a b => select (broadcastInDim S128 ![] bcast_S_S128 p) a b) ]

theorem s4T_eq : s4T = s4 :=
  cons_congr (rfl) (
  cons_congr (tref_nullary_eq main_call0_cst (by decide) rfl (constant (F := Ideal) S_ .f32 0x00000000#32)) (
  cons_congr (tref_binary_eq main_v16 main_call0_cst main_call0_v0 (by decide) rfl (by decide) rfl (by decide) rfl ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal))) (
  cons_congr (tref_unary_eq main_call0_v0 main_call0_v1 (by decide) rfl (by decide) rfl ((broadcastInDim S1x128 ![1] bcast_S128_S1x128_1) : (⟨S128, .f32⟩ : BufTy).Contents (Elt Ideal) → (⟨S1x128, .f32⟩ : BufTy).Contents (Elt Ideal))) (
  cons_congr (tref_nullary_eq main_call0_cst_0 (by decide) rfl (constant (F := Ideal) S_ .f32 0x47C35000#32)) (
  cons_congr (tref_unary_eq main_call0_cst_0 main_call0_v2 (by decide) rfl (by decide) rfl ((broadcastInDim S1x128 ![] bcast_S_S1x128) : (⟨S_, .f32⟩ : BufTy).Contents (Elt Ideal) → (⟨S1x128, .f32⟩ : BufTy).Contents (Elt Ideal))) (
  cons_congr (tref_binary_eq main_call0_v1 main_call0_v2 main_call0_v3 (by decide) rfl (by decide) rfl (by decide) rfl ((Host.divf (F := Ideal) (φ := .f32)) : (⟨S1x128, .f32⟩ : BufTy).Contents (Elt Ideal) → (⟨S1x128, .f32⟩ : BufTy).Contents (Elt Ideal) → (⟨S1x128, .f32⟩ : BufTy).Contents (Elt Ideal))) (
  cons_congr (tref_unary_eq main_call0_v3 main_call0_v4 (by decide) rfl (by decide) rfl ((broadcastInDim S100000x128 ![0, 1] bcast_S1x128_S100000x128_0_1) : (⟨S1x128, .f32⟩ : BufTy).Contents (Elt Ideal) → (⟨S100000x128, .f32⟩ : BufTy).Contents (Elt Ideal))) (
  cons_congr (tref_binary_eq main_v16 main_call0_v4 main_call0_v5 (by decide) rfl (by decide) rfl (by decide) rfl ((subf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal))) (
  cons_congr (tref_binary_eq main_call0_v5 main_call0_v5 main_call0_v6 (by decide) rfl (by decide) rfl (by decide) rfl ((mulf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal))) (
  cons_congr (tref_unary_eq main_c_3 main_call0_v7 (by decide) rfl (by decide) rfl ((sitofp (F := Ideal) .f32) : (⟨S_, .i32⟩ : BufTy).Contents (Elt Ideal) → (⟨S_, .f32⟩ : BufTy).Contents (Elt Ideal))) (
  cons_congr (tref_nullary_eq main_call0_cst_1 (by decide) rfl (constant (F := Ideal) S_ .f32 0x47C35000#32)) (
  cons_congr (tref_binary_eq main_call0_cst_1 main_call0_v7 main_call0_v8 (by decide) rfl (by decide) rfl (by decide) rfl ((subf (F := Ideal) (φ := .f32)) : (⟨S_, .f32⟩ : BufTy).Contents (Elt Ideal) → (⟨S_, .f32⟩ : BufTy).Contents (Elt Ideal) → (⟨S_, .f32⟩ : BufTy).Contents (Elt Ideal))) (
  cons_congr (tref_nullary_eq main_call0_cst_2 (by decide) rfl (constant (F := Ideal) S_ .f32 0x00000000#32)) (
  cons_congr (tref_binary_eq main_call0_v6 main_call0_cst_2 main_call0_v9 (by decide) rfl (by decide) rfl (by decide) rfl ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal))) (
  cons_congr (tref_unary_eq main_call0_v8 main_call0_v10 (by decide) rfl (by decide) rfl ((broadcastInDim S128 ![] bcast_S_S128) : (⟨S_, .f32⟩ : BufTy).Contents (Elt Ideal) → (⟨S128, .f32⟩ : BufTy).Contents (Elt Ideal))) (
  cons_congr (tref_binary_eq main_call0_v9 main_call0_v10 main_call0_v11 (by decide) rfl (by decide) rfl (by decide) rfl ((Host.divf (F := Ideal) (φ := .f32)) : (⟨S128, .f32⟩ : BufTy).Contents (Elt Ideal) → (⟨S128, .f32⟩ : BufTy).Contents (Elt Ideal) → (⟨S128, .f32⟩ : BufTy).Contents (Elt Ideal))) (
  cons_congr (tref_nullary_eq main_call0_cst_3 (by decide) rfl (constant (F := Ideal) S_ .f32 0x00000000#32)) (
  cons_congr (tref_binary_eq main_call0_v8 main_call0_cst_3 main_call0_v12 (by decide) rfl (by decide) rfl (by decide) rfl ((cmpf (F := Ideal) (φ := .f32) .ogt) : (⟨S_, .f32⟩ : BufTy).Contents (Elt Ideal) → (⟨S_, .f32⟩ : BufTy).Contents (Elt Ideal) → (⟨S_, .i1⟩ : BufTy).Contents (Elt Ideal))) (
  cons_congr (tref_nullary_eq main_call0_cst_4 (by decide) rfl (constant (F := Ideal) S_ .f32 0x7FC00000#32)) (
  cons_congr (tref_unary_eq main_call0_cst_4 main_call0_call0_v0 (by decide) rfl (by decide) rfl (id : (⟨S_, .f32⟩ : BufTy).Contents (Elt Ideal) → (⟨S_, .f32⟩ : BufTy).Contents (Elt Ideal))) (
  cons_congr (tref_unary_eq main_call0_call0_v0 main_call0_call0_v1 (by decide) rfl (by decide) rfl ((broadcastInDim S128 ![] bcast_S_S128) : (⟨S_, .f32⟩ : BufTy).Contents (Elt Ideal) → (⟨S128, .f32⟩ : BufTy).Contents (Elt Ideal))) (
  cons_congr (tref_ternary_eq main_call0_v12 main_call0_v11 main_call0_call0_v1 main_v24 (by decide) rfl (by decide) rfl (by decide) rfl (by decide) rfl ((fun p a b => select (broadcastInDim S128 ![] bcast_S_S128 p) a b) : (⟨S_, .i1⟩ : BufTy).Contents (Elt Ideal) → (⟨S128, .f32⟩ : BufTy).Contents (Elt Ideal) → (⟨S128, .f32⟩ : BufTy).Contents (Elt Ideal) → (⟨S128, .f32⟩ : BufTy).Contents (Elt Ideal))) (rfl)))))))))))))))))))))))

/-- The operations of `s5` as the program states them: the outlined functions' over typed references. -/
abbrev s5T : List (HloOp τ sig (Elt Ideal)) :=
  [ StableHlo.unary main_v23 main_v25 (broadcastInDim S1x128 ![1] bcast_S128_S1x128_1 : (⟨S128, .f32⟩ : BufTy).Contents (Elt Ideal) → (⟨S1x128, .f32⟩ : BufTy).Contents (Elt Ideal)),
    StableHlo.unary main_v25 main_v26 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v16 main_v26 main_v27 (subf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.nullary main_cst_4 (constant (F := Ideal) S_ .f32 0x3727C5AC#32),
    StableHlo.unary main_cst_4 main_v28 (broadcastInDim S128 ![] bcast_S_S128 : (⟨S_, .f32⟩ : BufTy).Contents (Elt Ideal) → (⟨S128, .f32⟩ : BufTy).Contents (Elt Ideal)),
    StableHlo.binary main_v24 main_v28 main_v29 (addf (F := Ideal) (φ := .f32) : (⟨S128, .f32⟩ : BufTy).Contents (Elt Ideal) → (⟨S128, .f32⟩ : BufTy).Contents (Elt Ideal) → (⟨S128, .f32⟩ : BufTy).Contents (Elt Ideal)),
    StableHlo.unary main_v29 main_v30 (Host.rsqrt (F := Ideal) (φ := .f32) : (⟨S128, .f32⟩ : BufTy).Contents (Elt Ideal) → (⟨S128, .f32⟩ : BufTy).Contents (Elt Ideal)),
    StableHlo.unary main_v30 main_v31 (broadcastInDim S1x128 ![1] bcast_S128_S1x128_1 : (⟨S128, .f32⟩ : BufTy).Contents (Elt Ideal) → (⟨S1x128, .f32⟩ : BufTy).Contents (Elt Ideal)),
    StableHlo.unary main_v31 main_v32 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v27 main_v32 main_v33 (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.unary main_v18 main_v34 (broadcastInDim S1x128 ![1] bcast_S128_S1x128_1 : (⟨S128, .f32⟩ : BufTy).Contents (Elt Ideal) → (⟨S1x128, .f32⟩ : BufTy).Contents (Elt Ideal)),
    StableHlo.unary main_v34 main_v35 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v33 main_v35 main_v36 (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.unary main_v20 main_v37 (broadcastInDim S1x128 ![1] bcast_S128_S1x128_1 : (⟨S128, .f32⟩ : BufTy).Contents (Elt Ideal) → (⟨S1x128, .f32⟩ : BufTy).Contents (Elt Ideal)),
    StableHlo.unary main_v37 main_v38 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v36 main_v38 main_v39 (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.TRef.nullary (TRef.of (T := ⟨S_, .f32⟩) main_call1_cst) (constant (F := Ideal) S_ .f32 0x00000000#32),
    StableHlo.TRef.unary (TRef.of (T := ⟨S_, .f32⟩) main_call1_cst) (TRef.of (T := ⟨S100000x128, .f32⟩) main_call1_v0) (broadcastInDim S100000x128 ![] bcast_S_S100000x128),
    StableHlo.TRef.binary (TRef.of (T := ⟨S100000x128, .f32⟩) main_v39) (TRef.of (T := ⟨S100000x128, .f32⟩) main_call1_v0) (TRef.of (T := ⟨S100000x128, .f32⟩) main_v40) (maximumf (F := Ideal) (φ := .f32)) ]

theorem s5T_eq : s5T = s5 :=
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (tref_nullary_eq main_call1_cst (by decide) rfl (constant (F := Ideal) S_ .f32 0x00000000#32)) (
  cons_congr (tref_unary_eq main_call1_cst main_call1_v0 (by decide) rfl (by decide) rfl ((broadcastInDim S100000x128 ![] bcast_S_S100000x128) : (⟨S_, .f32⟩ : BufTy).Contents (Elt Ideal) → (⟨S100000x128, .f32⟩ : BufTy).Contents (Elt Ideal))) (
  cons_congr (tref_binary_eq main_v39 main_call1_v0 main_v40 (by decide) rfl (by decide) rfl (by decide) rfl ((maximumf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal))) (rfl)))))))))))))))))))

/-- The operations of `s9` as the program states them: the outlined functions' over typed references. -/
abbrev s9T : List (HloOp τ sig (Elt Ideal)) :=
  [ StableHlo.nullary main_c_10 (constantI S_ 32 0#32),
    StableHlo.TRef.nullary (TRef.of (T := ⟨S_, .f32⟩) main_call2_cst) (constant (F := Ideal) S_ .f32 0x00000000#32),
    StableHlo.TRef.binary (TRef.of (T := ⟨S100000x128, .f32⟩) main_v53) (TRef.of (T := ⟨S_, .f32⟩) main_call2_cst) (TRef.of (T := ⟨S128, .f32⟩) main_call2_v0) (fun x v => Host.reduceAdd (F := Ideal) (φ := .f32) x v reducesTo_S100000x128_S128_d0 h_S_),
    StableHlo.TRef.unary (TRef.of (T := ⟨S128, .f32⟩) main_call2_v0) (TRef.of (T := ⟨S1x128, .f32⟩) main_call2_v1) (broadcastInDim S1x128 ![1] bcast_S128_S1x128_1),
    StableHlo.TRef.nullary (TRef.of (T := ⟨S_, .f32⟩) main_call2_cst_0) (constant (F := Ideal) S_ .f32 0x47C35000#32),
    StableHlo.TRef.unary (TRef.of (T := ⟨S_, .f32⟩) main_call2_cst_0) (TRef.of (T := ⟨S1x128, .f32⟩) main_call2_v2) (broadcastInDim S1x128 ![] bcast_S_S1x128),
    StableHlo.TRef.binary (TRef.of (T := ⟨S1x128, .f32⟩) main_call2_v1) (TRef.of (T := ⟨S1x128, .f32⟩) main_call2_v2) (TRef.of (T := ⟨S1x128, .f32⟩) main_call2_v3) (Host.divf (F := Ideal) (φ := .f32)),
    StableHlo.TRef.unary (TRef.of (T := ⟨S1x128, .f32⟩) main_call2_v3) (TRef.of (T := ⟨S100000x128, .f32⟩) main_call2_v4) (broadcastInDim S100000x128 ![0, 1] bcast_S1x128_S100000x128_0_1),
    StableHlo.TRef.binary (TRef.of (T := ⟨S100000x128, .f32⟩) main_v53) (TRef.of (T := ⟨S100000x128, .f32⟩) main_call2_v4) (TRef.of (T := ⟨S100000x128, .f32⟩) main_call2_v5) (subf (F := Ideal) (φ := .f32)),
    StableHlo.TRef.binary (TRef.of (T := ⟨S100000x128, .f32⟩) main_call2_v5) (TRef.of (T := ⟨S100000x128, .f32⟩) main_call2_v5) (TRef.of (T := ⟨S100000x128, .f32⟩) main_call2_v6) (mulf (F := Ideal) (φ := .f32)),
    StableHlo.TRef.unary (TRef.of (T := ⟨S_, .i32⟩) main_c_10) (TRef.of (T := ⟨S_, .f32⟩) main_call2_v7) (sitofp (F := Ideal) .f32),
    StableHlo.TRef.nullary (TRef.of (T := ⟨S_, .f32⟩) main_call2_cst_1) (constant (F := Ideal) S_ .f32 0x47C35000#32),
    StableHlo.TRef.binary (TRef.of (T := ⟨S_, .f32⟩) main_call2_cst_1) (TRef.of (T := ⟨S_, .f32⟩) main_call2_v7) (TRef.of (T := ⟨S_, .f32⟩) main_call2_v8) (subf (F := Ideal) (φ := .f32)),
    StableHlo.TRef.nullary (TRef.of (T := ⟨S_, .f32⟩) main_call2_cst_2) (constant (F := Ideal) S_ .f32 0x00000000#32),
    StableHlo.TRef.binary (TRef.of (T := ⟨S100000x128, .f32⟩) main_call2_v6) (TRef.of (T := ⟨S_, .f32⟩) main_call2_cst_2) (TRef.of (T := ⟨S128, .f32⟩) main_call2_v9) (fun x v => Host.reduceAdd (F := Ideal) (φ := .f32) x v reducesTo_S100000x128_S128_d0 h_S_),
    StableHlo.TRef.unary (TRef.of (T := ⟨S_, .f32⟩) main_call2_v8) (TRef.of (T := ⟨S128, .f32⟩) main_call2_v10) (broadcastInDim S128 ![] bcast_S_S128),
    StableHlo.TRef.binary (TRef.of (T := ⟨S128, .f32⟩) main_call2_v9) (TRef.of (T := ⟨S128, .f32⟩) main_call2_v10) (TRef.of (T := ⟨S128, .f32⟩) main_call2_v11) (Host.divf (F := Ideal) (φ := .f32)),
    StableHlo.TRef.nullary (TRef.of (T := ⟨S_, .f32⟩) main_call2_cst_3) (constant (F := Ideal) S_ .f32 0x00000000#32),
    StableHlo.TRef.binary (TRef.of (T := ⟨S_, .f32⟩) main_call2_v8) (TRef.of (T := ⟨S_, .f32⟩) main_call2_cst_3) (TRef.of (T := ⟨S_, .i1⟩) main_call2_v12) (cmpf (F := Ideal) (φ := .f32) .ogt),
    StableHlo.TRef.nullary (TRef.of (T := ⟨S_, .f32⟩) main_call2_cst_4) (constant (F := Ideal) S_ .f32 0x7FC00000#32),
    StableHlo.TRef.unary (TRef.of (T := ⟨S_, .f32⟩) main_call2_cst_4) (TRef.of (T := ⟨S_, .f32⟩) main_call2_call0_v0) id,
    StableHlo.TRef.unary (TRef.of (T := ⟨S_, .f32⟩) main_call2_call0_v0) (TRef.of (T := ⟨S128, .f32⟩) main_call2_call0_v1) (broadcastInDim S128 ![] bcast_S_S128),
    StableHlo.TRef.ternary (TRef.of (T := ⟨S_, .i1⟩) main_call2_v12) (TRef.of (T := ⟨S128, .f32⟩) main_call2_v11) (TRef.of (T := ⟨S128, .f32⟩) main_call2_call0_v1) (TRef.of (T := ⟨S128, .f32⟩) main_v61) (fun p a b => select (broadcastInDim S128 ![] bcast_S_S128 p) a b) ]

theorem s9T_eq : s9T = s9 :=
  cons_congr (rfl) (
  cons_congr (tref_nullary_eq main_call2_cst (by decide) rfl (constant (F := Ideal) S_ .f32 0x00000000#32)) (
  cons_congr (tref_binary_eq main_v53 main_call2_cst main_call2_v0 (by decide) rfl (by decide) rfl (by decide) rfl ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal))) (
  cons_congr (tref_unary_eq main_call2_v0 main_call2_v1 (by decide) rfl (by decide) rfl ((broadcastInDim S1x128 ![1] bcast_S128_S1x128_1) : (⟨S128, .f32⟩ : BufTy).Contents (Elt Ideal) → (⟨S1x128, .f32⟩ : BufTy).Contents (Elt Ideal))) (
  cons_congr (tref_nullary_eq main_call2_cst_0 (by decide) rfl (constant (F := Ideal) S_ .f32 0x47C35000#32)) (
  cons_congr (tref_unary_eq main_call2_cst_0 main_call2_v2 (by decide) rfl (by decide) rfl ((broadcastInDim S1x128 ![] bcast_S_S1x128) : (⟨S_, .f32⟩ : BufTy).Contents (Elt Ideal) → (⟨S1x128, .f32⟩ : BufTy).Contents (Elt Ideal))) (
  cons_congr (tref_binary_eq main_call2_v1 main_call2_v2 main_call2_v3 (by decide) rfl (by decide) rfl (by decide) rfl ((Host.divf (F := Ideal) (φ := .f32)) : (⟨S1x128, .f32⟩ : BufTy).Contents (Elt Ideal) → (⟨S1x128, .f32⟩ : BufTy).Contents (Elt Ideal) → (⟨S1x128, .f32⟩ : BufTy).Contents (Elt Ideal))) (
  cons_congr (tref_unary_eq main_call2_v3 main_call2_v4 (by decide) rfl (by decide) rfl ((broadcastInDim S100000x128 ![0, 1] bcast_S1x128_S100000x128_0_1) : (⟨S1x128, .f32⟩ : BufTy).Contents (Elt Ideal) → (⟨S100000x128, .f32⟩ : BufTy).Contents (Elt Ideal))) (
  cons_congr (tref_binary_eq main_v53 main_call2_v4 main_call2_v5 (by decide) rfl (by decide) rfl (by decide) rfl ((subf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal))) (
  cons_congr (tref_binary_eq main_call2_v5 main_call2_v5 main_call2_v6 (by decide) rfl (by decide) rfl (by decide) rfl ((mulf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal))) (
  cons_congr (tref_unary_eq main_c_10 main_call2_v7 (by decide) rfl (by decide) rfl ((sitofp (F := Ideal) .f32) : (⟨S_, .i32⟩ : BufTy).Contents (Elt Ideal) → (⟨S_, .f32⟩ : BufTy).Contents (Elt Ideal))) (
  cons_congr (tref_nullary_eq main_call2_cst_1 (by decide) rfl (constant (F := Ideal) S_ .f32 0x47C35000#32)) (
  cons_congr (tref_binary_eq main_call2_cst_1 main_call2_v7 main_call2_v8 (by decide) rfl (by decide) rfl (by decide) rfl ((subf (F := Ideal) (φ := .f32)) : (⟨S_, .f32⟩ : BufTy).Contents (Elt Ideal) → (⟨S_, .f32⟩ : BufTy).Contents (Elt Ideal) → (⟨S_, .f32⟩ : BufTy).Contents (Elt Ideal))) (
  cons_congr (tref_nullary_eq main_call2_cst_2 (by decide) rfl (constant (F := Ideal) S_ .f32 0x00000000#32)) (
  cons_congr (tref_binary_eq main_call2_v6 main_call2_cst_2 main_call2_v9 (by decide) rfl (by decide) rfl (by decide) rfl ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal))) (
  cons_congr (tref_unary_eq main_call2_v8 main_call2_v10 (by decide) rfl (by decide) rfl ((broadcastInDim S128 ![] bcast_S_S128) : (⟨S_, .f32⟩ : BufTy).Contents (Elt Ideal) → (⟨S128, .f32⟩ : BufTy).Contents (Elt Ideal))) (
  cons_congr (tref_binary_eq main_call2_v9 main_call2_v10 main_call2_v11 (by decide) rfl (by decide) rfl (by decide) rfl ((Host.divf (F := Ideal) (φ := .f32)) : (⟨S128, .f32⟩ : BufTy).Contents (Elt Ideal) → (⟨S128, .f32⟩ : BufTy).Contents (Elt Ideal) → (⟨S128, .f32⟩ : BufTy).Contents (Elt Ideal))) (
  cons_congr (tref_nullary_eq main_call2_cst_3 (by decide) rfl (constant (F := Ideal) S_ .f32 0x00000000#32)) (
  cons_congr (tref_binary_eq main_call2_v8 main_call2_cst_3 main_call2_v12 (by decide) rfl (by decide) rfl (by decide) rfl ((cmpf (F := Ideal) (φ := .f32) .ogt) : (⟨S_, .f32⟩ : BufTy).Contents (Elt Ideal) → (⟨S_, .f32⟩ : BufTy).Contents (Elt Ideal) → (⟨S_, .i1⟩ : BufTy).Contents (Elt Ideal))) (
  cons_congr (tref_nullary_eq main_call2_cst_4 (by decide) rfl (constant (F := Ideal) S_ .f32 0x7FC00000#32)) (
  cons_congr (tref_unary_eq main_call2_cst_4 main_call2_call0_v0 (by decide) rfl (by decide) rfl (id : (⟨S_, .f32⟩ : BufTy).Contents (Elt Ideal) → (⟨S_, .f32⟩ : BufTy).Contents (Elt Ideal))) (
  cons_congr (tref_unary_eq main_call2_call0_v0 main_call2_call0_v1 (by decide) rfl (by decide) rfl ((broadcastInDim S128 ![] bcast_S_S128) : (⟨S_, .f32⟩ : BufTy).Contents (Elt Ideal) → (⟨S128, .f32⟩ : BufTy).Contents (Elt Ideal))) (
  cons_congr (tref_ternary_eq main_call2_v12 main_call2_v11 main_call2_call0_v1 main_v61 (by decide) rfl (by decide) rfl (by decide) rfl (by decide) rfl ((fun p a b => select (broadcastInDim S128 ![] bcast_S_S128 p) a b) : (⟨S_, .i1⟩ : BufTy).Contents (Elt Ideal) → (⟨S128, .f32⟩ : BufTy).Contents (Elt Ideal) → (⟨S128, .f32⟩ : BufTy).Contents (Elt Ideal) → (⟨S128, .f32⟩ : BufTy).Contents (Elt Ideal))) (rfl)))))))))))))))))))))))

/-- The operations of `s10` as the program states them: the outlined functions' over typed references. -/
abbrev s10T : List (HloOp τ sig (Elt Ideal)) :=
  [ StableHlo.unary main_v60 main_v62 (broadcastInDim S1x128 ![1] bcast_S128_S1x128_1 : (⟨S128, .f32⟩ : BufTy).Contents (Elt Ideal) → (⟨S1x128, .f32⟩ : BufTy).Contents (Elt Ideal)),
    StableHlo.unary main_v62 main_v63 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v53 main_v63 main_v64 (subf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.nullary main_cst_11 (constant (F := Ideal) S_ .f32 0x3727C5AC#32),
    StableHlo.unary main_cst_11 main_v65 (broadcastInDim S128 ![] bcast_S_S128 : (⟨S_, .f32⟩ : BufTy).Contents (Elt Ideal) → (⟨S128, .f32⟩ : BufTy).Contents (Elt Ideal)),
    StableHlo.binary main_v61 main_v65 main_v66 (addf (F := Ideal) (φ := .f32) : (⟨S128, .f32⟩ : BufTy).Contents (Elt Ideal) → (⟨S128, .f32⟩ : BufTy).Contents (Elt Ideal) → (⟨S128, .f32⟩ : BufTy).Contents (Elt Ideal)),
    StableHlo.unary main_v66 main_v67 (Host.rsqrt (F := Ideal) (φ := .f32) : (⟨S128, .f32⟩ : BufTy).Contents (Elt Ideal) → (⟨S128, .f32⟩ : BufTy).Contents (Elt Ideal)),
    StableHlo.unary main_v67 main_v68 (broadcastInDim S1x128 ![1] bcast_S128_S1x128_1 : (⟨S128, .f32⟩ : BufTy).Contents (Elt Ideal) → (⟨S1x128, .f32⟩ : BufTy).Contents (Elt Ideal)),
    StableHlo.unary main_v68 main_v69 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v64 main_v69 main_v70 (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.unary main_v55 main_v71 (broadcastInDim S1x128 ![1] bcast_S128_S1x128_1 : (⟨S128, .f32⟩ : BufTy).Contents (Elt Ideal) → (⟨S1x128, .f32⟩ : BufTy).Contents (Elt Ideal)),
    StableHlo.unary main_v71 main_v72 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v70 main_v72 main_v73 (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.unary main_v57 main_v74 (broadcastInDim S1x128 ![1] bcast_S128_S1x128_1 : (⟨S128, .f32⟩ : BufTy).Contents (Elt Ideal) → (⟨S1x128, .f32⟩ : BufTy).Contents (Elt Ideal)),
    StableHlo.unary main_v74 main_v75 (broadcastInDim S100000x128 ![0, 1] bcast_S1x128_S100000x128_0_1 : (⟨S1x128, .f32⟩ : BufTy).Contents (Elt Ideal) → (⟨S100000x128, .f32⟩ : BufTy).Contents (Elt Ideal)),
    StableHlo.binary main_v73 main_v75 main_v76 (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)),
    StableHlo.TRef.nullary (TRef.of (T := ⟨S_, .f32⟩) main_call3_cst) (constant (F := Ideal) S_ .f32 0x00000000#32),
    StableHlo.TRef.unary (TRef.of (T := ⟨S_, .f32⟩) main_call3_cst) (TRef.of (T := ⟨S100000x128, .f32⟩) main_call3_v0) (broadcastInDim S100000x128 ![] bcast_S_S100000x128),
    StableHlo.TRef.binary (TRef.of (T := ⟨S100000x128, .f32⟩) main_v76) (TRef.of (T := ⟨S100000x128, .f32⟩) main_call3_v0) (TRef.of (T := ⟨S100000x128, .f32⟩) main_v77) (maximumf (F := Ideal) (φ := .f32)) ]

theorem s10T_eq : s10T = s10 :=
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (tref_nullary_eq main_call3_cst (by decide) rfl (constant (F := Ideal) S_ .f32 0x00000000#32)) (
  cons_congr (tref_unary_eq main_call3_cst main_call3_v0 (by decide) rfl (by decide) rfl ((broadcastInDim S100000x128 ![] bcast_S_S100000x128) : (⟨S_, .f32⟩ : BufTy).Contents (Elt Ideal) → (⟨S100000x128, .f32⟩ : BufTy).Contents (Elt Ideal))) (
  cons_congr (tref_binary_eq main_v76 main_call3_v0 main_v77 (by decide) rfl (by decide) rfl (by decide) rfl ((maximumf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal))) (rfl)))))))))))))))))))

/-- The operations of `s12` as the program states them: the outlined functions' over typed references. -/
abbrev s12T : List (HloOp τ sig (Elt Ideal)) :=
  [ StableHlo.TRef.nullary (TRef.of (T := ⟨S_, .f32⟩) main_call4_cst) (constant (F := Ideal) S_ .f32 0xFF800000#32),
    StableHlo.TRef.binary (TRef.of (T := ⟨S100000x128, .f32⟩) main_v90) (TRef.of (T := ⟨S_, .f32⟩) main_call4_cst) (TRef.of (T := ⟨S100000, .f32⟩) main_call4_v0) (fun x v => Host.reduce (FloatOps.maximumf (F := Ideal) (φ := .f32)) x v reducesTo_S100000x128_S100000_d1 h_S_),
    StableHlo.TRef.nullary (TRef.of (T := ⟨S_, .f32⟩) main_call4_cst_0) (constant (F := Ideal) S_ .f32 0xFF800000#32),
    StableHlo.TRef.unary (TRef.of (T := ⟨S_, .f32⟩) main_call4_cst_0) (TRef.of (T := ⟨S100000, .f32⟩) main_call4_v1) (broadcastInDim S100000 ![] bcast_S_S100000),
    StableHlo.TRef.binary (TRef.of (T := ⟨S100000, .f32⟩) main_call4_v1) (TRef.of (T := ⟨S100000, .f32⟩) main_call4_v0) (TRef.of (T := ⟨S100000, .f32⟩) main_call4_v2) (maximumf (F := Ideal) (φ := .f32)),
    StableHlo.TRef.unary (TRef.of (T := ⟨S100000, .f32⟩) main_call4_v2) (TRef.of (T := ⟨S100000x1, .f32⟩) main_call4_v3) (broadcastInDim S100000x1 ![0] bcast_S100000_S100000x1_0),
    StableHlo.TRef.unary (TRef.of (T := ⟨S100000x1, .f32⟩) main_call4_v3) (TRef.of (T := ⟨S100000x128, .f32⟩) main_call4_v4) (broadcastInDim S100000x128 ![0, 1] bcast_S100000x1_S100000x128_0_1),
    StableHlo.TRef.binary (TRef.of (T := ⟨S100000x128, .f32⟩) main_v90) (TRef.of (T := ⟨S100000x128, .f32⟩) main_call4_v4) (TRef.of (T := ⟨S100000x128, .f32⟩) main_call4_v5) (subf (F := Ideal) (φ := .f32)),
    StableHlo.TRef.unary (TRef.of (T := ⟨S100000x128, .f32⟩) main_call4_v5) (TRef.of (T := ⟨S100000x128, .f32⟩) main_call4_v6) (Host.exp (F := Ideal) (φ := .f32)),
    StableHlo.TRef.nullary (TRef.of (T := ⟨S_, .f32⟩) main_call4_cst_1) (constant (F := Ideal) S_ .f32 0x00000000#32),
    StableHlo.TRef.binary (TRef.of (T := ⟨S100000x128, .f32⟩) main_call4_v6) (TRef.of (T := ⟨S_, .f32⟩) main_call4_cst_1) (TRef.of (T := ⟨S100000, .f32⟩) main_call4_v7) (fun x v => Host.reduceAdd (F := Ideal) (φ := .f32) x v reducesTo_S100000x128_S100000_d1 h_S_),
    StableHlo.TRef.unary (TRef.of (T := ⟨S100000, .f32⟩) main_call4_v7) (TRef.of (T := ⟨S100000x1, .f32⟩) main_call4_v8) (broadcastInDim S100000x1 ![0] bcast_S100000_S100000x1_0),
    StableHlo.TRef.unary (TRef.of (T := ⟨S100000x1, .f32⟩) main_call4_v8) (TRef.of (T := ⟨S100000x1, .f32⟩) main_call4_v9) (Host.log (F := Ideal) (φ := .f32)),
    StableHlo.TRef.unary (TRef.of (T := ⟨S100000x1, .f32⟩) main_call4_v9) (TRef.of (T := ⟨S100000x128, .f32⟩) main_call4_v10) (broadcastInDim S100000x128 ![0, 1] bcast_S100000x1_S100000x128_0_1),
    StableHlo.TRef.binary (TRef.of (T := ⟨S100000x128, .f32⟩) main_call4_v5) (TRef.of (T := ⟨S100000x128, .f32⟩) main_call4_v10) (TRef.of (T := ⟨S100000x128, .f32⟩) main_v91) (subf (F := Ideal) (φ := .f32)) ]

theorem s12T_eq : s12T = s12 :=
  cons_congr (tref_nullary_eq main_call4_cst (by decide) rfl (constant (F := Ideal) S_ .f32 0xFF800000#32)) (
  cons_congr (tref_binary_eq main_v90 main_call4_cst main_call4_v0 (by decide) rfl (by decide) rfl (by decide) rfl ((fun x v => Host.reduce (FloatOps.maximumf (F := Ideal) (φ := .f32)) x v reducesTo_S100000x128_S100000_d1 h_S_) : (⟨S100000x128, .f32⟩ : BufTy).Contents (Elt Ideal) → (⟨S_, .f32⟩ : BufTy).Contents (Elt Ideal) → (⟨S100000, .f32⟩ : BufTy).Contents (Elt Ideal))) (
  cons_congr (tref_nullary_eq main_call4_cst_0 (by decide) rfl (constant (F := Ideal) S_ .f32 0xFF800000#32)) (
  cons_congr (tref_unary_eq main_call4_cst_0 main_call4_v1 (by decide) rfl (by decide) rfl ((broadcastInDim S100000 ![] bcast_S_S100000) : (⟨S_, .f32⟩ : BufTy).Contents (Elt Ideal) → (⟨S100000, .f32⟩ : BufTy).Contents (Elt Ideal))) (
  cons_congr (tref_binary_eq main_call4_v1 main_call4_v0 main_call4_v2 (by decide) rfl (by decide) rfl (by decide) rfl ((maximumf (F := Ideal) (φ := .f32)) : (⟨S100000, .f32⟩ : BufTy).Contents (Elt Ideal) → (⟨S100000, .f32⟩ : BufTy).Contents (Elt Ideal) → (⟨S100000, .f32⟩ : BufTy).Contents (Elt Ideal))) (
  cons_congr (tref_unary_eq main_call4_v2 main_call4_v3 (by decide) rfl (by decide) rfl ((broadcastInDim S100000x1 ![0] bcast_S100000_S100000x1_0) : (⟨S100000, .f32⟩ : BufTy).Contents (Elt Ideal) → (⟨S100000x1, .f32⟩ : BufTy).Contents (Elt Ideal))) (
  cons_congr (tref_unary_eq main_call4_v3 main_call4_v4 (by decide) rfl (by decide) rfl ((broadcastInDim S100000x128 ![0, 1] bcast_S100000x1_S100000x128_0_1) : (⟨S100000x1, .f32⟩ : BufTy).Contents (Elt Ideal) → (⟨S100000x128, .f32⟩ : BufTy).Contents (Elt Ideal))) (
  cons_congr (tref_binary_eq main_v90 main_call4_v4 main_call4_v5 (by decide) rfl (by decide) rfl (by decide) rfl ((subf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal))) (
  cons_congr (tref_unary_eq main_call4_v5 main_call4_v6 (by decide) rfl (by decide) rfl ((Host.exp (F := Ideal) (φ := .f32)) : (⟨S100000x128, .f32⟩ : BufTy).Contents (Elt Ideal) → (⟨S100000x128, .f32⟩ : BufTy).Contents (Elt Ideal))) (
  cons_congr (tref_nullary_eq main_call4_cst_1 (by decide) rfl (constant (F := Ideal) S_ .f32 0x00000000#32)) (
  cons_congr (tref_binary_eq main_call4_v6 main_call4_cst_1 main_call4_v7 (by decide) rfl (by decide) rfl (by decide) rfl ((fun x v => Host.reduceAdd (F := Ideal) (φ := .f32) x v reducesTo_S100000x128_S100000_d1 h_S_) : (⟨S100000x128, .f32⟩ : BufTy).Contents (Elt Ideal) → (⟨S_, .f32⟩ : BufTy).Contents (Elt Ideal) → (⟨S100000, .f32⟩ : BufTy).Contents (Elt Ideal))) (
  cons_congr (tref_unary_eq main_call4_v7 main_call4_v8 (by decide) rfl (by decide) rfl ((broadcastInDim S100000x1 ![0] bcast_S100000_S100000x1_0) : (⟨S100000, .f32⟩ : BufTy).Contents (Elt Ideal) → (⟨S100000x1, .f32⟩ : BufTy).Contents (Elt Ideal))) (
  cons_congr (tref_unary_eq main_call4_v8 main_call4_v9 (by decide) rfl (by decide) rfl ((Host.log (F := Ideal) (φ := .f32)) : (⟨S100000x1, .f32⟩ : BufTy).Contents (Elt Ideal) → (⟨S100000x1, .f32⟩ : BufTy).Contents (Elt Ideal))) (
  cons_congr (tref_unary_eq main_call4_v9 main_call4_v10 (by decide) rfl (by decide) rfl ((broadcastInDim S100000x128 ![0, 1] bcast_S100000x1_S100000x128_0_1) : (⟨S100000x1, .f32⟩ : BufTy).Contents (Elt Ideal) → (⟨S100000x128, .f32⟩ : BufTy).Contents (Elt Ideal))) (
  cons_congr (tref_binary_eq main_call4_v5 main_call4_v10 main_v91 (by decide) rfl (by decide) rfl (by decide) rfl ((subf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal))) (rfl)))))))))))))))

/-- The first window's operations as the program states them. -/
abbrev opsTP0 : List (HloOp τ sig (Elt Ideal)) := s1 ++ (s2 ++ (s3 ++ (s4T ++ (s5T ++ (s6)))))
/-- The second window's, likewise. -/
abbrev opsTP1 : List (HloOp τ sig (Elt Ideal)) := s7 ++ (s8 ++ (s9T ++ (s10T ++ (s11 ++ (s12T)))))
theorem opsTP0_eq : opsTP0 = opsP0 := by
  unfold opsTP0 opsP0
  rw [s4T_eq, s5T_eq]
theorem opsTP1_eq : opsTP1 = opsP1 := by
  unfold opsTP1 opsP1
  rw [s9T_eq, s10T_eq, s12T_eq]

theorem ops_sub : (ops : List (HloOp τ sig (Elt Ideal))).Forall fun op => op.bufs ⊆ tcRefs τ sig :=
  forall_app (forall_app s1_sub (forall_app s2_sub (forall_app s3_sub (forall_app s4_sub (forall_app s5_sub (s6_sub)))))) (forall_app s7_sub (forall_app s8_sub (forall_app s9_sub (forall_app s10_sub (forall_app s11_sub (s12_sub))))))
theorem ops_fresh : (ops : List (HloOp τ sig (Elt Ideal))).Forall fun op => op.fresh = ∅ :=
  forall_app (forall_app s1_fresh (forall_app s2_fresh (forall_app s3_fresh (forall_app s4_fresh (forall_app s5_fresh (s6_fresh)))))) (forall_app s7_fresh (forall_app s8_fresh (forall_app s9_fresh (forall_app s10_fresh (forall_app s11_fresh (s12_fresh))))))

end Cert.ReferenceIdeal.HandRun

end
-- ==== Proof.Ref.RunEq.lean ====
/- The program is the straight line of its operations: each of its two windows is the run of its half of the list (the
   outlined functions' bodies unfold at their calls), and the whole program the two in turn. -/
import proofs.«131019_j5282809775007_1_alg».proof.Proof.Ref.RunOps

noncomputable section

namespace Cert.ReferenceIdeal.HandRun

open Cert.ReferenceIdeal Cert.ReferenceIdeal.Gen Idealize.ShloMosaic Idealize.SL.Sem Idealize.ShloMosaic.TcCoe Idealize.ShloMosaic.StableHlo

set_option Elab.async false

set_option maxRecDepth 16384 in
set_option maxHeartbeats 4000000 in
/-- The first window is the run of its operations as the program states them. -/
theorem main_part0_eqT (c : Dev nD) : main_part0 (F := Ideal) c = seq opsTP0 := rfl

set_option maxRecDepth 16384 in
set_option maxHeartbeats 4000000 in
/-- The second window, likewise. -/
theorem main_part1_eqT (c : Dev nD) : main_part1 (F := Ideal) c = seq opsTP1 := rfl

theorem main_part0_eq (c : Dev nD) : main_part0 (F := Ideal) c = seq opsP0 := by
  rw [← opsTP0_eq]; exact main_part0_eqT c

theorem main_part1_eq (c : Dev nD) : main_part1 (F := Ideal) c = seq opsP1 := by
  rw [← opsTP1_eq]; exact main_part1_eqT c

theorem main_eq (c : Dev nD) : main (F := Ideal) c = seq ops := by
  show (main_part0 (F := Ideal) c >>= fun _ => main_part1 (F := Ideal) c) = seq (opsP0 ++ opsP1)
  rw [seq_append, main_part0_eq c, main_part1_eq c]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.HandRun

end
-- ==== Proof.Ref.Stages.lean ====
/- The three-layer graph convolution as pure functions of its five argument arrays, at the ideal instance
   (floats are extended reals): each definition is the literal composition of the program's operations for
   one stage — the edge indices, a weight slice, the sum aggregation over edges, the column mean and
   variance, batch normalisation with the rectifier, the row-wise log-softmax — and `out` their
   composition over the three layers. -/
import proofs.«131019_j5282809775007_1_alg».proof.Proof.Gen.ReferenceIdeal
import Idealize.ShloMosaic.PureOps.Ideal

noncomputable section

namespace Cert.ReferenceIdeal.HandRun

open Cert.ReferenceIdeal Cert.ReferenceIdeal.Gen Idealize.ShloMosaic Idealize.SL.Sem

/-- Row 0 of the edge table, as a vector of 1600000 node indices (the edges' sources). -/
def srcVec (ei : IVec S2x1600000 32) : IVec S1600000 32 :=
  shapeCast S1600000 (extractStridedSlice S1x1600000 ![0, 0] (ei) slices_S2x1600000_S1x1600000_0_0) shapeCasts_S1x1600000_S1600000

/-- Row 1 of the edge table, as a vector of 1600000 node indices (the edges' destinations). -/
def dstVec (ei : IVec S2x1600000 32) : IVec S1600000 32 :=
  shapeCast S1600000 (extractStridedSlice S1x1600000 ![1, 0] (ei) slices_S2x1600000_S1x1600000_1_0) shapeCasts_S1x1600000_S1600000

/-- A vector of indices with each negative one raised by 100000 (an index counted from the end), as a column. -/
def wrapCol (s : IVec S1600000 32) : IVec S1600000x1 32 :=
  broadcastInDim S1600000x1 ![0] bcast_S1600000_S1600000x1_0 (select (cmpi .slt (s) (broadcastInDim S1600000 ![] bcast_S_S1600000 (constantI S_ 32 0#32))) (addi (s) (broadcastInDim S1600000 ![] bcast_S_S1600000 (constantI S_ 32 100000#32))) (s))

/-- The edges' sources, negative indices wrapped, as a column of start indices for the gather. -/
def srcCol (ei : IVec S2x1600000 32) : IVec S1600000x1 32 :=
  wrapCol (srcVec ei)

/-- The edges' destinations as a column of scatter indices. -/
def dstCol (ei : IVec S2x1600000 32) : IVec S1600000x1 32 :=
  broadcastInDim S1600000x1 ![0] bcast_S1600000_S1600000x1_0 (dstVec ei)

/-- Slice 0 of the weights, as a 128 × 128 matrix. -/
def weight0 (Ws : FVec Ideal S3x128x128 .f32) : FVec Ideal S128x128 .f32 :=
  shapeCast S128x128 (extractStridedSlice S1x128x128 ![0, 0, 0] (Ws) slices_S3x128x128_S1x128x128_0_0_0) shapeCasts_S1x128x128_S128x128

/-- Slice 1 of the weights, as a 128 × 128 matrix. -/
def weight1 (Ws : FVec Ideal S3x128x128 .f32) : FVec Ideal S128x128 .f32 :=
  shapeCast S128x128 (extractStridedSlice S1x128x128 ![1, 0, 0] (Ws) slices_S3x128x128_S1x128x128_1_0_0) shapeCasts_S1x128x128_S128x128

/-- Slice 2 of the weights, as a 128 × 128 matrix. -/
def weight2 (Ws : FVec Ideal S3x128x128 .f32) : FVec Ideal S128x128 .f32 :=
  shapeCast S128x128 (extractStridedSlice S1x128x128 ![2, 0, 0] (Ws) slices_S3x128x128_S1x128x128_2_0_0) shapeCasts_S1x128x128_S128x128

/-- The 100000 × 128 array of zeros the aggregation accumulates into. -/
def zeros : FVec Ideal S100000x128 .f32 :=
  broadcastInDim S100000x128 ![] bcast_S_S100000x128 (constant (F := Ideal) S_ .f32 0x00000000#32)

/-- Sum aggregation over the edges: row `dst e` of the result is the sum, over the edges `e` into it, of row `src e` of `h` (a gather of the source rows, scatter-added at the destinations into zeros). -/
def agg (h : FVec Ideal S100000x128 .f32) (ei : IVec S2x1600000 32) : FVec Ideal S100000x128 .f32 :=
  Host.scatterAdd (F := Ideal) (φ := .f32) scatter_S100000x128_S1600000x1_S1600000x128_1_0_0_1 (zeros) (dstCol ei) (Host.gather gather_S100000x128_S1600000x1_S1600000x128_1_0_n_n_0_1_1128 (h) (srcCol ei))

/-- One graph-convolution layer without normalisation or bias: the features times the weight matrix, then summed over incoming edges. -/
def layerLin (x : FVec Ideal S100000x128 .f32) (W : FVec Ideal S128x128 .f32) (ei : IVec S2x1600000 32) : FVec Ideal S100000x128 .f32 :=
  agg (Host.dotGeneral (F := Ideal) (φ₁ := .f32) (φ₂ := .f32) dot_S100000x128_S128x128_S100000x128_1_0_0_1_n_n none (x) (W)) ei

/-- The mean of each of the 128 columns over the 100000 rows: the column sums divided by 100000. -/
def colMean (a : FVec Ideal S100000x128 .f32) : FVec Ideal S128 .f32 :=
  Host.divf (F := Ideal) (φ := .f32) (Host.reduceAdd (F := Ideal) (φ := .f32) (a) (constant (F := Ideal) S_ .f32 0x00000000#32) reducesTo_S100000x128_S128_d0 h_S_) (broadcastInDim S128 ![] bcast_S_S128 (constant (F := Ideal) S_ .f32 0x47C35000#32))

/-- Each entry minus its column's mean (the mean taken as a 1 × 128 row: the column sum divided by 100000, broadcast down the rows). -/
def varCentered (a : FVec Ideal S100000x128 .f32) : FVec Ideal S100000x128 .f32 :=
  subf (F := Ideal) (φ := .f32) (a) (broadcastInDim S100000x128 ![0, 1] bcast_S1x128_S100000x128_0_1 (Host.divf (F := Ideal) (φ := .f32) (broadcastInDim S1x128 ![1] bcast_S128_S1x128_1 (Host.reduceAdd (F := Ideal) (φ := .f32) (a) (constant (F := Ideal) S_ .f32 0x00000000#32) reducesTo_S100000x128_S128_d0 h_S_)) (broadcastInDim S1x128 ![] bcast_S_S1x128 (constant (F := Ideal) S_ .f32 0x47C35000#32))))

/-- The biased variance of each column: the column sums of the squared centred entries divided by 100000 − 0, kept where 100000 − 0 > 0 and NaN elsewhere (the variance function's guard on the degrees of freedom, as it is written). -/
def colVar (a : FVec Ideal S100000x128 .f32) : FVec Ideal S128 .f32 :=
  select (broadcastInDim S128 ![] bcast_S_S128 (cmpf (F := Ideal) (φ := .f32) .ogt (subf (F := Ideal) (φ := .f32) (constant (F := Ideal) S_ .f32 0x47C35000#32) (sitofp (F := Ideal) .f32 (constantI S_ 32 0#32))) (constant (F := Ideal) S_ .f32 0x00000000#32))) (Host.divf (F := Ideal) (φ := .f32) (Host.reduceAdd (F := Ideal) (φ := .f32) (mulf (F := Ideal) (φ := .f32) (varCentered a) (varCentered a)) (constant (F := Ideal) S_ .f32 0x00000000#32) reducesTo_S100000x128_S128_d0 h_S_) (broadcastInDim S128 ![] bcast_S_S128 (subf (F := Ideal) (φ := .f32) (constant (F := Ideal) S_ .f32 0x47C35000#32) (sitofp (F := Ideal) .f32 (constantI S_ 32 0#32))))) (broadcastInDim S128 ![] bcast_S_S128 (id (constant (F := Ideal) S_ .f32 0x7FC00000#32)))

/-- Row 0 of the scales. -/
def gammaRow0 (gammas : FVec Ideal S2x128 .f32) : FVec Ideal S128 .f32 :=
  shapeCast S128 (extractStridedSlice S1x128 ![0, 0] (gammas) slices_S2x128_S1x128_0_0) shapeCasts_S1x128_S128

/-- Row 0 of the shifts. -/
def betaRow0 (betas : FVec Ideal S2x128 .f32) : FVec Ideal S128 .f32 :=
  shapeCast S128 (extractStridedSlice S1x128 ![0, 0] (betas) slices_S2x128_S1x128_0_0) shapeCasts_S1x128_S128

/-- Row 1 of the scales. -/
def gammaRow1 (gammas : FVec Ideal S2x128 .f32) : FVec Ideal S128 .f32 :=
  shapeCast S128 (extractStridedSlice S1x128 ![1, 0] (gammas) slices_S2x128_S1x128_1_0) shapeCasts_S1x128_S128

/-- Row 1 of the shifts. -/
def betaRow1 (betas : FVec Ideal S2x128 .f32) : FVec Ideal S128 .f32 :=
  shapeCast S128 (extractStridedSlice S1x128 ![1, 0] (betas) slices_S2x128_S1x128_1_0) shapeCasts_S1x128_S128

/-- Batch normalisation over the rows followed by the rectifier: `max ((a − mean) · rsqrt (var + ε) · g + b) 0`, the column statistics, scale and shift broadcast down the rows, ε the constant 0x3727C5AC. -/
def bnRelu (a : FVec Ideal S100000x128 .f32) (g : FVec Ideal S128 .f32) (b : FVec Ideal S128 .f32) : FVec Ideal S100000x128 .f32 :=
  maximumf (F := Ideal) (φ := .f32) (addf (F := Ideal) (φ := .f32) (mulf (F := Ideal) (φ := .f32) (mulf (F := Ideal) (φ := .f32) (subf (F := Ideal) (φ := .f32) (a) (broadcastInDim S100000x128 ![0, 1] bcast_S1x128_S100000x128_0_1 (broadcastInDim S1x128 ![1] bcast_S128_S1x128_1 (colMean a)))) (broadcastInDim S100000x128 ![0, 1] bcast_S1x128_S100000x128_0_1 (broadcastInDim S1x128 ![1] bcast_S128_S1x128_1 (Host.rsqrt (F := Ideal) (φ := .f32) (addf (F := Ideal) (φ := .f32) (colVar a) (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 (g)))) (broadcastInDim S100000x128 ![0, 1] bcast_S1x128_S100000x128_0_1 (broadcastInDim S1x128 ![1] bcast_S128_S1x128_1 (b)))) (broadcastInDim S100000x128 ![] bcast_S_S100000x128 (constant (F := Ideal) S_ .f32 0x00000000#32))

/-- Each entry minus its row's maximum (the maximum of −∞ and the row's entries). -/
def lsShifted (a : FVec Ideal S100000x128 .f32) : FVec Ideal S100000x128 .f32 :=
  subf (F := Ideal) (φ := .f32) (a) (broadcastInDim S100000x128 ![0, 1] bcast_S100000x1_S100000x128_0_1 (broadcastInDim S100000x1 ![0] bcast_S100000_S100000x1_0 (maximumf (F := Ideal) (φ := .f32) (broadcastInDim S100000 ![] bcast_S_S100000 (constant (F := Ideal) S_ .f32 0xFF800000#32)) (Host.reduce (FloatOps.maximumf (F := Ideal) (φ := .f32)) (a) (constant (F := Ideal) S_ .f32 0xFF800000#32) reducesTo_S100000x128_S100000_d1 h_S_))))

/-- The logarithm of the softmax along each row: the shifted entries minus the logarithm of the row sum of their exponentials. -/
def logSoftmax (a : FVec Ideal S100000x128 .f32) : FVec Ideal S100000x128 .f32 :=
  subf (F := Ideal) (φ := .f32) (lsShifted a) (broadcastInDim S100000x128 ![0, 1] bcast_S100000x1_S100000x128_0_1 (Host.log (F := Ideal) (φ := .f32) (broadcastInDim S100000x1 ![0] bcast_S100000_S100000x1_0 (Host.reduceAdd (F := Ideal) (φ := .f32) (Host.exp (F := Ideal) (φ := .f32) (lsShifted a)) (constant (F := Ideal) S_ .f32 0x00000000#32) reducesTo_S100000x128_S100000_d1 h_S_))))

/-- Layer 0's aggregated linear map of the input features. -/
def h1 (x : FVec Ideal S100000x128 .f32) (ei : IVec S2x1600000 32) (Ws : FVec Ideal S3x128x128 .f32) : FVec Ideal S100000x128 .f32 :=
  layerLin x (weight0 Ws) ei

/-- Layer 0's output: normalised, scaled, shifted, rectified. -/
def a1 (x : FVec Ideal S100000x128 .f32) (ei : IVec S2x1600000 32) (Ws : FVec Ideal S3x128x128 .f32) (gammas : FVec Ideal S2x128 .f32) (betas : FVec Ideal S2x128 .f32) : FVec Ideal S100000x128 .f32 :=
  bnRelu (h1 x ei Ws) (gammaRow0 gammas) (betaRow0 betas)

/-- Layer 1's aggregated linear map. -/
def h2 (x : FVec Ideal S100000x128 .f32) (ei : IVec S2x1600000 32) (Ws : FVec Ideal S3x128x128 .f32) (gammas : FVec Ideal S2x128 .f32) (betas : FVec Ideal S2x128 .f32) : FVec Ideal S100000x128 .f32 :=
  layerLin (a1 x ei Ws gammas betas) (weight1 Ws) ei

/-- Layer 1's output. -/
def a2 (x : FVec Ideal S100000x128 .f32) (ei : IVec S2x1600000 32) (Ws : FVec Ideal S3x128x128 .f32) (gammas : FVec Ideal S2x128 .f32) (betas : FVec Ideal S2x128 .f32) : FVec Ideal S100000x128 .f32 :=
  bnRelu (h2 x ei Ws gammas betas) (gammaRow1 gammas) (betaRow1 betas)

/-- Layer 2's aggregated linear map (no normalisation after the last layer). -/
def h3 (x : FVec Ideal S100000x128 .f32) (ei : IVec S2x1600000 32) (Ws : FVec Ideal S3x128x128 .f32) (gammas : FVec Ideal S2x128 .f32) (betas : FVec Ideal S2x128 .f32) : FVec Ideal S100000x128 .f32 :=
  layerLin (a2 x ei Ws gammas betas) (weight2 Ws) ei

/-- The network's result: the row-wise log-softmax of layer 2. -/
def out (x : FVec Ideal S100000x128 .f32) (ei : IVec S2x1600000 32) (Ws : FVec Ideal S3x128x128 .f32) (gammas : FVec Ideal S2x128 .f32) (betas : FVec Ideal S2x128 .f32) : FVec Ideal S100000x128 .f32 :=
  logSoftmax (h3 x ei Ws gammas betas)

end Cert.ReferenceIdeal.HandRun

end
-- ==== Proof.Ref.RunVals.lean ====
/- What the device's buffers hold after each of the twelve stages, from any contents: every buffer a later stage reads,
   or that is an argument or the result, as a named function (Stages) of the five argument arrays' contents. Within a
   stage the operations compose to that function by definition; a buffer the stage does not write keeps its contents. -/
import proofs.«131019_j5282809775007_1_alg».proof.Proof.Ref.RunOps
import proofs.«131019_j5282809775007_1_alg».proof.Proof.Ref.Stages

noncomputable section

namespace Cert.ReferenceIdeal.HandRun

open Cert.ReferenceIdeal Cert.ReferenceIdeal.Gen Idealize.ShloMosaic Idealize.SL.Sem Idealize.ShloMosaic.TcCoe Idealize.ShloMosaic.StableHlo

set_option Elab.async false

/-- The device's buffer contents before the first stage. -/
def val0 (V0 : Valuation τ sig (Elt Ideal)) : Valuation τ sig (Elt Ideal) := V0
theorem val0_main_arg0 (V0 : Valuation τ sig (Elt Ideal)) : val0 V0 (no_index (Proc.devRef .tc main_arg0)) = V0 (Proc.devRef .tc main_arg0) := rfl
theorem val0_main_arg1 (V0 : Valuation τ sig (Elt Ideal)) : val0 V0 (no_index (Proc.devRef .tc main_arg1)) = V0 (Proc.devRef .tc main_arg1) := rfl
theorem val0_main_arg2 (V0 : Valuation τ sig (Elt Ideal)) : val0 V0 (no_index (Proc.devRef .tc main_arg2)) = V0 (Proc.devRef .tc main_arg2) := rfl
theorem val0_main_arg3 (V0 : Valuation τ sig (Elt Ideal)) : val0 V0 (no_index (Proc.devRef .tc main_arg3)) = V0 (Proc.devRef .tc main_arg3) := rfl
theorem val0_main_arg4 (V0 : Valuation τ sig (Elt Ideal)) : val0 V0 (no_index (Proc.devRef .tc main_arg4)) = V0 (Proc.devRef .tc main_arg4) := rfl

/-- The device's buffer contents after the first 1 stage. -/
def val1 (V0 : Valuation τ sig (Elt Ideal)) : Valuation τ sig (Elt Ideal) := after s1 (val0 V0)
/-- A buffer that stage 1 does not write keeps its contents through it. -/
theorem val1_keep (V0 : Valuation τ sig (Elt Ideal)) (r : Ref sig .tc) (h : r ∉ s1_W) :
    val1 V0 (Proc.devRef .tc r) = val0 V0 (Proc.devRef .tc r) :=
  after_of_writes_sub s1 _ s1_writes h
theorem val1_main_arg0 (V0 : Valuation τ sig (Elt Ideal)) : val1 V0 (no_index (Proc.devRef .tc main_arg0)) =
    V0 (Proc.devRef .tc main_arg0) :=
  (val1_keep V0 main_arg0 (by decide)).trans (val0_main_arg0 V0)
theorem val1_main_arg1 (V0 : Valuation τ sig (Elt Ideal)) : val1 V0 (no_index (Proc.devRef .tc main_arg1)) =
    V0 (Proc.devRef .tc main_arg1) :=
  (val1_keep V0 main_arg1 (by decide)).trans (val0_main_arg1 V0)
theorem val1_main_arg2 (V0 : Valuation τ sig (Elt Ideal)) : val1 V0 (no_index (Proc.devRef .tc main_arg2)) =
    V0 (Proc.devRef .tc main_arg2) :=
  (val1_keep V0 main_arg2 (by decide)).trans (val0_main_arg2 V0)
theorem val1_main_arg3 (V0 : Valuation τ sig (Elt Ideal)) : val1 V0 (no_index (Proc.devRef .tc main_arg3)) =
    V0 (Proc.devRef .tc main_arg3) :=
  (val1_keep V0 main_arg3 (by decide)).trans (val0_main_arg3 V0)
theorem val1_main_arg4 (V0 : Valuation τ sig (Elt Ideal)) : val1 V0 (no_index (Proc.devRef .tc main_arg4)) =
    V0 (Proc.devRef .tc main_arg4) :=
  (val1_keep V0 main_arg4 (by decide)).trans (val0_main_arg4 V0)
set_option maxRecDepth 8192 in
set_option maxHeartbeats 1000000 in
theorem val1_main_v1 (V0 : Valuation τ sig (Elt Ideal)) : val1 V0 (no_index (Proc.devRef .tc main_v1)) =
    srcVec (V0 (Proc.devRef .tc main_arg1)) := by
  unfold val1
  simp only [s1]
  after_results_simp
  simp only [val0_main_arg1] <;> rfl
set_option maxRecDepth 8192 in
set_option maxHeartbeats 1000000 in
theorem val1_main_v3 (V0 : Valuation τ sig (Elt Ideal)) : val1 V0 (no_index (Proc.devRef .tc main_v3)) =
    dstVec (V0 (Proc.devRef .tc main_arg1)) := by
  unfold val1
  simp only [s1]
  after_results_simp
  simp only [val0_main_arg1] <;> rfl

/-- The device's buffer contents after the first 2 stages. -/
def val2 (V0 : Valuation τ sig (Elt Ideal)) : Valuation τ sig (Elt Ideal) := after s2 (val1 V0)
/-- A buffer that stage 2 does not write keeps its contents through it. -/
theorem val2_keep (V0 : Valuation τ sig (Elt Ideal)) (r : Ref sig .tc) (h : r ∉ s2_W) :
    val2 V0 (Proc.devRef .tc r) = val1 V0 (Proc.devRef .tc r) :=
  after_of_writes_sub s2 _ s2_writes h
theorem val2_main_arg0 (V0 : Valuation τ sig (Elt Ideal)) : val2 V0 (no_index (Proc.devRef .tc main_arg0)) =
    V0 (Proc.devRef .tc main_arg0) :=
  (val2_keep V0 main_arg0 (by decide)).trans (val1_main_arg0 V0)
theorem val2_main_arg1 (V0 : Valuation τ sig (Elt Ideal)) : val2 V0 (no_index (Proc.devRef .tc main_arg1)) =
    V0 (Proc.devRef .tc main_arg1) :=
  (val2_keep V0 main_arg1 (by decide)).trans (val1_main_arg1 V0)
theorem val2_main_arg2 (V0 : Valuation τ sig (Elt Ideal)) : val2 V0 (no_index (Proc.devRef .tc main_arg2)) =
    V0 (Proc.devRef .tc main_arg2) :=
  (val2_keep V0 main_arg2 (by decide)).trans (val1_main_arg2 V0)
theorem val2_main_arg3 (V0 : Valuation τ sig (Elt Ideal)) : val2 V0 (no_index (Proc.devRef .tc main_arg3)) =
    V0 (Proc.devRef .tc main_arg3) :=
  (val2_keep V0 main_arg3 (by decide)).trans (val1_main_arg3 V0)
theorem val2_main_arg4 (V0 : Valuation τ sig (Elt Ideal)) : val2 V0 (no_index (Proc.devRef .tc main_arg4)) =
    V0 (Proc.devRef .tc main_arg4) :=
  (val2_keep V0 main_arg4 (by decide)).trans (val1_main_arg4 V0)
theorem val2_main_v1 (V0 : Valuation τ sig (Elt Ideal)) : val2 V0 (no_index (Proc.devRef .tc main_v1)) =
    srcVec (V0 (Proc.devRef .tc main_arg1)) :=
  (val2_keep V0 main_v1 (by decide)).trans (val1_main_v1 V0)
theorem val2_main_v3 (V0 : Valuation τ sig (Elt Ideal)) : val2 V0 (no_index (Proc.devRef .tc main_v3)) =
    dstVec (V0 (Proc.devRef .tc main_arg1)) :=
  (val2_keep V0 main_v3 (by decide)).trans (val1_main_v3 V0)
set_option maxRecDepth 8192 in
set_option maxHeartbeats 1000000 in
theorem val2_main_v16 (V0 : Valuation τ sig (Elt Ideal)) : val2 V0 (no_index (Proc.devRef .tc main_v16)) =
    h1 (V0 (Proc.devRef .tc main_arg0)) (V0 (Proc.devRef .tc main_arg1)) (V0 (Proc.devRef .tc main_arg2)) := by
  unfold val2
  simp only [s2]
  after_results_simp
  simp only [val1_main_v1, val1_main_arg2, val1_main_arg0, val1_main_v3] <;> rfl

/-- The device's buffer contents after the first 3 stages. -/
def val3 (V0 : Valuation τ sig (Elt Ideal)) : Valuation τ sig (Elt Ideal) := after s3 (val2 V0)
/-- A buffer that stage 3 does not write keeps its contents through it. -/
theorem val3_keep (V0 : Valuation τ sig (Elt Ideal)) (r : Ref sig .tc) (h : r ∉ s3_W) :
    val3 V0 (Proc.devRef .tc r) = val2 V0 (Proc.devRef .tc r) :=
  after_of_writes_sub s3 _ s3_writes h
theorem val3_main_arg0 (V0 : Valuation τ sig (Elt Ideal)) : val3 V0 (no_index (Proc.devRef .tc main_arg0)) =
    V0 (Proc.devRef .tc main_arg0) :=
  (val3_keep V0 main_arg0 (by decide)).trans (val2_main_arg0 V0)
theorem val3_main_arg1 (V0 : Valuation τ sig (Elt Ideal)) : val3 V0 (no_index (Proc.devRef .tc main_arg1)) =
    V0 (Proc.devRef .tc main_arg1) :=
  (val3_keep V0 main_arg1 (by decide)).trans (val2_main_arg1 V0)
theorem val3_main_arg2 (V0 : Valuation τ sig (Elt Ideal)) : val3 V0 (no_index (Proc.devRef .tc main_arg2)) =
    V0 (Proc.devRef .tc main_arg2) :=
  (val3_keep V0 main_arg2 (by decide)).trans (val2_main_arg2 V0)
theorem val3_main_arg3 (V0 : Valuation τ sig (Elt Ideal)) : val3 V0 (no_index (Proc.devRef .tc main_arg3)) =
    V0 (Proc.devRef .tc main_arg3) :=
  (val3_keep V0 main_arg3 (by decide)).trans (val2_main_arg3 V0)
theorem val3_main_arg4 (V0 : Valuation τ sig (Elt Ideal)) : val3 V0 (no_index (Proc.devRef .tc main_arg4)) =
    V0 (Proc.devRef .tc main_arg4) :=
  (val3_keep V0 main_arg4 (by decide)).trans (val2_main_arg4 V0)
theorem val3_main_v1 (V0 : Valuation τ sig (Elt Ideal)) : val3 V0 (no_index (Proc.devRef .tc main_v1)) =
    srcVec (V0 (Proc.devRef .tc main_arg1)) :=
  (val3_keep V0 main_v1 (by decide)).trans (val2_main_v1 V0)
theorem val3_main_v3 (V0 : Valuation τ sig (Elt Ideal)) : val3 V0 (no_index (Proc.devRef .tc main_v3)) =
    dstVec (V0 (Proc.devRef .tc main_arg1)) :=
  (val3_keep V0 main_v3 (by decide)).trans (val2_main_v3 V0)
theorem val3_main_v16 (V0 : Valuation τ sig (Elt Ideal)) : val3 V0 (no_index (Proc.devRef .tc main_v16)) =
    h1 (V0 (Proc.devRef .tc main_arg0)) (V0 (Proc.devRef .tc main_arg1)) (V0 (Proc.devRef .tc main_arg2)) :=
  (val3_keep V0 main_v16 (by decide)).trans (val2_main_v16 V0)
set_option maxRecDepth 8192 in
set_option maxHeartbeats 1000000 in
theorem val3_main_v18 (V0 : Valuation τ sig (Elt Ideal)) : val3 V0 (no_index (Proc.devRef .tc main_v18)) =
    gammaRow0 (V0 (Proc.devRef .tc main_arg3)) := by
  unfold val3
  simp only [s3]
  after_results_simp
  simp only [val2_main_arg3] <;> rfl
set_option maxRecDepth 8192 in
set_option maxHeartbeats 1000000 in
theorem val3_main_v20 (V0 : Valuation τ sig (Elt Ideal)) : val3 V0 (no_index (Proc.devRef .tc main_v20)) =
    betaRow0 (V0 (Proc.devRef .tc main_arg4)) := by
  unfold val3
  simp only [s3]
  after_results_simp
  simp only [val2_main_arg4] <;> rfl
set_option maxRecDepth 8192 in
set_option maxHeartbeats 1000000 in
theorem val3_main_v23 (V0 : Valuation τ sig (Elt Ideal)) : val3 V0 (no_index (Proc.devRef .tc main_v23)) =
    colMean (h1 (V0 (Proc.devRef .tc main_arg0)) (V0 (Proc.devRef .tc main_arg1)) (V0 (Proc.devRef .tc main_arg2))) := by
  unfold val3
  simp only [s3]
  after_results_simp
  simp only [val2_main_v16] <;> rfl

/-- The device's buffer contents after the first 4 stages. -/
def val4 (V0 : Valuation τ sig (Elt Ideal)) : Valuation τ sig (Elt Ideal) := after s4 (val3 V0)
/-- A buffer that stage 4 does not write keeps its contents through it. -/
theorem val4_keep (V0 : Valuation τ sig (Elt Ideal)) (r : Ref sig .tc) (h : r ∉ s4_W) :
    val4 V0 (Proc.devRef .tc r) = val3 V0 (Proc.devRef .tc r) :=
  after_of_writes_sub s4 _ s4_writes h
theorem val4_main_arg0 (V0 : Valuation τ sig (Elt Ideal)) : val4 V0 (no_index (Proc.devRef .tc main_arg0)) =
    V0 (Proc.devRef .tc main_arg0) :=
  (val4_keep V0 main_arg0 (by decide)).trans (val3_main_arg0 V0)
theorem val4_main_arg1 (V0 : Valuation τ sig (Elt Ideal)) : val4 V0 (no_index (Proc.devRef .tc main_arg1)) =
    V0 (Proc.devRef .tc main_arg1) :=
  (val4_keep V0 main_arg1 (by decide)).trans (val3_main_arg1 V0)
theorem val4_main_arg2 (V0 : Valuation τ sig (Elt Ideal)) : val4 V0 (no_index (Proc.devRef .tc main_arg2)) =
    V0 (Proc.devRef .tc main_arg2) :=
  (val4_keep V0 main_arg2 (by decide)).trans (val3_main_arg2 V0)
theorem val4_main_arg3 (V0 : Valuation τ sig (Elt Ideal)) : val4 V0 (no_index (Proc.devRef .tc main_arg3)) =
    V0 (Proc.devRef .tc main_arg3) :=
  (val4_keep V0 main_arg3 (by decide)).trans (val3_main_arg3 V0)
theorem val4_main_arg4 (V0 : Valuation τ sig (Elt Ideal)) : val4 V0 (no_index (Proc.devRef .tc main_arg4)) =
    V0 (Proc.devRef .tc main_arg4) :=
  (val4_keep V0 main_arg4 (by decide)).trans (val3_main_arg4 V0)
theorem val4_main_v1 (V0 : Valuation τ sig (Elt Ideal)) : val4 V0 (no_index (Proc.devRef .tc main_v1)) =
    srcVec (V0 (Proc.devRef .tc main_arg1)) :=
  (val4_keep V0 main_v1 (by decide)).trans (val3_main_v1 V0)
theorem val4_main_v3 (V0 : Valuation τ sig (Elt Ideal)) : val4 V0 (no_index (Proc.devRef .tc main_v3)) =
    dstVec (V0 (Proc.devRef .tc main_arg1)) :=
  (val4_keep V0 main_v3 (by decide)).trans (val3_main_v3 V0)
theorem val4_main_v16 (V0 : Valuation τ sig (Elt Ideal)) : val4 V0 (no_index (Proc.devRef .tc main_v16)) =
    h1 (V0 (Proc.devRef .tc main_arg0)) (V0 (Proc.devRef .tc main_arg1)) (V0 (Proc.devRef .tc main_arg2)) :=
  (val4_keep V0 main_v16 (by decide)).trans (val3_main_v16 V0)
theorem val4_main_v18 (V0 : Valuation τ sig (Elt Ideal)) : val4 V0 (no_index (Proc.devRef .tc main_v18)) =
    gammaRow0 (V0 (Proc.devRef .tc main_arg3)) :=
  (val4_keep V0 main_v18 (by decide)).trans (val3_main_v18 V0)
theorem val4_main_v20 (V0 : Valuation τ sig (Elt Ideal)) : val4 V0 (no_index (Proc.devRef .tc main_v20)) =
    betaRow0 (V0 (Proc.devRef .tc main_arg4)) :=
  (val4_keep V0 main_v20 (by decide)).trans (val3_main_v20 V0)
theorem val4_main_v23 (V0 : Valuation τ sig (Elt Ideal)) : val4 V0 (no_index (Proc.devRef .tc main_v23)) =
    colMean (h1 (V0 (Proc.devRef .tc main_arg0)) (V0 (Proc.devRef .tc main_arg1)) (V0 (Proc.devRef .tc main_arg2))) :=
  (val4_keep V0 main_v23 (by decide)).trans (val3_main_v23 V0)
set_option maxRecDepth 8192 in
set_option maxHeartbeats 1000000 in
theorem val4_main_v24 (V0 : Valuation τ sig (Elt Ideal)) : val4 V0 (no_index (Proc.devRef .tc main_v24)) =
    colVar (h1 (V0 (Proc.devRef .tc main_arg0)) (V0 (Proc.devRef .tc main_arg1)) (V0 (Proc.devRef .tc main_arg2))) := by
  unfold val4
  simp only [s4]
  after_results_simp
  simp only [val3_main_v16]
  unfold colVar varCentered
  with_reducible rfl

/-- The device's buffer contents after the first 5 stages. -/
def val5 (V0 : Valuation τ sig (Elt Ideal)) : Valuation τ sig (Elt Ideal) := after s5 (val4 V0)
/-- A buffer that stage 5 does not write keeps its contents through it. -/
theorem val5_keep (V0 : Valuation τ sig (Elt Ideal)) (r : Ref sig .tc) (h : r ∉ s5_W) :
    val5 V0 (Proc.devRef .tc r) = val4 V0 (Proc.devRef .tc r) :=
  after_of_writes_sub s5 _ s5_writes h
theorem val5_main_arg0 (V0 : Valuation τ sig (Elt Ideal)) : val5 V0 (no_index (Proc.devRef .tc main_arg0)) =
    V0 (Proc.devRef .tc main_arg0) :=
  (val5_keep V0 main_arg0 (by decide)).trans (val4_main_arg0 V0)
theorem val5_main_arg1 (V0 : Valuation τ sig (Elt Ideal)) : val5 V0 (no_index (Proc.devRef .tc main_arg1)) =
    V0 (Proc.devRef .tc main_arg1) :=
  (val5_keep V0 main_arg1 (by decide)).trans (val4_main_arg1 V0)
theorem val5_main_arg2 (V0 : Valuation τ sig (Elt Ideal)) : val5 V0 (no_index (Proc.devRef .tc main_arg2)) =
    V0 (Proc.devRef .tc main_arg2) :=
  (val5_keep V0 main_arg2 (by decide)).trans (val4_main_arg2 V0)
theorem val5_main_arg3 (V0 : Valuation τ sig (Elt Ideal)) : val5 V0 (no_index (Proc.devRef .tc main_arg3)) =
    V0 (Proc.devRef .tc main_arg3) :=
  (val5_keep V0 main_arg3 (by decide)).trans (val4_main_arg3 V0)
theorem val5_main_arg4 (V0 : Valuation τ sig (Elt Ideal)) : val5 V0 (no_index (Proc.devRef .tc main_arg4)) =
    V0 (Proc.devRef .tc main_arg4) :=
  (val5_keep V0 main_arg4 (by decide)).trans (val4_main_arg4 V0)
theorem val5_main_v1 (V0 : Valuation τ sig (Elt Ideal)) : val5 V0 (no_index (Proc.devRef .tc main_v1)) =
    srcVec (V0 (Proc.devRef .tc main_arg1)) :=
  (val5_keep V0 main_v1 (by decide)).trans (val4_main_v1 V0)
theorem val5_main_v3 (V0 : Valuation τ sig (Elt Ideal)) : val5 V0 (no_index (Proc.devRef .tc main_v3)) =
    dstVec (V0 (Proc.devRef .tc main_arg1)) :=
  (val5_keep V0 main_v3 (by decide)).trans (val4_main_v3 V0)
set_option maxRecDepth 8192 in
set_option maxHeartbeats 1000000 in
theorem val5_main_v40 (V0 : Valuation τ sig (Elt Ideal)) : val5 V0 (no_index (Proc.devRef .tc main_v40)) =
    a1 (V0 (Proc.devRef .tc main_arg0)) (V0 (Proc.devRef .tc main_arg1)) (V0 (Proc.devRef .tc main_arg2)) (V0 (Proc.devRef .tc main_arg3)) (V0 (Proc.devRef .tc main_arg4)) := by
  unfold val5
  simp only [s5]
  after_results_simp
  simp only [val4_main_v20, val4_main_v18, val4_main_v24, val4_main_v23, val4_main_v16]
  unfold a1 bnRelu
  with_reducible rfl

/-- The device's buffer contents after the first 6 stages. -/
def val6 (V0 : Valuation τ sig (Elt Ideal)) : Valuation τ sig (Elt Ideal) := after s6 (val5 V0)
/-- A buffer that stage 6 does not write keeps its contents through it. -/
theorem val6_keep (V0 : Valuation τ sig (Elt Ideal)) (r : Ref sig .tc) (h : r ∉ s6_W) :
    val6 V0 (Proc.devRef .tc r) = val5 V0 (Proc.devRef .tc r) :=
  after_of_writes_sub s6 _ s6_writes h
theorem val6_main_arg0 (V0 : Valuation τ sig (Elt Ideal)) : val6 V0 (no_index (Proc.devRef .tc main_arg0)) =
    V0 (Proc.devRef .tc main_arg0) :=
  (val6_keep V0 main_arg0 (by decide)).trans (val5_main_arg0 V0)
theorem val6_main_arg1 (V0 : Valuation τ sig (Elt Ideal)) : val6 V0 (no_index (Proc.devRef .tc main_arg1)) =
    V0 (Proc.devRef .tc main_arg1) :=
  (val6_keep V0 main_arg1 (by decide)).trans (val5_main_arg1 V0)
theorem val6_main_arg2 (V0 : Valuation τ sig (Elt Ideal)) : val6 V0 (no_index (Proc.devRef .tc main_arg2)) =
    V0 (Proc.devRef .tc main_arg2) :=
  (val6_keep V0 main_arg2 (by decide)).trans (val5_main_arg2 V0)
theorem val6_main_arg3 (V0 : Valuation τ sig (Elt Ideal)) : val6 V0 (no_index (Proc.devRef .tc main_arg3)) =
    V0 (Proc.devRef .tc main_arg3) :=
  (val6_keep V0 main_arg3 (by decide)).trans (val5_main_arg3 V0)
theorem val6_main_arg4 (V0 : Valuation τ sig (Elt Ideal)) : val6 V0 (no_index (Proc.devRef .tc main_arg4)) =
    V0 (Proc.devRef .tc main_arg4) :=
  (val6_keep V0 main_arg4 (by decide)).trans (val5_main_arg4 V0)
theorem val6_main_v1 (V0 : Valuation τ sig (Elt Ideal)) : val6 V0 (no_index (Proc.devRef .tc main_v1)) =
    srcVec (V0 (Proc.devRef .tc main_arg1)) :=
  (val6_keep V0 main_v1 (by decide)).trans (val5_main_v1 V0)
theorem val6_main_v3 (V0 : Valuation τ sig (Elt Ideal)) : val6 V0 (no_index (Proc.devRef .tc main_v3)) =
    dstVec (V0 (Proc.devRef .tc main_arg1)) :=
  (val6_keep V0 main_v3 (by decide)).trans (val5_main_v3 V0)
set_option maxRecDepth 8192 in
set_option maxHeartbeats 1000000 in
theorem val6_main_v50 (V0 : Valuation τ sig (Elt Ideal)) : val6 V0 (no_index (Proc.devRef .tc main_v50)) =
    Host.gather gather_S100000x128_S1600000x1_S1600000x128_1_0_n_n_0_1_1128 (Host.dotGeneral (F := Ideal) (φ₁ := .f32) (φ₂ := .f32) dot_S100000x128_S128x128_S100000x128_1_0_0_1_n_n none (a1 (V0 (Proc.devRef .tc main_arg0)) (V0 (Proc.devRef .tc main_arg1)) (V0 (Proc.devRef .tc main_arg2)) (V0 (Proc.devRef .tc main_arg3)) (V0 (Proc.devRef .tc main_arg4))) (weight1 (V0 (Proc.devRef .tc main_arg2)))) (srcCol (V0 (Proc.devRef .tc main_arg1))) := by
  unfold val6
  simp only [s6]
  after_results_simp
  simp only [val5_main_v1, val5_main_arg2, val5_main_v40] <;> rfl

/-- The device's buffer contents after the first 7 stages. -/
def val7 (V0 : Valuation τ sig (Elt Ideal)) : Valuation τ sig (Elt Ideal) := after s7 (val6 V0)
/-- A buffer that stage 7 does not write keeps its contents through it. -/
theorem val7_keep (V0 : Valuation τ sig (Elt Ideal)) (r : Ref sig .tc) (h : r ∉ s7_W) :
    val7 V0 (Proc.devRef .tc r) = val6 V0 (Proc.devRef .tc r) :=
  after_of_writes_sub s7 _ s7_writes h
theorem val7_main_arg0 (V0 : Valuation τ sig (Elt Ideal)) : val7 V0 (no_index (Proc.devRef .tc main_arg0)) =
    V0 (Proc.devRef .tc main_arg0) :=
  (val7_keep V0 main_arg0 (by decide)).trans (val6_main_arg0 V0)
theorem val7_main_arg1 (V0 : Valuation τ sig (Elt Ideal)) : val7 V0 (no_index (Proc.devRef .tc main_arg1)) =
    V0 (Proc.devRef .tc main_arg1) :=
  (val7_keep V0 main_arg1 (by decide)).trans (val6_main_arg1 V0)
theorem val7_main_arg2 (V0 : Valuation τ sig (Elt Ideal)) : val7 V0 (no_index (Proc.devRef .tc main_arg2)) =
    V0 (Proc.devRef .tc main_arg2) :=
  (val7_keep V0 main_arg2 (by decide)).trans (val6_main_arg2 V0)
theorem val7_main_arg3 (V0 : Valuation τ sig (Elt Ideal)) : val7 V0 (no_index (Proc.devRef .tc main_arg3)) =
    V0 (Proc.devRef .tc main_arg3) :=
  (val7_keep V0 main_arg3 (by decide)).trans (val6_main_arg3 V0)
theorem val7_main_arg4 (V0 : Valuation τ sig (Elt Ideal)) : val7 V0 (no_index (Proc.devRef .tc main_arg4)) =
    V0 (Proc.devRef .tc main_arg4) :=
  (val7_keep V0 main_arg4 (by decide)).trans (val6_main_arg4 V0)
theorem val7_main_v1 (V0 : Valuation τ sig (Elt Ideal)) : val7 V0 (no_index (Proc.devRef .tc main_v1)) =
    srcVec (V0 (Proc.devRef .tc main_arg1)) :=
  (val7_keep V0 main_v1 (by decide)).trans (val6_main_v1 V0)
theorem val7_main_v3 (V0 : Valuation τ sig (Elt Ideal)) : val7 V0 (no_index (Proc.devRef .tc main_v3)) =
    dstVec (V0 (Proc.devRef .tc main_arg1)) :=
  (val7_keep V0 main_v3 (by decide)).trans (val6_main_v3 V0)
set_option maxRecDepth 8192 in
set_option maxHeartbeats 1000000 in
theorem val7_main_v53 (V0 : Valuation τ sig (Elt Ideal)) : val7 V0 (no_index (Proc.devRef .tc main_v53)) =
    h2 (V0 (Proc.devRef .tc main_arg0)) (V0 (Proc.devRef .tc main_arg1)) (V0 (Proc.devRef .tc main_arg2)) (V0 (Proc.devRef .tc main_arg3)) (V0 (Proc.devRef .tc main_arg4)) := by
  unfold val7
  simp only [s7]
  after_results_simp
  simp only [val6_main_v50, val6_main_v3]
  unfold h2 layerLin agg zeros dstCol
  with_reducible rfl

/-- The device's buffer contents after the first 8 stages. -/
def val8 (V0 : Valuation τ sig (Elt Ideal)) : Valuation τ sig (Elt Ideal) := after s8 (val7 V0)
/-- A buffer that stage 8 does not write keeps its contents through it. -/
theorem val8_keep (V0 : Valuation τ sig (Elt Ideal)) (r : Ref sig .tc) (h : r ∉ s8_W) :
    val8 V0 (Proc.devRef .tc r) = val7 V0 (Proc.devRef .tc r) :=
  after_of_writes_sub s8 _ s8_writes h
theorem val8_main_arg0 (V0 : Valuation τ sig (Elt Ideal)) : val8 V0 (no_index (Proc.devRef .tc main_arg0)) =
    V0 (Proc.devRef .tc main_arg0) :=
  (val8_keep V0 main_arg0 (by decide)).trans (val7_main_arg0 V0)
theorem val8_main_arg1 (V0 : Valuation τ sig (Elt Ideal)) : val8 V0 (no_index (Proc.devRef .tc main_arg1)) =
    V0 (Proc.devRef .tc main_arg1) :=
  (val8_keep V0 main_arg1 (by decide)).trans (val7_main_arg1 V0)
theorem val8_main_arg2 (V0 : Valuation τ sig (Elt Ideal)) : val8 V0 (no_index (Proc.devRef .tc main_arg2)) =
    V0 (Proc.devRef .tc main_arg2) :=
  (val8_keep V0 main_arg2 (by decide)).trans (val7_main_arg2 V0)
theorem val8_main_arg3 (V0 : Valuation τ sig (Elt Ideal)) : val8 V0 (no_index (Proc.devRef .tc main_arg3)) =
    V0 (Proc.devRef .tc main_arg3) :=
  (val8_keep V0 main_arg3 (by decide)).trans (val7_main_arg3 V0)
theorem val8_main_arg4 (V0 : Valuation τ sig (Elt Ideal)) : val8 V0 (no_index (Proc.devRef .tc main_arg4)) =
    V0 (Proc.devRef .tc main_arg4) :=
  (val8_keep V0 main_arg4 (by decide)).trans (val7_main_arg4 V0)
theorem val8_main_v1 (V0 : Valuation τ sig (Elt Ideal)) : val8 V0 (no_index (Proc.devRef .tc main_v1)) =
    srcVec (V0 (Proc.devRef .tc main_arg1)) :=
  (val8_keep V0 main_v1 (by decide)).trans (val7_main_v1 V0)
theorem val8_main_v3 (V0 : Valuation τ sig (Elt Ideal)) : val8 V0 (no_index (Proc.devRef .tc main_v3)) =
    dstVec (V0 (Proc.devRef .tc main_arg1)) :=
  (val8_keep V0 main_v3 (by decide)).trans (val7_main_v3 V0)
theorem val8_main_v53 (V0 : Valuation τ sig (Elt Ideal)) : val8 V0 (no_index (Proc.devRef .tc main_v53)) =
    h2 (V0 (Proc.devRef .tc main_arg0)) (V0 (Proc.devRef .tc main_arg1)) (V0 (Proc.devRef .tc main_arg2)) (V0 (Proc.devRef .tc main_arg3)) (V0 (Proc.devRef .tc main_arg4)) :=
  (val8_keep V0 main_v53 (by decide)).trans (val7_main_v53 V0)
set_option maxRecDepth 8192 in
set_option maxHeartbeats 1000000 in
theorem val8_main_v55 (V0 : Valuation τ sig (Elt Ideal)) : val8 V0 (no_index (Proc.devRef .tc main_v55)) =
    gammaRow1 (V0 (Proc.devRef .tc main_arg3)) := by
  unfold val8
  simp only [s8]
  after_results_simp
  simp only [val7_main_arg3] <;> rfl
set_option maxRecDepth 8192 in
set_option maxHeartbeats 1000000 in
theorem val8_main_v57 (V0 : Valuation τ sig (Elt Ideal)) : val8 V0 (no_index (Proc.devRef .tc main_v57)) =
    betaRow1 (V0 (Proc.devRef .tc main_arg4)) := by
  unfold val8
  simp only [s8]
  after_results_simp
  simp only [val7_main_arg4] <;> rfl
set_option maxRecDepth 8192 in
set_option maxHeartbeats 1000000 in
theorem val8_main_v60 (V0 : Valuation τ sig (Elt Ideal)) : val8 V0 (no_index (Proc.devRef .tc main_v60)) =
    colMean (h2 (V0 (Proc.devRef .tc main_arg0)) (V0 (Proc.devRef .tc main_arg1)) (V0 (Proc.devRef .tc main_arg2)) (V0 (Proc.devRef .tc main_arg3)) (V0 (Proc.devRef .tc main_arg4))) := by
  unfold val8
  simp only [s8]
  after_results_simp
  simp only [val7_main_v53] <;> rfl

/-- The device's buffer contents after the first 9 stages. -/
def val9 (V0 : Valuation τ sig (Elt Ideal)) : Valuation τ sig (Elt Ideal) := after s9 (val8 V0)
/-- A buffer that stage 9 does not write keeps its contents through it. -/
theorem val9_keep (V0 : Valuation τ sig (Elt Ideal)) (r : Ref sig .tc) (h : r ∉ s9_W) :
    val9 V0 (Proc.devRef .tc r) = val8 V0 (Proc.devRef .tc r) :=
  after_of_writes_sub s9 _ s9_writes h
theorem val9_main_arg0 (V0 : Valuation τ sig (Elt Ideal)) : val9 V0 (no_index (Proc.devRef .tc main_arg0)) =
    V0 (Proc.devRef .tc main_arg0) :=
  (val9_keep V0 main_arg0 (by decide)).trans (val8_main_arg0 V0)
theorem val9_main_arg1 (V0 : Valuation τ sig (Elt Ideal)) : val9 V0 (no_index (Proc.devRef .tc main_arg1)) =
    V0 (Proc.devRef .tc main_arg1) :=
  (val9_keep V0 main_arg1 (by decide)).trans (val8_main_arg1 V0)
theorem val9_main_arg2 (V0 : Valuation τ sig (Elt Ideal)) : val9 V0 (no_index (Proc.devRef .tc main_arg2)) =
    V0 (Proc.devRef .tc main_arg2) :=
  (val9_keep V0 main_arg2 (by decide)).trans (val8_main_arg2 V0)
theorem val9_main_arg3 (V0 : Valuation τ sig (Elt Ideal)) : val9 V0 (no_index (Proc.devRef .tc main_arg3)) =
    V0 (Proc.devRef .tc main_arg3) :=
  (val9_keep V0 main_arg3 (by decide)).trans (val8_main_arg3 V0)
theorem val9_main_arg4 (V0 : Valuation τ sig (Elt Ideal)) : val9 V0 (no_index (Proc.devRef .tc main_arg4)) =
    V0 (Proc.devRef .tc main_arg4) :=
  (val9_keep V0 main_arg4 (by decide)).trans (val8_main_arg4 V0)
theorem val9_main_v1 (V0 : Valuation τ sig (Elt Ideal)) : val9 V0 (no_index (Proc.devRef .tc main_v1)) =
    srcVec (V0 (Proc.devRef .tc main_arg1)) :=
  (val9_keep V0 main_v1 (by decide)).trans (val8_main_v1 V0)
theorem val9_main_v3 (V0 : Valuation τ sig (Elt Ideal)) : val9 V0 (no_index (Proc.devRef .tc main_v3)) =
    dstVec (V0 (Proc.devRef .tc main_arg1)) :=
  (val9_keep V0 main_v3 (by decide)).trans (val8_main_v3 V0)
theorem val9_main_v53 (V0 : Valuation τ sig (Elt Ideal)) : val9 V0 (no_index (Proc.devRef .tc main_v53)) =
    h2 (V0 (Proc.devRef .tc main_arg0)) (V0 (Proc.devRef .tc main_arg1)) (V0 (Proc.devRef .tc main_arg2)) (V0 (Proc.devRef .tc main_arg3)) (V0 (Proc.devRef .tc main_arg4)) :=
  (val9_keep V0 main_v53 (by decide)).trans (val8_main_v53 V0)
theorem val9_main_v55 (V0 : Valuation τ sig (Elt Ideal)) : val9 V0 (no_index (Proc.devRef .tc main_v55)) =
    gammaRow1 (V0 (Proc.devRef .tc main_arg3)) :=
  (val9_keep V0 main_v55 (by decide)).trans (val8_main_v55 V0)
theorem val9_main_v57 (V0 : Valuation τ sig (Elt Ideal)) : val9 V0 (no_index (Proc.devRef .tc main_v57)) =
    betaRow1 (V0 (Proc.devRef .tc main_arg4)) :=
  (val9_keep V0 main_v57 (by decide)).trans (val8_main_v57 V0)
theorem val9_main_v60 (V0 : Valuation τ sig (Elt Ideal)) : val9 V0 (no_index (Proc.devRef .tc main_v60)) =
    colMean (h2 (V0 (Proc.devRef .tc main_arg0)) (V0 (Proc.devRef .tc main_arg1)) (V0 (Proc.devRef .tc main_arg2)) (V0 (Proc.devRef .tc main_arg3)) (V0 (Proc.devRef .tc main_arg4))) :=
  (val9_keep V0 main_v60 (by decide)).trans (val8_main_v60 V0)
set_option maxRecDepth 8192 in
set_option maxHeartbeats 1000000 in
theorem val9_main_v61 (V0 : Valuation τ sig (Elt Ideal)) : val9 V0 (no_index (Proc.devRef .tc main_v61)) =
    colVar (h2 (V0 (Proc.devRef .tc main_arg0)) (V0 (Proc.devRef .tc main_arg1)) (V0 (Proc.devRef .tc main_arg2)) (V0 (Proc.devRef .tc main_arg3)) (V0 (Proc.devRef .tc main_arg4))) := by
  unfold val9
  simp only [s9]
  after_results_simp
  simp only [val8_main_v53]
  unfold colVar varCentered
  with_reducible rfl

/-- The device's buffer contents after the first 10 stages. -/
def val10 (V0 : Valuation τ sig (Elt Ideal)) : Valuation τ sig (Elt Ideal) := after s10 (val9 V0)
/-- A buffer that stage 10 does not write keeps its contents through it. -/
theorem val10_keep (V0 : Valuation τ sig (Elt Ideal)) (r : Ref sig .tc) (h : r ∉ s10_W) :
    val10 V0 (Proc.devRef .tc r) = val9 V0 (Proc.devRef .tc r) :=
  after_of_writes_sub s10 _ s10_writes h
theorem val10_main_arg0 (V0 : Valuation τ sig (Elt Ideal)) : val10 V0 (no_index (Proc.devRef .tc main_arg0)) =
    V0 (Proc.devRef .tc main_arg0) :=
  (val10_keep V0 main_arg0 (by decide)).trans (val9_main_arg0 V0)
theorem val10_main_arg1 (V0 : Valuation τ sig (Elt Ideal)) : val10 V0 (no_index (Proc.devRef .tc main_arg1)) =
    V0 (Proc.devRef .tc main_arg1) :=
  (val10_keep V0 main_arg1 (by decide)).trans (val9_main_arg1 V0)
theorem val10_main_arg2 (V0 : Valuation τ sig (Elt Ideal)) : val10 V0 (no_index (Proc.devRef .tc main_arg2)) =
    V0 (Proc.devRef .tc main_arg2) :=
  (val10_keep V0 main_arg2 (by decide)).trans (val9_main_arg2 V0)
theorem val10_main_arg3 (V0 : Valuation τ sig (Elt Ideal)) : val10 V0 (no_index (Proc.devRef .tc main_arg3)) =
    V0 (Proc.devRef .tc main_arg3) :=
  (val10_keep V0 main_arg3 (by decide)).trans (val9_main_arg3 V0)
theorem val10_main_arg4 (V0 : Valuation τ sig (Elt Ideal)) : val10 V0 (no_index (Proc.devRef .tc main_arg4)) =
    V0 (Proc.devRef .tc main_arg4) :=
  (val10_keep V0 main_arg4 (by decide)).trans (val9_main_arg4 V0)
theorem val10_main_v1 (V0 : Valuation τ sig (Elt Ideal)) : val10 V0 (no_index (Proc.devRef .tc main_v1)) =
    srcVec (V0 (Proc.devRef .tc main_arg1)) :=
  (val10_keep V0 main_v1 (by decide)).trans (val9_main_v1 V0)
theorem val10_main_v3 (V0 : Valuation τ sig (Elt Ideal)) : val10 V0 (no_index (Proc.devRef .tc main_v3)) =
    dstVec (V0 (Proc.devRef .tc main_arg1)) :=
  (val10_keep V0 main_v3 (by decide)).trans (val9_main_v3 V0)
set_option maxRecDepth 8192 in
set_option maxHeartbeats 1000000 in
theorem val10_main_v77 (V0 : Valuation τ sig (Elt Ideal)) : val10 V0 (no_index (Proc.devRef .tc main_v77)) =
    a2 (V0 (Proc.devRef .tc main_arg0)) (V0 (Proc.devRef .tc main_arg1)) (V0 (Proc.devRef .tc main_arg2)) (V0 (Proc.devRef .tc main_arg3)) (V0 (Proc.devRef .tc main_arg4)) := by
  unfold val10
  simp only [s10]
  after_results_simp
  simp only [val9_main_v57, val9_main_v55, val9_main_v61, val9_main_v60, val9_main_v53]
  unfold a2 bnRelu
  with_reducible rfl

/-- The device's buffer contents after the first 11 stages. -/
def val11 (V0 : Valuation τ sig (Elt Ideal)) : Valuation τ sig (Elt Ideal) := after s11 (val10 V0)
/-- A buffer that stage 11 does not write keeps its contents through it. -/
theorem val11_keep (V0 : Valuation τ sig (Elt Ideal)) (r : Ref sig .tc) (h : r ∉ s11_W) :
    val11 V0 (Proc.devRef .tc r) = val10 V0 (Proc.devRef .tc r) :=
  after_of_writes_sub s11 _ s11_writes h
theorem val11_main_arg0 (V0 : Valuation τ sig (Elt Ideal)) : val11 V0 (no_index (Proc.devRef .tc main_arg0)) =
    V0 (Proc.devRef .tc main_arg0) :=
  (val11_keep V0 main_arg0 (by decide)).trans (val10_main_arg0 V0)
theorem val11_main_arg1 (V0 : Valuation τ sig (Elt Ideal)) : val11 V0 (no_index (Proc.devRef .tc main_arg1)) =
    V0 (Proc.devRef .tc main_arg1) :=
  (val11_keep V0 main_arg1 (by decide)).trans (val10_main_arg1 V0)
theorem val11_main_arg2 (V0 : Valuation τ sig (Elt Ideal)) : val11 V0 (no_index (Proc.devRef .tc main_arg2)) =
    V0 (Proc.devRef .tc main_arg2) :=
  (val11_keep V0 main_arg2 (by decide)).trans (val10_main_arg2 V0)
theorem val11_main_arg3 (V0 : Valuation τ sig (Elt Ideal)) : val11 V0 (no_index (Proc.devRef .tc main_arg3)) =
    V0 (Proc.devRef .tc main_arg3) :=
  (val11_keep V0 main_arg3 (by decide)).trans (val10_main_arg3 V0)
theorem val11_main_arg4 (V0 : Valuation τ sig (Elt Ideal)) : val11 V0 (no_index (Proc.devRef .tc main_arg4)) =
    V0 (Proc.devRef .tc main_arg4) :=
  (val11_keep V0 main_arg4 (by decide)).trans (val10_main_arg4 V0)
set_option maxRecDepth 8192 in
set_option maxHeartbeats 1000000 in
theorem val11_main_v90 (V0 : Valuation τ sig (Elt Ideal)) : val11 V0 (no_index (Proc.devRef .tc main_v90)) =
    h3 (V0 (Proc.devRef .tc main_arg0)) (V0 (Proc.devRef .tc main_arg1)) (V0 (Proc.devRef .tc main_arg2)) (V0 (Proc.devRef .tc main_arg3)) (V0 (Proc.devRef .tc main_arg4)) := by
  unfold val11
  simp only [s11]
  after_results_simp
  simp only [val10_main_v1, val10_main_arg2, val10_main_v77, val10_main_v3] <;> rfl

/-- The device's buffer contents after the first 12 stages. -/
def val12 (V0 : Valuation τ sig (Elt Ideal)) : Valuation τ sig (Elt Ideal) := after s12 (val11 V0)
/-- A buffer that stage 12 does not write keeps its contents through it. -/
theorem val12_keep (V0 : Valuation τ sig (Elt Ideal)) (r : Ref sig .tc) (h : r ∉ s12_W) :
    val12 V0 (Proc.devRef .tc r) = val11 V0 (Proc.devRef .tc r) :=
  after_of_writes_sub s12 _ s12_writes h
theorem val12_main_arg0 (V0 : Valuation τ sig (Elt Ideal)) : val12 V0 (no_index (Proc.devRef .tc main_arg0)) =
    V0 (Proc.devRef .tc main_arg0) :=
  (val12_keep V0 main_arg0 (by decide)).trans (val11_main_arg0 V0)
theorem val12_main_arg1 (V0 : Valuation τ sig (Elt Ideal)) : val12 V0 (no_index (Proc.devRef .tc main_arg1)) =
    V0 (Proc.devRef .tc main_arg1) :=
  (val12_keep V0 main_arg1 (by decide)).trans (val11_main_arg1 V0)
theorem val12_main_arg2 (V0 : Valuation τ sig (Elt Ideal)) : val12 V0 (no_index (Proc.devRef .tc main_arg2)) =
    V0 (Proc.devRef .tc main_arg2) :=
  (val12_keep V0 main_arg2 (by decide)).trans (val11_main_arg2 V0)
theorem val12_main_arg3 (V0 : Valuation τ sig (Elt Ideal)) : val12 V0 (no_index (Proc.devRef .tc main_arg3)) =
    V0 (Proc.devRef .tc main_arg3) :=
  (val12_keep V0 main_arg3 (by decide)).trans (val11_main_arg3 V0)
theorem val12_main_arg4 (V0 : Valuation τ sig (Elt Ideal)) : val12 V0 (no_index (Proc.devRef .tc main_arg4)) =
    V0 (Proc.devRef .tc main_arg4) :=
  (val12_keep V0 main_arg4 (by decide)).trans (val11_main_arg4 V0)
set_option maxRecDepth 8192 in
set_option maxHeartbeats 1000000 in
theorem val12_main_v91 (V0 : Valuation τ sig (Elt Ideal)) : val12 V0 (no_index (Proc.devRef .tc main_v91)) =
    out (V0 (Proc.devRef .tc main_arg0)) (V0 (Proc.devRef .tc main_arg1)) (V0 (Proc.devRef .tc main_arg2)) (V0 (Proc.devRef .tc main_arg3)) (V0 (Proc.devRef .tc main_arg4)) := by
  unfold val12
  simp only [s12]
  after_results_simp
  simp only [val11_main_v90]
  unfold out logSoftmax lsShifted
  with_reducible rfl

end Cert.ReferenceIdeal.HandRun

end
-- ==== Proof.Ref.Run.lean ====
/- The reference program's run at the ideal instance: every weakly fair execution terminates, faults nowhere, leaves the
   five argument arrays as they were, and leaves in the result buffer the network's function `out` (Stages) of the
   argument arrays — the straight-line run of the operation list, read stage by stage. -/
import proofs.«131019_j5282809775007_1_alg».proof.Proof.Ref.RunEq
import proofs.«131019_j5282809775007_1_alg».proof.Proof.Ref.RunVals

noncomputable section

namespace Cert.ReferenceIdeal.HandRun

open Cert.ReferenceIdeal Cert.ReferenceIdeal.Gen Idealize.ShloMosaic Idealize.SL.Sem Idealize.ShloMosaic.TcCoe Idealize.ShloMosaic.StableHlo

/-- The fold over all the operations is the last stage's contents. -/
theorem after_ops (V0 : Valuation τ sig (Elt Ideal)) : after ops V0 = val12 V0 := by
  simp only [ops, opsP0, opsP1, after_app]
  rfl

/-- On every device, from any memory with zero counters: every weakly fair execution of the program terminates with the
    result buffer at `out` of the argument arrays' launch contents and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v91) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v91).trans (by simp only [after_ops]; exact val12_main_v91 (launchContents m c)),
      (h c main_arg0).trans (by simp only [after_ops]; exact val12_main_arg0 (launchContents m c)),
      (h c main_arg1).trans (by simp only [after_ops]; exact val12_main_arg1 (launchContents m c)),
      (h c main_arg2).trans (by simp only [after_ops]; exact val12_main_arg2 (launchContents m c)),
      (h c main_arg3).trans (by simp only [after_ops]; exact val12_main_arg3 (launchContents m c)),
      (h c main_arg4).trans (by simp only [after_ops]; exact val12_main_arg4 (launchContents m c))⟩)
    (run_seq scopedRefs_eq scopedSems_eq defs main (fun _ => ops) main_eq (fun _ => ops_sub) m ρ
      (fun _ op h => List.forall_iff_forall_mem.mp ops_fresh op h))

end Cert.ReferenceIdeal.HandRun

end
-- ==== Proof.Ref.Frame.lean ====
/- The reference program's frame claim, from its run: it terminates without fault and its argument arrays end unchanged. -/
import proofs.«131019_j5282809775007_1_alg».proof.Proof.Ref.Run
import proofs.«131019_j5282809775007_1_alg».proof.Defs
import proofs.«131019_j5282809775007_1_alg».proof.Proof.Gen.Pre_finite_inputs

noncomputable section

namespace Cert.ReferenceIdeal.HandRun

open Cert.ReferenceIdeal Cert.ReferenceIdeal.Gen Idealize.ShloMosaic Idealize.SL.Sem

/-- The program runs and its argument arrays end unchanged. -/
theorem frame : Cert.frame_ReferenceIdeal := fun m ρ _ =>
  (θ_run (defs (F := Ideal)) _ _).mono (fun _ h c => (h c).2) (run m ρ)

end Cert.ReferenceIdeal.HandRun

end
-- ==== Proof.LibRealEntries.lean ====
/-
  Real entries on the extended reals: what a proof needs when the law joining two programs holds on the reals but fails at
  the infinities (distributivity, cancelling, moving a factor across a sum).

  * `AllReal f`: every value of f is a real number.
  * `coe_sum`: the coercion of a finite sum of reals is the sum of the coercions.
  * `sum_mul_real`: a finite sum of products of real entries is a real.
  * `add_mul_real`: (a + b) * c = a * c + b * c for real a, b, c.
  * `allReal_of_reduce`, generic in the array's shape: if the "and" over all axes of the comparisons |v i| < +infinity is 1,
    every entry of v is a real — one array's part of the precondition "every float input is finite". An extended real whose
    absolute value max z (-z) is strictly below the top is neither infinity (both have absolute value top), hence a real.
-/
import Idealize.ShloMosaic.PureOps.Ideal
import Idealize.ShloMosaic.PureOps.Ideal.Laws
import Idealize.ShloMosaic.Lib.ValueIdx
import Idealize.ShloMosaic.Lib.ReduceAll

noncomputable section

namespace Cert.RealEntries

open Idealize.ShloMosaic
open scoped BigOperators

/-! ## Real entries and their arithmetic -/

/-- Every value of `f` is a real number (neither infinity). -/
def AllReal {ι : Type} (f : ι → EReal) : Prop := ∀ i, ∃ r : ℝ, f i = (r : EReal)

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of real entries is a real. -/
theorem sum_mul_real {ι : Type} (s : Finset ι) (f g : ι → EReal) (hf : AllReal f) (hg : AllReal g) :
    ∃ r : ℝ, ∑ k ∈ s, f k * g k = (r : EReal) := by
  choose f' hf' using hf
  choose g' hg' using hg
  refine ⟨∑ k ∈ s, f' k * g' k, ?_⟩
  rw [coe_sum]
  exact Finset.sum_congr rfl fun k _ => by rw [hf', hg', EReal.coe_mul]

/-- The distributive law on real entries: it is the reals' own. (On the extended reals it fails at the infinities: for a
    negative real x, (top + bot) * x = top while top * x + bot * x = bot.) -/
theorem add_mul_real {a b c : EReal} (ha : ∃ r : ℝ, a = (r : EReal)) (hb : ∃ r : ℝ, b = (r : EReal))
    (hc : ∃ r : ℝ, c = (r : EReal)) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-! ## From "every entry is finite" to "every entry is a real" -/

/-- The single-precision pattern `0x7F800000` denotes +infinity. -/
theorem ofBits_inf : Ideal.ofBits .f32 0x7F800000#32 = (⊤ : EReal) := by
  simp [Ideal.ofBits, Ideal.ieee]

/-- An extended real whose absolute value `max z (-z)` compares strictly below +infinity is a real:
    both infinities have absolute value `⊤`. -/
theorem real_of_abs_lt_inf (z : EReal)
    (h : Ideal.cmp .olt (max z (-z)) (Ideal.ofBits .f32 0x7F800000#32) = 1#1) : ∃ r : ℝ, z = (r : EReal) := by
  rw [ofBits_inf] at h
  induction z using EReal.rec with
  | bot => simp [Ideal.cmp] at h
  | coe r => exact ⟨r, rfl⟩
  | top => simp [Ideal.cmp] at h

/-- The scalar shape has exactly one index. -/
instance scalarIdx_subsingleton : Subsingleton (⟨0, ![]⟩ : Shape).Idx :=
  ⟨fun a b => funext fun d => d.elim0⟩

/-- One array's part of the predicate, for any shape: if the "and" over all axes of the comparisons
    `|v i| < +inf` is 1, every entry of `v` is a real. -/
theorem allReal_of_reduce {S T U C : Shape} [Subsingleton T.Idx] {axes : List (Fin S.rank)}
    (hr : S.ReducesTo axes T) (hu : 0 < U.numel) (dims : Fin C.rank → Fin S.rank) (hb : C.BroadcastsInDim S dims)
    (v : FVec Ideal S .f32) (init : IVec U 1) (j : T.Idx)
    (e : Host.reduce IntOp.andi
          (cmpf .olt (Host.absf v) (broadcastInDim S dims hb (constant C .f32 0x7F800000#32))) init hr hu j = 1#1) :
    ∀ i, ∃ r : ℝ, v i = (r : EReal) := by
  intro i
  have h1 : Ideal.cmp .olt (max (v i) (-(v i))) (Ideal.ofBits .f32 0x7F800000#32) = 1#1 :=
    Host.reduce_andi_all _ init hr hu j e i
  exact real_of_abs_lt_inf (v i) h1

end Cert.RealEntries

end
-- ==== Proof.SpecPre.lean ====
/-
  From the precondition to real entries.  The precondition is the conjunction, over the four float arguments (the node
  features, the three weight matrices, the scales and the shifts), of "every entry's absolute value is strictly below
  +infinity", each conjunct the "and" of the comparisons over all axes of its array.  A conjunction that is 1 has every
  conjunct 1; an "and" over all axes that is 1 has every comparison 1; and an extended real whose absolute value is
  strictly below the top is neither infinity, hence a real number.  The integer edge array takes no part.
-/
import proofs.«131019_j5282809775007_1_alg».proof.Proof.LibRealEntries
import proofs.«131019_j5282809775007_1_alg».proof.Pre_finite_inputs

noncomputable section

namespace Cert.GcnSpec

open Idealize.ShloMosaic Cert.RealEntries Cert.Pre_finite_inputs

/-- If the precondition holds of the arguments, every entry of every float argument is a real. -/
theorem args_real [Facts] (x : FVec Ideal S100000x128 .f32) (ei : IVec S2x1600000 32)
    (Ws : FVec Ideal S3x128x128 .f32) (gammas betas : FVec Ideal S2x128 .f32)
    (h : fn (F := Ideal) x ei Ws gammas betas = (fun _ => 1#1)) :
    AllReal x ∧ AllReal Ws ∧ AllReal gammas ∧ AllReal betas := by
  have h0 := congrFun h ValueIdx.ix0
  dsimp only [fn, fn_part1, andi] at h0
  obtain ⟨h123, h4⟩ := IntOp.andi_eq_one.1 h0
  obtain ⟨h12, h3⟩ := IntOp.andi_eq_one.1 h123
  obtain ⟨h1, h2⟩ := IntOp.andi_eq_one.1 h12
  exact ⟨allReal_of_reduce _ _ _ _ x _ _ h1, allReal_of_reduce _ _ _ _ Ws _ _ h2,
    allReal_of_reduce _ _ _ _ gammas _ _ h3, allReal_of_reduce _ _ _ _ betas _ _ h4⟩

end Cert.GcnSpec

end
-- ==== Proof.SpecLayout.lean ====
/-
  The host's layout operations and reductions read at an index given by coordinates, for arbitrary extents.

  * A scalar broadcast to any shape reads the scalar everywhere.
  * A vector [b] laid as one row [1, b] and that row spread down a rows reads, at (p, c), the vector at c.
  * A sum over the rows of an [a, b] array reads, at column c, the initial value plus the sum of the column's a entries.
  * A maximum along the lanes of an [a, b] array, taken from minus infinity, reads at row r the supremum of the row's b
    entries: minus infinity is the bottom of the extended reals, the neutral element of the maximum, and the fold of
    the maximum from the bottom over a finite set is that set's supremum.
-/
import Idealize.ShloMosaic.Lib.Pipeline.Value
import Idealize.ShloMosaic.Lib.ValueIdx
import Idealize.ShloMosaic.Lib.ValueLayout
import Idealize.ShloMosaic.PureOps.Ideal.Laws
import proofs.«131019_j5282809775007_1_alg».proof.Proof.LibColSum
import proofs.«131019_j5282809775007_1_alg».proof.Proof.LibRowSum

noncomputable section

open scoped BigOperators

namespace Cert.GcnSpec

open Idealize.ShloMosaic Idealize.ShloMosaic.ValueIdx

variable {α : Type}

/-! ## Broadcasts -/

/-- A scalar broadcast to any shape reads the scalar at every index. -/
theorem bcastScalar_apply {t : Shape} (h : (⟨0, ![]⟩ : Shape).BroadcastsInDim t ![])
    (x : (⟨0, ![]⟩ : Shape).Idx → α) (j : t.Idx) : broadcastInDim t ![] h x j = x ix0 :=
  broadcastInDim_apply _ h x j ix0 fun ax => ax.elim0

/-- A vector [b] laid along axis 1 of the row [1, b] reads, at (u, c), the vector at c. -/
theorem bcast_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A row [1, b] spread down a rows reads, at (p, c), the row at c. -/
theorem bcast_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector [b] laid as one row and spread down a rows reads, at (p, c), the vector at c. -/
theorem bcastCols_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 x) (ix2 p c) = x (ix1 c) :=
  (bcast_1b_ab_apply _ h2 p c).trans (bcast_b_1b_apply x h1 0 c)

/-- A vector [a] laid as one column and spread over b lanes reads, at (p, c), the vector at p. -/
theorem bcastRows_apply {a b : ℕ} (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 x) (ix2 p c) = x (ix1 p) :=
  (Cert.LibRowSum.broadcastInDim_a1_ab_apply _ h2 p c).trans (Cert.LibRowSum.broadcastInDim_a_a1_apply x h1 p 0)

/-! ## A column's sum -/

/-- The host's sum of an [a, b] array over the rows reads, at column c, the initial value plus the sum of the column. -/
theorem hostReduceAdd_col_apply {a b : ℕ} {φ : FTy} {u : Shape} (x : FVec Ideal ⟨2, ![a, b]⟩ φ) (init : u.Idx → Ideal φ)
    (h' : (⟨2, ![a, b]⟩ : Shape).ReducesTo [0] ⟨1, ![b]⟩) (hu : 0 < u.numel)
    (h : (⟨2, ![a, b]⟩ : Shape).Reduces [0] ⟨1, ![b]⟩) (c : Fin b) :
    Host.reduceAdd x init h' hu (ix1 c) = init (Shape.Idx.first hu) + ∑ r : Fin a, x (ix2 r c) := by
  simp only [Host.reduceAdd, Ideal.hostReduceAdd_def]
  rw [Ideal.hostReduceAdd_single h' h]
  exact congrArg (_ + ·) (Finset.sum_congr rfl fun r _ => congrArg x (Cert.LibColSum.lift_row h c r))

/-! ## A row's maximum -/

/-- The single-precision pattern 0xFF800000 denotes minus infinity, the bottom of the extended reals. -/
theorem ofBits_negInf : Ideal.ofBits .f32 0xFF800000#32 = (⊥ : EReal) := by
  simp [Ideal.ofBits, Ideal.ieee]

/-- The host's maximum of an [a, b] array along the lanes, from minus infinity, reads at row r the supremum of the row. -/
theorem hostReduceMax_lane_apply {a b : ℕ} (x : FVec Ideal ⟨2, ![a, b]⟩ .f32)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (r : Fin a) :
    Host.reduce (FloatOps.maximumf (F := Ideal) (φ := .f32)) x (constant (F := Ideal) ⟨0, ![]⟩ .f32 0xFF800000#32) h' hu (ix1 r)
      = Finset.univ.sup fun k : Fin b => x (ix2 r k) := by
  rw [Host.reduce_eq_fold_single FloatOps.maximumf x _ h' h hu]
  have hf : (x ∘ h.lift (ix1 r)) = fun k : Fin b => x (ix2 r k) :=
    funext fun k => congrArg x (Cert.LibRowSum.lift_lane h r k)
  rw [hf, constant_apply, ofBits_negInf]
  rfl

end Cert.GcnSpec

end
-- ==== Proof.KIV.KernelStats.lean ====
/-
  The kernel program's column statistics are the specification's.  The two accumulated rows of a layer are the
  column sums and the column sums of squares; divided by the row count they give the mean row and, as the mean of
  squares less the square of the mean, the variance row: read column by column these are the specification's mean
  and variance, so the layer's normalisation is the specification's at those statistics.  A layer's scale and shift
  rows are a row of the 2 × 128 parameter array, reshaped to a vector and on to a 1 × 128 row: read at column j that
  is the vector at j.
-/
import proofs.«131019_j5282809775007_1_alg».proof.Proof.KIV.KernelFn
import proofs.«131019_j5282809775007_1_alg».proof.Proof.Ref.Stages
import proofs.«131019_j5282809775007_1_alg».proof.Proof.Spec
import proofs.«131019_j5282809775007_1_alg».proof.Proof.SpecLayout
import proofs.«131019_j5282809775007_1_alg».proof.Proof.LibRowBias
import Idealize.ShloMosaic.Lib.ValueLayout
import Idealize.ShloMosaic.Lib.Pipeline.Value

set_option maxRecDepth 16384

noncomputable section

namespace Cert.KernelIdeal.HandValue

open Cert.KernelIdeal Cert.KernelIdeal.Gen Cert.GcnSpec
open Idealize.ShloMosaic Idealize.ShloMosaic.ValueIdx

/-! ## The mean and the variance -/

/-- An accumulated row divided by the row count, read at column `j`: the entry divided by the row count (the
    divisor is the row-count constant broadcast from a scalar, which reads the scalar everywhere). -/
theorem perRow_col (s : Row) (j : Fin 128) : colOf (perRow s) j = Ideal.div (colOf s j) rowCount := by
  unfold colOf perRow
  show Ideal.div (s (ix2 (0 : Fin 1) j))
      (broadcastInDim S1x128 ![] bcast_S_S1x128 (constant (F := Ideal) S_ .f32 0x47C35000#32) (ix2 (0 : Fin 1) j)) = _
  rw [bcastScalar_apply bcast_S_S1x128 (constant (F := Ideal) S_ .f32 0x47C35000#32) (ix2 (0 : Fin 1) j)]
  rfl

/-- The mean row of the column sums is the specification's mean. -/
theorem mean_of_rows (a : Nodes) : colOf (perRow (sumRow a)) = Cert.GcnSpec.mean a := by
  funext j
  rw [perRow_col]
  rfl

/-- The variance row of the column sums and column sums of squares is the specification's variance in its
    mean-of-squares form. -/
theorem var_of_rows (a : Nodes) : colOf (varRow (sumRow a) (sqRow a)) = Cert.GcnSpec.varOfSquares a := by
  funext j
  show colOf (perRow (sqRow a)) j - colOf (perRow (sumRow a)) j * colOf (perRow (sumRow a)) j = _
  rw [perRow_col, perRow_col]
  rfl

/-- One layer's normalisation as the kernel program computes it is the specification's at the specification's
    statistics. -/
theorem norm_eq (a : Nodes) (g b : Row) :
    norm a g b = Cert.GcnSpec.normRelu a (Cert.GcnSpec.mean a) (Cert.GcnSpec.varOfSquares a) (colOf g) (colOf b) := by
  unfold norm
  rw [mean_of_rows, var_of_rows]

/-! ## The scale and shift rows -/

/-- Row 0 of a parameter array as a 1 × 128 row, read column by column, is the row as a vector. -/
theorem gamma0_col (gam : (⟨S2x128, .f32⟩ : BufTy).Contents (Elt Ideal)) :
    colOf (paramRow0 gam) = fun j => Cert.ReferenceIdeal.HandRun.gammaRow0 gam (ix1 j) := by
  funext j
  unfold colOf paramRow0
  exact Cert.RowBias.rowOf_apply (b := 128) _ shapeCasts_S128_S1x128 j

theorem beta0_col (bet : (⟨S2x128, .f32⟩ : BufTy).Contents (Elt Ideal)) :
    colOf (paramRow0 bet) = fun j => Cert.ReferenceIdeal.HandRun.betaRow0 bet (ix1 j) := by
  funext j
  unfold colOf paramRow0
  exact Cert.RowBias.rowOf_apply (b := 128) _ shapeCasts_S128_S1x128 j

/-- Row 1 of a parameter array as a 1 × 128 row, read column by column, is the row as a vector. -/
theorem gamma1_col (gam : (⟨S2x128, .f32⟩ : BufTy).Contents (Elt Ideal)) :
    colOf (paramRow1 gam) = fun j => Cert.ReferenceIdeal.HandRun.gammaRow1 gam (ix1 j) := by
  funext j
  unfold colOf paramRow1
  exact Cert.RowBias.rowOf_apply (b := 128) _ shapeCasts_S128_S1x128 j

theorem beta1_col (bet : (⟨S2x128, .f32⟩ : BufTy).Contents (Elt Ideal)) :
    colOf (paramRow1 bet) = fun j => Cert.ReferenceIdeal.HandRun.betaRow1 bet (ix1 j) := by
  funext j
  unfold colOf paramRow1
  exact Cert.RowBias.rowOf_apply (b := 128) _ shapeCasts_S128_S1x128 j

end Cert.KernelIdeal.HandValue

end
-- ==== Proof.LibBatchNormMoments.lean ====
/-
  Batch-normalisation moments on the extended reals.

  For a finite family of REAL numbers x (read as extended reals), and a real n ≠ 0 equal to the number of entries,
  the "one-pass" variance   (∑ xᵢ²)/n − ((∑ xᵢ)/n)²   and the "two-pass" variance   (∑ (xᵢ − μ)²)/n,  μ = (∑ xᵢ)/n,
  are the same extended real.  Over ℝ this is the expansion
      ∑ (xᵢ − μ)² = ∑ xᵢ² − 2 μ ∑ xᵢ + n μ²   with   ∑ xᵢ = n μ ;
  it uses distributivity, which fails at ±∞, so the entries must be real: with an infinite entry the two forms differ
  (⊤ − ⊤ = ⊥ on one side, a square on the other).  Division is the extended reals' division by a nonzero real,
  which is multiplication by the real reciprocal.
-/
import Mathlib
import Idealize.ShloMosaic.PureOps.Ideal

noncomputable section

namespace Cert.Lib.BatchNormMoments

open Idealize.ShloMosaic

/-- The coercion of reals into the extended reals commutes with a finite sum. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Over the reals: the second moment minus the squared mean is the mean of the squared deviations from the mean. -/
theorem real_variance_two_forms {ι : Type*} [Fintype ι] (x : ι → ℝ) (n : ℝ) (hn : n ≠ 0)
    (hcard : (Fintype.card ι : ℝ) = n) :
    (∑ i, x i * x i) * (1 / n) - ((∑ i, x i) * (1 / n)) * ((∑ i, x i) * (1 / n))
      = (∑ i, (x i - (∑ j, x j) * (1 / n)) * (x i - (∑ j, x j) * (1 / n))) * (1 / n) := by
  generalize hS : (∑ i, x i) = S
  have hexp : ∀ i, (x i - S * (1 / n)) * (x i - S * (1 / n))
      = x i * x i - (2 * (S * (1 / n))) * x i + (S * (1 / n)) * (S * (1 / n)) := fun i => by ring
  have hsum : (∑ i, (x i - S * (1 / n)) * (x i - S * (1 / n)))
      = (∑ i, x i * x i) - (2 * (S * (1 / n))) * S + n * ((S * (1 / n)) * (S * (1 / n))) := by
    simp only [hexp, Finset.sum_add_distrib, Finset.sum_sub_distrib, ← Finset.mul_sum, hS, Finset.sum_const,
      Finset.card_univ, nsmul_eq_mul, hcard]
    ring
  rw [hsum]
  field_simp
  ring

/-- On the extended reals, for REAL entries: the one-pass variance (second moment minus squared mean) is the two-pass
    variance (mean of squared deviations), every quotient the division by the real n ≠ 0 that counts the entries. -/
theorem variance_two_forms {ι : Type*} [Fintype ι] (x : ι → ℝ) (n : ℝ) (hn : n ≠ 0)
    (hcard : (Fintype.card ι : ℝ) = n) :
    Ideal.div (∑ i, ((x i : ℝ) : EReal) * ((x i : ℝ) : EReal)) (n : EReal)
        - Ideal.div (∑ i, ((x i : ℝ) : EReal)) (n : EReal) * Ideal.div (∑ i, ((x i : ℝ) : EReal)) (n : EReal)
      = Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) := by
  simp only [Ideal.div_coe hn, ← coe_finset_sum, ← EReal.coe_mul, ← EReal.coe_sub]
  exact congrArg _ (real_variance_two_forms x n hn hcard)

/-- The mean of real entries is real: the quotient of their sum by a nonzero real. -/
theorem mean_coe {ι : Type*} [Fintype ι] (x : ι → ℝ) (n : ℝ) (hn : n ≠ 0) :
    Ideal.div (∑ i, ((x i : ℝ) : EReal)) (n : EReal) = (((∑ i, x i) * (1 / n) : ℝ) : EReal) := by
  rw [Ideal.div_coe hn, ← coe_finset_sum, ← EReal.coe_mul]

/-- The two-pass variance of real entries is a NONNEGATIVE real: a sum of squares over a positive count. -/
theorem variance_coe_nonneg {ι : Type*} [Fintype ι] (x : ι → ℝ) (n : ℝ) (hn : 0 < n) :
    ∃ v : ℝ, 0 ≤ v ∧
      Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) = ((v : ℝ) : EReal) := by
  refine ⟨(∑ i, (x i - (∑ j, x j) * (1 / n)) * (x i - (∑ j, x j) * (1 / n))) * (1 / n), ?_, ?_⟩
  · exact mul_nonneg (Finset.sum_nonneg fun i _ => mul_self_nonneg _) (by positivity)
  · simp only [Ideal.div_coe hn.ne', ← coe_finset_sum, ← EReal.coe_mul, ← EReal.coe_sub]

end Cert.Lib.BatchNormMoments

end
-- ==== Proof.SpecLaws.lean ====
/-
  The laws of the column statistics on the extended reals, for arrays whose entries are all real numbers.

  * The float patterns of the row count and of the variance offset denote the real 100000 and a positive real.
  * For real entries the two textbook forms of a column's variance agree: the mean of the squares minus the square of
    the mean is the mean of the squared deviations (the expansion of the square and distributivity, which hold on the
    reals and fail at the infinities).
  * For real entries a column's mean is a real, its variance a nonnegative real, and therefore the normalised, scaled,
    shifted and clamped array is again real: the variance plus the positive offset is a positive real, whose reciprocal
    square root is a real.
-/
import proofs.«131019_j5282809775007_1_alg».proof.Proof.Spec
import proofs.«131019_j5282809775007_1_alg».proof.Proof.LibBatchNormMoments
import proofs.«131019_j5282809775007_1_alg».proof.Proof.LibRealEntries

noncomputable section

namespace Cert.GcnSpec

open Idealize.ShloMosaic Idealize.ShloMosaic.ValueIdx Cert.RealEntries Cert.Lib.BatchNormMoments

/-- The pattern of the row count denotes the real 100000: (2^23 + 4411392) * 2^(143 - 127 - 23). -/
theorem rowCount_eq : rowCount = ((100000 : ℝ) : EReal) := by
  simp [rowCount, Ideal.ofBits, Ideal.ieee, -EReal.coe_mul]; norm_num

/-- The pattern of the offset denotes a positive real: (2^23 + 2606508) * 2^(110 - 127 - 23). -/
theorem offset_pos : ∃ e : ℝ, 0 < e ∧ offset = (e : EReal) := by
  refine ⟨10995116 * (2 : ℝ) ^ (-40 : ℤ), by positivity, ?_⟩
  simp [offset, Ideal.ofBits, Ideal.ieee, -EReal.coe_mul]

/-- The number of rows, as a real, is the number of indices a column is summed over. -/
private theorem card_rows : (Fintype.card (Fin 100000) : ℝ) = 100000 := by
  rw [Fintype.card_fin]; norm_num

/-- For real entries the two forms of the variance agree, column by column. -/
theorem var_forms (a : Mat) (ha : AllReal a) : varOfSquares a = varOfDeviations a := by
  choose a' ha' using ha
  funext j
  simp only [varOfSquares, varOfDeviations, mean, colSum, rowCount_eq, ha']
  exact variance_two_forms (fun r : Fin 100000 => a' (ix2 r j)) 100000 (by norm_num) card_rows

/-- The mean of a column of reals is a real. -/
theorem mean_real (a : Mat) (ha : AllReal a) : AllReal (mean a) := by
  choose a' ha' using ha
  intro j
  refine ⟨(∑ r : Fin 100000, a' (ix2 r j)) * (1 / 100000), ?_⟩
  simp only [mean, colSum, rowCount_eq, ha']
  exact mean_coe (fun r : Fin 100000 => a' (ix2 r j)) 100000 (by norm_num)

/-- The variance of a column of reals is a nonnegative real. -/
theorem varOfDeviations_nonneg (a : Mat) (ha : AllReal a) (j : Fin 128) :
    ∃ v : ℝ, 0 ≤ v ∧ varOfDeviations a j = (v : EReal) := by
  choose a' ha' using ha
  simp only [varOfDeviations, mean, colSum, rowCount_eq, ha']
  exact variance_coe_nonneg (fun r : Fin 100000 => a' (ix2 r j)) 100000 (by norm_num)

/-- The variance of a column of reals is a real. -/
theorem varOfDeviations_real (a : Mat) (ha : AllReal a) : AllReal (varOfDeviations a) := fun j =>
  let ⟨v, _, hv⟩ := varOfDeviations_nonneg a ha j; ⟨v, hv⟩

/-- The reciprocal square root of a positive real is a real. -/
theorem rsqrt_real {p : ℝ} (hp : 0 < p) : Ideal.rsqrt (p : EReal) = (((Real.sqrt p)⁻¹ : ℝ) : EReal) := by
  rw [Ideal.rsqrt_coe, if_neg (not_lt.mpr hp.le), if_neg hp.ne']

/-- Normalising real entries by real means and nonnegative real variances, with real scales and shifts, gives reals. -/
theorem normRelu_real_of (a : Mat) (mu var g b : Col) (ha : AllReal a) (hmu : AllReal mu)
    (hvar : ∀ j, ∃ v : ℝ, 0 ≤ v ∧ var j = (v : EReal)) (hg : AllReal g) (hb : AllReal b) :
    AllReal (normRelu a mu var g b) := by
  intro i
  obtain ⟨x, hx⟩ := ha i
  obtain ⟨m, hm⟩ := hmu (i 1)
  obtain ⟨v, hv0, hv⟩ := hvar (i 1)
  obtain ⟨s, hs⟩ := hg (i 1)
  obtain ⟨t, ht⟩ := hb (i 1)
  obtain ⟨e, he0, he⟩ := offset_pos
  refine ⟨max ((x - m) * (Real.sqrt (v + e))⁻¹ * s + t) 0, ?_⟩
  have hp : 0 < v + e := by linarith
  rw [normRelu, hx, hm, hv, hs, ht, he, ← EReal.coe_add v e, rsqrt_real hp, ← EReal.coe_sub, ← EReal.coe_mul,
    ← EReal.coe_mul, ← EReal.coe_add, ← EReal.coe_zero]
  exact (EReal.coe_strictMono.monotone.map_max).symm

/-- Normalising real entries by their own column statistics gives reals. -/
theorem normRelu_real (a : Mat) (g b : Col) (ha : AllReal a) (hg : AllReal g) (hb : AllReal b) :
    AllReal (normRelu a (mean a) (varOfDeviations a) g b) :=
  normRelu_real_of a _ _ g b ha (mean_real a ha) (varOfDeviations_nonneg a ha) hg hb

end Cert.GcnSpec

end
-- ==== Proof.RefSpec.lean ====
/-
  The reference's stages are the specification: each stage of the three-layer graph convolution, written as the
  composition of the host's operations, is read index by index and found to be the textbook formula.

  * The host's product of a 100000 × 128 by a 128 × 128 array is, at (r, c), the sum over k of x(r, k) · w(k, c).
  * The column mean is the column's sum divided by the row count.
  * The column variance is the mean of the squared deviations from the column's mean: the guard on the degrees of
    freedom compares 100000 − 0 with 0, which holds, so the quotient is kept; its divisor 100000 − 0 is the row count.
  * Normalisation subtracts the mean, multiplies by the reciprocal square root of the variance plus the offset, scales,
    shifts, and takes the maximum with zero, the column quantities spread down the rows.
  * The log-softmax subtracts from each entry its row's maximum (the supremum of the row, taken from minus infinity) and
    then the logarithm of the row's sum of the exponentials of those differences.
-/
import proofs.«131019_j5282809775007_1_alg».proof.Proof.Ref.Stages
import proofs.«131019_j5282809775007_1_alg».proof.Proof.Spec
import proofs.«131019_j5282809775007_1_alg».proof.Proof.SpecLaws
import proofs.«131019_j5282809775007_1_alg».proof.Proof.SpecLayout
import proofs.«131019_j5282809775007_1_alg».proof.Proof.LibMatProd

noncomputable section

open scoped BigOperators

namespace Cert.GcnSpec

open Idealize.ShloMosaic Idealize.ShloMosaic.ValueIdx Cert.ReferenceIdeal Cert.ReferenceIdeal.Gen

/-- The rows of a 100000 × 128 array reduce onto its 128 columns. -/
private theorem reduces_rows : S100000x128.Reduces [0] S128 := by decide

/-- The lanes of a 100000 × 128 array reduce onto its 100000 rows. -/
private theorem reduces_lanes : S100000x128.Reduces [1] S100000 := by decide

/-! ## The host's entrywise operations read at an index -/

private theorem hostDivf_apply {s : Shape} (x y : FVec Ideal s .f32) (i : s.Idx) :
    Host.divf (F := Ideal) (φ := .f32) x y i = Ideal.div (x i) (y i) := rfl

private theorem hostRsqrt_apply {s : Shape} (x : FVec Ideal s .f32) (i : s.Idx) :
    Host.rsqrt (F := Ideal) (φ := .f32) x i = Ideal.rsqrt (x i) := rfl

private theorem hostLog_apply {s : Shape} (x : FVec Ideal s .f32) (i : s.Idx) :
    Host.log (F := Ideal) (φ := .f32) x i = Ideal.log (x i) := rfl

private theorem hostExp_apply {s : Shape} (x : FVec Ideal s .f32) (i : s.Idx) :
    Host.exp (F := Ideal) (φ := .f32) x i = Ideal.exp (x i) := rfl

/-! ## The matrix product -/

/-- The host's product is the rows-by-columns product. -/
theorem hostDot_eq (x : FVec Ideal S100000x128 .f32) (w : FVec Ideal S128x128 .f32) :
    Host.dotGeneral (F := Ideal) (φ₁ := .f32) (φ₂ := .f32) dot_S100000x128_S128x128_S100000x128_1_0_0_1_n_n none x w
      = Cert.Spec.rowsByCols x w := by
  funext j
  exact Cert.MatProd.hostDot_apply dot_S100000x128_S128x128_S100000x128_1_0_0_1_n_n rfl rfl
    (fun _ _ => rfl) (fun j k => DotDims.lhsIdx_val_of_single _ rfl j k)
    (fun j k => DotDims.rhsIdx_val_of_single _ rfl j k) (fun _ _ => rfl) x w j

/-! ## The column statistics -/

/-- The host's sum of a column from the zero initial value is the column's sum. -/
private theorem colSum_apply (a : Mat) (j : Fin 128) :
    Host.reduceAdd (F := Ideal) (φ := .f32) a (constant (F := Ideal) S_ .f32 0x00000000#32)
      reducesTo_S100000x128_S128_d0 h_S_ (ix1 j) = colSum a j := by
  rw [hostReduceAdd_col_apply a _ reducesTo_S100000x128_S128_d0 h_S_ reduces_rows j, constant_apply,
    Ideal.ofBits_zero_f32, zero_add]
  rfl

/-- The column mean is the column's sum divided by the row count. -/
theorem colMean_eq (a : Mat) (j : Fin 128) : Cert.ReferenceIdeal.HandRun.colMean a (ix1 j) = mean a j := by
  unfold Cert.ReferenceIdeal.HandRun.colMean
  rw [hostDivf_apply, colSum_apply, bcastScalar_apply]
  rfl

/-- Each centred entry is the entry minus its column's mean. -/
private theorem varCentered_apply (a : Mat) (r : Fin 100000) (j : Fin 128) :
    Cert.ReferenceIdeal.HandRun.varCentered a (ix2 r j) = a (ix2 r j) - mean a j := by
  unfold Cert.ReferenceIdeal.HandRun.varCentered
  rw [subf_apply, bcast_1b_ab_apply, hostDivf_apply, bcast_b_1b_apply, colSum_apply, bcastScalar_apply]
  rfl

/-- The guard's left side, 100000 − 0 with the integer 0 converted, is the row count. -/
private theorem guard_eq :
    subf (F := Ideal) (φ := .f32) (constant (F := Ideal) S_ .f32 0x47C35000#32)
      (sitofp (F := Ideal) .f32 (constantI S_ 32 0#32)) ix0 = rowCount := by
  show rowCount - (((0#32 : BitVec 32).toInt : ℝ) : EReal) = rowCount
  simp

/-- The column variance is the mean of the squared deviations from the column's mean. -/
theorem colVar_eq (a : Mat) (j : Fin 128) : Cert.ReferenceIdeal.HandRun.colVar a (ix1 j) = varOfDeviations a j := by
  unfold Cert.ReferenceIdeal.HandRun.colVar
  rw [select_apply, bcastScalar_apply, cmpf_apply, guard_eq, constant_apply, Ideal.ofBits_zero_f32]
  have hg : FloatOps.cmpf (F := Ideal) (φ := .f32) .ogt rowCount 0 = 1#1 := by
    show Ideal.cmp .ogt rowCount 0 = 1#1
    rw [rowCount_eq]
    simp [Ideal.cmp]
  rw [hg, select_one, hostDivf_apply, hostReduceAdd_col_apply _ _ reducesTo_S100000x128_S128_d0 h_S_ reduces_rows j, bcastScalar_apply, guard_eq,
    constant_apply, Ideal.ofBits_zero_f32, zero_add]
  simp only [mulf_apply, varCentered_apply]
  rfl

/-! ## Normalisation -/

/-- Batch normalisation with the rectifier is the normalisation by the column's mean and variance. -/
theorem bnRelu_eq (a : Mat) (g b : FVec Ideal S128 .f32) :
    Cert.ReferenceIdeal.HandRun.bnRelu a g b
      = normRelu a (mean a) (varOfDeviations a) (fun j => g (ix1 j)) (fun j => b (ix1 j)) := by
  funext i
  obtain ⟨r, c, rfl⟩ : ∃ (r : Fin 100000) (c : Fin 128), i = ix2 r c := ⟨i 0, i 1, eq_ix2 i⟩
  unfold Cert.ReferenceIdeal.HandRun.bnRelu
  rw [maximumf_apply, addf_apply, mulf_apply, mulf_apply, subf_apply, bcastCols_apply, bcastCols_apply,
    bcastCols_apply, bcastCols_apply, bcastScalar_apply, constant_apply, Ideal.ofBits_zero_f32, colMean_eq, hostRsqrt_apply, addf_apply,
    colVar_eq, bcastScalar_apply]
  rfl

/-! ## The log-softmax -/

/-- Each shifted entry is the entry minus its row's maximum. -/
private theorem lsShifted_apply (a : Mat) (r : Fin 100000) (k : Fin 128) :
    Cert.ReferenceIdeal.HandRun.lsShifted a (ix2 r k) = a (ix2 r k) - rowMax a r := by
  unfold Cert.ReferenceIdeal.HandRun.lsShifted
  rw [subf_apply, bcastRows_apply, maximumf_apply, bcastScalar_apply, constant_apply, ofBits_negInf,
    hostReduceMax_lane_apply a reducesTo_S100000x128_S100000_d1 h_S_ reduces_lanes r, bot_sup_eq]
  rfl

/-- The reference's log-softmax is the row-wise log-softmax. -/
theorem logSoftmax_eq (a : Mat) : Cert.ReferenceIdeal.HandRun.logSoftmax a = logSoftmax a := by
  funext i
  obtain ⟨r, c, rfl⟩ : ∃ (r : Fin 100000) (c : Fin 128), i = ix2 r c := ⟨i 0, i 1, eq_ix2 i⟩
  unfold Cert.ReferenceIdeal.HandRun.logSoftmax
  rw [subf_apply, Cert.LibRowSum.broadcastInDim_a1_ab_apply, lsShifted_apply, hostLog_apply,
    Cert.LibRowSum.broadcastInDim_a_a1_apply,
    Cert.LibRowSum.hostReduceAdd_lane_apply _ _ reducesTo_S100000x128_S100000_d1 h_S_ reduces_lanes r, constant_apply,
    Ideal.ofBits_zero_f32, zero_add]
  refine congrArg (fun s => (a (ix2 r c) - rowMax a r) - Ideal.log s) (Finset.sum_congr rfl fun k _ => ?_)
  rw [hostExp_apply, lsShifted_apply]

end Cert.GcnSpec

end
-- ==== Proof.LibRowIndexOps.lean ====
/-
  The host's gather of ROWS and accumulating scatter of ROWS through ONE column of start indices, read at an index: what
  x[idx] and a segment sum lower to.

  * rowGather / rowGather_apply: operand [N, C], start indices [E, 1], result [E, C]. Result element (e, c) is the operand at
    row idx[e, 0], read as a signed integer and clamped into [0, N - 1], column c.
  * flatGather / flatGather_apply: the same for a flat operand [N] and result [E].
  * rowScatter / rowScatterAdd_apply: operand [N, C], start indices [E, 1], updates [E, C], body "add". Result element (n, c) is
    the operand's plus the sum of the updates (e, c) over the rows e whose start word idx[e, 0], read as a signed integer and
    NOT clamped, is exactly n (an update whose start leaves [0, N) is dropped, so it is in no row's sum).
  * flatScatter / flatScatterAdd_apply: the same for a flat operand [N] and updates [E].

  Everything is generic in the sizes N, E, C: membership and positions are computed on the literal axis lists only, and no
  index type is enumerated.
-/
import Idealize.ShloMosaic.PureOps.Ideal
import Idealize.ShloMosaic.Lib.ValueIdx

noncomputable section

open scoped BigOperators

namespace Cert.RowIndexOps
open Idealize.ShloMosaic Idealize.ShloMosaic.ValueIdx

/-! ## Sums over a rank-1 index set -/

/-- A rank-1 index set is its one coordinate's range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The accumulating scatter of rows -/

/-- rows scattered: operand [N, C], start indices one column [E, 1], updates [E, C] -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- on the row axis the window starts at the start word of row e, read signed -/
private theorem rowScatter_start0 :
    (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- on the column axis the window starts at 0 -/
private theorem rowScatter_start1 : (rowScatter N E C wf).start (ix2 e c') idx 1 = 0 := by
  have h1 : (1 : Fin 2) ∉ ([0] : List (Fin 2)) := by decide
  unfold ScatterDims.start
  rw [dif_neg (show (1 : Fin 2) ∉ (rowScatter N E C wf).scatterDimsToOperandDims from h1)]

/-- the row axis is inserted: its window coordinate is 0 -/
private theorem rowScatter_window0 : (rowScatter N E C wf).window (ix2 e c') 0 = 0 := by
  have h0 : (0 : Fin 2) ∉ (rowScatter N E C wf).sKept := by
    show (0 : Fin 2) ∉ (List.finRange 2).filter (· ∉ ([0] : List (Fin 2)))
    decide
  unfold ScatterDims.window
  rw [dif_neg h0]

/-- the column axis carries the update's column -/
private theorem rowScatter_window1 : (rowScatter N E C wf).window (ix2 e c') 1 = c'.val := by
  have h1 : (1 : Fin 2) ∈ (rowScatter N E C wf).sKept := by
    show (1 : Fin 2) ∈ (List.finRange 2).filter (· ∉ ([0] : List (Fin 2)))
    decide
  unfold ScatterDims.window
  rw [dif_pos h1]
  rfl

/-- update (e, c') lands at (n, c) exactly when row e's start word, read signed, is n and the columns agree -/
private theorem rowScatter_resultIdx_iff (n : Fin N) (c : Fin C) :
    (rowScatter N E C wf).resultIdx? (ix2 e c') idx = some (ix2 n c)
      ↔ (idx (ix2 e (0 : Fin 1))).toInt = (n.val : Int) ∧ c' = c := by
  have hn := n.isLt
  have hc := c.isLt
  have hc' := c'.isLt
  unfold ScatterDims.resultIdx?
  split
  · rename_i h
    rw [Option.some.injEq]
    have hh : 0 ≤ (rowScatter N E C wf).start (ix2 e c') idx 0 + ((rowScatter N E C wf).window (ix2 e c') 0 : Nat) := (h 0).1
    rw [rowScatter_start0, rowScatter_window0] at hh
    constructor
    · intro hf
      have h0 : ((rowScatter N E C wf).start (ix2 e c') idx 0 + ((rowScatter N E C wf).window (ix2 e c') 0 : Nat)).toNat = n.val :=
        congrArg (fun f : (⟨2, ![N, C]⟩ : Shape).Idx => (f 0).val) hf
      have h1 : ((rowScatter N E C wf).start (ix2 e c') idx 1 + ((rowScatter N E C wf).window (ix2 e c') 1 : Nat)).toNat = c.val :=
        congrArg (fun f : (⟨2, ![N, C]⟩ : Shape).Idx => (f 1).val) hf
      rw [rowScatter_start0, rowScatter_window0] at h0
      rw [rowScatter_start1, rowScatter_window1] at h1
      refine ⟨by omega, Fin.ext (by omega)⟩
    · rintro ⟨ht, rfl⟩
      funext a; refine Fin.ext ?_
      match a with
      | ⟨0, _⟩ =>
        show ((rowScatter N E C wf).start (ix2 e c') idx 0 + ((rowScatter N E C wf).window (ix2 e c') 0 : Nat)).toNat = n.val
        rw [rowScatter_start0, rowScatter_window0]; omega
      | ⟨1, _⟩ =>
        show ((rowScatter N E C wf).start (ix2 e c') idx 1 + ((rowScatter N E C wf).window (ix2 e c') 1 : Nat)).toNat = c'.val
        rw [rowScatter_start1, rowScatter_window1]; omega
  · rename_i h
    constructor
    · intro hf; cases hf
    · rintro ⟨ht, rfl⟩
      exfalso; apply h
      intro a
      match a with
      | ⟨0, _⟩ =>
        show 0 ≤ (rowScatter N E C wf).start (ix2 e c') idx 0 + ((rowScatter N E C wf).window (ix2 e c') 0 : Nat)
          ∧ (rowScatter N E C wf).start (ix2 e c') idx 0 + ((rowScatter N E C wf).window (ix2 e c') 0 : Nat) < (N : Int)
        rw [rowScatter_start0, rowScatter_window0]; omega
      | ⟨1, _⟩ =>
        show 0 ≤ (rowScatter N E C wf).start (ix2 e c') idx 1 + ((rowScatter N E C wf).window (ix2 e c') 1 : Nat)
          ∧ (rowScatter N E C wf).start (ix2 e c') idx 1 + ((rowScatter N E C wf).window (ix2 e c') 1 : Nat) < (C : Int)
        rw [rowScatter_start1, rowScatter_window1]; omega

end RowScatter

/-- the accumulated scatter at (n, c): the operand's element plus the updates (e, c) of the rows e whose start word, read SIGNED, is exactly n -/
theorem rowScatterAdd_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases ht : (idx (ix2 e (0 : Fin 1))).toInt = (n.val : Int)
  · simp [ht, Finset.sum_ite_eq']
  · simp [ht]

/-! ## The accumulating scatter into a flat operand -/

/-- a flat operand [N], start indices [E, 1], updates [E] -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section FlatScatter
variable {N E w : Nat} (wf : ScatterDims.WF ⟨1, ![N]⟩ ⟨2, ![E, 1]⟩ ⟨1, ![E]⟩ [] [0] [0] 1)
  (idx : IVec ⟨2, ![E, 1]⟩ w) (e : Fin E)

/-- on the one operand axis the window starts at the start word of entry e, read signed -/
private theorem flatScatter_start0 :
    (flatScatter N E wf).start (ix1 e) idx 0 = (idx (ix2 e (0 : Fin 1))).toInt := by
  unfold ScatterDims.start
  rw [dif_pos (show (0 : Fin 1) ∈ (flatScatter N E wf).scatterDimsToOperandDims from List.mem_singleton.mpr rfl)]
  have hsi : (flatScatter N E wf).siIdx (ix1 e) ⟨List.idxOf (0 : Fin 1) (flatScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- the one operand axis is inserted: its window coordinate is 0 -/
private theorem flatScatter_window0 : (flatScatter N E wf).window (ix1 e) 0 = 0 := by
  have h0 : (0 : Fin 1) ∉ (flatScatter N E wf).sKept := by
    show (0 : Fin 1) ∉ (List.finRange 1).filter (· ∉ ([0] : List (Fin 1)))
    decide
  unfold ScatterDims.window
  rw [dif_neg h0]

/-- update e lands at n exactly when its start word, read signed, is n -/
private theorem flatScatter_resultIdx_iff (n : Fin N) :
    (flatScatter N E wf).resultIdx? (ix1 e) idx = some (ix1 n) ↔ (idx (ix2 e (0 : Fin 1))).toInt = (n.val : Int) := by
  have hn := n.isLt
  unfold ScatterDims.resultIdx?
  split
  · rename_i h
    rw [Option.some.injEq]
    have hh : 0 ≤ (flatScatter N E wf).start (ix1 e) idx 0 + ((flatScatter N E wf).window (ix1 e) 0 : Nat) := (h 0).1
    rw [flatScatter_start0, flatScatter_window0] at hh
    constructor
    · intro hf
      have h0 : ((flatScatter N E wf).start (ix1 e) idx 0 + ((flatScatter N E wf).window (ix1 e) 0 : Nat)).toNat = n.val :=
        congrArg (fun f : (⟨1, ![N]⟩ : Shape).Idx => (f 0).val) hf
      rw [flatScatter_start0, flatScatter_window0] at h0
      omega
    · intro ht
      funext a; refine Fin.ext ?_
      match a with
      | ⟨0, _⟩ =>
        show ((flatScatter N E wf).start (ix1 e) idx 0 + ((flatScatter N E wf).window (ix1 e) 0 : Nat)).toNat = n.val
        rw [flatScatter_start0, flatScatter_window0]; omega
  · rename_i h
    constructor
    · intro hf; cases hf
    · intro ht
      exfalso; apply h
      intro a
      match a with
      | ⟨0, _⟩ =>
        show 0 ≤ (flatScatter N E wf).start (ix1 e) idx 0 + ((flatScatter N E wf).window (ix1 e) 0 : Nat)
          ∧ (flatScatter N E wf).start (ix1 e) idx 0 + ((flatScatter N E wf).window (ix1 e) 0 : Nat) < (N : Int)
        rw [flatScatter_start0, flatScatter_window0]; omega

end FlatScatter

/-- the accumulated scatter at n: the operand's element plus the updates e of the entries whose start word, read SIGNED, is exactly n -/
theorem flatScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (flatScatter N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter, sum_idx1]
  refine Finset.sum_congr rfl fun e _ => ?_
  simp only [flatScatter_resultIdx_iff]

/-! ## The gather of rows -/

/-- rows gathered: operand [N, C], start indices [E, 1], result [E, C] (offset axis 1, collapsed axis 0, slice sizes ![1, C]) -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- the gather at (e, c): the operand at the row the start word names, read signed and clamped into [0, N-1], same column -/
theorem rowGather_apply {α : Type} {N E C w : Nat} (hN : 0 < N) (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = _
    rw [GatherDims.batchCoord_eq_zero _ _ _ List.not_mem_nil]
    have h1 : (1 : Fin 2) ∉ ([0] : List (Fin 2)) := by decide
    have hs : (rowGather N E C wf).start (ix2 e c) idx 1 = 0 := by
      unfold GatherDims.start
      rw [dif_neg (show (1 : Fin 2) ∉ (rowGather N E C wf).startIndexMap from h1)]
    have ho : (rowGather N E C wf).offCoord (ix2 e c) 1 = c.val := by
      unfold GatherDims.offCoord
      rw [dif_pos ((GatherDims.mem_sKept _ _).mpr ⟨h1, List.not_mem_nil⟩)]
      rfl
    rw [hs, ho]
    simp

/-! ## The gather from a flat operand -/

/-- a flat operand [N], start indices [E, 1], result [E] (no offset axis, collapsed axis 0, slice sizes ![1]) -/
abbrev flatGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- the gather at e: the operand at the entry the start word names, read signed and clamped into [0, N-1] -/
theorem flatGather_apply {α : Type} {N E w : Nat} (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGather N E wf).start (ix1 e) idx 0 + (flatGather N E wf).batchCoord (ix1 e) 0
    + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.RowIndexOps

end
-- ==== Proof.SpecReal.lean ====
/-
  Real entries through the linear stages of a graph-convolution layer, on the extended reals.

  A sum of two reals, a product of two reals and a finite sum of reals are reals (the reals are closed under the ring
  operations, and the extended reals' operations restrict to the reals' own).  Hence, entry by entry:
  * a matrix product of two arrays of reals is an array of reals: each entry is a finite sum of products;
  * a gather of rows of an array of reals is an array of reals, whatever the start indices: each entry IS an entry of
    the operand (the start word clamped into the operand's rows);
  * an accumulating scatter of rows of reals onto an operand of reals is an array of reals, whatever the start
    indices: each entry is the operand's entry plus a finite sum of update entries.
-/
import proofs.«131019_j5282809775007_1_alg».proof.Proof.LibRealEntries
import proofs.«131019_j5282809775007_1_alg».proof.Proof.LibRowIndexOps
import proofs.«131019_j5282809775007_1_alg».proof.Proof.LibMatProd

noncomputable section

open scoped BigOperators

namespace Cert.GcnSpec

open Idealize.ShloMosaic Idealize.ShloMosaic.ValueIdx Cert.RealEntries Cert.RowIndexOps

/-! ## Closure of the reals inside the extended reals -/

/-- Reading an array of reals through any map of indices (a slice, a reshape, a transposition) gives reals. -/
theorem allReal_comp {ι κ : Type} {f : ι → EReal} (hf : AllReal f) (g : κ → ι) : AllReal (fun k => f (g k)) :=
  fun k => hf (g k)

/-- A constant array at a real value is an array of reals. -/
theorem allReal_const {ι : Type} (r : ℝ) : AllReal (fun _ : ι => (r : EReal)) := fun _ => ⟨r, rfl⟩

/-- The zero array is an array of reals. -/
theorem allReal_zero {ι : Type} : AllReal (fun _ : ι => (0 : EReal)) := fun _ => ⟨0, rfl⟩

/-- The array of the float pattern of +0.0 is an array of reals. -/
theorem allReal_constant_zero (s : Shape) : AllReal (constant (F := Ideal) s .f32 0x00000000#32) :=
  fun _ => ⟨0, Ideal.ofBits_zero_f32⟩

/-- The entrywise sum of two arrays of reals is an array of reals. -/
theorem allReal_add {ι : Type} {f g : ι → EReal} (hf : AllReal f) (hg : AllReal g) : AllReal (fun i => f i + g i) :=
  fun i => by
    obtain ⟨a, ha⟩ := hf i
    obtain ⟨b, hb⟩ := hg i
    exact ⟨a + b, by show f i + g i = _; rw [ha, hb, EReal.coe_add]⟩

/-- A finite sum of reals is a real. -/
theorem sum_real {ι : Type} (s : Finset ι) (f : ι → EReal) (hf : AllReal f) : ∃ r : ℝ, ∑ k ∈ s, f k = (r : EReal) := by
  choose f' hf' using hf
  exact ⟨∑ k ∈ s, f' k, by rw [coe_sum]; exact Finset.sum_congr rfl fun k _ => hf' k⟩

/-! ## The matrix product -/

/-- The product of two arrays of reals is an array of reals: each entry is a finite sum of products of reals. -/
theorem rowsByCols_real {M K N : Nat} {x : (⟨2, ![M, K]⟩ : Shape).Idx → EReal} {w : (⟨2, ![K, N]⟩ : Shape).Idx → EReal}
    (hx : AllReal x) (hw : AllReal w) : AllReal (Cert.Spec.rowsByCols x w) := fun j =>
  sum_mul_real Finset.univ (fun k : Fin K => x (ix2 (j 0) k)) (fun k : Fin K => w (ix2 k (j 1)))
    (fun k => hx _) (fun k => hw _)

/-! ## The gather of rows -/

/-- A gather of rows of an array of reals is an array of reals, whatever the start indices: entry (e, c) is the
    operand's entry at the clamped start row and column c. -/
theorem gather_real {N E C w : Nat} (hN : 0 < N)
    (wf : GatherDims.WF ⟨2, ![N, C]⟩ ⟨2, ![E, 1]⟩ ⟨2, ![E, C]⟩ [1] [0] [] [0] [] 1 ![1, C])
    {h : (⟨2, ![N, C]⟩ : Shape).Idx → EReal} (hh : AllReal h) (idx : IVec ⟨2, ![E, 1]⟩ w) :
    AllReal (Host.gather (rowGather N E C wf) h idx) := by
  intro i
  obtain ⟨e, c, rfl⟩ : ∃ e c, i = ix2 e c := ⟨_, _, eq_ix2 i⟩
  rw [rowGather_apply hN wf h idx e c]
  exact hh _

/-! ## The accumulating scatter of rows -/

/-- An accumulating scatter of rows of reals onto an operand of reals is an array of reals, whatever the start
    indices: entry (n, c) is the operand's entry plus the finite sum of the update entries (e, c) over the rows e whose
    start word is n. -/
theorem scatterAdd_real_of {N E C w : Nat} (wf : ScatterDims.WF ⟨2, ![N, C]⟩ ⟨2, ![E, 1]⟩ ⟨2, ![E, C]⟩ [1] [0] [0] 1)
    {x : (⟨2, ![N, C]⟩ : Shape).Idx → EReal} {upd : (⟨2, ![E, C]⟩ : Shape).Idx → EReal} (hx : AllReal x)
    (hu : AllReal upd) (idx : IVec ⟨2, ![E, 1]⟩ w) :
    AllReal (Host.scatterAdd (F := Ideal) (φ := .f32) (rowScatter N E C wf) x idx upd) := by
  intro i
  obtain ⟨n, c, rfl⟩ : ∃ n c, i = ix2 n c := ⟨_, _, eq_ix2 i⟩
  show ∃ r : ℝ, Ideal.hostScatterAdd (rowScatter N E C wf) x idx upd (ix2 n c) = (r : EReal)
  rw [rowScatterAdd_apply wf x idx upd n c]
  obtain ⟨a, ha⟩ := hx (ix2 n c)
  obtain ⟨b, hb⟩ := sum_real (Finset.univ.filter fun e : Fin E => (idx (ix2 e (0 : Fin 1))).toInt = (n.val : Int))
    (fun e : Fin E => upd (ix2 e c)) (fun e => hu _)
  exact ⟨a + b, by rw [ha, hb, EReal.coe_add]⟩

/-- The same onto the zero operand: each entry is a finite sum of reals. -/
theorem scatterAdd_real {N E C w : Nat} (wf : ScatterDims.WF ⟨2, ![N, C]⟩ ⟨2, ![E, 1]⟩ ⟨2, ![E, C]⟩ [1] [0] [0] 1)
    {upd : (⟨2, ![E, C]⟩ : Shape).Idx → EReal} (hu : AllReal upd) (idx : IVec ⟨2, ![E, 1]⟩ w) :
    AllReal (Host.scatterAdd (F := Ideal) (φ := .f32) (rowScatter N E C wf) (fun _ => 0) idx upd) :=
  scatterAdd_real_of wf allReal_zero hu idx

end Cert.GcnSpec

end
-- ==== Proof.SpecRefReal.lean ====
/-
  Every intermediate array of the reference's three layers has only real entries when the float arguments do.

  A slice of an array of reals is an array of reals (each entry IS an entry of the operand); the zero array is real; the
  aggregation over the edges is a gather of rows followed by an accumulating scatter onto zeros, hence sums of reals;
  the product by a weight matrix is sums of products of reals; and the normalisation of an array of reals by its own
  column statistics is real, because a variance of reals is a nonnegative real and the offset is positive, so the
  reciprocal square root is taken at a positive real.  The layers compose these.
-/
import proofs.«131019_j5282809775007_1_alg».proof.Proof.RefSpec
import proofs.«131019_j5282809775007_1_alg».proof.Proof.SpecReal

noncomputable section

namespace Cert.GcnSpec

open Idealize.ShloMosaic Idealize.ShloMosaic.ValueIdx Cert.RealEntries Cert.ReferenceIdeal Cert.ReferenceIdeal.Gen
open Cert.ReferenceIdeal.HandRun

/-! ## The slices of the arguments -/

theorem weight0_real {Ws : FVec Ideal S3x128x128 .f32} (h : AllReal Ws) : AllReal (weight0 Ws) := fun _ => by
  unfold weight0 shapeCast extractStridedSlice; exact h _

theorem weight1_real {Ws : FVec Ideal S3x128x128 .f32} (h : AllReal Ws) : AllReal (weight1 Ws) := fun _ => by
  unfold weight1 shapeCast extractStridedSlice; exact h _

theorem weight2_real {Ws : FVec Ideal S3x128x128 .f32} (h : AllReal Ws) : AllReal (weight2 Ws) := fun _ => by
  unfold weight2 shapeCast extractStridedSlice; exact h _

theorem gammaRow0_real {g : FVec Ideal S2x128 .f32} (h : AllReal g) : AllReal (gammaRow0 g) := fun _ => by
  unfold gammaRow0 shapeCast extractStridedSlice; exact h _

theorem gammaRow1_real {g : FVec Ideal S2x128 .f32} (h : AllReal g) : AllReal (gammaRow1 g) := fun _ => by
  unfold gammaRow1 shapeCast extractStridedSlice; exact h _

theorem betaRow0_real {b : FVec Ideal S2x128 .f32} (h : AllReal b) : AllReal (betaRow0 b) := fun _ => by
  unfold betaRow0 shapeCast extractStridedSlice; exact h _

theorem betaRow1_real {b : FVec Ideal S2x128 .f32} (h : AllReal b) : AllReal (betaRow1 b) := fun _ => by
  unfold betaRow1 shapeCast extractStridedSlice; exact h _

/-! ## The stages -/

/-- The array the aggregation accumulates into is zero everywhere. -/
theorem zeros_real : AllReal zeros := fun j =>
  ⟨0, by unfold zeros; rw [bcastScalar_apply, constant_apply, Ideal.ofBits_zero_f32]; rfl⟩

/-- The aggregation over the edges of an array of reals is an array of reals, whatever the edge table. -/
theorem agg_real {h : FVec Ideal S100000x128 .f32} (hh : AllReal h) (ei : IVec S2x1600000 32) : AllReal (agg h ei) :=
  scatterAdd_real_of scatter_S100000x128_S1600000x1_S1600000x128_1_0_0_1_wf zeros_real
    (gather_real (by norm_num) gather_S100000x128_S1600000x1_S1600000x128_1_0_n_n_0_1_1128_wf hh (srcCol ei)) (dstCol ei)

/-- One layer's aggregated linear map of an array of reals by a matrix of reals is an array of reals. -/
theorem layerLin_real {x : FVec Ideal S100000x128 .f32} {W : FVec Ideal S128x128 .f32} (hx : AllReal x) (hW : AllReal W)
    (ei : IVec S2x1600000 32) : AllReal (layerLin x W ei) := by
  unfold layerLin
  rw [hostDot_eq]
  exact agg_real (rowsByCols_real hx hW) ei

/-- Batch normalisation with the rectifier of an array of reals, with real scales and shifts, is an array of reals. -/
theorem bnRelu_real {a : FVec Ideal S100000x128 .f32} {g b : FVec Ideal S128 .f32} (ha : AllReal a) (hg : AllReal g)
    (hb : AllReal b) : AllReal (bnRelu a g b) := by
  rw [bnRelu_eq]
  exact normRelu_real a _ _ ha (allReal_comp hg _) (allReal_comp hb _)

/-! ## The layers -/

section Layers
variable {x : FVec Ideal S100000x128 .f32} {Ws : FVec Ideal S3x128x128 .f32} {gammas betas : FVec Ideal S2x128 .f32}
  (hx : AllReal x) (hW : AllReal Ws) (hg : AllReal gammas) (hb : AllReal betas) (ei : IVec S2x1600000 32)
include hx hW

theorem h1_real : AllReal (h1 x ei Ws) := layerLin_real hx (weight0_real hW) ei

include hg hb

theorem a1_real : AllReal (a1 x ei Ws gammas betas) :=
  bnRelu_real (h1_real hx hW ei) (gammaRow0_real hg) (betaRow0_real hb)

theorem h2_real : AllReal (h2 x ei Ws gammas betas) := layerLin_real (a1_real hx hW hg hb ei) (weight1_real hW) ei

theorem a2_real : AllReal (a2 x ei Ws gammas betas) :=
  bnRelu_real (h2_real hx hW hg hb ei) (gammaRow1_real hg) (betaRow1_real hb)

theorem h3_real : AllReal (h3 x ei Ws gammas betas) := layerLin_real (a2_real hx hW hg hb ei) (weight2_real hW) ei

end Layers

end Cert.GcnSpec

end
-- ==== Proof.Bridge.lean ====
/-
  The bridge between the two programs' result functions.  Both run the same three layers on the same five arrays.
  The linear part of a layer — the product with the layer's weight, the gather of the source rows and their accumulation
  at the destination rows — is the same composition of the same operations in both.  The normalisations differ in one
  point: one program takes a column's variance as the mean of the squares minus the square of the mean, the other as the
  mean of the squared deviations from the mean.  For arrays of real numbers the two agree, and every intermediate array
  is an array of reals when the float arguments are; so the two results are equal, layer by layer, and the final
  row-wise log-softmax is the same function of the same array.
-/
import proofs.«131019_j5282809775007_1_alg».proof.Proof.KIV.KernelFn
import proofs.«131019_j5282809775007_1_alg».proof.Proof.KIV.KernelStats
import proofs.«131019_j5282809775007_1_alg».proof.Proof.RefSpec
import proofs.«131019_j5282809775007_1_alg».proof.Proof.SpecRefReal

noncomputable section

namespace Cert.GcnSpec

open Idealize.ShloMosaic Idealize.ShloMosaic.ValueIdx Cert.RealEntries

/-! ## The linear part of a layer -/

theorem weight0_eq (ws : FVec Ideal Cert.ReferenceIdeal.S3x128x128 .f32) :
    Cert.KernelIdeal.HandValue.weight0 ws = Cert.ReferenceIdeal.HandRun.weight0 ws := rfl

theorem weight1_eq (ws : FVec Ideal Cert.ReferenceIdeal.S3x128x128 .f32) :
    Cert.KernelIdeal.HandValue.weight1 ws = Cert.ReferenceIdeal.HandRun.weight1 ws := rfl

theorem weight2_eq (ws : FVec Ideal Cert.ReferenceIdeal.S3x128x128 .f32) :
    Cert.KernelIdeal.HandValue.weight2 ws = Cert.ReferenceIdeal.HandRun.weight2 ws := rfl

/-- The aggregation over the edges is the same composition in both programs: the gather of the rows at the wrapped
    sources, accumulated into zeros at the destinations. -/
theorem agg_eq (h : Mat) (ei : IVec Cert.ReferenceIdeal.S2x1600000 32) :
    Cert.ReferenceIdeal.HandRun.agg h ei = Cert.KernelIdeal.HandValue.agg h (Cert.KernelIdeal.HandValue.srcVec ei) (Cert.KernelIdeal.HandValue.dstVec ei) := by
  unfold Cert.ReferenceIdeal.HandRun.agg Cert.ReferenceIdeal.HandRun.zeros Cert.ReferenceIdeal.HandRun.dstCol Cert.ReferenceIdeal.HandRun.srcCol Cert.ReferenceIdeal.HandRun.wrapCol Cert.KernelIdeal.HandValue.agg
  rfl

/-- One layer's linear part is the same function in both programs. -/
theorem layerLin_eq (a : Mat) (w : FVec Ideal Cert.ReferenceIdeal.S128x128 .f32) (ei : IVec Cert.ReferenceIdeal.S2x1600000 32) :
    Cert.ReferenceIdeal.HandRun.layerLin a w ei = Cert.KernelIdeal.HandValue.lin a w (Cert.KernelIdeal.HandValue.srcVec ei) (Cert.KernelIdeal.HandValue.dstVec ei) := by
  unfold Cert.ReferenceIdeal.HandRun.layerLin Cert.KernelIdeal.HandValue.lin
  rw [hostDot_eq, agg_eq]

/-! ## The normalisation of a layer -/

/-- For an array of reals, the first normalisation is the same in both programs: both are the normalisation by the
    column's mean and variance, and the two forms of the variance agree on reals. -/
theorem norm0_eq (a : Mat) (ha : AllReal a) (gam bet : FVec Ideal Cert.ReferenceIdeal.S2x128 .f32) :
    Cert.KernelIdeal.HandValue.norm a (Cert.KernelIdeal.HandValue.paramRow0 gam) (Cert.KernelIdeal.HandValue.paramRow0 bet)
      = Cert.ReferenceIdeal.HandRun.bnRelu a (Cert.ReferenceIdeal.HandRun.gammaRow0 gam) (Cert.ReferenceIdeal.HandRun.betaRow0 bet) := by
  rw [Cert.KernelIdeal.HandValue.norm_eq, Cert.KernelIdeal.HandValue.gamma0_col, Cert.KernelIdeal.HandValue.beta0_col, bnRelu_eq, var_forms a ha]

/-- The same for the second normalisation, with row 1 of the scales and shifts. -/
theorem norm1_eq (a : Mat) (ha : AllReal a) (gam bet : FVec Ideal Cert.ReferenceIdeal.S2x128 .f32) :
    Cert.KernelIdeal.HandValue.norm a (Cert.KernelIdeal.HandValue.paramRow1 gam) (Cert.KernelIdeal.HandValue.paramRow1 bet)
      = Cert.ReferenceIdeal.HandRun.bnRelu a (Cert.ReferenceIdeal.HandRun.gammaRow1 gam) (Cert.ReferenceIdeal.HandRun.betaRow1 bet) := by
  rw [Cert.KernelIdeal.HandValue.norm_eq, Cert.KernelIdeal.HandValue.gamma1_col, Cert.KernelIdeal.HandValue.beta1_col, bnRelu_eq, var_forms a ha]

/-! ## The two results -/

/-- When every entry of the four float arguments is a real, the two programs' results are equal. -/
theorem kout_eq_out (x : FVec Ideal Cert.ReferenceIdeal.S100000x128 .f32) (ei : IVec Cert.ReferenceIdeal.S2x1600000 32)
    (ws : FVec Ideal Cert.ReferenceIdeal.S3x128x128 .f32) (gam bet : FVec Ideal Cert.ReferenceIdeal.S2x128 .f32)
    (hx : AllReal x) (hw : AllReal ws) (hg : AllReal gam) (hb : AllReal bet) :
    Cert.KernelIdeal.HandValue.kout x ei ws gam bet = Cert.ReferenceIdeal.HandRun.out x ei ws gam bet := by
  have e1 : Cert.KernelIdeal.HandValue.lin x (Cert.KernelIdeal.HandValue.weight0 ws) (Cert.KernelIdeal.HandValue.srcVec ei) (Cert.KernelIdeal.HandValue.dstVec ei) = Cert.ReferenceIdeal.HandRun.h1 x ei ws :=
    (layerLin_eq x (Cert.ReferenceIdeal.HandRun.weight0 ws) ei).symm
  have e2 : Cert.KernelIdeal.HandValue.norm (Cert.ReferenceIdeal.HandRun.h1 x ei ws) (Cert.KernelIdeal.HandValue.paramRow0 gam) (Cert.KernelIdeal.HandValue.paramRow0 bet) = Cert.ReferenceIdeal.HandRun.a1 x ei ws gam bet :=
    norm0_eq _ (h1_real hx hw ei) gam bet
  have e3 : Cert.KernelIdeal.HandValue.lin (Cert.ReferenceIdeal.HandRun.a1 x ei ws gam bet) (Cert.KernelIdeal.HandValue.weight1 ws) (Cert.KernelIdeal.HandValue.srcVec ei) (Cert.KernelIdeal.HandValue.dstVec ei)
      = Cert.ReferenceIdeal.HandRun.h2 x ei ws gam bet := (layerLin_eq _ (Cert.ReferenceIdeal.HandRun.weight1 ws) ei).symm
  have e4 : Cert.KernelIdeal.HandValue.norm (Cert.ReferenceIdeal.HandRun.h2 x ei ws gam bet) (Cert.KernelIdeal.HandValue.paramRow1 gam) (Cert.KernelIdeal.HandValue.paramRow1 bet)
      = Cert.ReferenceIdeal.HandRun.a2 x ei ws gam bet := norm1_eq _ (h2_real hx hw hg hb ei) gam bet
  have e5 : Cert.KernelIdeal.HandValue.lin (Cert.ReferenceIdeal.HandRun.a2 x ei ws gam bet) (Cert.KernelIdeal.HandValue.weight2 ws) (Cert.KernelIdeal.HandValue.srcVec ei) (Cert.KernelIdeal.HandValue.dstVec ei)
      = Cert.ReferenceIdeal.HandRun.h3 x ei ws gam bet := (layerLin_eq _ (Cert.ReferenceIdeal.HandRun.weight2 ws) ei).symm
  unfold Cert.KernelIdeal.HandValue.kout Cert.ReferenceIdeal.HandRun.out
  rw [e1, e2, e3, e4, e5, logSoftmax_eq]

end Cert.GcnSpec

end
-- ==== Proof.lean ====
/-
  The certificate's claim.  Both kernel programs — the bit-level one and its idealization, the same text read at two
  float instances — run to the end from any memory, fault nowhere and leave the five argument arrays as launched: the
  run of @main composed from its eight kernel regions and the host stretches between them.  The reference runs as a
  straight sequence of host operations.  No operation was rewritten by the idealization, so there is nothing to
  preserve.  At the ideal instance the two programs compute one function of the arguments: three graph-convolution
  layers (a matrix product, a gather of rows at the source indices added at the destination indices), the first two
  followed by batch normalisation and the maximum with zero, the last by a row-wise log-softmax.  They differ only in
  how a column's variance is formed — the mean of the squares minus the square of the mean against the mean of the
  squared deviations — and these agree because every entry of every intermediate array is a real number when the
  inputs are finite.
-/
import proofs.«131019_j5282809775007_1_alg».proof.Defs
import proofs.«131019_j5282809775007_1_alg».proof.Proof.Gen.Kernel
import proofs.«131019_j5282809775007_1_alg».proof.Proof.Gen.KernelIdeal
import proofs.«131019_j5282809775007_1_alg».proof.Proof.Gen.ReferenceIdeal
import proofs.«131019_j5282809775007_1_alg».proof.Proof.Gen.Pre_finite_inputs
import proofs.«131019_j5282809775007_1_alg».proof.Proof.K.Frame
import proofs.«131019_j5282809775007_1_alg».proof.Proof.KI.Frame
import proofs.«131019_j5282809775007_1_alg».proof.Proof.KIV.Chain
import proofs.«131019_j5282809775007_1_alg».proof.Proof.Ref.Run
import proofs.«131019_j5282809775007_1_alg».proof.Proof.Ref.Frame
import proofs.«131019_j5282809775007_1_alg».proof.Proof.SpecPre
import proofs.«131019_j5282809775007_1_alg».proof.Proof.Bridge
import Idealize.ShloMosaic.Adequacy
import Idealize.ShloMosaic.Init

set_option maxRecDepth 16384

noncomputable section

namespace Cert.Proof

open Idealize.ShloMosaic Idealize.SL.Sem

/-- The bit-level kernel program runs and keeps its arguments. -/
theorem frame_k [Cert.Kernel.Facts] [Cert.Pre_finite_inputs.Facts] : Cert.frame_Kernel :=
  fun m ρ _ => Cert.Kernel.Hand.frame m ρ

/-- The idealized kernel program runs and keeps its arguments. -/
theorem frame_ki [Cert.KernelIdeal.Facts] [Cert.Pre_finite_inputs.Facts] : Cert.frame_KernelIdeal :=
  fun m ρ _ => Cert.KernelIdeal.Hand.frame m ρ

/-- The two idealized programs end with equal results: the kernel program's result array holds its function of the
    arguments (the run read boundary by boundary), which is the reference's function of the same arguments when the
    inputs are finite, and the reference's run ends at that function of its own, agreeing, arguments. -/
theorem algebraic [hK : Cert.KernelIdeal.Facts] [hR : Cert.ReferenceIdeal.Facts] [hP : Cert.Pre_finite_inputs.Facts] :
    Cert.algebraic_KernelIdeal_ReferenceIdeal := by
  intro m ρ m' ρ' hpre hagree
  refine ⟨fun c => Cert.ReferenceIdeal.HandRun.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Hand.run_all (F := Ideal) m ρ)
    obtain ⟨hx, hw, hg, hb⟩ := Cert.GcnSpec.args_real _ _ _ _ _ (hpre c)
    refine ⟨((h c _ (Cert.KernelIdeal.Hand.mem_uc Cert.KernelIdeal.main_v71 (by decide))).trans
        (Cert.KernelIdeal.HandValue.kernel_value m c)).trans (Cert.GcnSpec.kout_eq_out _ _ _ _ _ hx hw hg hb),
      (h c _ (Cert.KernelIdeal.Hand.mem_uc Cert.KernelIdeal.main_arg0 (by decide))).trans (Cert.KernelIdeal.Hand.Wx7_main_arg0 m c),
      (h c _ (Cert.KernelIdeal.Hand.mem_uc Cert.KernelIdeal.main_arg1 (by decide))).trans (Cert.KernelIdeal.Hand.Wx7_main_arg1 m c),
      (h c _ (Cert.KernelIdeal.Hand.mem_uc Cert.KernelIdeal.main_arg2 (by decide))).trans (Cert.KernelIdeal.Hand.Wx7_main_arg2 m c),
      (h c _ (Cert.KernelIdeal.Hand.mem_uc Cert.KernelIdeal.main_arg3 (by decide))).trans (Cert.KernelIdeal.Hand.Wx7_main_arg3 m c),
      (h c _ (Cert.KernelIdeal.Hand.mem_uc Cert.KernelIdeal.main_arg4 (by decide))).trans (Cert.KernelIdeal.Hand.Wx7_main_arg4 m c)⟩
  · refine (θ_run Cert.ReferenceIdeal.defs _ _).mono (fun r h c => ⟨(h c).1.trans ?_, (h c).2⟩)
      (Cert.ReferenceIdeal.HandRun.run m' ρ')
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.HandRun.frame, trivial, algebraic⟩

end Cert.Proof

end
